-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg11 : FVec F S128x40 .f32) (main_arg12 : FVec F S40 .f32) (main_v48 : IVec S_ 1) (main_v49 : FVec F S128x40 .f32) (main_v50 : FVec F S128x40 .f32) : IVec S_ 1 :=
  let main_v51 : IVec S128x40 1 := cmpf .olt main_v49 main_v50
  let main_c_19 : IVec S_ 1 := constantI S_ 1 1#1
  let main_v52 : IVec S_ 1 := (fun x v => Host.reduce IntOp.andi x v reducesTo_S128x40_S_d0_1 h_S_) main_v51 main_c_19
  let main_v53 : IVec S_ 1 := andi main_v48 main_v52
  let main_v54 : FVec F S128x40 .f32 := Host.absf main_arg11
  let main_cst_20 : FVec F S_ .f32 := constant S_ .f32 0x7F800000#32
  let main_v55 : FVec F S128x40 .f32 := broadcastInDim S128x40 ![] bcast_S_S128x40 main_cst_20
  let main_v56 : IVec S128x40 1 := cmpf .olt main_v54 main_v55
  let main_c_21 : IVec S_ 1 := constantI S_ 1 1#1
  let main_v57 : IVec S_ 1 := (fun x v => Host.reduce IntOp.andi x v reducesTo_S128x40_S_d0_1 h_S_) main_v56 main_c_21
  let main_v58 : IVec S_ 1 := andi main_v53 main_v57
  let main_v59 : FVec F S40 .f32 := Host.absf main_arg12
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  main_v63

def fn_part2 {F : FTy → Type} [FloatOps F] (main_arg7 : FVec F S64x128 .f32) (main_arg8 : FVec F S64x128 .f32) (main_arg9 : FVec F S128 .f32) (main_arg10 : FVec F S128x40 .f32) (main_arg11 : FVec F S128x40 .f32) (main_arg12 : FVec F S40 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x40 .f32 := Host.absf main_arg10
  let main_cst_18 : FVec F S_ .f32 := constant S_ .f32 0x7F800000#32
  let main_v50 : FVec F S128x40 .f32 := broadcastInDim S128x40 ![] bcast_S_S128x40 main_cst_18
  fn_part3 (F := F) main_arg11 main_arg12 main_v48 main_v49 main_v50

def fn_part1 {F : FTy → Type} [FloatOps F] (main_arg4 : FVec F S128x64 .f32) (main_arg5 : FVec F S128x64 .f32) (main_arg6 : FVec F S64 .f32) (main_arg7 : FVec F S64x128 .f32) (main_arg8 : FVec F S64x128 .f32) (main_arg9 : FVec F S128 .f32) (main_arg10 : FVec F S128x40 .f32) (main_arg11 : FVec F S128x40 .f32) (main_arg12 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S128x64 .f32) (main_arg6 : FVec F S64 .f32) (main_arg7 : FVec F S64x128 .f32) (main_arg8 : FVec F S64x128 .f32) (main_arg9 : FVec F S128 .f32) (main_arg10 : FVec F S128x40 .f32) (main_arg11 : FVec F S128x40 .f32) (main_arg12 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x40 : Shape := ⟨2, ![128, 40]⟩
abbrev S40 : Shape := ⟨1, ![40]⟩
abbrev S0 : Shape := ⟨1, ![0]⟩
abbrev S_ : Shape := ⟨0, ![]⟩
abbrev S1 : Shape := ⟨1, ![1]⟩
abbrev S1x128 : Shape := ⟨2, ![1, 128]⟩
abbrev S2 : Shape := ⟨1, ![2]⟩
abbrev S1x64 : Shape := ⟨2, ![1, 64]⟩
abbrev S1x40 : Shape := ⟨2, ![1, 40]⟩
abbrev S400x128 : Shape := ⟨2, ![400, 128]⟩
abbrev S10000x64 : Shape := ⟨2, ![10000, 64]⟩
abbrev S10000x1 : Shape := ⟨2, ![10000, 1]⟩
abbrev S80x10000 : Shape := ⟨2, ![80, 10000]⟩
abbrev S400x10000 : Shape := ⟨2, ![400, 10000]⟩
abbrev S400x64 : Shape := ⟨2, ![400, 64]⟩
abbrev S400x1 : Shape := ⟨2, ![400, 1]⟩
abbrev S80x128 : Shape := ⟨2, ![80, 128]⟩
abbrev S10000x40 : Shape := ⟨2, ![10000, 40]⟩
abbrev S200x10000 : Shape := ⟨2, ![200, 10000]⟩
abbrev S1000x64 : Shape := ⟨2, ![1000, 64]⟩
abbrev S1000x1 : Shape := ⟨2, ![1000, 1]⟩
abbrev S1000x128 : Shape := ⟨2, ![1000, 128]⟩
abbrev S1000x40 : Shape := ⟨2, ![1000, 40]⟩
abbrev S200x64 : Shape := ⟨2, ![200, 64]⟩
abbrev S200x40 : Shape := ⟨2, ![200, 40]⟩

abbrev nBuf : Space → Nat
  | .hbm => 44
  | .vmem => 75
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S64x128, .f32⟩
  | .hbm, ⟨8, _⟩ => ⟨S64x128, .f32⟩
  | .hbm, ⟨9, _⟩ => ⟨S128, .f32⟩
  | .hbm, ⟨10, _⟩ => ⟨S128x40, .f32⟩
  | .hbm, ⟨11, _⟩ => ⟨S128x40, .f32⟩
  | .hbm, ⟨12, _⟩ => ⟨S40, .f32⟩
  | .hbm, ⟨13, _⟩ => ⟨S0, .i32⟩
  | .hbm, ⟨14, _⟩ => ⟨S_, .f32⟩
  | .hbm, ⟨15, _⟩ => ⟨S128x128, .f32⟩
  | .hbm, ⟨16, _⟩ => ⟨S_, .i32⟩
  | .hbm, ⟨17, _⟩ => ⟨S1, .i32⟩
  | .hbm, ⟨18, _⟩ => ⟨S128x128, .f32⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S_, .f32⟩
  | .hbm, ⟨27, _⟩ => ⟨S1x128, .f32⟩
  | .hbm, ⟨28, _⟩ => ⟨S_, .f32⟩
  | .hbm, ⟨29, _⟩ => ⟨S128x40, .f32⟩
  | .hbm, ⟨30, _⟩ => ⟨S128x40, .f32⟩
  | .hbm, ⟨31, _⟩ => ⟨S1x128, .f32⟩
  | .hbm, ⟨32, _⟩ => ⟨S1x64, .f32⟩
  | .hbm, ⟨33, _⟩ => ⟨S1x128, .f32⟩
  | .hbm, ⟨34, _⟩ => ⟨S1x40, .f32⟩
  | .hbm, ⟨35, _⟩ => ⟨S10000x128, .f32⟩
  | .hbm, ⟨36, _⟩ => ⟨S10000x128, .bf16⟩
  | .hbm, ⟨37, _⟩ => ⟨S10000x10000, .bf16⟩
  | .hbm, ⟨38, _⟩ => ⟨S10000x64, .f32⟩
  | .hbm, ⟨39, _⟩ => ⟨S10000x64, .bf16⟩
  | .hbm, ⟨40, _⟩ => ⟨S10000x1, .f32⟩
  | .hbm, ⟨41, _⟩ => ⟨S10000x128, .f32⟩
  | .hbm, ⟨42, _⟩ => ⟨S10000x40, .bf16⟩
  | .hbm, ⟨43, _⟩ => ⟨S10000x40, .f32⟩
  | .local _ .vmem, ⟨0, _⟩ => ⟨S400x128, .f32⟩
  | .local _ .vmem, ⟨1, _⟩ => ⟨S400x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S400x128, .f32⟩
  | .local _ .vmem, ⟨7, _⟩ => ⟨S400x128, .f32⟩
  | .local _ .vmem, ⟨8, _⟩ => ⟨S400x128, .bf16⟩
  | .local _ .vmem, ⟨9, _⟩ => ⟨S400x128, .bf16⟩
  | .local _ .vmem, ⟨10, _⟩ => ⟨S80x10000, .f32⟩
  | .local _ .vmem, ⟨11, _⟩ => ⟨S80x10000, .f32⟩
  | .local _ .vmem, ⟨12, _⟩ => ⟨S80x10000, .f32⟩
  | .local _ .vmem, ⟨13, _⟩ => ⟨S80x10000, .f32⟩
  | .local _ .vmem, ⟨14, _⟩ => ⟨S80x10000, .f32⟩
  | .local _ .vmem, ⟨15, _⟩ => ⟨S80x10000, .f32⟩
  | .local _ .vmem, ⟨16, _⟩ => ⟨S80x10000, .f32⟩
  | .local _ .vmem, ⟨17, _⟩ => ⟨S80x10000, .f32⟩
  | .local _ .vmem, ⟨18, _⟩ => ⟨S80x10000, .f32⟩
  | .local _ .vmem, ⟨19, _⟩ => ⟨S80x10000, .f32⟩
  | .local _ .vmem, ⟨20, _⟩ => ⟨S10000x128, .bf16⟩
  | .local _ .vmem, ⟨21, _⟩ => ⟨S400x128, .f32⟩
  | .local _ .vmem, ⟨22, _⟩ => ⟨S400x128, .f32⟩
  | .local _ .vmem, ⟨23, _⟩ => ⟨S128x64, .f32⟩
  | .local _ .vmem, ⟨24, _⟩ => ⟨S1x64, .f32⟩
  | .local _ .vmem, ⟨25, _⟩ => ⟨S400x10000, .bf16⟩
  | .local _ .vmem, ⟨26, _⟩ => ⟨S400x10000, .bf16⟩
  | .local _ .vmem, ⟨27, _⟩ => ⟨S400x64, .f32⟩
  | .local _ .vmem, ⟨28, _⟩ => ⟨S400x64, .f32⟩
  | .local _ .vmem, ⟨29, _⟩ => ⟨S400x64, .bf16⟩
  | .local _ .vmem, ⟨30, _⟩ => ⟨S400x64, .bf16⟩
  | .local _ .vmem, ⟨31, _⟩ => ⟨S400x1, .f32⟩
  | .local _ .vmem, ⟨32, _⟩ => ⟨S400x1, .f32⟩
  | .local _ .vmem, ⟨33, _⟩ => ⟨S200x10000, .bf16⟩
  | .local _ .vmem, ⟨34, _⟩ => ⟨S200x10000, .bf16⟩
  | .local _ .vmem, ⟨35, _⟩ => ⟨S200x10000, .bf16⟩
  | .local _ .vmem, ⟨36, _⟩ => ⟨S200x10000, .bf16⟩
  | .local _ .vmem, ⟨37, _⟩ => ⟨S200x10000, .bf16⟩
  | .local _ .vmem, ⟨38, _⟩ => ⟨S200x10000, .bf16⟩
  | .local _ .vmem, ⟨39, _⟩ => ⟨S200x10000, .bf16⟩
  | .local _ .vmem, ⟨40, _⟩ => ⟨S200x10000, .bf16⟩
  | .local _ .vmem, ⟨41, _⟩ => ⟨S200x10000, .bf16⟩
  | .local _ .vmem, ⟨42, _⟩ => ⟨S200x10000, .bf16⟩
  | .local _ .vmem, ⟨43, _⟩ => ⟨S10000x64, .bf16⟩
  | .local _ .vmem, ⟨44, _⟩ => ⟨S1000x64, .f32⟩
  | .local _ .vmem, ⟨45, _⟩ => ⟨S1000x64, .f32⟩
  | .local _ .vmem, ⟨46, _⟩ => ⟨S1000x1, .f32⟩
  | .local _ .vmem, ⟨47, _⟩ => ⟨S1000x1, .f32⟩
  | .local _ .vmem, ⟨48, _⟩ => ⟨S64x128, .f32⟩
  | .local _ .vmem, ⟨49, _⟩ => ⟨S64x128, .f32⟩
  | .local _ .vmem, ⟨50, _⟩ => ⟨S1x128, .f32⟩
  | .local _ .vmem, ⟨51, _⟩ => ⟨S128x40, .f32⟩
  | .local _ .vmem, ⟨52, _⟩ => ⟨S1000x128, .f32⟩
  | .local _ .vmem, ⟨53, _⟩ => ⟨S1000x128, .f32⟩
  | .local _ .vmem, ⟨54, _⟩ => ⟨S1000x40, .bf16⟩
  | .local _ .vmem, ⟨55, _⟩ => ⟨S1000x40, .bf16⟩
  | .local _ .vmem, ⟨56, _⟩ => ⟨S200x10000, .bf16⟩
  | .local _ .vmem, ⟨57, _⟩ => ⟨S200x10000, .bf16⟩
  | .local _ .vmem, ⟨58, _⟩ => ⟨S200x10000, .bf16⟩
  | .local _ .vmem, ⟨59, _⟩ => ⟨S200x10000, .bf16⟩
  | .local _ .vmem, ⟨60, _⟩ => ⟨S200x10000, .bf16⟩
  | .local _ .vmem, ⟨61, _⟩ => ⟨S200x10000, .bf16⟩
  | .local _ .vmem, ⟨62, _⟩ => ⟨S200x10000, .bf16⟩
  | .local _ .vmem, ⟨63, _⟩ => ⟨S200x10000, .bf16⟩
  | .local _ .vmem, ⟨64, _⟩ => ⟨S200x10000, .bf16⟩
  | .local _ .vmem, ⟨65, _⟩ => ⟨S200x10000, .bf16⟩
  | .local _ .vmem, ⟨66, _⟩ => ⟨S10000x40, .bf16⟩
  | .local _ .vmem, ⟨67, _⟩ => ⟨S1000x128, .f32⟩
  | .local _ .vmem, ⟨68, _⟩ => ⟨S1000x128, .f32⟩
  | .local _ .vmem, ⟨69, _⟩ => ⟨S1000x1, .f32⟩
  | .local _ .vmem, ⟨70, _⟩ => ⟨S1000x1, .f32⟩
  | .local _ .vmem, ⟨71, _⟩ => ⟨S128x40, .f32⟩
  | .local _ .vmem, ⟨72, _⟩ => ⟨S1x40, .f32⟩
  | .local _ .vmem, ⟨73, _⟩ => ⟨S1000x40, .f32⟩
  | .local _ .vmem, ⟨74, _⟩ => ⟨S1000x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_cst : Ref sig .tc := ⟨.hbm, 14, rfl⟩
abbrev main_v0 : Ref sig .tc := ⟨.hbm, 15, rfl⟩
abbrev main_c_0 : Ref sig .tc := ⟨.hbm, 16, rfl⟩
abbrev main_v1 : Ref sig .tc := ⟨.hbm, 17, rfl⟩
abbrev main_v2 : Ref sig .tc := ⟨.hbm, 18, rfl⟩
abbrev main_cst_1 : Ref sig .tc := ⟨.hbm, 19, rfl⟩
abbrev main_v3 : Ref sig .tc := ⟨.hbm, 20, rfl⟩
abbrev main_c_2 : Ref sig .tc := ⟨.hbm, 21, rfl⟩
abbrev main_v4 : Ref sig .tc := ⟨.hbm, 22, rfl⟩
abbrev main_c_3 : Ref sig .tc := ⟨.hbm, 23, rfl⟩
abbrev main_v5 : Ref sig .tc := ⟨.hbm, 24, rfl⟩
abbrev main_v6 : Ref sig .tc := ⟨.hbm, 25, rfl⟩
abbrev main_cst_4 : Ref sig .tc := ⟨.hbm, 26, rfl⟩
abbrev main_v7 : Ref sig .tc := ⟨.hbm, 27, rfl⟩
abbrev main_cst_5 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14_0 : Ref sig .tc := ⟨.hbm, 35, rfl⟩
abbrev main_v14_1 : Ref sig .tc := ⟨.hbm, 36, rfl⟩
abbrev main_v15_0 : Ref sig .tc := ⟨.hbm, 37, rfl⟩
abbrev main_v15_1 : Ref sig .tc := ⟨.hbm, 38, rfl⟩
abbrev main_v15_2 : Ref sig .tc := ⟨.hbm, 39, rfl⟩
abbrev main_v15_3 : Ref sig .tc := ⟨.hbm, 40, rfl⟩
abbrev main_v16_0 : Ref sig .tc := ⟨.hbm, 41, rfl⟩
abbrev main_v16_1 : Ref sig .tc := ⟨.hbm, 42, rfl⟩
abbrev main_v17 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg9_1 : Ref sig .tc := ⟨.vmem, 26, rfl⟩
abbrev cc1_stg10_0 : Ref sig .tc := ⟨.vmem, 27, rfl⟩
abbrev cc1_stg10_1 : Ref sig .tc := ⟨.vmem, 28, rfl⟩
abbrev cc1_stg11_0 : Ref sig .tc := ⟨.vmem, 29, rfl⟩
abbrev cc1_stg11_1 : Ref sig .tc := ⟨.vmem, 30, rfl⟩
abbrev cc1_stg12_0 : Ref sig .tc := ⟨.vmem, 31, rfl⟩
abbrev cc1_stg12_1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg3_1 : Ref sig .tc := ⟨.vmem, 40, rfl⟩
abbrev cc2_stg4_0 : Ref sig .tc := ⟨.vmem, 41, rfl⟩
abbrev cc2_stg4_1 : Ref sig .tc := ⟨.vmem, 42, rfl⟩
abbrev cc2_stg5_0 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc2_stg8_0 : Ref sig .tc := ⟨.vmem, 48, rfl⟩
abbrev cc2_stg9_0 : Ref sig .tc := ⟨.vmem, 49, rfl⟩
abbrev cc2_stg10_0 : Ref sig .tc := ⟨.vmem, 50, rfl⟩
abbrev cc2_stg11_0 : Ref sig .tc := ⟨.vmem, 51, rfl⟩
abbrev cc2_stg12_0 : Ref sig .tc := ⟨.vmem, 52, rfl⟩
abbrev cc2_stg12_1 : Ref sig .tc := ⟨.vmem, 53, rfl⟩
abbrev cc2_stg13_0 : Ref sig .tc := ⟨.vmem, 54, rfl⟩
abbrev cc2_stg13_1 : Ref sig .tc := ⟨.vmem, 55, rfl⟩
abbrev cc3_stg0_0 : Ref sig .tc := ⟨.vmem, 56, rfl⟩
abbrev cc3_stg0_1 : Ref sig .tc := ⟨.vmem, 57, rfl⟩
abbrev cc3_stg1_0 : Ref sig .tc := ⟨.vmem, 58, rfl⟩
abbrev cc3_stg1_1 : Ref sig .tc := ⟨.vmem, 59, rfl⟩
abbrev cc3_stg2_0 : Ref sig .tc := ⟨.vmem, 60, rfl⟩
abbrev cc3_stg2_1 : Ref sig .tc := ⟨.vmem, 61, rfl⟩
abbrev cc3_stg3_0 : Ref sig .tc := ⟨.vmem, 62, rfl⟩
abbrev cc3_stg3_1 : Ref sig .tc := ⟨.vmem, 63, rfl⟩
abbrev cc3_stg4_0 : Ref sig .tc := ⟨.vmem, 64, rfl⟩
abbrev cc3_stg4_1 : Ref sig .tc := ⟨.vmem, 65, rfl⟩
abbrev cc3_stg5_0 : Ref sig .tc := ⟨.vmem, 66, rfl⟩
abbrev cc3_stg6_0 : Ref sig .tc := ⟨.vmem, 67, rfl⟩
abbrev cc3_stg6_1 : Ref sig .tc := ⟨.vmem, 68, rfl⟩
abbrev cc3_stg7_0 : Ref sig .tc := ⟨.vmem, 69, rfl⟩
abbrev cc3_stg7_1 : Ref sig .tc := ⟨.vmem, 70, rfl⟩
abbrev cc3_stg8_0 : Ref sig .tc := ⟨.vmem, 71, rfl⟩
abbrev cc3_stg9_0 : Ref sig .tc := ⟨.vmem, 72, rfl⟩
abbrev cc3_stg10_0 : Ref sig .tc := ⟨.vmem, 73, rfl⟩
abbrev cc3_stg10_1 : Ref sig .tc := ⟨.vmem, 74, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem6_1 : DmaSem sig := 22
abbrev cc1_sem7_0 : DmaSem sig := 23
abbrev cc1_sem8_0 : DmaSem sig := 24
abbrev cc1_sem9_0 : DmaSem sig := 25
abbrev cc1_sem9_1 : DmaSem sig := 26
abbrev cc1_sem10_0 : DmaSem sig := 27
abbrev cc1_sem10_1 : DmaSem sig := 28
abbrev cc1_sem11_0 : DmaSem sig := 29
abbrev cc1_sem11_1 : DmaSem sig := 30
abbrev cc1_sem12_0 : DmaSem sig := 31
abbrev cc1_sem12_1 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem2_1 : DmaSem sig := 38
abbrev cc2_sem3_0 : DmaSem sig := 39
abbrev cc2_sem3_1 : DmaSem sig := 40
abbrev cc2_sem4_0 : DmaSem sig := 41
abbrev cc2_sem4_1 : DmaSem sig := 42
abbrev cc2_sem5_0 : DmaSem sig := 43
abbrev cc2_sem6_0 : DmaSem sig := 44
abbrev cc2_sem6_1 : DmaSem sig := 45
abbrev cc2_sem7_0 : DmaSem sig := 46
abbrev cc2_sem7_1 : DmaSem sig := 47
abbrev cc2_sem8_0 : DmaSem sig := 48
abbrev cc2_sem9_0 : DmaSem sig := 49
abbrev cc2_sem10_0 : DmaSem sig := 50
abbrev cc2_sem11_0 : DmaSem sig := 51
abbrev cc2_sem12_0 : DmaSem sig := 52
abbrev cc2_sem12_1 : DmaSem sig := 53
abbrev cc2_sem13_0 : DmaSem sig := 54
abbrev cc2_sem13_1 : DmaSem sig := 55
abbrev cc3_sem0_0 : DmaSem sig := 56
abbrev cc3_sem0_1 : DmaSem sig := 57
abbrev cc3_sem1_0 : DmaSem sig := 58
abbrev cc3_sem1_1 : DmaSem sig := 59
abbrev cc3_sem2_0 : DmaSem sig := 60
abbrev cc3_sem2_1 : DmaSem sig := 61
abbrev cc3_sem3_0 : DmaSem sig := 62
abbrev cc3_sem3_1 : DmaSem sig := 63
abbrev cc3_sem4_0 : DmaSem sig := 64
abbrev cc3_sem4_1 : DmaSem sig := 65
abbrev cc3_sem5_0 : DmaSem sig := 66
abbrev cc3_sem6_0 : DmaSem sig := 67
abbrev cc3_sem6_1 : DmaSem sig := 68
abbrev cc3_sem7_0 : DmaSem sig := 69
abbrev cc3_sem7_1 : DmaSem sig := 70
abbrev cc3_sem8_0 : DmaSem sig := 71
abbrev cc3_sem9_0 : DmaSem sig := 72
abbrev cc3_sem10_0 : DmaSem sig := 73
abbrev cc3_sem10_1 : DmaSem sig := 74

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S80x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S80x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S80x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S80x10000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S80x10000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S10000x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S400x10000 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S400x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S400x64 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S400x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc2_transform_1 (i : grid2.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc2_transform_4 (i : grid2.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x10000 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S200x10000 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S200x10000 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S200x10000 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S10000x64 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S64x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x40 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S1000x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S1000x40 .bf16 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc3_transform_1 (i : grid3.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc3_transform_3 (i : grid3.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc3_transform_4 (i : grid3.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S200x10000 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S200x10000 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S200x10000 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S200x10000 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S10000x40 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S128x40 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x40 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S1000x40 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  hz_S0 : S0.numel = 0
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  concatenates_S1_S1_S2_d0 : Shape.Concatenates [S1, S1] S2 0
  bcast_S_S128x40 : S_.BroadcastsInDim S128x40 (![] : Fin 0 → Fin S128x40.rank)
  shapeCasts_S128_S1x128 : S128.ShapeCasts S1x128
  shapeCasts_S64_S1x64 : S64.ShapeCasts S1x64
  shapeCasts_S40_S1x40 : S40.ShapeCasts S1x40
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  shapeCasts_S128x128_S128x128 : S128x128.ShapeCasts S128x128
  bitsLt_bf16_f32 : FTy.bits .bf16 < FTy.bits .f32
  packedbf16_S400x128_S400x128_0_0 : (Rect.unit (s := S400x128) ![0, 0] S400x128.size inb_S400x128_S400x128_0_0).PackedRows (EltTy.packing .bf16)
  inb_S80x10000_S80x10000_0_0 : ∀ a, (![0, 0] : Fin 2 → Nat) a + S80x10000.size a ≤ S80x10000.size a
  h_S80x10000 : 0 < S80x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  concatenates_S80x128_S80x128_S80x128_S80x128_S80x128_S400x128_d0 : Shape.Concatenates [S80x128, S80x128, S80x128, S80x128, S80x128] S400x128 0
  concatenates_S80x10000_S80x10000_S80x10000_S80x10000_S80x10000_S400x10000_d0 : Shape.Concatenates [S80x10000, S80x10000, S80x10000, S80x10000, S80x10000] S400x10000 0
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  slices_S400x128_o0_64_S400x1 : S400x128.Slices ![0, 64] S400x1
  inb_S400x1_S400x1_0_0 : ∀ a, (![0, 0] : Fin 2 → Nat) a + S400x1.size a ≤ S400x1.size a
  h_S400x1 : 0 < S400x1.numel
  shapeCasts_S400x128_S400x128 : S400x128.ShapeCasts S400x128
  inb_S128x64_S128x64_0_0 : ∀ a, (![0, 0] : Fin 2 → Nat) a + S128x64.size a ≤ S128x64.size a
  h_S128x64 : 0 < S128x64.numel
  slices_S400x128_o0_0_S400x64 : S400x128.Slices ![0, 0] S400x64
  broadcasts_S400x1_S400x64 : S400x1.Broadcasts S400x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S200x10000_S200x10000_0_0 : ∀ a, (![0, 0] : Fin 2 → Nat) a + S200x10000.size a ≤ S200x10000.size a
  h_S200x10000 : 0 < S200x10000.numel
  shapeCasts_S200x10000_S200x10000 : S200x10000.ShapeCasts S200x10000
  concatenates_S200x64_S200x64_S200x64_S200x64_S200x64_S1000x64_d0 : Shape.Concatenates [S200x64, S200x64, S200x64, S200x64, S200x64] S1000x64 0
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x64 : S1000x1.Broadcasts S1000x64
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x128_S64x128_0_0 : ∀ a, (![0, 0] : Fin 2 → Nat) a + S64x128.size a ≤ S64x128.size a
  h_S64x128 : 0 < S64x128.numel
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1000x40_S1000x40_0_0 : ∀ a, (![0, 0] : Fin 2 → Nat) a + S1000x40.size a ≤ S1000x40.size a
  h_S1000x40 : 0 < S1000x40.numel
  packedbf16_S1000x40_S1000x40_0_0 : (Rect.unit (s := S1000x40) ![0, 0] S1000x40.size inb_S1000x40_S1000x40_0_0).PackedRows (EltTy.packing .bf16)
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  concatenates_S200x40_S200x40_S200x40_S200x40_S200x40_S1000x40_d0 : Shape.Concatenates [S200x40, S200x40, S200x40, S200x40, S200x40] S1000x40 0
  shapeCasts_S1000x128_S1000x128 : S1000x128.ShapeCasts S1000x128
  broadcasts_S1000x1_S1000x40 : S1000x1.Broadcasts S1000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1000x40 : S1x40.Broadcasts S1000x40
  scatter_S128x128_S1_S128x64_01_n_1_0_wf : ScatterDims.WF S128x128 S1 S128x64 [0, 1] [] [1] 0
  scatter_S1x128_S2_S__n_01_01_0_wf : ScatterDims.WF S1x128 S2 S_ [] [0, 1] [0, 1] 0
  scatter_S128x40_S0_S128x40_01_n_n_0_wf : ScatterDims.WF S128x40 S0 S128x40 [0, 1] [] [] 0
  dot_S400x128_S128x128_S400x128_1_0_0_1_n_n_wf : DotDims.WF S400x128 S128x128 S400x128 [1] [0] [0] [1] [] []
  dot_S80x10000_S10000x128_S80x128_1_0_0_1_n_n_wf : DotDims.WF S80x10000 S10000x128 S80x128 [1] [0] [0] [1] [] []
  dot_S400x128_S128x64_S400x64_1_0_0_1_n_n_wf : DotDims.WF S400x128 S128x64 S400x64 [1] [0] [0] [1] [] []
  dot_S200x10000_S10000x64_S200x64_1_0_0_1_n_n_wf : DotDims.WF S200x10000 S10000x64 S200x64 [1] [0] [0] [1] [] []
  dot_S1000x64_S64x128_S1000x128_1_0_0_1_n_n_wf : DotDims.WF S1000x64 S64x128 S1000x128 [1] [0] [0] [1] [] []
  dot_S1000x128_S128x40_S1000x40_1_0_0_1_n_n_wf : DotDims.WF S1000x128 S128x40 S1000x40 [1] [0] [0] [1] [] []
  dot_S200x10000_S10000x40_S200x40_1_0_0_1_n_n_wf : DotDims.WF S200x10000 S10000x40 S200x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .bf16 = 32 ∨ (Rect.block (s := S10000x128) S400x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S80x10000.size a ≤ S10000x10000.size a
  hwx1_0 : ∀ i : grid1.Coords, EltTy.bits .f32 = 32 ∨ (Rect.block (s := S10000x10000) S80x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S80x10000.size a ≤ S10000x10000.size a
  hwx1_1 : ∀ i : grid1.Coords, EltTy.bits .f32 = 32 ∨ (Rect.block (s := S10000x10000) S80x10000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S80x10000.size a ≤ S10000x10000.size a
  hwx1_2 : ∀ i : grid1.Coords, EltTy.bits .f32 = 32 ∨ (Rect.block (s := S10000x10000) S80x10000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S80x10000.size a ≤ S10000x10000.size a
  hwx1_3 : ∀ i : grid1.Coords, EltTy.bits .f32 = 32 ∨ (Rect.block (s := S10000x10000) S80x10000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S80x10000.size a ≤ S10000x10000.size a
  hwx1_4 : ∀ i : grid1.Coords, EltTy.bits .f32 = 32 ∨ (Rect.block (s := S10000x10000) S80x10000.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S10000x128.size a
  hwx1_5 : ∀ i : grid1.Coords, EltTy.bits .bf16 = 32 ∨ (Rect.block (s := S10000x128) S10000x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10000x128.size a
  hwx1_6 : ∀ i : grid1.Coords, EltTy.bits .f32 = 32 ∨ (Rect.block (s := S10000x128) S400x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x64.size a ≤ S128x64.size a
  hwx1_7 : ∀ i : grid1.Coords, EltTy.bits .f32 = 32 ∨ (Rect.block (s := S128x64) S128x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S400x10000.size a ≤ S10000x10000.size a
  hwx1_9 : ∀ i : grid1.Coords, EltTy.bits .bf16 = 32 ∨ (Rect.block (s := S10000x10000) S400x10000.size (cc1_transform_9 i) (hinb1_9 i)).WholeWords (EltTy.packing .bf16)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S400x64.size a ≤ S10000x64.size a
  hwx1_10 : ∀ i : grid1.Coords, EltTy.bits .f32 = 32 ∨ (Rect.block (s := S10000x64) S400x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S400x64.size a ≤ S10000x64.size a
  hwx1_11 : ∀ i : grid1.Coords, EltTy.bits .bf16 = 32 ∨ (Rect.block (s := S10000x64) S400x64.size (cc1_transform_11 i) (hinb1_11 i)).WholeWords (EltTy.packing .bf16)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S400x1.size a ≤ S10000x1.size a
  hwx1_12 : ∀ i : grid1.Coords, EltTy.bits .f32 = 32 ∨ (Rect.block (s := S10000x1) S400x1.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .bf16 = 32 ∨ (Rect.block (s := S10000x10000) S200x10000.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x10000.size a ≤ S10000x10000.size a
  hwx2_1 : ∀ i : grid2.Coords, EltTy.bits .bf16 = 32 ∨ (Rect.block (s := S10000x10000) S200x10000.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x10000.size a ≤ S10000x10000.size a
  hwx2_2 : ∀ i : grid2.Coords, EltTy.bits .bf16 = 32 ∨ (Rect.block (s := S10000x10000) S200x10000.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S200x10000.size a ≤ S10000x10000.size a
  hwx2_3 : ∀ i : grid2.Coords, EltTy.bits .bf16 = 32 ∨ (Rect.block (s := S10000x10000) S200x10000.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S200x10000.size a ≤ S10000x10000.size a
  hwx2_4 : ∀ i : grid2.Coords, EltTy.bits .bf16 = 32 ∨ (Rect.block (s := S10000x10000) S200x10000.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S10000x64.size a
  hwx2_5 : ∀ i : grid2.Coords, EltTy.bits .bf16 = 32 ∨ (Rect.block (s := S10000x64) S10000x64.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x64.size a ≤ S10000x64.size a
  hwx2_6 : ∀ i : grid2.Coords, EltTy.bits .f32 = 32 ∨ (Rect.block (s := S10000x64) S1000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x1.size a ≤ S10000x1.size a
  hwx2_7 : ∀ i : grid2.Coords, EltTy.bits .f32 = 32 ∨ (Rect.block (s := S10000x1) S1000x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x128.size a ≤ S64x128.size a
  hwx2_8 : ∀ i : grid2.Coords, EltTy.bits .f32 = 32 ∨ (Rect.block (s := S64x128) S64x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x128.size a ≤ S64x128.size a
  hwx2_9 : ∀ i : grid2.Coords, EltTy.bits .f32 = 32 ∨ (Rect.block (s := S64x128) S64x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x40.size a ≤ S128x40.size a
  hwx2_11 : ∀ i : grid2.Coords, EltTy.bits .f32 = 32 ∨ (Rect.block (s := S128x40) S128x40.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S1000x128.size a ≤ S10000x128.size a
  hwx2_12 : ∀ i : grid2.Coords, EltTy.bits .f32 = 32 ∨ (Rect.block (s := S10000x128) S1000x128.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S1000x40.size a ≤ S10000x40.size a
  hwx2_13 : ∀ i : grid2.Coords, EltTy.bits .bf16 = 32 ∨ (Rect.block (s := S10000x40) S1000x40.size (cc2_transform_13 i) (hinb2_13 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .bf16 = 32 ∨ (Rect.block (s := S10000x10000) S200x10000.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S200x10000.size a ≤ S10000x10000.size a
  hwx3_1 : ∀ i : grid3.Coords, EltTy.bits .bf16 = 32 ∨ (Rect.block (s := S10000x10000) S200x10000.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S200x10000.size a ≤ S10000x10000.size a
  hwx3_2 : ∀ i : grid3.Coords, EltTy.bits .bf16 = 32 ∨ (Rect.block (s := S10000x10000) S200x10000.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S200x10000.size a ≤ S10000x10000.size a
  hwx3_3 : ∀ i : grid3.Coords, EltTy.bits .bf16 = 32 ∨ (Rect.block (s := S10000x10000) S200x10000.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S200x10000.size a ≤ S10000x10000.size a
  hwx3_4 : ∀ i : grid3.Coords, EltTy.bits .bf16 = 32 ∨ (Rect.block (s := S10000x10000) S200x10000.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S10000x40.size a ≤ S10000x40.size a
  hwx3_5 : ∀ i : grid3.Coords, EltTy.bits .bf16 = 32 ∨ (Rect.block (s := S10000x40) S10000x40.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x128.size a ≤ S10000x128.size a
  hwx3_6 : ∀ i : grid3.Coords, EltTy.bits .f32 = 32 ∨ (Rect.block (s := S10000x128) S1000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1000x1.size a ≤ S10000x1.size a
  hwx3_7 : ∀ i : grid3.Coords, EltTy.bits .f32 = 32 ∨ (Rect.block (s := S10000x1) S1000x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x40.size a ≤ S128x40.size a
  hwx3_8 : ∀ i : grid3.Coords, EltTy.bits .f32 = 32 ∨ (Rect.block (s := S128x40) S128x40.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x40.size a ≤ S1x40.size a
  hwx3_9 : ∀ i : grid3.Coords, EltTy.bits .f32 = 32 ∨ (Rect.block (s := S1x40) S1x40.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S1000x40.size a ≤ S10000x40.size a
  hwx3_10 : ∀ i : grid3.Coords, EltTy.bits .f32 = 32 ∨ (Rect.block (s := S10000x40) S1000x40.size (cc3_transform_10 i) (hinb3_10 i)).WholeWords (EltTy.packing .f32)

variable [Facts₀]

def scatter_S128x128_S1_S128x64_01_n_1_0 : ScatterDims S128x128 S1 S128x64 where
  updateWindowDims := [0, 1]
  insertedWindowDims := []
  scatterDimsToOperandDims := [1]
  indexVectorDim := 0
  wf := scatter_S128x128_S1_S128x64_01_n_1_0_wf
def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf
def scatter_S128x40_S0_S128x40_01_n_n_0 : ScatterDims S128x40 S0 S128x40 where
  updateWindowDims := [0, 1]
  insertedWindowDims := []
  scatterDimsToOperandDims := []
  indexVectorDim := 0
  wf := scatter_S128x40_S0_S128x40_01_n_n_0_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S80x10000_S10000x128_S80x128_1_0_0_1_n_n : DotDims S80x10000 S10000x128 S80x128 where
  lhsContracting := [1]
  rhsContracting := [0]
  lhsNonContracting := [0]
  rhsNonContracting := [1]
  lhsBatch := []
  rhsBatch := []
  wf := dot_S80x10000_S10000x128_S80x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x128_S128x40_S1000x40_1_0_0_1_n_n : DotDims S1000x128 S128x40 S1000x40 where
  lhsContracting := [1]
  rhsContracting := [0]
  lhsNonContracting := [0]
  rhsNonContracting := [1]
  lhsBatch := []
  rhsBatch := []
  wf := dot_S1000x128_S128x40_S1000x40_1_0_0_1_n_n_wf
def dot_S200x10000_S10000x40_S200x40_1_0_0_1_n_n : DotDims S200x10000 S10000x40 S200x40 where
  lhsContracting := [1]
  rhsContracting := [0]
  lhsNonContracting := [0]
  rhsNonContracting := [1]
  lhsBatch := []
  rhsBatch := []
  wf := dot_S200x10000_S10000x40_S200x40_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14_0) S400x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_1) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S80x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S80x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S80x10000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S80x10000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S80x10000.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v14_1) S10000x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14_0) S400x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg4) S128x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v15_0) S400x10000.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v15_1) S400x64.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v15_2) S400x64.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v15_3) S400x1.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v15_0) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15_0) S200x10000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15_0) S200x10000.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15_0) S200x10000.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v15_0) S200x10000.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v15_2) S10000x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15_1) S1000x64.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v15_3) S1000x1.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_arg7) S64x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg8) S64x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v12) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v9) S128x40.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v16_0) S1000x128.size cc2_transform_12 reads2_12 true false 2 stage2_12 sem2_12
    hrank2 hreads2_12 hinb2_12 nbuf2_12 (Memref.isWhole_whole _) hwx2_12 hstage2_12

abbrev win2_13 : Pipeline.Window sig grid2 :=
  Pipeline.Window.ofSpec (Memref.whole main_v16_1) S1000x40.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev win3_0 : Pipeline.Window sig grid3 :=
  Pipeline.Window.ofSpec (Memref.whole main_v15_0) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15_0) S200x10000.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15_0) S200x10000.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15_0) S200x10000.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v15_0) S200x10000.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v16_1) S10000x40.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v16_0) S1000x128.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v15_3) S1000x1.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_arg10) S128x40.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v13) S1x40.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v17) S1000x40.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x40 : Shape := ⟨2, ![128, 40]⟩
abbrev S40 : Shape := ⟨1, ![40]⟩
abbrev S_ : Shape := ⟨0, ![]⟩
abbrev S10000 : Shape := ⟨1, ![10000]⟩
abbrev S10000x1 : Shape := ⟨2, ![10000, 1]⟩
abbrev S1x128 : Shape := ⟨2, ![1, 128]⟩
abbrev S10000x64 : Shape := ⟨2, ![10000, 64]⟩
abbrev S1x64 : Shape := ⟨2, ![1, 64]⟩
abbrev S10000x40 : Shape := ⟨2, ![10000, 40]⟩
abbrev S1x40 : Shape := ⟨2, ![1, 40]⟩

abbrev nBuf : Space → Nat
  | .hbm => 57
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S64x128, .f32⟩
  | .hbm, ⟨8, _⟩ => ⟨S64x128, .f32⟩
  | .hbm, ⟨9, _⟩ => ⟨S128, .f32⟩
  | .hbm, ⟨10, _⟩ => ⟨S128x40, .f32⟩
  | .hbm, ⟨11, _⟩ => ⟨S128x40, .f32⟩
  | .hbm, ⟨12, _⟩ => ⟨S40, .f32⟩
  | .hbm, ⟨13, _⟩ => ⟨S_, .f32⟩
  | .hbm, ⟨14, _⟩ => ⟨S10000, .f32⟩
  | .hbm, ⟨15, _⟩ => ⟨S10000x1, .f32⟩
  | .hbm, ⟨16, _⟩ => ⟨S_, .f32⟩
  | .hbm, ⟨17, _⟩ => ⟨S_, .f32⟩
  | .hbm, ⟨18, _⟩ => ⟨S10000x1, .f32⟩
  | .hbm, ⟨19, _⟩ => ⟨S10000x1, .f32⟩
  | .hbm, ⟨20, _⟩ => ⟨S10000x128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S10000x64, .f32⟩
  | .hbm, ⟨28, _⟩ => ⟨S10000x64, .f32⟩
  | .hbm, ⟨29, _⟩ => ⟨S10000x64, .f32⟩
  | .hbm, ⟨30, _⟩ => ⟨S1x64, .f32⟩
  | .hbm, ⟨31, _⟩ => ⟨S10000x64, .f32⟩
  | .hbm, ⟨32, _⟩ => ⟨S10000x64, .f32⟩
  | .hbm, ⟨33, _⟩ => ⟨S_, .f32⟩
  | .hbm, ⟨34, _⟩ => ⟨S10000x64, .f32⟩
  | .hbm, ⟨35, _⟩ => ⟨S10000x64, .f32⟩
  | .hbm, ⟨36, _⟩ => ⟨S10000x64, .f32⟩
  | .hbm, ⟨37, _⟩ => ⟨S10000x64, .f32⟩
  | .hbm, ⟨38, _⟩ => ⟨S10000x64, .f32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S1x128, .f32⟩
  | .hbm, ⟨43, _⟩ => ⟨S10000x128, .f32⟩
  | .hbm, ⟨44, _⟩ => ⟨S10000x128, .f32⟩
  | .hbm, ⟨45, _⟩ => ⟨S_, .f32⟩
  | .hbm, ⟨46, _⟩ => ⟨S10000x128, .f32⟩
  | .hbm, ⟨47, _⟩ => ⟨S10000x128, .f32⟩
  | .hbm, ⟨48, _⟩ => ⟨S10000x128, .f32⟩
  | .hbm, ⟨49, _⟩ => ⟨S10000x128, .f32⟩
  | .hbm, ⟨50, _⟩ => ⟨S10000x128, .f32⟩
  | .hbm, ⟨51, _⟩ => ⟨S10000x40, .f32⟩
  | .hbm, ⟨52, _⟩ => ⟨S10000x40, .f32⟩
  | .hbm, ⟨53, _⟩ => ⟨S10000x40, .f32⟩
  | .hbm, ⟨54, _⟩ => ⟨S1x40, .f32⟩
  | .hbm, ⟨55, _⟩ => ⟨S10000x40, .f32⟩
  | .hbm, ⟨56, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call1_cst : Ref sig .tc := ⟨.hbm, 33, rfl⟩
abbrev main_call1_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call2_cst : Ref sig .tc := ⟨.hbm, 45, rfl⟩
abbrev main_call2_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S10000x1_S10000x128_0_1 : S10000x1.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S10000x1_S10000x64_0_1 : S10000x1.BroadcastsInDim S10000x64 (![0, 1] : Fin 2 → Fin S10000x64.rank)
  bcast_S_S10000x128 : S_.BroadcastsInDim S10000x128 (![] : Fin 0 → Fin S10000x128.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x128_S10000x128_1_0_0_1_n_n_wf : DotDims.WF S10000x64 S64x128 S10000x128 [1] [0] [0] [1] [] []
  dot_S10000x128_S128x40_S10000x40_1_0_0_1_n_n_wf : DotDims.WF S10000x128 S128x40 S10000x40 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

class Facts : Prop extends Facts₀ where

variable [Facts]
-- ==== Proof.RefFrame.lean ====
/-
  The reference program's frame: it is a straight line of host operations, so every weakly fair execution
  terminates with each buffer at the composed value of the operations; the frame keeps only the part of that
  statement that says the argument arrays end as they were launched.
-/
import proofs.«181542_g78589311582291_cont_9to1_m_296_16_alg».proof.Defs
import proofs.«181542_g78589311582291_cont_9to1_m_296_16_alg».proof.Proof.Gen.ReferenceIdeal
import proofs.«181542_g78589311582291_cont_9to1_m_296_16_alg».proof.Proof.Gen.Pre_finite_inputs
import proofs.«181542_g78589311582291_cont_9to1_m_296_16_alg».proof.Proof.Gen.ReferenceIdeal.Run
import proofs.«181542_g78589311582291_cont_9to1_m_296_16_alg».proof.Proof.Gen.ReferenceIdeal.Read

noncomputable section

open Idealize.ShloMosaic Idealize.ShloMosaic.TcCoe Idealize.SL.Sem

namespace Cert.Proof.RefFrame

/-- The reference leaves its thirteen argument arrays unchanged: the second half of its run's postcondition. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.Proof.RefFrame

end
-- ==== Proof.Shares.lean ====
/-
  Five positive shares of one array that together make the whole: the adjacency matrix is handed to a kernel through
  five input windows at once, so the kernel holds it five times, each time at a share; the shares are the successive
  left halves of what is left — 1/2, 1/4, 1/8, 1/16 — and the last remainder, 1/16. Splitting the whole into them and
  joining them back are four halvings.
-/
import Idealize.SL.RA.TreeShare

namespace Cert.Hand.Shares

open Idealize.SL.RA
open scoped Idealize.SL.RA.PCS

/-- The first window's share: the left half of the whole. -/
def s0 : PosShare TreeShare := fullShare.left
/-- The second window's share: the left half of the right half. -/
def s1 : PosShare TreeShare := fullShare.right.left
/-- The third window's share. -/
def s2 : PosShare TreeShare := fullShare.right.right.left
/-- The fourth window's share. -/
def s3 : PosShare TreeShare := fullShare.right.right.right.left
/-- The fifth window's share: what the four halvings leave. -/
def s4 : PosShare TreeShare := fullShare.right.right.right.right

/-- The share each of a kernel's windows holds of its array: windows 0–4 read the one shared array at the five shares
    above; every other window's array is its own and held whole. -/
def q {W : Nat} (w : Fin W) : PosShare TreeShare :=
  match w.val with
  | 0 => s0
  | 1 => s1
  | 2 => s2
  | 3 => s3
  | 4 => s4
  | _ => fullShare

theorem q_0 {W : Nat} (h : 0 < W) : q (⟨0, h⟩ : Fin W) = s0 := rfl
theorem q_1 {W : Nat} (h : 1 < W) : q (⟨1, h⟩ : Fin W) = s1 := rfl
theorem q_2 {W : Nat} (h : 2 < W) : q (⟨2, h⟩ : Fin W) = s2 := rfl
theorem q_3 {W : Nat} (h : 3 < W) : q (⟨3, h⟩ : Fin W) = s3 := rfl
theorem q_4 {W : Nat} (h : 4 < W) : q (⟨4, h⟩ : Fin W) = s4 := rfl
theorem q_ge {W : Nat} (w : Fin W) (h : 5 ≤ w.val) : q w = fullShare := by
  unfold q
  split <;> first | omega | rfl

/-- The five shares compose to the whole, innermost first. -/
theorem s3_s4 : fullShare.right.right.right ∈ s3 ·? s4 := PosShare.mem_left_op_right _
theorem s2_rest : fullShare.right.right ∈ s2 ·? fullShare.right.right.right := PosShare.mem_left_op_right _
theorem s1_rest : fullShare.right ∈ s1 ·? fullShare.right.right := PosShare.mem_left_op_right _
theorem s0_rest : fullShare ∈ s0 ·? fullShare.right := PosShare.mem_left_op_right _

end Cert.Hand.Shares
-- ==== Proof.K.Half0.lean ====
/-
  Region 0 of the program: the per-point half of its pipeline's correctness.

  The region runs over 25 grid points. Its seven windows are: a 400×128 block of rows of the 10000×128 input (window 0,
  moving with the point), two 128×128 weight matrices and two 1×128 bias rows (windows 1–4, the same block at every point),
  and two 400×128 output blocks (windows 5 and 6, f32 and bf16, moving with the point). At each point the body reads the
  five input buffers whole and writes the two output buffers whole:
    window 5 := x·W₁ + b₁,        window 6 := bf16 (window 5 · W₂ + b₂).
  This module names each window's block at a point, names what the body leaves in each output buffer as a function of the
  input blocks, proves the body's separation-logic triple, packages the per-point contents as proof data over arbitrary
  region-entry contents, and proves the pipeline library's body obligation for that data.
-/
import proofs.«181542_g78589311582291_cont_9to1_m_296_16_alg».proof.Proof.Gen.Kernel.Launch
import proofs.«181542_g78589311582291_cont_9to1_m_296_16_alg».proof.Proof.Gen.Kernel.Skeleton
import proofs.«181542_g78589311582291_cont_9to1_m_296_16_alg».proof.Proof.Gen.Kernel.Points
import proofs.«181542_g78589311582291_cont_9to1_m_296_16_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a store's rectangle tiles a buffer with a long axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- what the core's buffers hold when the region is entered; everything below is stated at an arbitrary such `V`
variable (V : (c : Dev nD) → (b : Ref sig .tc) → Buf (Elt F) ((c : Thread nD τ).loc b))

/-! ## Blocks -/

/-- The block of window `w` at grid point `t`: the part of the window's array, as the region finds it, that the
    window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input's staging buffer holds its block

For proof data whose array for the window is the entry contents and whose body leaves the window's buffer at its block,
the buffer the body finds at a point holds the block of that point. At a point where the window was just fetched this is
what the fetch wrote; at a point where it was not, the window's block index is the previous point's, so the block is the
one already there. None of these windows is cut at the array's edge and none is ever idle. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole buffer -/

abbrev r0_S400x128 : Rect S400x128 := Rect.unit (s := S400x128) ![0, 0] S400x128.size inb_S400x128_S400x128_0_0
abbrev r0_S128x128 : Rect S128x128 := Rect.unit (s := S128x128) ![0, 0] S128x128.size inb_S128x128_S128x128_0_0
abbrev r0_S1x128 : Rect S1x128 := Rect.unit (s := S1x128) ![0, 0] S1x128.size inb_S1x128_S1x128_0_0

/-! ## What the body leaves in the output buffers -/

/-- Output window 5's buffer after the body, from the blocks of windows 0, 1, 2: one store of the whole buffer, of the
    400×128 block of rows times the first 128×128 weight matrix plus the first bias row broadcast down the rows (`k0_pay1`). -/
def out0_5 (x0 : Vec F S400x128 .f32) (x1 : Vec F S128x128 .f32) (x2 : Vec F S1x128 .f32) : Vec F S400x128 .f32 :=
  View.canon [⟨r0_S400x128, k0_pay1 (View.ld x0 r0_S400x128) (View.ld x1 r0_S128x128) (View.ld x2 r0_S1x128)⟩]

/-- The one store covers the whole buffer. -/
theorem cover0_5 (p0 : Vec F S400x128 .f32) (y : S400x128.Idx) :
    ∃ pc ∈ ([⟨r0_S400x128, p0⟩] : List (View.Piece (Elt F) S400x128 .f32)), y ∈ pc.1.set :=
  View.cover_of_tiled [⟨r0_S400x128, p0⟩] S400x128.size (by rfl) y

/-- Output window 6's buffer after the body, from the blocks of windows 0–4: one store of the whole buffer, of window 5's
    value times the second 128×128 weight matrix plus the second bias row, rounded to bf16 (`k0_pay2`). -/
def out0_6 (x0 : Vec F S400x128 .f32) (x1 : Vec F S128x128 .f32) (x2 : Vec F S1x128 .f32) (x3 : Vec F S128x128 .f32) (x4 : Vec F S1x128 .f32) : Vec F S400x128 .bf16 :=
  View.canon [⟨r0_S400x128, k0_pay2 (View.ld x0 r0_S400x128) (View.ld x1 r0_S128x128) (View.ld x2 r0_S1x128) (View.ld x3 r0_S128x128) (View.ld x4 r0_S1x128)⟩]

/-- The one store covers the whole buffer. -/
theorem cover0_6 (p0 : Vec F S400x128 .bf16) (y : S400x128.Idx) :
    ∃ pc ∈ ([⟨r0_S400x128, p0⟩] : List (View.Piece (Elt F) S400x128 .bf16)), y ∈ pc.1.set :=
  View.cover_of_tiled [⟨r0_S400x128, p0⟩] S400x128.size (by rfl) y

/-! ## The body's triple -/

set_option maxHeartbeats 1000000 in
/-- The body on whole staging buffers: with the five inputs' buffers at contents `xW` and the two outputs' at anything, it
    runs to a state with the inputs' buffers unchanged and each output's at `out0_W` of the inputs. The printed body is
    rewritten to its sequence of loads and stores over named values, and that sequence is run symbolically. -/
theorem sound_kernel0 (c : Dev nD) (E : Set ℕ) (i : grid0.Coords) (arg1 : Memref sig .tc .vmem S400x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S400x128 .bf16) (harg7 : arg7.IsWhole)
    (x0 : Vec F S400x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E (cc0__prep_body i arg1 harg1 arg2 harg2 arg3 harg3 arg4 harg4 arg5 harg5 arg6 harg6 arg7 harg7) K := by
  simp only [cc0__prep_body_eq_skeleton]; unfold cc0__prep_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The proof data -/

/-- The proof data of this region's pipeline on core `c`. Every array starts at the entry contents `V`. After the body at
    point `t` an input's buffer still holds its block, and an output's buffer holds `out0_W` of the input blocks at `t`.
    The invariant is the one that carries the untouched rest of the core's state along; nothing is ever owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

/-- Each input's buffer holds its block when the body is called, whether the window was fetched at that point or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is handed at point `t`: the invariant, what is owed, and every window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: its input buffers hold their blocks, so the body's triple applies; the invariant and what is owed
    are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for this region, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Bound0.lean ====
/-
  The buffers' contents at the boundaries of the program's items, from the launch through the first kernel region.
  The program is a stretch of host operations (padding the weights, reshaping the biases) and then four kernel regions.
  A host stretch leaves the fold of its operations; a kernel region leaves its output arrays at what its write-backs
  leave and every other buffer as it found it.
-/
import proofs.«181542_g78589311582291_cont_9to1_m_296_16_alg».proof.Proof.Gen.Kernel.Launch
import proofs.«181542_g78589311582291_cont_9to1_m_296_16_alg».proof.Proof.Gen.Kernel.Skeleton
import proofs.«181542_g78589311582291_cont_9to1_m_296_16_alg».proof.Proof.Gen.Kernel.Points
import proofs.«181542_g78589311582291_cont_9to1_m_296_16_alg».proof.Proof.K.Half0
import Idealize.ShloMosaic.Lib.Pipeline.Kit
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the host operations before the first region. -/
abbrev W1 : Dev nD → Valuation τ sig (Elt F) := fun c => StableHlo.after hostOps0 (W0 m c)
/-- The same read at the TensorCore's references: what region 0 finds. -/
abbrev V1 : (c : Dev nD) → (b : Ref sig .tc) → Buf (Elt F) ((c : Thread nD τ).loc b) := fun c b => W1 m c b

/-! ## Region 0: what it leaves -/

/-- What region 0's write-backs leave in `main_v14_0` (window 5). -/
def o0_5 (c : Dev nD) : Buf (Elt F) ((c : Thread nD τ).loc main_v14_0) := (dat0 (V1 m) c).arrAt 5 cfg0.N
/-- What region 0's write-backs leave in `main_v14_1` (window 6). -/
def o0_6 (c : Dev nD) : Buf (Elt F) ((c : Thread nD τ).loc main_v14_1) := (dat0 (V1 m) c).arrAt 6 cfg0.N

/-- Core `c`'s buffers when region 0 is left: its outputs at what their write-backs left, everything else as it was entered. -/
def W2 (c : Dev nD) : Valuation τ sig (Elt F) :=
  Function.update (Function.update (W1 m c) main_v14_0 (o0_5 m c)) main_v14_1 (o0_6 m c)
/-- The same read at the TensorCore's references. -/
abbrev V2 : (c : Dev nD) → (b : Ref sig .tc) → Buf (Elt F) ((c : Thread nD τ).loc b) := fun c b => W2 m c b

/-- Region 0 changes none but its outputs. -/
theorem W2_of (c : Dev nD) (r : Ref sig .tc) (h : r ∉ ([main_v14_0, main_v14_1] : List (Ref sig .tc))) : W2 m c r = W1 m c r := by
  unfold W2
  simp only [Function.update_of_ne (StableHlo.devRef_ne_of_ne (List.ne_of_not_mem_cons h) : (Proc.devRef .tc r : DevRef τ sig) ≠ Proc.devRef .tc main_v14_0), Function.update_of_ne (StableHlo.devRef_ne_of_ne (List.ne_of_not_mem_cons (List.not_mem_of_not_mem_cons h)) : (Proc.devRef .tc r : DevRef τ sig) ≠ Proc.devRef .tc main_v14_1)]
/-- After region 0 each of its outputs holds what its write-backs left. -/
theorem W2_main_v14_0 (c : Dev nD) : W2 m c main_v14_0 = o0_5 m c := by
  unfold W2; rw [Function.update_of_ne (StableHlo.devRef_ne_of_ne (by decide : main_v14_0 ≠ main_v14_1)), Function.update_self]
theorem W2_main_v14_1 (c : Dev nD) : W2 m c main_v14_1 = o0_6 m c := by
  unfold W2; rw [Function.update_self]

/-- Window by window: an input's array is never written, an output's is its write-backs. -/
theorem hF0_0 (c : Dev nD) : (dat0 (V1 m) c).arrAt 0 cfg0.N = W2 m c main_arg0 := by
  rw [(dat0 (V1 m) c).arrAt_in 0 rfl, A_eq0, W2_of m c main_arg0 (by decide)]
theorem hF0_1 (c : Dev nD) : (dat0 (V1 m) c).arrAt 1 cfg0.N = W2 m c main_arg2 := by
  rw [(dat0 (V1 m) c).arrAt_in 1 rfl, A_eq0, W2_of m c main_arg2 (by decide)]
theorem hF0_2 (c : Dev nD) : (dat0 (V1 m) c).arrAt 2 cfg0.N = W2 m c main_v10 := by
  rw [(dat0 (V1 m) c).arrAt_in 2 rfl, A_eq0, W2_of m c main_v10 (by decide)]
theorem hF0_3 (c : Dev nD) : (dat0 (V1 m) c).arrAt 3 cfg0.N = W2 m c main_v2 := by
  rw [(dat0 (V1 m) c).arrAt_in 3 rfl, A_eq0, W2_of m c main_v2 (by decide)]
theorem hF0_4 (c : Dev nD) : (dat0 (V1 m) c).arrAt 4 cfg0.N = W2 m c main_v7 := by
  rw [(dat0 (V1 m) c).arrAt_in 4 rfl, A_eq0, W2_of m c main_v7 (by decide)]
theorem hF0_5 (c : Dev nD) : (dat0 (V1 m) c).arrAt 5 cfg0.N = W2 m c main_v14_0 := (W2_main_v14_0 m c).symm
theorem hF0_6 (c : Dev nD) : (dat0 (V1 m) c).arrAt 6 cfg0.N = W2 m c main_v14_1 := (W2_main_v14_1 m c).symm

/-- Every window's array after the last point is what the exit contents say. -/
theorem hF0 (c : Dev nD) (w : Fin cfg0.W) : (dat0 (V1 m) c).arrAt w cfg0.N = V2 m c (Pipeline.arrRef spec0 w) := by
  match w with
  | ⟨0, _⟩ => exact hF0_0 m c
  | ⟨1, _⟩ => exact hF0_1 m c
  | ⟨2, _⟩ => exact hF0_2 m c
  | ⟨3, _⟩ => exact hF0_3 m c
  | ⟨4, _⟩ => exact hF0_4 m c
  | ⟨5, _⟩ => exact hF0_5 m c
  | ⟨6, _⟩ => exact hF0_6 m c

/-- The arrays region 0's windows name. -/
theorem image_arrRef0 : (Finset.univ.image (Pipeline.arrRef spec0) : Finset (Ref sig .tc)) = {main_arg0, main_arg2, main_v10, main_v2, main_v7, main_v14_0, main_v14_1} := by decide
/-- Off its windows' arrays region 0 changes nothing. -/
theorem hrest0 (c : Dev nD) : ∀ b, b ∉ Finset.univ.image (Pipeline.arrRef spec0) → V2 m c b = V1 m c b := fun b hb =>
  W2_of m c b fun h => hb (by
    rw [image_arrRef0]
    simp only [List.mem_cons, List.not_mem_nil, or_false] at h
    rcases h with rfl | rfl <;> decide)

end Cert.Kernel.Hand

end
-- ==== Proof.K.Half1.lean ====
/-
  Region 1 of the program: the per-point half of its pipeline's correctness.

  The region runs over 25 grid points. Its thirteen windows are: five 80×10000 f32 blocks of rows of one 10000×10000
  matrix (windows 0–4: at a point the five together are 400 consecutive rows), a whole 10000×128 bf16 matrix (window 5,
  the same block at every point), a 400×128 block of rows (window 6, moving with the point), a 128×64 weight matrix and
  a 1×64 bias row (windows 7 and 8, the same block at every point), and four output blocks moving with the point: the
  400×10000 bf16 copy of the five input blocks (window 9), a 400×64 block in f32 and in bf16 (windows 10 and 11) and a
  400×1 column of row scales (window 12). At each point the body reads the nine input buffers whole and writes the four
  output buffers whole: with G := bf16(A)·Z,
    window 9 := bf16 (A),   window 12 := 1 / max (G[:, 64], 10⁻¹²),
    window 10 := max (h·W + G[:, 0:64] ⊙ window 12 + b, 0),   window 11 := bf16 (window 10).
  This module names each window's block at a point, names what the body leaves in each output buffer as a function of the
  input blocks, proves the body's separation-logic triple, packages the per-point contents as proof data over arbitrary
  region-entry contents, and proves the pipeline library's body obligation for that data. The shares at which the windows
  hold their arrays (windows 0–4 share one array) are recorded in the proof data; the body never sees them: it works on
  the staging buffers, each held whole.
-/
import proofs.«181542_g78589311582291_cont_9to1_m_296_16_alg».proof.Proof.Gen.Kernel.Launch
import proofs.«181542_g78589311582291_cont_9to1_m_296_16_alg».proof.Proof.Gen.Kernel.Skeleton
import proofs.«181542_g78589311582291_cont_9to1_m_296_16_alg».proof.Proof.Gen.Kernel.Points
import proofs.«181542_g78589311582291_cont_9to1_m_296_16_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a store's rectangle tiles a buffer with a long axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- what the core's buffers hold when the region is entered; everything below is stated at an arbitrary such `V`
variable (V : (c : Dev nD) → (b : Ref sig .tc) → Buf (Elt F) ((c : Thread nD τ).loc b))

/-! ## Blocks -/

/-- The block of window `w` at grid point `t`: the part of the window's array, as the region finds it, that the
    window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's staging buffer holds its block

For proof data whose array for the window is the entry contents and whose body leaves the window's buffer at its block,
the buffer the body finds at a point holds the block of that point. At a point where the window was just fetched this is
what the fetch wrote; at a point where it was not, the window's block index is the previous point's, so the block is the
one already there. None of these windows is cut at the array's edge and none is ever idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is a whole buffer -/

abbrev r1_S80x10000 : Rect S80x10000 := Rect.unit (s := S80x10000) ![0, 0] S80x10000.size inb_S80x10000_S80x10000_0_0
abbrev r1_S10000x128 : Rect S10000x128 := Rect.unit (s := S10000x128) ![0, 0] S10000x128.size inb_S10000x128_S10000x128_0_0
abbrev r1_S400x128 : Rect S400x128 := Rect.unit (s := S400x128) ![0, 0] S400x128.size inb_S400x128_S400x128_0_0
abbrev r1_S128x64 : Rect S128x64 := Rect.unit (s := S128x64) ![0, 0] S128x64.size inb_S128x64_S128x64_0_0
abbrev r1_S1x64 : Rect S1x64 := Rect.unit (s := S1x64) ![0, 0] S1x64.size inb_S1x64_S1x64_0_0
abbrev r1_S400x10000 : Rect S400x10000 := Rect.unit (s := S400x10000) ![0, 0] S400x10000.size inb_S400x10000_S400x10000_0_0
abbrev r1_S400x64 : Rect S400x64 := Rect.unit (s := S400x64) ![0, 0] S400x64.size inb_S400x64_S400x64_0_0
abbrev r1_S400x1 : Rect S400x1 := Rect.unit (s := S400x1) ![0, 0] S400x1.size inb_S400x1_S400x1_0_0

/-! ## What the body leaves in the output buffers -/

/-- Output window 9's buffer after the body, from the blocks of windows 0–4: one store of the whole buffer, of the five
    80×10000 blocks each rounded to bf16 and stacked into one 400×10000 block (`k1_pay9`). -/
def out1_9 (x0 : Vec F S80x10000 .f32) (x1 : Vec F S80x10000 .f32) (x2 : Vec F S80x10000 .f32) (x3 : Vec F S80x10000 .f32) (x4 : Vec F S80x10000 .f32) : Vec F S400x10000 .bf16 :=
  View.canon [⟨r1_S400x10000, k1_pay9 (View.ld x0 r1_S80x10000) (View.ld x1 r1_S80x10000) (View.ld x2 r1_S80x10000) (View.ld x3 r1_S80x10000) (View.ld x4 r1_S80x10000)⟩]

/-- The one store covers the whole buffer. -/
theorem cover1_9 (p0 : Vec F S400x10000 .bf16) (y : S400x10000.Idx) :
    ∃ pc ∈ ([⟨r1_S400x10000, p0⟩] : List (View.Piece (Elt F) S400x10000 .bf16)), y ∈ pc.1.set :=
  View.cover_of_tiled [⟨r1_S400x10000, p0⟩] S400x10000.size (by rfl) y

/-- Output window 10's buffer after the body, from the blocks of windows 0–8: one store of the whole buffer. With `G` the
    400×128 product of the stacked bf16 blocks with the 10000×128 matrix of window 5 (`k1_pay8`) and `s` the reciprocal
    row scales of window 12 (`k1_pay10`), `k1_pay1` is `max (h·W + G[:, 0:64] ⊙ s + b, 0)` (`h` window 6, `W` window 7,
    `b` the bias row of window 8; the matrix product accumulates from zero). -/
def out1_10 (x0 : Vec F S80x10000 .f32) (x1 : Vec F S80x10000 .f32) (x2 : Vec F S80x10000 .f32) (x3 : Vec F S80x10000 .f32) (x4 : Vec F S80x10000 .f32) (x5 : Vec F S10000x128 .bf16) (x6 : Vec F S400x128 .f32) (x7 : Vec F S128x64 .f32) (x8 : Vec F S1x64 .f32) : Vec F S400x64 .f32 :=
  View.canon [⟨r1_S400x64, k1_pay1 (k1_pay8 (View.ld x0 r1_S80x10000) (View.ld x1 r1_S80x10000) (View.ld x2 r1_S80x10000) (View.ld x3 r1_S80x10000) (View.ld x4 r1_S80x10000) (View.ld x5 r1_S10000x128)) (k1_pay10 (View.ld x0 r1_S80x10000) (View.ld x1 r1_S80x10000) (View.ld x2 r1_S80x10000) (View.ld x3 r1_S80x10000) (View.ld x4 r1_S80x10000) (View.ld x5 r1_S10000x128)) (k1_pay11 (View.ld x6 r1_S400x128)) (View.ld x7 r1_S128x64) (constant S400x64 .f32 0x00000000#32) (View.ld x8 r1_S1x64)⟩]

/-- The one store covers the whole buffer. -/
theorem cover1_10 (p0 : Vec F S400x64 .f32) (y : S400x64.Idx) :
    ∃ pc ∈ ([⟨r1_S400x64, p0⟩] : List (View.Piece (Elt F) S400x64 .f32)), y ∈ pc.1.set :=
  View.cover_of_tiled [⟨r1_S400x64, p0⟩] S400x64.size (by rfl) y

/-- Output window 11's buffer after the body, from the blocks of windows 0–8: one store of the whole buffer, of window 10's
    value rounded to bf16 (`k1_pay2`). -/
def out1_11 (x0 : Vec F S80x10000 .f32) (x1 : Vec F S80x10000 .f32) (x2 : Vec F S80x10000 .f32) (x3 : Vec F S80x10000 .f32) (x4 : Vec F S80x10000 .f32) (x5 : Vec F S10000x128 .bf16) (x6 : Vec F S400x128 .f32) (x7 : Vec F S128x64 .f32) (x8 : Vec F S1x64 .f32) : Vec F S400x64 .bf16 :=
  View.canon [⟨r1_S400x64, k1_pay2 (k1_pay8 (View.ld x0 r1_S80x10000) (View.ld x1 r1_S80x10000) (View.ld x2 r1_S80x10000) (View.ld x3 r1_S80x10000) (View.ld x4 r1_S80x10000) (View.ld x5 r1_S10000x128)) (k1_pay10 (View.ld x0 r1_S80x10000) (View.ld x1 r1_S80x10000) (View.ld x2 r1_S80x10000) (View.ld x3 r1_S80x10000) (View.ld x4 r1_S80x10000) (View.ld x5 r1_S10000x128)) (k1_pay11 (View.ld x6 r1_S400x128)) (View.ld x7 r1_S128x64) (constant S400x64 .f32 0x00000000#32) (View.ld x8 r1_S1x64)⟩]

/-- The one store covers the whole buffer. -/
theorem cover1_11 (p0 : Vec F S400x64 .bf16) (y : S400x64.Idx) :
    ∃ pc ∈ ([⟨r1_S400x64, p0⟩] : List (View.Piece (Elt F) S400x64 .bf16)), y ∈ pc.1.set :=
  View.cover_of_tiled [⟨r1_S400x64, p0⟩] S400x64.size (by rfl) y

/-- Output window 12's buffer after the body, from the blocks of windows 0–5: one store of the whole buffer, of the 400×1
    column `1 / max (G[:, 64], 10⁻¹²)` where `G` is the product of the stacked bf16 blocks with the matrix of window 5
    (`k1_pay10`). -/
def out1_12 (x0 : Vec F S80x10000 .f32) (x1 : Vec F S80x10000 .f32) (x2 : Vec F S80x10000 .f32) (x3 : Vec F S80x10000 .f32) (x4 : Vec F S80x10000 .f32) (x5 : Vec F S10000x128 .bf16) : Vec F S400x1 .f32 :=
  View.canon [⟨r1_S400x1, k1_pay10 (View.ld x0 r1_S80x10000) (View.ld x1 r1_S80x10000) (View.ld x2 r1_S80x10000) (View.ld x3 r1_S80x10000) (View.ld x4 r1_S80x10000) (View.ld x5 r1_S10000x128)⟩]

/-- The one store covers the whole buffer. -/
theorem cover1_12 (p0 : Vec F S400x1 .f32) (y : S400x1.Idx) :
    ∃ pc ∈ ([⟨r1_S400x1, p0⟩] : List (View.Piece (Elt F) S400x1 .f32)), y ∈ pc.1.set :=
  View.cover_of_tiled [⟨r1_S400x1, p0⟩] S400x1.size (by rfl) y

/-! ## The body's triple -/

set_option maxHeartbeats 1000000 in
/-- The body on whole staging buffers: with the nine inputs' buffers at contents `xW` and the four outputs' at anything, it
    runs to a state with the inputs' buffers unchanged and each output's at `out1_W` of the inputs. The printed body and
    the printed first part it calls are rewritten to their sequences of loads and stores over named values, and the whole
    is run symbolically, through the call. -/
theorem sound_kernel1 (c : Dev nD) (E : Set ℕ) (i : grid1.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .bf16) (harg6 : arg6.IsWhole) (arg7 : Memref sig .tc .vmem S400x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S400x10000 .bf16) (harg10 : arg10.IsWhole) (arg11 : Memref sig .tc .vmem S400x64 .f32) (harg11 : arg11.IsWhole) (arg12 : Memref sig .tc .vmem S400x64 .bf16) (harg12 : arg12.IsWhole) (arg13 : Memref sig .tc .vmem S400x1 .f32) (harg13 : arg13.IsWhole)
    (x0 : Vec F S80x10000 .f32) (x1 : Vec F S80x10000 .f32) (x2 : Vec F S80x10000 .f32) (x3 : Vec F S80x10000 .f32) (x4 : Vec F S80x10000 .f32) (x5 : Vec F S10000x128 .bf16) (x6 : Vec F S400x128 .f32) (x7 : Vec F S128x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4) ∗ owns (c : Thread nD τ) arg11 fullShare (out1_10 x0 x1 x2 x3 x4 x5 x6 x7 x8) ∗ owns (c : Thread nD τ) arg12 fullShare (out1_11 x0 x1 x2 x3 x4 x5 x6 x7 x8) ∗ owns (c : Thread nD τ) arg13 fullShare (out1_12 x0 x1 x2 x3 x4 x5)) -∗ K ⟨⟩))
      ⊢ wp frame (wpE (defs₀ (F := F)) Variants.none c none) E (cc1__p1_body i arg1 harg1 arg2 harg2 arg3 harg3 arg4 harg4 arg5 harg5 arg6 harg6 arg7 harg7 arg8 harg8 arg9 harg9 arg10 harg10 arg11 harg11 arg12 harg12 arg13 harg13) K := by
  simp only [cc1__p1_body_eq_skeleton]; unfold cc1__p1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover1_9 _)
  isplitl [H10]
  · iexists _; isplitr
    swap; · iexact H10
    ipureintro
    exact View.read_writes_eq_canon _ _ _ (cover1_10 _)
  isplitl [H11]
  · iexists _; isplitr
    swap; · iexact H11
    ipureintro
    exact View.read_writes_eq_canon _ _ _ (cover1_11 _)
  iexists _; isplitr
  swap; · iexact H12
  ipureintro
  exact View.read_writes_eq_canon _ _ _ (cover1_12 _)

/-! ## The proof data -/

/-- The proof data of this region's pipeline on core `c`. Every array starts at the entry contents `V`. After the body at
    point `t` an input's buffer still holds its block, and an output's buffer holds `out1_W` of the input blocks at `t`.
    The invariant is the one that carries the untouched rest of the core's state along; nothing is ever owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨12, _⟩ => out1_12 (iblk1 V c 0 t) (iblk1 V c 1 t) (iblk1 V c 2 t) (iblk1 V c 3 t) (iblk1 V c 4 t) (iblk1 V c 5 t)
  Φ _ := Pipeline.ΦA spec1 c
  q w := Cert.Hand.Shares.q w
  owed _ := 0

/-- The arrays of the proof data are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) := by dsimp only [dat1]

/-- Each input's buffer holds its block when the body is called, whether the window was fetched at that point or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation -/

/-- What the body is handed at point `t`: the invariant, what is owed, and every window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 1000000 in
/-- The body at any point: its input buffers hold their blocks, so the body's triple applies; the invariant and what is owed
    are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation for this region, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.LibFiveWindows.lean ====
/-
  One array read through five windows at once. The kernel holds the array whole when the region is entered and must
  hold it whole again when the region is left; in between each window holds it at its own share. The whole at contents
  `f` is the five shares, each at `f` (four halvings, the left half handed out each time), and the five shares at one
  contents are the whole again.
-/
import Idealize.ShloMosaic.Rules.PointsTo
import proofs.«181542_g78589311582291_cont_9to1_m_296_16_alg».proof.Proof.Shares

noncomputable section

namespace Cert.Hand.Shares

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable {ℓ : Loc nD τ sig} {I : Finset (Idx ℓ)}

/-- The whole array at `f` is the five windows' shares of it, each at `f`. -/
theorem five_split (f : Buf Val ℓ) :
    (ℓ ↦[I]{fullShare} f : sProp 𝕄)
      ⊢ iprop((ℓ ↦[I]{s0} f) ∗ (ℓ ↦[I]{s1} f) ∗ (ℓ ↦[I]{s2} f) ∗ (ℓ ↦[I]{s3} f) ∗ ℓ ↦[I]{s4} f) :=
  (pointsTo_share s0_rest).1.trans <| sep_mono .rfl <|
    (pointsTo_share s1_rest).1.trans <| sep_mono .rfl <|
      (pointsTo_share s2_rest).1.trans <| sep_mono .rfl (pointsTo_share s3_s4).1

/-- The five windows' shares of an array, all at `f`, are the whole array at `f`. -/
theorem five_join (f : Buf Val ℓ) :
    iprop((ℓ ↦[I]{s0} f) ∗ (ℓ ↦[I]{s1} f) ∗ (ℓ ↦[I]{s2} f) ∗ (ℓ ↦[I]{s3} f) ∗ ℓ ↦[I]{s4} f)
      ⊢ (ℓ ↦[I]{fullShare} f : sProp 𝕄) :=
  (sep_mono .rfl <| (sep_mono .rfl <| (sep_mono .rfl (pointsTo_share s3_s4).2).trans (pointsTo_share s2_rest).2).trans
    (pointsTo_share s1_rest).2).trans (pointsTo_share s0_rest).2

end Cert.Hand.Shares

end
-- ==== Proof.K.Arr1.lean ====
/-
  Region 1 (the first pass over the adjacency matrix) takes thirteen windows, the first five of them on ONE array: the
  adjacency matrix, read as five row slabs at once. When the region is entered the kernel holds nine distinct buffers
  whole; the region's windows want thirteen holdings, the matrix at its five shares and every other array whole. This
  module proves the two rearrangements: the nine buffers at contents `V` are the thirteen holdings at `V`, and back.
-/
import proofs.«181542_g78589311582291_cont_9to1_m_296_16_alg».proof.Proof.Gen.Kernel.Launch
import proofs.«181542_g78589311582291_cont_9to1_m_296_16_alg».proof.Proof.LibFiveWindows
import Idealize.ShloMosaic.Lib.Pipeline.Kit
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The arrays region 1's windows name: nine distinct buffers (the adjacency matrix five times over). -/
theorem image_arrRef1 : (Finset.univ.image (Pipeline.arrRef spec1) : Finset (Ref sig .tc))
    = {main_arg1, main_v14_1, main_v14_0, main_arg4, main_v11, main_v15_0, main_v15_1, main_v15_2, main_v15_3} := by decide

section
variable (c : Dev nD) (dat : Dat τ (Elt F) Unit ℕ (UR sig nD τ) ℕ cfg1 c) (hq : ∀ w, dat.q w = Cert.Hand.Shares.q w)

include hq in
/-- An input window holds its array at the share the proof data names. -/
theorem share1_in (w : Fin cfg1.W) (hw : w.val < 9) : dat.share w = Cert.Hand.Shares.q w := by
  unfold Dat.share; rw [hq]
  match w, hw with
  | ⟨0, _⟩, _ => rfl | ⟨1, _⟩, _ => rfl | ⟨2, _⟩, _ => rfl | ⟨3, _⟩, _ => rfl | ⟨4, _⟩, _ => rfl
  | ⟨5, _⟩, _ => rfl | ⟨6, _⟩, _ => rfl | ⟨7, _⟩, _ => rfl | ⟨8, _⟩, _ => rfl

/-- An output window holds its array whole. -/
theorem share1_out (w : Fin cfg1.W) (hw : 9 ≤ w.val) : dat.share w = fullShare := by
  unfold Dat.share
  match w, hw with
  | ⟨9, _⟩, _ => rfl | ⟨10, _⟩, _ => rfl | ⟨11, _⟩, _ => rfl | ⟨12, _⟩, _ => rfl

variable (V : (b : Ref sig .tc) → Buf (Elt F) ((c.tc : Thread nD τ).loc b))
  (G : (w : Fin cfg1.W) → Buf (Elt F) ((cfg1.win w).arr.view.loc (c.tc : Thread nD τ)))
  (hG : ∀ w, G w = V (Pipeline.arrRef spec1 w))

include hq hG in
/-- The windows' holdings, each array a whole buffer, written over the buffers' names and window by window. -/
theorem arrays1_eq : (dat.arrays G : sProp 𝕄) = iprop(
      (((c.tc : Thread nD τ).loc main_arg1) ↦{Cert.Hand.Shares.s0} V main_arg1) ∗ (((c.tc : Thread nD τ).loc main_arg1) ↦{Cert.Hand.Shares.s1} V main_arg1)
    ∗ (((c.tc : Thread nD τ).loc main_arg1) ↦{Cert.Hand.Shares.s2} V main_arg1) ∗ (((c.tc : Thread nD τ).loc main_arg1) ↦{Cert.Hand.Shares.s3} V main_arg1)
    ∗ (((c.tc : Thread nD τ).loc main_arg1) ↦{Cert.Hand.Shares.s4} V main_arg1)
    ∗ (((c.tc : Thread nD τ).loc main_v14_1) ↦{fullShare} V main_v14_1) ∗ (((c.tc : Thread nD τ).loc main_v14_0) ↦{fullShare} V main_v14_0)
    ∗ (((c.tc : Thread nD τ).loc main_arg4) ↦{fullShare} V main_arg4) ∗ (((c.tc : Thread nD τ).loc main_v11) ↦{fullShare} V main_v11)
    ∗ (((c.tc : Thread nD τ).loc main_v15_0) ↦{fullShare} V main_v15_0) ∗ (((c.tc : Thread nD τ).loc main_v15_1) ↦{fullShare} V main_v15_1)
    ∗ (((c.tc : Thread nD τ).loc main_v15_2) ↦{fullShare} V main_v15_2) ∗ (((c.tc : Thread nD τ).loc main_v15_3) ↦{fullShare} V main_v15_3)) := by
  have e : (dat.arrays G : sProp 𝕄) = bigSep Finset.univ fun w : Fin cfg1.W =>
      ((((c.tc : Thread nD τ).loc (Pipeline.arrRef spec1 w)) ↦{dat.share w} V (Pipeline.arrRef spec1 w)) : sProp 𝕄) := by
    unfold Dat.arrays
    exact bigSep_congr fun w _ => by rw [(arr_whole1 w).set_eq_univ, hG]
  rw [e, bigSep_W1,
    share1_in c dat hq 0 (by decide), share1_in c dat hq 1 (by decide), share1_in c dat hq 2 (by decide), share1_in c dat hq 3 (by decide),
    share1_in c dat hq 4 (by decide), share1_in c dat hq 5 (by decide), share1_in c dat hq 6 (by decide), share1_in c dat hq 7 (by decide),
    share1_in c dat hq 8 (by decide), share1_out c dat 9 (by decide), share1_out c dat 10 (by decide), share1_out c dat 11 (by decide),
    share1_out c dat 12 (by decide)]
  rfl

/-- The nine buffers behind the windows, one by one. -/
theorem arrBufs1_eq : (Pipeline.arrBufs (Ix := Unit) (Name := ℕ) (U := UR sig nD τ) (Lvl := ℕ) spec1 c V : sProp 𝕄) = iprop(
      (((c.tc : Thread nD τ).loc main_arg1) ↦{fullShare} V main_arg1)
    ∗ (((c.tc : Thread nD τ).loc main_v14_1) ↦{fullShare} V main_v14_1) ∗ (((c.tc : Thread nD τ).loc main_v14_0) ↦{fullShare} V main_v14_0)
    ∗ (((c.tc : Thread nD τ).loc main_arg4) ↦{fullShare} V main_arg4) ∗ (((c.tc : Thread nD τ).loc main_v11) ↦{fullShare} V main_v11)
    ∗ (((c.tc : Thread nD τ).loc main_v15_0) ↦{fullShare} V main_v15_0) ∗ (((c.tc : Thread nD τ).loc main_v15_1) ↦{fullShare} V main_v15_1)
    ∗ (((c.tc : Thread nD τ).loc main_v15_2) ↦{fullShare} V main_v15_2) ∗ (((c.tc : Thread nD τ).loc main_v15_3) ↦{fullShare} V main_v15_3)) := by
  unfold Pipeline.arrBufs
  rw [image_arrRef1, bigSep_insert (by decide), bigSep_insert (by decide), bigSep_insert (by decide), bigSep_insert (by decide),
    bigSep_insert (by decide), bigSep_insert (by decide), bigSep_insert (by decide), bigSep_insert (by decide), bigSep_singleton]
  rfl

include hq hG in
/-- ENTRY: the nine buffers at `V` are the thirteen windows' holdings at `V` — the adjacency matrix split five ways. -/
theorem arrays1_of_arrBufs :
    (Pipeline.arrBufs (Ix := Unit) (Name := ℕ) (U := UR sig nD τ) (Lvl := ℕ) spec1 c V : sProp 𝕄) ⊢ dat.arrays G := by
  rw [arrBufs1_eq c V, arrays1_eq c dat hq V G hG]
  iintro ⟨Hadj, Hrest⟩
  ihave H5 := (Cert.Hand.Shares.five_split (V main_arg1)) $$ Hadj
  icases H5 with ⟨A0, A1, A2, A3, A4⟩
  isplitl [A0]; · iexact A0
  isplitl [A1]; · iexact A1
  isplitl [A2]; · iexact A2
  isplitl [A3]; · iexact A3
  isplitl [A4]; · iexact A4
  iexact Hrest

include hq hG in
/-- EXIT: the thirteen holdings, the five of the adjacency matrix at one contents, are the nine buffers whole again. -/
theorem arrBufs1_of_arrays :
    (dat.arrays G : sProp 𝕄) ⊢ Pipeline.arrBufs (Ix := Unit) (Name := ℕ) (U := UR sig nD τ) (Lvl := ℕ) spec1 c V := by
  rw [arrBufs1_eq c V, arrays1_eq c dat hq V G hG]
  iintro ⟨A0, A1, A2, A3, A4, Hrest⟩
  isplitl [A0 A1 A2 A3 A4]
  · iapply (Cert.Hand.Shares.five_join (V main_arg1))
    isplitl [A0]; · iexact A0
    isplitl [A1]; · iexact A1
    isplitl [A2]; · iexact A2
    isplitl [A3]; · iexact A3
    iexact A4
  iexact Hrest
end

end Cert.Kernel.Hand

end
-- ==== Proof.K.Bound1.lean ====
/-
  The buffers' contents when kernel region 1 is left: its output arrays at what its write-backs leave, every other buffer
  as the region found it.
-/
import proofs.«181542_g78589311582291_cont_9to1_m_296_16_alg».proof.Proof.K.Bound0
import proofs.«181542_g78589311582291_cont_9to1_m_296_16_alg».proof.Proof.K.Half1
import proofs.«181542_g78589311582291_cont_9to1_m_296_16_alg».proof.Proof.K.Arr1
import Idealize.ShloMosaic.Lib.Pipeline.Kit
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Region 1: what it leaves -/

/-- What region 1's write-backs leave in `main_v15_0` (window 9). -/
def o1_9 (c : Dev nD) : Buf (Elt F) ((c : Thread nD τ).loc main_v15_0) := (dat1 (V2 m) c).arrAt 9 cfg1.N
/-- What region 1's write-backs leave in `main_v15_1` (window 10). -/
def o1_10 (c : Dev nD) : Buf (Elt F) ((c : Thread nD τ).loc main_v15_1) := (dat1 (V2 m) c).arrAt 10 cfg1.N
/-- What region 1's write-backs leave in `main_v15_2` (window 11). -/
def o1_11 (c : Dev nD) : Buf (Elt F) ((c : Thread nD τ).loc main_v15_2) := (dat1 (V2 m) c).arrAt 11 cfg1.N
/-- What region 1's write-backs leave in `main_v15_3` (window 12). -/
def o1_12 (c : Dev nD) : Buf (Elt F) ((c : Thread nD τ).loc main_v15_3) := (dat1 (V2 m) c).arrAt 12 cfg1.N

/-- Core `c`'s buffers when region 1 is left: its outputs at what their write-backs left, everything else as it was entered. -/
def W3 (c : Dev nD) : Valuation τ sig (Elt F) :=
  Function.update (Function.update (Function.update (Function.update (W2 m c) main_v15_0 (o1_9 m c)) main_v15_1 (o1_10 m c)) main_v15_2 (o1_11 m c)) main_v15_3 (o1_12 m c)
/-- The same read at the TensorCore's references. -/
abbrev V3 : (c : Dev nD) → (b : Ref sig .tc) → Buf (Elt F) ((c : Thread nD τ).loc b) := fun c b => W3 m c b

/-- Region 1 changes none but its outputs. -/
theorem W3_of (c : Dev nD) (r : Ref sig .tc) (h : r ∉ ([main_v15_0, main_v15_1, main_v15_2, main_v15_3] : List (Ref sig .tc))) : W3 m c r = W2 m c r := by
  unfold W3
  simp only [Function.update_of_ne (StableHlo.devRef_ne_of_ne (List.ne_of_not_mem_cons h) : (Proc.devRef .tc r : DevRef τ sig) ≠ Proc.devRef .tc main_v15_0), Function.update_of_ne (StableHlo.devRef_ne_of_ne (List.ne_of_not_mem_cons (List.not_mem_of_not_mem_cons h)) : (Proc.devRef .tc r : DevRef τ sig) ≠ Proc.devRef .tc main_v15_1), Function.update_of_ne (StableHlo.devRef_ne_of_ne (List.ne_of_not_mem_cons (List.not_mem_of_not_mem_cons (List.not_mem_of_not_mem_cons h))) : (Proc.devRef .tc r : DevRef τ sig) ≠ Proc.devRef .tc main_v15_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v15_3)]
/-- After region 1 each of its outputs holds what its write-backs left. -/
theorem W3_main_v15_0 (c : Dev nD) : W3 m c main_v15_0 = o1_9 m c := by
  unfold W3; rw [Function.update_of_ne (StableHlo.devRef_ne_of_ne (by decide : main_v15_0 ≠ main_v15_3)), Function.update_of_ne (StableHlo.devRef_ne_of_ne (by decide : main_v15_0 ≠ main_v15_2)), Function.update_of_ne (StableHlo.devRef_ne_of_ne (by decide : main_v15_0 ≠ main_v15_1)), Function.update_self]
theorem W3_main_v15_1 (c : Dev nD) : W3 m c main_v15_1 = o1_10 m c := by
  unfold W3; rw [Function.update_of_ne (StableHlo.devRef_ne_of_ne (by decide : main_v15_1 ≠ main_v15_3)), Function.update_of_ne (StableHlo.devRef_ne_of_ne (by decide : main_v15_1 ≠ main_v15_2)), Function.update_self]
theorem W3_main_v15_2 (c : Dev nD) : W3 m c main_v15_2 = o1_11 m c := by
  unfold W3; rw [Function.update_of_ne (StableHlo.devRef_ne_of_ne (by decide : main_v15_2 ≠ main_v15_3)), Function.update_self]
theorem W3_main_v15_3 (c : Dev nD) : W3 m c main_v15_3 = o1_12 m c := by
  unfold W3; rw [Function.update_self]

/-- Window by window: an input's array is never written, an output's is its write-backs. -/
theorem hF1_0 (c : Dev nD) : (dat1 (V2 m) c).arrAt 0 cfg1.N = W3 m c main_arg1 := by
  rw [(dat1 (V2 m) c).arrAt_in 0 rfl, A_eq1, W3_of m c main_arg1 (by decide)]
theorem hF1_1 (c : Dev nD) : (dat1 (V2 m) c).arrAt 1 cfg1.N = W3 m c main_arg1 := by
  rw [(dat1 (V2 m) c).arrAt_in 1 rfl, A_eq1, W3_of m c main_arg1 (by decide)]
theorem hF1_2 (c : Dev nD) : (dat1 (V2 m) c).arrAt 2 cfg1.N = W3 m c main_arg1 := by
  rw [(dat1 (V2 m) c).arrAt_in 2 rfl, A_eq1, W3_of m c main_arg1 (by decide)]
theorem hF1_3 (c : Dev nD) : (dat1 (V2 m) c).arrAt 3 cfg1.N = W3 m c main_arg1 := by
  rw [(dat1 (V2 m) c).arrAt_in 3 rfl, A_eq1, W3_of m c main_arg1 (by decide)]
theorem hF1_4 (c : Dev nD) : (dat1 (V2 m) c).arrAt 4 cfg1.N = W3 m c main_arg1 := by
  rw [(dat1 (V2 m) c).arrAt_in 4 rfl, A_eq1, W3_of m c main_arg1 (by decide)]
theorem hF1_5 (c : Dev nD) : (dat1 (V2 m) c).arrAt 5 cfg1.N = W3 m c main_v14_1 := by
  rw [(dat1 (V2 m) c).arrAt_in 5 rfl, A_eq1, W3_of m c main_v14_1 (by decide)]
theorem hF1_6 (c : Dev nD) : (dat1 (V2 m) c).arrAt 6 cfg1.N = W3 m c main_v14_0 := by
  rw [(dat1 (V2 m) c).arrAt_in 6 rfl, A_eq1, W3_of m c main_v14_0 (by decide)]
theorem hF1_7 (c : Dev nD) : (dat1 (V2 m) c).arrAt 7 cfg1.N = W3 m c main_arg4 := by
  rw [(dat1 (V2 m) c).arrAt_in 7 rfl, A_eq1, W3_of m c main_arg4 (by decide)]
theorem hF1_8 (c : Dev nD) : (dat1 (V2 m) c).arrAt 8 cfg1.N = W3 m c main_v11 := by
  rw [(dat1 (V2 m) c).arrAt_in 8 rfl, A_eq1, W3_of m c main_v11 (by decide)]
theorem hF1_9 (c : Dev nD) : (dat1 (V2 m) c).arrAt 9 cfg1.N = W3 m c main_v15_0 := (W3_main_v15_0 m c).symm
theorem hF1_10 (c : Dev nD) : (dat1 (V2 m) c).arrAt 10 cfg1.N = W3 m c main_v15_1 := (W3_main_v15_1 m c).symm
theorem hF1_11 (c : Dev nD) : (dat1 (V2 m) c).arrAt 11 cfg1.N = W3 m c main_v15_2 := (W3_main_v15_2 m c).symm
theorem hF1_12 (c : Dev nD) : (dat1 (V2 m) c).arrAt 12 cfg1.N = W3 m c main_v15_3 := (W3_main_v15_3 m c).symm

/-- Every window's array after the last point is what the exit contents say. -/
theorem hF1 (c : Dev nD) (w : Fin cfg1.W) : (dat1 (V2 m) c).arrAt w cfg1.N = V3 m c (Pipeline.arrRef spec1 w) := by
  match w with
  | ⟨0, _⟩ => exact hF1_0 m c
  | ⟨1, _⟩ => exact hF1_1 m c
  | ⟨2, _⟩ => exact hF1_2 m c
  | ⟨3, _⟩ => exact hF1_3 m c
  | ⟨4, _⟩ => exact hF1_4 m c
  | ⟨5, _⟩ => exact hF1_5 m c
  | ⟨6, _⟩ => exact hF1_6 m c
  | ⟨7, _⟩ => exact hF1_7 m c
  | ⟨8, _⟩ => exact hF1_8 m c
  | ⟨9, _⟩ => exact hF1_9 m c
  | ⟨10, _⟩ => exact hF1_10 m c
  | ⟨11, _⟩ => exact hF1_11 m c
  | ⟨12, _⟩ => exact hF1_12 m c

/-- Off its windows' arrays region 1 changes nothing. -/
theorem hrest1 (c : Dev nD) : ∀ b, b ∉ Finset.univ.image (Pipeline.arrRef spec1) → V3 m c b = V2 m c b := fun b hb =>
  W3_of m c b fun h => hb (by
    rw [image_arrRef1]
    simp only [List.mem_cons, List.not_mem_nil, or_false] at h
    rcases h with rfl | rfl | rfl | rfl <;> decide)

end Cert.Kernel.Hand

end
-- ==== Proof.K.Half2.lean ====
/-
  Region 2 of the program: the per-point half of its pipeline's correctness.

  The region runs over 10 grid points. Its fourteen windows are: five 200×10000 bf16 blocks of rows of one 10000×10000
  matrix (windows 0–4: at a point the five together are 1000 consecutive rows), the whole 10000×64 bf16 feature matrix
  (window 5, the same block at every point), a 1000×64 block and a 1000×1 column of per-row scales (windows 6 and 7,
  moving with the point), two 64×128 weight matrices, a 1×128 bias row and a 128×40 matrix (windows 8–11, the same block at
  every point), and two output blocks, 1000×128 f32 and 1000×40 bf16 (windows 12 and 13, moving with the point). At each
  point the body reads the twelve input buffers whole and writes the two output buffers whole:
    window 12 := max (h·Wₛ + ((A·z) ⊙ s)·Wₙ + b, 0),        window 13 := bf16 (window 12 · P).
  This module names each window's block at a point, names what the body leaves in each output buffer as a function of the
  input blocks, proves the body's separation-logic triple, packages the per-point contents as proof data over arbitrary
  region-entry contents, and proves the pipeline library's body obligation for that data. The shares at which the windows
  hold their arrays (windows 0–4 share one array) are recorded in the proof data; the body never sees them: it works on
  the staging buffers, each held whole.
-/
import proofs.«181542_g78589311582291_cont_9to1_m_296_16_alg».proof.Proof.Gen.Kernel.Launch
import proofs.«181542_g78589311582291_cont_9to1_m_296_16_alg».proof.Proof.Gen.Kernel.Skeleton
import proofs.«181542_g78589311582291_cont_9to1_m_296_16_alg».proof.Proof.Gen.Kernel.Points
import proofs.«181542_g78589311582291_cont_9to1_m_296_16_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a store's rectangle tiles a buffer with a long axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- what the core's buffers hold when the region is entered; everything below is stated at an arbitrary such `V`
variable (V : (c : Dev nD) → (b : Ref sig .tc) → Buf (Elt F) ((c : Thread nD τ).loc b))

/-! ## Blocks -/

/-- The block of window `w` at grid point `t`: the part of the window's array, as the region finds it, that the
    window's index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input's staging buffer holds its block

For proof data whose array for the window is the entry contents and whose body leaves the window's buffer at its block,
the buffer the body finds at a point holds the block of that point. At a point where the window was just fetched this is
what the fetch wrote; at a point where it was not, the window's block index is the previous point's, so the block is the
one already there. None of these windows is cut at the array's edge and none is ever idle. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is a whole buffer -/

abbrev r2_S200x10000 : Rect S200x10000 := Rect.unit (s := S200x10000) ![0, 0] S200x10000.size inb_S200x10000_S200x10000_0_0
abbrev r2_S10000x64 : Rect S10000x64 := Rect.unit (s := S10000x64) ![0, 0] S10000x64.size inb_S10000x64_S10000x64_0_0
abbrev r2_S1000x64 : Rect S1000x64 := Rect.unit (s := S1000x64) ![0, 0] S1000x64.size inb_S1000x64_S1000x64_0_0
abbrev r2_S1000x1 : Rect S1000x1 := Rect.unit (s := S1000x1) ![0, 0] S1000x1.size inb_S1000x1_S1000x1_0_0
abbrev r2_S64x128 : Rect S64x128 := Rect.unit (s := S64x128) ![0, 0] S64x128.size inb_S64x128_S64x128_0_0
abbrev r2_S1x128 : Rect S1x128 := Rect.unit (s := S1x128) ![0, 0] S1x128.size inb_S1x128_S1x128_0_0
abbrev r2_S128x40 : Rect S128x40 := Rect.unit (s := S128x40) ![0, 0] S128x40.size inb_S128x40_S128x40_0_0
abbrev r2_S1000x128 : Rect S1000x128 := Rect.unit (s := S1000x128) ![0, 0] S1000x128.size inb_S1000x128_S1000x128_0_0
abbrev r2_S1000x40 : Rect S1000x40 := Rect.unit (s := S1000x40) ![0, 0] S1000x40.size inb_S1000x40_S1000x40_0_0

/-! ## What the body leaves in the output buffers -/

/-- Output window 12's buffer after the body, from the blocks of windows 0–10: one store of the whole buffer. With `A` the
    five 200×10000 adjacency blocks stacked (each multiplied into the 10000×64 features, the five products concatenated),
    `k2_pay3` is `h·Wₛ + (A·z ⊙ s)·Wₙ` (`h` window 6, `s` the 1000×1 scale column of window 7 broadcast along the rows,
    `Wₛ`, `Wₙ` windows 8 and 9), and `k2_pay1` adds the bias row of window 10 and takes the maximum with zero. -/
def out2_12 (x0 : Vec F S200x10000 .bf16) (x1 : Vec F S200x10000 .bf16) (x2 : Vec F S200x10000 .bf16) (x3 : Vec F S200x10000 .bf16) (x4 : Vec F S200x10000 .bf16) (x5 : Vec F S10000x64 .bf16) (x6 : Vec F S1000x64 .f32) (x7 : Vec F S1000x1 .f32) (x8 : Vec F S64x128 .f32) (x9 : Vec F S64x128 .f32) (x10 : Vec F S1x128 .f32) : Vec F S1000x128 .f32 :=
  View.canon [⟨r2_S1000x128, k2_pay1 (k2_pay3 (View.ld x5 r2_S10000x64) (View.ld x0 r2_S200x10000) (View.ld x1 r2_S200x10000) (View.ld x2 r2_S200x10000) (View.ld x3 r2_S200x10000) (View.ld x4 r2_S200x10000) (View.ld x7 r2_S1000x1) (View.ld x6 r2_S1000x64) (View.ld x8 r2_S64x128) (View.ld x9 r2_S64x128)) (View.ld x10 r2_S1x128)⟩]

/-- The one store covers the whole buffer. -/
theorem cover2_12 (p0 : Vec F S1000x128 .f32) (y : S1000x128.Idx) :
    ∃ pc ∈ ([⟨r2_S1000x128, p0⟩] : List (View.Piece (Elt F) S1000x128 .f32)), y ∈ pc.1.set :=
  View.cover_of_tiled [⟨r2_S1000x128, p0⟩] S1000x128.size (by rfl) y

/-- Output window 13's buffer after the body, from the blocks of windows 0–11: one store of the whole buffer, of window 12's
    value times the 128×40 matrix of window 11, rounded to bf16 (`k2_pay2`). -/
def out2_13 (x0 : Vec F S200x10000 .bf16) (x1 : Vec F S200x10000 .bf16) (x2 : Vec F S200x10000 .bf16) (x3 : Vec F S200x10000 .bf16) (x4 : Vec F S200x10000 .bf16) (x5 : Vec F S10000x64 .bf16) (x6 : Vec F S1000x64 .f32) (x7 : Vec F S1000x1 .f32) (x8 : Vec F S64x128 .f32) (x9 : Vec F S64x128 .f32) (x10 : Vec F S1x128 .f32) (x11 : Vec F S128x40 .f32) : Vec F S1000x40 .bf16 :=
  View.canon [⟨r2_S1000x40, k2_pay2 (k2_pay3 (View.ld x5 r2_S10000x64) (View.ld x0 r2_S200x10000) (View.ld x1 r2_S200x10000) (View.ld x2 r2_S200x10000) (View.ld x3 r2_S200x10000) (View.ld x4 r2_S200x10000) (View.ld x7 r2_S1000x1) (View.ld x6 r2_S1000x64) (View.ld x8 r2_S64x128) (View.ld x9 r2_S64x128)) (View.ld x10 r2_S1x128) (View.ld x11 r2_S128x40)⟩]

/-- The one store covers the whole buffer. -/
theorem cover2_13 (p0 : Vec F S1000x40 .bf16) (y : S1000x40.Idx) :
    ∃ pc ∈ ([⟨r2_S1000x40, p0⟩] : List (View.Piece (Elt F) S1000x40 .bf16)), y ∈ pc.1.set :=
  View.cover_of_tiled [⟨r2_S1000x40, p0⟩] S1000x40.size (by rfl) y

/-! ## The body's triple -/

set_option maxHeartbeats 1000000 in
/-- The body on whole staging buffers: with the twelve inputs' buffers at contents `xW` and the two outputs' at anything, it
    runs to a state with the inputs' buffers unchanged and each output's at `out2_W` of the inputs. The printed body and
    the printed first part it calls are rewritten to their sequences of loads and stores over named values, and the whole
    is run symbolically, through the call. -/
theorem sound_kernel2 (c : Dev nD) (E : Set ℕ) (i : grid2.Coords) (arg1 : Memref sig .tc .vmem S200x10000 .bf16) (harg1 : arg1.IsWhole) (arg2 : Memref sig .tc .vmem S200x10000 .bf16) (harg2 : arg2.IsWhole) (arg3 : Memref sig .tc .vmem S200x10000 .bf16) (harg3 : arg3.IsWhole) (arg4 : Memref sig .tc .vmem S200x10000 .bf16) (harg4 : arg4.IsWhole) (arg5 : Memref sig .tc .vmem S200x10000 .bf16) (harg5 : arg5.IsWhole) (arg6 : Memref sig .tc .vmem S10000x64 .bf16) (harg6 : arg6.IsWhole) (arg7 : Memref sig .tc .vmem S1000x64 .f32) (harg7 : arg7.IsWhole) (arg8 : Memref sig .tc .vmem S1000x1 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S1x128 .f32) (harg11 : arg11.IsWhole) (arg12 : Memref sig .tc .vmem S128x40 .f32) (harg12 : arg12.IsWhole) (arg13 : Memref sig .tc .vmem S1000x128 .f32) (harg13 : arg13.IsWhole) (arg14 : Memref sig .tc .vmem S1000x40 .bf16) (harg14 : arg14.IsWhole)
    (x0 : Vec F S200x10000 .bf16) (x1 : Vec F S200x10000 .bf16) (x2 : Vec F S200x10000 .bf16) (x3 : Vec F S200x10000 .bf16) (x4 : Vec F S200x10000 .bf16) (x5 : Vec F S10000x64 .bf16) (x6 : Vec F S1000x64 .f32) (x7 : Vec F S1000x1 .f32) (x8 : Vec F S64x128 .f32) (x9 : Vec F S64x128 .f32) (x10 : Vec F S1x128 .f32) (x11 : Vec F S128x40 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out2_12 x0 x1 x2 x3 x4 x5 x6 x7 x8 x9 x10) ∗ owns (c : Thread nD τ) arg14 fullShare (out2_13 x0 x1 x2 x3 x4 x5 x6 x7 x8 x9 x10 x11)) -∗ K ⟨⟩))
      ⊢ wp frame (wpE (defs₀ (F := F)) Variants.none c none) E (cc2__p2_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__p2_body_eq_skeleton]; unfold cc2__p2_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover2_12 _)
  iexists _; isplitr
  swap; · iexact H13
  ipureintro
  exact View.read_writes_eq_canon _ _ _ (cover2_13 _)

/-! ## The proof data -/

/-- The proof data of this region's pipeline on core `c`. Every array starts at the entry contents `V`. After the body at
    point `t` an input's buffer still holds its block, and an output's buffer holds `out2_W` of the input blocks at `t`.
    The invariant is the one that carries the untouched rest of the core's state along; nothing is ever owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
    | ⟨13, _⟩ => out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)
  Φ _ := Pipeline.ΦA spec2 c
  q w := Cert.Hand.Shares.q w
  owed _ := 0

/-- The arrays of the proof data are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) := by dsimp only [dat2]
theorem after2_13 (c : Dev nD) (t : Fin cfg2.N) : (dat2 V c).after 13 t = out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) := by dsimp only [dat2]

/-- Each input's buffer holds its block when the body is called, whether the window was fetched at that point or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d

/-! ## The body obligation -/

/-- What the body is handed at point `t`: the invariant, what is owed, and every window's current buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t))

set_option maxHeartbeats 1000000 in
/-- The body at any point: its input buffers hold their blocks, so the body's triple applies; the invariant and what is owed
    are not touched and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel2 c Set.univ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation for this region, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.Arr2.lean ====
/-
  Region 2 (the second pass) reads the half-width copy of the adjacency matrix through five windows at once, beside seven more
  inputs, and writes two outputs: ten distinct buffers behind fourteen windows. The buffers whole at contents `V` are the
  windows' holdings at `V` — the matrix copy at its five shares — and back.
-/
import proofs.«181542_g78589311582291_cont_9to1_m_296_16_alg».proof.Proof.Gen.Kernel.Launch
import proofs.«181542_g78589311582291_cont_9to1_m_296_16_alg».proof.Proof.LibFiveWindows
import Idealize.ShloMosaic.Lib.Pipeline.Kit
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The arrays region 2's windows name: 10 distinct buffers (the first one five times over). -/
theorem image_arrRef2 : (Finset.univ.image (Pipeline.arrRef spec2) : Finset (Ref sig .tc))
    = {main_v15_0, main_v15_2, main_v15_1, main_v15_3, main_arg7, main_arg8, main_v12, main_v9, main_v16_0, main_v16_1} := by decide

section
variable (c : Dev nD) (dat : Dat τ (Elt F) Unit ℕ (UR sig nD τ) ℕ cfg2 c) (hq : ∀ w, dat.q w = Cert.Hand.Shares.q w)

include hq in
/-- An input window holds its array at the share the proof data names. -/
theorem share2_in (w : Fin cfg2.W) (hw : w.val < 12) : dat.share w = Cert.Hand.Shares.q w := by
  unfold Dat.share; rw [hq]
  match w, hw with
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl | ⟨7, _⟩, _ => rfl | ⟨8, _⟩, _ => rfl | ⟨9, _⟩, _ => rfl | ⟨10, _⟩, _ => rfl | ⟨11, _⟩, _ => rfl

/-- An output window holds its array whole. -/
theorem share2_out (w : Fin cfg2.W) (hw : 12 ≤ w.val) : dat.share w = fullShare := by
  unfold Dat.share
  match w, hw with
  | ⟨12, _⟩, _ => rfl | ⟨13, _⟩, _ => rfl

variable (V : (b : Ref sig .tc) → Buf (Elt F) ((c.tc : Thread nD τ).loc b))
  (G : (w : Fin cfg2.W) → Buf (Elt F) ((cfg2.win w).arr.view.loc (c.tc : Thread nD τ)))
  (hG : ∀ w, G w = V (Pipeline.arrRef spec2 w))

include hq hG in
/-- The windows' holdings, each array a whole buffer, written over the buffers' names and window by window. -/
theorem arrays2_eq : (dat.arrays G : sProp 𝕄) = iprop(
      (((c.tc : Thread nD τ).loc main_v15_0) ↦{Cert.Hand.Shares.s0} V main_v15_0) ∗ (((c.tc : Thread nD τ).loc main_v15_0) ↦{Cert.Hand.Shares.s1} V main_v15_0) ∗ (((c.tc : Thread nD τ).loc main_v15_0) ↦{Cert.Hand.Shares.s2} V main_v15_0) ∗ (((c.tc : Thread nD τ).loc main_v15_0) ↦{Cert.Hand.Shares.s3} V main_v15_0) ∗ (((c.tc : Thread nD τ).loc main_v15_0) ↦{Cert.Hand.Shares.s4} V main_v15_0)
    ∗ (((c.tc : Thread nD τ).loc main_v15_2) ↦{fullShare} V main_v15_2) ∗ (((c.tc : Thread nD τ).loc main_v15_1) ↦{fullShare} V main_v15_1) ∗ (((c.tc : Thread nD τ).loc main_v15_3) ↦{fullShare} V main_v15_3) ∗ (((c.tc : Thread nD τ).loc main_arg7) ↦{fullShare} V main_arg7) ∗ (((c.tc : Thread nD τ).loc main_arg8) ↦{fullShare} V main_arg8) ∗ (((c.tc : Thread nD τ).loc main_v12) ↦{fullShare} V main_v12) ∗ (((c.tc : Thread nD τ).loc main_v9) ↦{fullShare} V main_v9) ∗ (((c.tc : Thread nD τ).loc main_v16_0) ↦{fullShare} V main_v16_0) ∗ (((c.tc : Thread nD τ).loc main_v16_1) ↦{fullShare} V main_v16_1)) := by
  have e : (dat.arrays G : sProp 𝕄) = bigSep Finset.univ fun w : Fin cfg2.W =>
      ((((c.tc : Thread nD τ).loc (Pipeline.arrRef spec2 w)) ↦{dat.share w} V (Pipeline.arrRef spec2 w)) : sProp 𝕄) := by
    unfold Dat.arrays
    exact bigSep_congr fun w _ => by rw [(arr_whole2 w).set_eq_univ, hG]
  rw [e, bigSep_W2, share2_in c dat hq 0 (by decide), share2_in c dat hq 1 (by decide), share2_in c dat hq 2 (by decide), share2_in c dat hq 3 (by decide), share2_in c dat hq 4 (by decide), share2_in c dat hq 5 (by decide), share2_in c dat hq 6 (by decide), share2_in c dat hq 7 (by decide), share2_in c dat hq 8 (by decide), share2_in c dat hq 9 (by decide), share2_in c dat hq 10 (by decide), share2_in c dat hq 11 (by decide), share2_out c dat 12 (by decide), share2_out c dat 13 (by decide)]
  rfl

/-- The buffers behind the windows, one by one. -/
theorem arrBufs2_eq : (Pipeline.arrBufs (Ix := Unit) (Name := ℕ) (U := UR sig nD τ) (Lvl := ℕ) spec2 c V : sProp 𝕄) = iprop(
      (((c.tc : Thread nD τ).loc main_v15_0) ↦{fullShare} V main_v15_0) ∗ (((c.tc : Thread nD τ).loc main_v15_2) ↦{fullShare} V main_v15_2) ∗ (((c.tc : Thread nD τ).loc main_v15_1) ↦{fullShare} V main_v15_1) ∗ (((c.tc : Thread nD τ).loc main_v15_3) ↦{fullShare} V main_v15_3) ∗ (((c.tc : Thread nD τ).loc main_arg7) ↦{fullShare} V main_arg7) ∗ (((c.tc : Thread nD τ).loc main_arg8) ↦{fullShare} V main_arg8) ∗ (((c.tc : Thread nD τ).loc main_v12) ↦{fullShare} V main_v12) ∗ (((c.tc : Thread nD τ).loc main_v9) ↦{fullShare} V main_v9) ∗ (((c.tc : Thread nD τ).loc main_v16_0) ↦{fullShare} V main_v16_0) ∗ (((c.tc : Thread nD τ).loc main_v16_1) ↦{fullShare} V main_v16_1)) := by
  unfold Pipeline.arrBufs
  rw [image_arrRef2, bigSep_insert (by decide), bigSep_insert (by decide), bigSep_insert (by decide), bigSep_insert (by decide), bigSep_insert (by decide), bigSep_insert (by decide), bigSep_insert (by decide), bigSep_insert (by decide), bigSep_insert (by decide), bigSep_singleton]
  rfl

include hq hG in
/-- ENTRY: the buffers at `V` are the windows' holdings at `V` — the shared array split five ways. -/
theorem arrays2_of_arrBufs :
    (Pipeline.arrBufs (Ix := Unit) (Name := ℕ) (U := UR sig nD τ) (Lvl := ℕ) spec2 c V : sProp 𝕄) ⊢ dat.arrays G := by
  rw [arrBufs2_eq c V, arrays2_eq c dat hq V G hG]
  iintro ⟨Hadj, Hrest⟩
  ihave H5 := (Cert.Hand.Shares.five_split (V main_v15_0)) $$ Hadj
  icases H5 with ⟨A0, A1, A2, A3, A4⟩
  isplitl [A0]; · iexact A0
  isplitl [A1]; · iexact A1
  isplitl [A2]; · iexact A2
  isplitl [A3]; · iexact A3
  isplitl [A4]; · iexact A4
  iexact Hrest

include hq hG in
/-- EXIT: the windows' holdings, the five of the shared array at one contents, are the buffers whole again. -/
theorem arrBufs2_of_arrays :
    (dat.arrays G : sProp 𝕄) ⊢ Pipeline.arrBufs (Ix := Unit) (Name := ℕ) (U := UR sig nD τ) (Lvl := ℕ) spec2 c V := by
  rw [arrBufs2_eq c V, arrays2_eq c dat hq V G hG]
  iintro ⟨A0, A1, A2, A3, A4, Hrest⟩
  isplitl [A0 A1 A2 A3 A4]
  · iapply (Cert.Hand.Shares.five_join (V main_v15_0))
    isplitl [A0]; · iexact A0
    isplitl [A1]; · iexact A1
    isplitl [A2]; · iexact A2
    isplitl [A3]; · iexact A3
    iexact A4
  iexact Hrest
end

end Cert.Kernel.Hand

end
-- ==== Proof.K.Bound2.lean ====
/-
  The buffers' contents when kernel region 2 is left: its output arrays at what its write-backs leave, every other buffer
  as the region found it.
-/
import proofs.«181542_g78589311582291_cont_9to1_m_296_16_alg».proof.Proof.K.Bound1
import proofs.«181542_g78589311582291_cont_9to1_m_296_16_alg».proof.Proof.K.Half2
import proofs.«181542_g78589311582291_cont_9to1_m_296_16_alg».proof.Proof.K.Arr2
import Idealize.ShloMosaic.Lib.Pipeline.Kit
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Region 2: what it leaves -/

/-- What region 2's write-backs leave in `main_v16_0` (window 12). -/
def o2_12 (c : Dev nD) : Buf (Elt F) ((c : Thread nD τ).loc main_v16_0) := (dat2 (V3 m) c).arrAt 12 cfg2.N
/-- What region 2's write-backs leave in `main_v16_1` (window 13). -/
def o2_13 (c : Dev nD) : Buf (Elt F) ((c : Thread nD τ).loc main_v16_1) := (dat2 (V3 m) c).arrAt 13 cfg2.N

/-- Core `c`'s buffers when region 2 is left: its outputs at what their write-backs left, everything else as it was entered. -/
def W4 (c : Dev nD) : Valuation τ sig (Elt F) :=
  Function.update (Function.update (W3 m c) main_v16_0 (o2_12 m c)) main_v16_1 (o2_13 m c)
/-- The same read at the TensorCore's references. -/
abbrev V4 : (c : Dev nD) → (b : Ref sig .tc) → Buf (Elt F) ((c : Thread nD τ).loc b) := fun c b => W4 m c b

/-- Region 2 changes none but its outputs. -/
theorem W4_of (c : Dev nD) (r : Ref sig .tc) (h : r ∉ ([main_v16_0, main_v16_1] : List (Ref sig .tc))) : W4 m c r = W3 m c r := by
  unfold W4
  simp only [Function.update_of_ne (StableHlo.devRef_ne_of_ne (List.ne_of_not_mem_cons h) : (Proc.devRef .tc r : DevRef τ sig) ≠ Proc.devRef .tc main_v16_0), Function.update_of_ne (StableHlo.devRef_ne_of_ne (List.ne_of_not_mem_cons (List.not_mem_of_not_mem_cons h)) : (Proc.devRef .tc r : DevRef τ sig) ≠ Proc.devRef .tc main_v16_1)]
/-- After region 2 each of its outputs holds what its write-backs left. -/
theorem W4_main_v16_0 (c : Dev nD) : W4 m c main_v16_0 = o2_12 m c := by
  unfold W4; rw [Function.update_of_ne (StableHlo.devRef_ne_of_ne (by decide : main_v16_0 ≠ main_v16_1)), Function.update_self]
theorem W4_main_v16_1 (c : Dev nD) : W4 m c main_v16_1 = o2_13 m c := by
  unfold W4; rw [Function.update_self]

/-- Window by window: an input's array is never written, an output's is its write-backs. -/
theorem hF2_0 (c : Dev nD) : (dat2 (V3 m) c).arrAt 0 cfg2.N = W4 m c main_v15_0 := by
  rw [(dat2 (V3 m) c).arrAt_in 0 rfl, A_eq2, W4_of m c main_v15_0 (by decide)]
theorem hF2_1 (c : Dev nD) : (dat2 (V3 m) c).arrAt 1 cfg2.N = W4 m c main_v15_0 := by
  rw [(dat2 (V3 m) c).arrAt_in 1 rfl, A_eq2, W4_of m c main_v15_0 (by decide)]
theorem hF2_2 (c : Dev nD) : (dat2 (V3 m) c).arrAt 2 cfg2.N = W4 m c main_v15_0 := by
  rw [(dat2 (V3 m) c).arrAt_in 2 rfl, A_eq2, W4_of m c main_v15_0 (by decide)]
theorem hF2_3 (c : Dev nD) : (dat2 (V3 m) c).arrAt 3 cfg2.N = W4 m c main_v15_0 := by
  rw [(dat2 (V3 m) c).arrAt_in 3 rfl, A_eq2, W4_of m c main_v15_0 (by decide)]
theorem hF2_4 (c : Dev nD) : (dat2 (V3 m) c).arrAt 4 cfg2.N = W4 m c main_v15_0 := by
  rw [(dat2 (V3 m) c).arrAt_in 4 rfl, A_eq2, W4_of m c main_v15_0 (by decide)]
theorem hF2_5 (c : Dev nD) : (dat2 (V3 m) c).arrAt 5 cfg2.N = W4 m c main_v15_2 := by
  rw [(dat2 (V3 m) c).arrAt_in 5 rfl, A_eq2, W4_of m c main_v15_2 (by decide)]
theorem hF2_6 (c : Dev nD) : (dat2 (V3 m) c).arrAt 6 cfg2.N = W4 m c main_v15_1 := by
  rw [(dat2 (V3 m) c).arrAt_in 6 rfl, A_eq2, W4_of m c main_v15_1 (by decide)]
theorem hF2_7 (c : Dev nD) : (dat2 (V3 m) c).arrAt 7 cfg2.N = W4 m c main_v15_3 := by
  rw [(dat2 (V3 m) c).arrAt_in 7 rfl, A_eq2, W4_of m c main_v15_3 (by decide)]
theorem hF2_8 (c : Dev nD) : (dat2 (V3 m) c).arrAt 8 cfg2.N = W4 m c main_arg7 := by
  rw [(dat2 (V3 m) c).arrAt_in 8 rfl, A_eq2, W4_of m c main_arg7 (by decide)]
theorem hF2_9 (c : Dev nD) : (dat2 (V3 m) c).arrAt 9 cfg2.N = W4 m c main_arg8 := by
  rw [(dat2 (V3 m) c).arrAt_in 9 rfl, A_eq2, W4_of m c main_arg8 (by decide)]
theorem hF2_10 (c : Dev nD) : (dat2 (V3 m) c).arrAt 10 cfg2.N = W4 m c main_v12 := by
  rw [(dat2 (V3 m) c).arrAt_in 10 rfl, A_eq2, W4_of m c main_v12 (by decide)]
theorem hF2_11 (c : Dev nD) : (dat2 (V3 m) c).arrAt 11 cfg2.N = W4 m c main_v9 := by
  rw [(dat2 (V3 m) c).arrAt_in 11 rfl, A_eq2, W4_of m c main_v9 (by decide)]
theorem hF2_12 (c : Dev nD) : (dat2 (V3 m) c).arrAt 12 cfg2.N = W4 m c main_v16_0 := (W4_main_v16_0 m c).symm
theorem hF2_13 (c : Dev nD) : (dat2 (V3 m) c).arrAt 13 cfg2.N = W4 m c main_v16_1 := (W4_main_v16_1 m c).symm

/-- Every window's array after the last point is what the exit contents say. -/
theorem hF2 (c : Dev nD) (w : Fin cfg2.W) : (dat2 (V3 m) c).arrAt w cfg2.N = V4 m c (Pipeline.arrRef spec2 w) := by
  match w with
  | ⟨0, _⟩ => exact hF2_0 m c
  | ⟨1, _⟩ => exact hF2_1 m c
  | ⟨2, _⟩ => exact hF2_2 m c
  | ⟨3, _⟩ => exact hF2_3 m c
  | ⟨4, _⟩ => exact hF2_4 m c
  | ⟨5, _⟩ => exact hF2_5 m c
  | ⟨6, _⟩ => exact hF2_6 m c
  | ⟨7, _⟩ => exact hF2_7 m c
  | ⟨8, _⟩ => exact hF2_8 m c
  | ⟨9, _⟩ => exact hF2_9 m c
  | ⟨10, _⟩ => exact hF2_10 m c
  | ⟨11, _⟩ => exact hF2_11 m c
  | ⟨12, _⟩ => exact hF2_12 m c
  | ⟨13, _⟩ => exact hF2_13 m c

/-- Off its windows' arrays region 2 changes nothing. -/
theorem hrest2 (c : Dev nD) : ∀ b, b ∉ Finset.univ.image (Pipeline.arrRef spec2) → V4 m c b = V3 m c b := fun b hb =>
  W4_of m c b fun h => hb (by
    rw [image_arrRef2]
    simp only [List.mem_cons, List.not_mem_nil, or_false] at h
    rcases h with rfl | rfl <;> decide)

end Cert.Kernel.Hand

end
-- ==== Proof.K.Half3.lean ====
/-
  Region 3 of the program: the per-point half of its pipeline's correctness.

  The region runs over 10 grid points. Its eleven windows are: five 200×10000 bf16 blocks of rows of one 10000×10000
  matrix (windows 0–4: at a point the five together are 1000 consecutive rows), a whole 10000×40 bf16 matrix (window 5,
  the same block at every point), a 1000×128 block and a 1000×1 column of per-row scales (windows 6 and 7, moving with the
  point), a 128×40 matrix and a 1×40 bias row (windows 8 and 9, the same block at every point), and one 1000×40 f32 output
  block (window 10, moving with the point). At each point the body reads the ten input buffers whole and writes the output
  buffer whole:
    window 10 := h·P + (A·y) ⊙ s + b.
  This module names each window's block at a point, names what the body leaves in the output buffer as a function of the
  input blocks, proves the body's separation-logic triple, packages the per-point contents as proof data over arbitrary
  region-entry contents, and proves the pipeline library's body obligation for that data. The shares at which the windows
  hold their arrays (windows 0–4 share one array) are recorded in the proof data; the body never sees them: it works on
  the staging buffers, each held whole.
-/
import proofs.«181542_g78589311582291_cont_9to1_m_296_16_alg».proof.Proof.Gen.Kernel.Launch
import proofs.«181542_g78589311582291_cont_9to1_m_296_16_alg».proof.Proof.Gen.Kernel.Skeleton
import proofs.«181542_g78589311582291_cont_9to1_m_296_16_alg».proof.Proof.Gen.Kernel.Points
import proofs.«181542_g78589311582291_cont_9to1_m_296_16_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a store's rectangle tiles a buffer with a long axis recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- what the core's buffers hold when the region is entered; everything below is stated at an arbitrary such `V`
variable (V : (c : Dev nD) → (b : Ref sig .tc) → Buf (Elt F) ((c : Thread nD τ).loc b))

/-! ## Blocks -/

/-- The block of window `w` at grid point `t`: the part of the window's array, as the region finds it, that the
    window's index map selects at `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## An input's staging buffer holds its block

For proof data whose array for the window is the entry contents and whose body leaves the window's buffer at its block,
the buffer the body finds at a point holds the block of that point. At a point where the window was just fetched this is
what the fetch wrote; at a point where it was not, the window's block index is the previous point's, so the block is the
one already there. None of these windows is cut at the array's edge and none is ever idle. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each is a whole buffer -/

abbrev r3_S200x10000 : Rect S200x10000 := Rect.unit (s := S200x10000) ![0, 0] S200x10000.size inb_S200x10000_S200x10000_0_0
abbrev r3_S10000x40 : Rect S10000x40 := Rect.unit (s := S10000x40) ![0, 0] S10000x40.size inb_S10000x40_S10000x40_0_0
abbrev r3_S1000x128 : Rect S1000x128 := Rect.unit (s := S1000x128) ![0, 0] S1000x128.size inb_S1000x128_S1000x128_0_0
abbrev r3_S1000x1 : Rect S1000x1 := Rect.unit (s := S1000x1) ![0, 0] S1000x1.size inb_S1000x1_S1000x1_0_0
abbrev r3_S128x40 : Rect S128x40 := Rect.unit (s := S128x40) ![0, 0] S128x40.size inb_S128x40_S128x40_0_0
abbrev r3_S1x40 : Rect S1x40 := Rect.unit (s := S1x40) ![0, 0] S1x40.size inb_S1x40_S1x40_0_0
abbrev r3_S1000x40 : Rect S1000x40 := Rect.unit (s := S1000x40) ![0, 0] S1000x40.size inb_S1000x40_S1000x40_0_0

/-! ## What the body leaves in the output buffers -/

/-- Output window 10's buffer after the body, from the blocks of windows 0–9: one store of the whole buffer. With `A` the
    five 200×10000 adjacency blocks stacked (each multiplied into the 10000×40 matrix of window 5, the five products
    concatenated), `k3_pay1` is `h·P + (A·y) ⊙ s + b` (`h` window 6, `P` window 8, `s` the 1000×1 scale column of window 7
    broadcast along the rows, `b` the 1×40 bias row of window 9 broadcast down the rows). -/
def out3_10 (x0 : Vec F S200x10000 .bf16) (x1 : Vec F S200x10000 .bf16) (x2 : Vec F S200x10000 .bf16) (x3 : Vec F S200x10000 .bf16) (x4 : Vec F S200x10000 .bf16) (x5 : Vec F S10000x40 .bf16) (x6 : Vec F S1000x128 .f32) (x7 : Vec F S1000x1 .f32) (x8 : Vec F S128x40 .f32) (x9 : Vec F S1x40 .f32) : Vec F S1000x40 .f32 :=
  View.canon [⟨r3_S1000x40, k3_pay1 (View.ld x5 r3_S10000x40) (View.ld x0 r3_S200x10000) (View.ld x1 r3_S200x10000) (View.ld x2 r3_S200x10000) (View.ld x3 r3_S200x10000) (View.ld x4 r3_S200x10000) (View.ld x6 r3_S1000x128) (View.ld x8 r3_S128x40) (View.ld x7 r3_S1000x1) (View.ld x9 r3_S1x40)⟩]

/-- The one store covers the whole buffer. -/
theorem cover3_10 (p0 : Vec F S1000x40 .f32) (y : S1000x40.Idx) :
    ∃ pc ∈ ([⟨r3_S1000x40, p0⟩] : List (View.Piece (Elt F) S1000x40 .f32)), y ∈ pc.1.set :=
  View.cover_of_tiled [⟨r3_S1000x40, p0⟩] S1000x40.size (by rfl) y

/-! ## The body's triple -/

set_option maxHeartbeats 1000000 in
/-- The body on whole staging buffers: with the ten inputs' buffers at contents `xW` and the output's at anything, it runs to
    a state with the inputs' buffers unchanged and the output's at `out3_10` of the inputs. The printed body and the
    printed first part it calls are rewritten to their sequences of loads and stores over named values, and the whole is
    run symbolically, through the call. -/
theorem sound_kernel3 (c : Dev nD) (E : Set ℕ) (i : grid3.Coords) (arg1 : Memref sig .tc .vmem S200x10000 .bf16) (harg1 : arg1.IsWhole) (arg2 : Memref sig .tc .vmem S200x10000 .bf16) (harg2 : arg2.IsWhole) (arg3 : Memref sig .tc .vmem S200x10000 .bf16) (harg3 : arg3.IsWhole) (arg4 : Memref sig .tc .vmem S200x10000 .bf16) (harg4 : arg4.IsWhole) (arg5 : Memref sig .tc .vmem S200x10000 .bf16) (harg5 : arg5.IsWhole) (arg6 : Memref sig .tc .vmem S10000x40 .bf16) (harg6 : arg6.IsWhole) (arg7 : Memref sig .tc .vmem S1000x128 .f32) (harg7 : arg7.IsWhole) (arg8 : Memref sig .tc .vmem S1000x1 .f32) (harg8 : arg8.IsWhole) (arg9 : Memref sig .tc .vmem S128x40 .f32) (harg9 : arg9.IsWhole) (arg10 : Memref sig .tc .vmem S1x40 .f32) (harg10 : arg10.IsWhole) (arg11 : Memref sig .tc .vmem S1000x40 .f32) (harg11 : arg11.IsWhole)
    (x0 : Vec F S200x10000 .bf16) (x1 : Vec F S200x10000 .bf16) (x2 : Vec F S200x10000 .bf16) (x3 : Vec F S200x10000 .bf16) (x4 : Vec F S200x10000 .bf16) (x5 : Vec F S10000x40 .bf16) (x6 : Vec F S1000x128 .f32) (x7 : Vec F S1000x1 .f32) (x8 : Vec F S128x40 .f32) (x9 : Vec F S1x40 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out3_10 x0 x1 x2 x3 x4 x5 x6 x7 x8 x9)) -∗ K ⟨⟩))
      ⊢ wp frame (wpE (defs₀ (F := F)) Variants.none c none) E (cc3__p3_body i arg1 harg1 arg2 harg2 arg3 harg3 arg4 harg4 arg5 harg5 arg6 harg6 arg7 harg7 arg8 harg8 arg9 harg9 arg10 harg10 arg11 harg11) K := by
  simp only [cc3__p3_body_eq_skeleton]; unfold cc3__p3_body_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover3_10 _)

/-! ## The proof data -/

/-- The proof data of this region's pipeline on core `c`. Every array starts at the entry contents `V`. After the body at
    point `t` an input's buffer still holds its block, and an output's buffer holds `out3_W` of the input blocks at `t`.
    The invariant is the one that carries the untouched rest of the core's state along; nothing is ever owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
  Φ _ := Pipeline.ΦA spec3 c
  q w := Cert.Hand.Shares.q w
  owed _ := 0

/-- The arrays of the proof data are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]

/-- Each input's buffer holds its block when the body is called, whether the window was fetched at that point or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d

/-! ## The body obligation -/

/-- What the body is handed at point `t`: the invariant, what is owed, and every window's current buffer, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

set_option maxHeartbeats 1000000 in
/-- The body at any point: its input buffers hold their blocks, so the body's triple applies; the invariant and what is owed
    are not touched and pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation for this region, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.K.Arr3.lean ====
/-
  Region 3 (the third pass) reads the half-width copy of the adjacency matrix through five windows at once, beside five more
  inputs, and writes the result: seven distinct buffers behind eleven windows. The buffers whole at contents `V` are the
  windows' holdings at `V` — the matrix copy at its five shares — and back.
-/
import proofs.«181542_g78589311582291_cont_9to1_m_296_16_alg».proof.Proof.Gen.Kernel.Launch
import proofs.«181542_g78589311582291_cont_9to1_m_296_16_alg».proof.Proof.LibFiveWindows
import Idealize.ShloMosaic.Lib.Pipeline.Kit
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The arrays region 3's windows name: 7 distinct buffers (the first one five times over). -/
theorem image_arrRef3 : (Finset.univ.image (Pipeline.arrRef spec3) : Finset (Ref sig .tc))
    = {main_v15_0, main_v16_1, main_v16_0, main_v15_3, main_arg10, main_v13, main_v17} := by decide

section
variable (c : Dev nD) (dat : Dat τ (Elt F) Unit ℕ (UR sig nD τ) ℕ cfg3 c) (hq : ∀ w, dat.q w = Cert.Hand.Shares.q w)

include hq in
/-- An input window holds its array at the share the proof data names. -/
theorem share3_in (w : Fin cfg3.W) (hw : w.val < 10) : dat.share w = Cert.Hand.Shares.q w := by
  unfold Dat.share; rw [hq]
  match w, hw with
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl | ⟨7, _⟩, _ => rfl | ⟨8, _⟩, _ => rfl | ⟨9, _⟩, _ => rfl

/-- An output window holds its array whole. -/
theorem share3_out (w : Fin cfg3.W) (hw : 10 ≤ w.val) : dat.share w = fullShare := by
  unfold Dat.share
  match w, hw with
  | ⟨10, _⟩, _ => rfl

variable (V : (b : Ref sig .tc) → Buf (Elt F) ((c.tc : Thread nD τ).loc b))
  (G : (w : Fin cfg3.W) → Buf (Elt F) ((cfg3.win w).arr.view.loc (c.tc : Thread nD τ)))
  (hG : ∀ w, G w = V (Pipeline.arrRef spec3 w))

include hq hG in
/-- The windows' holdings, each array a whole buffer, written over the buffers' names and window by window. -/
theorem arrays3_eq : (dat.arrays G : sProp 𝕄) = iprop(
      (((c.tc : Thread nD τ).loc main_v15_0) ↦{Cert.Hand.Shares.s0} V main_v15_0) ∗ (((c.tc : Thread nD τ).loc main_v15_0) ↦{Cert.Hand.Shares.s1} V main_v15_0) ∗ (((c.tc : Thread nD τ).loc main_v15_0) ↦{Cert.Hand.Shares.s2} V main_v15_0) ∗ (((c.tc : Thread nD τ).loc main_v15_0) ↦{Cert.Hand.Shares.s3} V main_v15_0) ∗ (((c.tc : Thread nD τ).loc main_v15_0) ↦{Cert.Hand.Shares.s4} V main_v15_0)
    ∗ (((c.tc : Thread nD τ).loc main_v16_1) ↦{fullShare} V main_v16_1) ∗ (((c.tc : Thread nD τ).loc main_v16_0) ↦{fullShare} V main_v16_0) ∗ (((c.tc : Thread nD τ).loc main_v15_3) ↦{fullShare} V main_v15_3) ∗ (((c.tc : Thread nD τ).loc main_arg10) ↦{fullShare} V main_arg10) ∗ (((c.tc : Thread nD τ).loc main_v13) ↦{fullShare} V main_v13) ∗ (((c.tc : Thread nD τ).loc main_v17) ↦{fullShare} V main_v17)) := by
  have e : (dat.arrays G : sProp 𝕄) = bigSep Finset.univ fun w : Fin cfg3.W =>
      ((((c.tc : Thread nD τ).loc (Pipeline.arrRef spec3 w)) ↦{dat.share w} V (Pipeline.arrRef spec3 w)) : sProp 𝕄) := by
    unfold Dat.arrays
    exact bigSep_congr fun w _ => by rw [(arr_whole3 w).set_eq_univ, hG]
  rw [e, bigSep_W3, share3_in c dat hq 0 (by decide), share3_in c dat hq 1 (by decide), share3_in c dat hq 2 (by decide), share3_in c dat hq 3 (by decide), share3_in c dat hq 4 (by decide), share3_in c dat hq 5 (by decide), share3_in c dat hq 6 (by decide), share3_in c dat hq 7 (by decide), share3_in c dat hq 8 (by decide), share3_in c dat hq 9 (by decide), share3_out c dat 10 (by decide)]
  rfl

/-- The buffers behind the windows, one by one. -/
theorem arrBufs3_eq : (Pipeline.arrBufs (Ix := Unit) (Name := ℕ) (U := UR sig nD τ) (Lvl := ℕ) spec3 c V : sProp 𝕄) = iprop(
      (((c.tc : Thread nD τ).loc main_v15_0) ↦{fullShare} V main_v15_0) ∗ (((c.tc : Thread nD τ).loc main_v16_1) ↦{fullShare} V main_v16_1) ∗ (((c.tc : Thread nD τ).loc main_v16_0) ↦{fullShare} V main_v16_0) ∗ (((c.tc : Thread nD τ).loc main_v15_3) ↦{fullShare} V main_v15_3) ∗ (((c.tc : Thread nD τ).loc main_arg10) ↦{fullShare} V main_arg10) ∗ (((c.tc : Thread nD τ).loc main_v13) ↦{fullShare} V main_v13) ∗ (((c.tc : Thread nD τ).loc main_v17) ↦{fullShare} V main_v17)) := by
  unfold Pipeline.arrBufs
  rw [image_arrRef3, bigSep_insert (by decide), bigSep_insert (by decide), bigSep_insert (by decide), bigSep_insert (by decide), bigSep_insert (by decide), bigSep_insert (by decide), bigSep_singleton]
  rfl

include hq hG in
/-- ENTRY: the buffers at `V` are the windows' holdings at `V` — the shared array split five ways. -/
theorem arrays3_of_arrBufs :
    (Pipeline.arrBufs (Ix := Unit) (Name := ℕ) (U := UR sig nD τ) (Lvl := ℕ) spec3 c V : sProp 𝕄) ⊢ dat.arrays G := by
  rw [arrBufs3_eq c V, arrays3_eq c dat hq V G hG]
  iintro ⟨Hadj, Hrest⟩
  ihave H5 := (Cert.Hand.Shares.five_split (V main_v15_0)) $$ Hadj
  icases H5 with ⟨A0, A1, A2, A3, A4⟩
  isplitl [A0]; · iexact A0
  isplitl [A1]; · iexact A1
  isplitl [A2]; · iexact A2
  isplitl [A3]; · iexact A3
  isplitl [A4]; · iexact A4
  iexact Hrest

include hq hG in
/-- EXIT: the windows' holdings, the five of the shared array at one contents, are the buffers whole again. -/
theorem arrBufs3_of_arrays :
    (dat.arrays G : sProp 𝕄) ⊢ Pipeline.arrBufs (Ix := Unit) (Name := ℕ) (U := UR sig nD τ) (Lvl := ℕ) spec3 c V := by
  rw [arrBufs3_eq c V, arrays3_eq c dat hq V G hG]
  iintro ⟨A0, A1, A2, A3, A4, Hrest⟩
  isplitl [A0 A1 A2 A3 A4]
  · iapply (Cert.Hand.Shares.five_join (V main_v15_0))
    isplitl [A0]; · iexact A0
    isplitl [A1]; · iexact A1
    isplitl [A2]; · iexact A2
    isplitl [A3]; · iexact A3
    iexact A4
  iexact Hrest
end

end Cert.Kernel.Hand

end
-- ==== Proof.K.Bound3.lean ====
/-
  The buffers' contents when kernel region 3 is left: its output arrays at what its write-backs leave, every other buffer
  as the region found it.
-/
import proofs.«181542_g78589311582291_cont_9to1_m_296_16_alg».proof.Proof.K.Bound2
import proofs.«181542_g78589311582291_cont_9to1_m_296_16_alg».proof.Proof.K.Half3
import proofs.«181542_g78589311582291_cont_9to1_m_296_16_alg».proof.Proof.K.Arr3
import Idealize.ShloMosaic.Lib.Pipeline.Kit
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Region 3: what it leaves -/

/-- What region 3's write-backs leave in `main_v17` (window 10). -/
def o3_10 (c : Dev nD) : Buf (Elt F) ((c : Thread nD τ).loc main_v17) := (dat3 (V4 m) c).arrAt 10 cfg3.N

/-- Core `c`'s buffers when region 3 is left: its outputs at what their write-backs left, everything else as it was entered. -/
def W5 (c : Dev nD) : Valuation τ sig (Elt F) :=
  Function.update (W4 m c) main_v17 (o3_10 m c)
/-- The same read at the TensorCore's references. -/
abbrev V5 : (c : Dev nD) → (b : Ref sig .tc) → Buf (Elt F) ((c : Thread nD τ).loc b) := fun c b => W5 m c b

/-- Region 3 changes none but its outputs. -/
theorem W5_of (c : Dev nD) (r : Ref sig .tc) (h : r ∉ ([main_v17] : List (Ref sig .tc))) : W5 m c r = W4 m c r := by
  unfold W5
  simp only [Function.update_of_ne (StableHlo.devRef_ne_of_ne (List.ne_of_not_mem_cons h) : (Proc.devRef .tc r : DevRef τ sig) ≠ Proc.devRef .tc main_v17)]
/-- After region 3 each of its outputs holds what its write-backs left. -/
theorem W5_main_v17 (c : Dev nD) : W5 m c main_v17 = o3_10 m c := by
  unfold W5; rw [Function.update_self]

/-- Window by window: an input's array is never written, an output's is its write-backs. -/
theorem hF3_0 (c : Dev nD) : (dat3 (V4 m) c).arrAt 0 cfg3.N = W5 m c main_v15_0 := by
  rw [(dat3 (V4 m) c).arrAt_in 0 rfl, A_eq3, W5_of m c main_v15_0 (by decide)]
theorem hF3_1 (c : Dev nD) : (dat3 (V4 m) c).arrAt 1 cfg3.N = W5 m c main_v15_0 := by
  rw [(dat3 (V4 m) c).arrAt_in 1 rfl, A_eq3, W5_of m c main_v15_0 (by decide)]
theorem hF3_2 (c : Dev nD) : (dat3 (V4 m) c).arrAt 2 cfg3.N = W5 m c main_v15_0 := by
  rw [(dat3 (V4 m) c).arrAt_in 2 rfl, A_eq3, W5_of m c main_v15_0 (by decide)]
theorem hF3_3 (c : Dev nD) : (dat3 (V4 m) c).arrAt 3 cfg3.N = W5 m c main_v15_0 := by
  rw [(dat3 (V4 m) c).arrAt_in 3 rfl, A_eq3, W5_of m c main_v15_0 (by decide)]
theorem hF3_4 (c : Dev nD) : (dat3 (V4 m) c).arrAt 4 cfg3.N = W5 m c main_v15_0 := by
  rw [(dat3 (V4 m) c).arrAt_in 4 rfl, A_eq3, W5_of m c main_v15_0 (by decide)]
theorem hF3_5 (c : Dev nD) : (dat3 (V4 m) c).arrAt 5 cfg3.N = W5 m c main_v16_1 := by
  rw [(dat3 (V4 m) c).arrAt_in 5 rfl, A_eq3, W5_of m c main_v16_1 (by decide)]
theorem hF3_6 (c : Dev nD) : (dat3 (V4 m) c).arrAt 6 cfg3.N = W5 m c main_v16_0 := by
  rw [(dat3 (V4 m) c).arrAt_in 6 rfl, A_eq3, W5_of m c main_v16_0 (by decide)]
theorem hF3_7 (c : Dev nD) : (dat3 (V4 m) c).arrAt 7 cfg3.N = W5 m c main_v15_3 := by
  rw [(dat3 (V4 m) c).arrAt_in 7 rfl, A_eq3, W5_of m c main_v15_3 (by decide)]
theorem hF3_8 (c : Dev nD) : (dat3 (V4 m) c).arrAt 8 cfg3.N = W5 m c main_arg10 := by
  rw [(dat3 (V4 m) c).arrAt_in 8 rfl, A_eq3, W5_of m c main_arg10 (by decide)]
theorem hF3_9 (c : Dev nD) : (dat3 (V4 m) c).arrAt 9 cfg3.N = W5 m c main_v13 := by
  rw [(dat3 (V4 m) c).arrAt_in 9 rfl, A_eq3, W5_of m c main_v13 (by decide)]
theorem hF3_10 (c : Dev nD) : (dat3 (V4 m) c).arrAt 10 cfg3.N = W5 m c main_v17 := (W5_main_v17 m c).symm

/-- Every window's array after the last point is what the exit contents say. -/
theorem hF3 (c : Dev nD) (w : Fin cfg3.W) : (dat3 (V4 m) c).arrAt w cfg3.N = V5 m c (Pipeline.arrRef spec3 w) := by
  match w with
  | ⟨0, _⟩ => exact hF3_0 m c
  | ⟨1, _⟩ => exact hF3_1 m c
  | ⟨2, _⟩ => exact hF3_2 m c
  | ⟨3, _⟩ => exact hF3_3 m c
  | ⟨4, _⟩ => exact hF3_4 m c
  | ⟨5, _⟩ => exact hF3_5 m c
  | ⟨6, _⟩ => exact hF3_6 m c
  | ⟨7, _⟩ => exact hF3_7 m c
  | ⟨8, _⟩ => exact hF3_8 m c
  | ⟨9, _⟩ => exact hF3_9 m c
  | ⟨10, _⟩ => exact hF3_10 m c

/-- Off its windows' arrays region 3 changes nothing. -/
theorem hrest3 (c : Dev nD) : ∀ b, b ∉ Finset.univ.image (Pipeline.arrRef spec3) → V5 m c b = V4 m c b := fun b hb =>
  W5_of m c b fun h => hb (by
    rw [image_arrRef3]
    simp only [List.mem_cons, List.not_mem_nil, or_false] at h
    rcases h with rfl <;> decide)

end Cert.Kernel.Hand

end
-- ==== Proof.K.Regs.lean ====
/-
  The program as a list of segments — the host stretch, then the four kernel regions — and its run: every weakly fair execution
  terminates, nothing faulting, with every unscoped buffer at the contents the last region leaves. Each region's record
  says how its windows' arrays are taken out of the buffers the thread holds when the region is entered and put back when
  it is left; for the three regions that read one array through five windows the array is split into five shares and joined again.
-/
import proofs.«181542_g78589311582291_cont_9to1_m_296_16_alg».proof.Proof.K.Bound3
import Idealize.ShloMosaic.Lib.Pipeline.Kit
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_noFresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- REGION 0 as a segment: its seven windows name seven distinct arrays, each held whole. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 as a segment: entered with every unscoped buffer at the contents the item before left, left with them at this
    region's exit contents. Its windows' arrays are sorted out of the buffers at entry — the array five windows read split
    into their five shares — and put back at exit, the five shares joined; the generator register passes through the
    kernel's invariant; the kernel owes nothing and has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄)
        ⊢ iprop((pdats m 1 c).arrays ((pdats m 1 c).arrAt · 0) ∗ Pipeline.unscopedRest spec1 c (V2 m c)) := by
      rw [Pipeline.unscopedBufs_split₀ cfgs 1 winFacts₀1.arr_unscoped c (V2 m c)]
      exact sep_mono (arrays1_of_arrBufs c (pdats m 1 c) (fun _ => rfl) (V2 m c) _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2 m c))
        ⊢ (unscopedBufs c (V3 m c) : sProp 𝕄) := by
      rw [Pipeline.unscopedBufs_split₀ cfgs 1 winFacts₀1.arr_unscoped c (V3 m c)]
      refine sep_mono (arrBufs1_of_arrays c (pdats m 1 c) (fun _ => rfl) (V3 m c) _ (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 as a segment: entered with every unscoped buffer at the contents the item before left, left with them at this
    region's exit contents. Its windows' arrays are sorted out of the buffers at entry — the array five windows read split
    into their five shares — and put back at exit, the five shares joined; the generator register passes through the
    kernel's invariant; the kernel owes nothing and has no semaphore of its own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit : (unscopedBufs c (V3 m c) : sProp 𝕄)
        ⊢ iprop((pdats m 2 c).arrays ((pdats m 2 c).arrAt · 0) ∗ Pipeline.unscopedRest spec2 c (V3 m c)) := by
      rw [Pipeline.unscopedBufs_split₀ cfgs 2 winFacts₀2.arr_unscoped c (V3 m c)]
      exact sep_mono (arrays2_of_arrBufs c (pdats m 2 c) (fun _ => rfl) (V3 m c) _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (V3 m c))
        ⊢ (unscopedBufs c (V4 m c) : sProp 𝕄) := by
      rw [Pipeline.unscopedBufs_split₀ cfgs 2 winFacts₀2.arr_unscoped c (V4 m c)]
      refine sep_mono (arrBufs2_of_arrays c (pdats m 2 c) (fun _ => rfl) (V4 m c) _ (hF2 m c)) (Entails.of_eq ?_)
      unfold Pipeline.unscopedRest
      exact bigSep_congr fun b hb => by rw [hrest2 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 as a segment: entered with every unscoped buffer at the contents the item before left, left with them at this
    region's exit contents. Its windows' arrays are sorted out of the buffers at entry — the array five windows read split
    into their five shares — and put back at exit, the five shares joined; the generator register passes through the
    kernel's invariant; the kernel owes nothing and has no semaphore of its own. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V4 m) c).loose
  hwaits := Pipeline.hwaits_of_owed_zero _ _ _ _ L lv 3 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit : (unscopedBufs c (V4 m c) : sProp 𝕄)
        ⊢ iprop((pdats m 3 c).arrays ((pdats m 3 c).arrAt · 0) ∗ Pipeline.unscopedRest spec3 c (V4 m c)) := by
      rw [Pipeline.unscopedBufs_split₀ cfgs 3 winFacts₀3.arr_unscoped c (V4 m c)]
      exact sep_mono (arrays3_of_arrBufs c (pdats m 3 c) (fun _ => rfl) (V4 m c) _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N) ∗ Pipeline.unscopedRest spec3 c (V4 m c))
        ⊢ (unscopedBufs c (V5 m c) : sProp 𝕄) := by
      rw [Pipeline.unscopedBufs_split₀ cfgs 3 winFacts₀3.arr_unscoped c (V5 m c)]
      refine sep_mono (arrBufs3_of_arrays c (pdats m 3 c) (fun _ => rfl) (V5 m c) _ (hF3 m c)) (Entails.of_eq ?_)
      unfold Pipeline.unscopedRest
      exact bigSep_congr fun b hb => by rw [hrest3 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- The five segments in order: the host stretch from the launch contents, then the four regions. -/
abbrev segs : List (Pipeline.Seg (pcfgs (F := F)) adm (pdats m) () defs₀ 𝒱₀ L lv) :=
  [ .host (hseg hostOps0 hostOps0_sub hostOps0_noFresh (W0 m)),
    .region (reg0 m), .region (reg1 m), .region (reg2 m), .region (reg3 m) ]
/-- The program is the run of the segments. -/
theorem main_run (c : Dev nD) : main (F := F) c = Pipeline.Seg.run (segs m) := (main_chain c).trans (by chain_rfl)

set_option backward.isDefEq.respectTransparency.types false in
/-- THE RUN, at any instance: from any memory with zero counters every weakly fair execution of the program on the
    TensorCores terminates, nothing faulting, and in every final state each unscoped buffer holds what the last region
    leaves (`W5`): the arguments as launched, the result at the third pass's write-backs. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      change iprop(StableHlo.held (c : Thread nD τ) (Pipeline.ucRefs τ sig) (W5 m c) ∗ (∃ r, prngReg c r)
        ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

end Cert.Kernel.Hand

end
-- ==== Proof.K.Frame.lean ====
/-
  The program's frame: it runs to the end, nothing faulting, and its thirteen argument arrays end as they were launched.
  No host operation writes an argument and no kernel region has an argument among its outputs, so each argument read
  through the five boundaries is its launch contents; the frame is the run's postcondition weakened to that.
-/
import proofs.«181542_g78589311582291_cont_9to1_m_296_16_alg».proof.Proof.K.Regs
import proofs.«181542_g78589311582291_cont_9to1_m_296_16_alg».proof.Proof.Gen.Kernel.Regions
import Idealize.ShloMosaic.Lib.Pipeline.Kit
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arguments end as launched -/

theorem W5_main_arg0 (c : Dev nD) : W5 m c main_arg0 = m ((c : Thread nD τ).loc main_arg0) :=
  (W5_of m c main_arg0 (by decide)).trans <| (W4_of m c main_arg0 (by decide)).trans <| (W3_of m c main_arg0 (by decide)).trans <|
    (W2_of m c main_arg0 (by decide)).trans <| (Cert.Kernel.Gen.V1_of m c main_arg0 (by decide)).trans rfl
theorem W5_main_arg1 (c : Dev nD) : W5 m c main_arg1 = m ((c : Thread nD τ).loc main_arg1) :=
  (W5_of m c main_arg1 (by decide)).trans <| (W4_of m c main_arg1 (by decide)).trans <| (W3_of m c main_arg1 (by decide)).trans <|
    (W2_of m c main_arg1 (by decide)).trans <| (Cert.Kernel.Gen.V1_of m c main_arg1 (by decide)).trans rfl
theorem W5_main_arg2 (c : Dev nD) : W5 m c main_arg2 = m ((c : Thread nD τ).loc main_arg2) :=
  (W5_of m c main_arg2 (by decide)).trans <| (W4_of m c main_arg2 (by decide)).trans <| (W3_of m c main_arg2 (by decide)).trans <|
    (W2_of m c main_arg2 (by decide)).trans <| (Cert.Kernel.Gen.V1_of m c main_arg2 (by decide)).trans rfl
theorem W5_main_arg3 (c : Dev nD) : W5 m c main_arg3 = m ((c : Thread nD τ).loc main_arg3) :=
  (W5_of m c main_arg3 (by decide)).trans <| (W4_of m c main_arg3 (by decide)).trans <| (W3_of m c main_arg3 (by decide)).trans <|
    (W2_of m c main_arg3 (by decide)).trans <| (Cert.Kernel.Gen.V1_of m c main_arg3 (by decide)).trans rfl
theorem W5_main_arg4 (c : Dev nD) : W5 m c main_arg4 = m ((c : Thread nD τ).loc main_arg4) :=
  (W5_of m c main_arg4 (by decide)).trans <| (W4_of m c main_arg4 (by decide)).trans <| (W3_of m c main_arg4 (by decide)).trans <|
    (W2_of m c main_arg4 (by decide)).trans <| (Cert.Kernel.Gen.V1_of m c main_arg4 (by decide)).trans rfl
theorem W5_main_arg5 (c : Dev nD) : W5 m c main_arg5 = m ((c : Thread nD τ).loc main_arg5) :=
  (W5_of m c main_arg5 (by decide)).trans <| (W4_of m c main_arg5 (by decide)).trans <| (W3_of m c main_arg5 (by decide)).trans <|
    (W2_of m c main_arg5 (by decide)).trans <| (Cert.Kernel.Gen.V1_of m c main_arg5 (by decide)).trans rfl
theorem W5_main_arg6 (c : Dev nD) : W5 m c main_arg6 = m ((c : Thread nD τ).loc main_arg6) :=
  (W5_of m c main_arg6 (by decide)).trans <| (W4_of m c main_arg6 (by decide)).trans <| (W3_of m c main_arg6 (by decide)).trans <|
    (W2_of m c main_arg6 (by decide)).trans <| (Cert.Kernel.Gen.V1_of m c main_arg6 (by decide)).trans rfl
theorem W5_main_arg7 (c : Dev nD) : W5 m c main_arg7 = m ((c : Thread nD τ).loc main_arg7) :=
  (W5_of m c main_arg7 (by decide)).trans <| (W4_of m c main_arg7 (by decide)).trans <| (W3_of m c main_arg7 (by decide)).trans <|
    (W2_of m c main_arg7 (by decide)).trans <| (Cert.Kernel.Gen.V1_of m c main_arg7 (by decide)).trans rfl
theorem W5_main_arg8 (c : Dev nD) : W5 m c main_arg8 = m ((c : Thread nD τ).loc main_arg8) :=
  (W5_of m c main_arg8 (by decide)).trans <| (W4_of m c main_arg8 (by decide)).trans <| (W3_of m c main_arg8 (by decide)).trans <|
    (W2_of m c main_arg8 (by decide)).trans <| (Cert.Kernel.Gen.V1_of m c main_arg8 (by decide)).trans rfl
theorem W5_main_arg9 (c : Dev nD) : W5 m c main_arg9 = m ((c : Thread nD τ).loc main_arg9) :=
  (W5_of m c main_arg9 (by decide)).trans <| (W4_of m c main_arg9 (by decide)).trans <| (W3_of m c main_arg9 (by decide)).trans <|
    (W2_of m c main_arg9 (by decide)).trans <| (Cert.Kernel.Gen.V1_of m c main_arg9 (by decide)).trans rfl
theorem W5_main_arg10 (c : Dev nD) : W5 m c main_arg10 = m ((c : Thread nD τ).loc main_arg10) :=
  (W5_of m c main_arg10 (by decide)).trans <| (W4_of m c main_arg10 (by decide)).trans <| (W3_of m c main_arg10 (by decide)).trans <|
    (W2_of m c main_arg10 (by decide)).trans <| (Cert.Kernel.Gen.V1_of m c main_arg10 (by decide)).trans rfl
theorem W5_main_arg11 (c : Dev nD) : W5 m c main_arg11 = m ((c : Thread nD τ).loc main_arg11) :=
  (W5_of m c main_arg11 (by decide)).trans <| (W4_of m c main_arg11 (by decide)).trans <| (W3_of m c main_arg11 (by decide)).trans <|
    (W2_of m c main_arg11 (by decide)).trans <| (Cert.Kernel.Gen.V1_of m c main_arg11 (by decide)).trans rfl
theorem W5_main_arg12 (c : Dev nD) : W5 m c main_arg12 = m ((c : Thread nD τ).loc main_arg12) :=
  (W5_of m c main_arg12 (by decide)).trans <| (W4_of m c main_arg12 (by decide)).trans <| (W3_of m c main_arg12 (by decide)).trans <|
    (W2_of m c main_arg12 (by decide)).trans <| (Cert.Kernel.Gen.V1_of m c main_arg12 (by decide)).trans rfl

/-- THE FRAME, at any instance. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c),
      (h c _ (mem_uc main_arg7 (by decide))).trans (W5_main_arg7 m c),
      (h c _ (mem_uc main_arg8 (by decide))).trans (W5_main_arg8 m c),
      (h c _ (mem_uc main_arg9 (by decide))).trans (W5_main_arg9 m c),
      (h c _ (mem_uc main_arg10 (by decide))).trans (W5_main_arg10 m c),
      (h c _ (mem_uc main_arg11 (by decide))).trans (W5_main_arg11 m c),
      (h c _ (mem_uc main_arg12 (by decide))).trans (W5_main_arg12 m c)⟩) (run_main m ρ)

/-- The run with the result named: beside the frame, the result array ends at what the third pass's write-backs leave. -/
theorem run_result (ρ : Dev nD → PrngReg) : θ_run defs (onTc (τ := τ) (main (F := F))) ⟨m, fun _ => 0, ρ⟩ (fun r => ∀ c : Dev nD,
      r.2.mem ((c.tc : Thread nD τ).loc main_v17) = o3_10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v17 (by decide))).trans (W5_main_v17 m c),
      (h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c),
      (h c _ (mem_uc main_arg7 (by decide))).trans (W5_main_arg7 m c),
      (h c _ (mem_uc main_arg8 (by decide))).trans (W5_main_arg8 m c),
      (h c _ (mem_uc main_arg9 (by decide))).trans (W5_main_arg9 m c),
      (h c _ (mem_uc main_arg10 (by decide))).trans (W5_main_arg10 m c),
      (h c _ (mem_uc main_arg11 (by decide))).trans (W5_main_arg11 m c),
      (h c _ (mem_uc main_arg12 (by decide))).trans (W5_main_arg12 m c)⟩) (run_main m ρ)

end Cert.Kernel.Hand

end
-- ==== Proof.KI.Half0.lean ====
/-
  Region 0 of the program: the per-point half of its pipeline's correctness.

  The region runs over 25 grid points. Its seven windows are: a 400×128 block of rows of the 10000×128 input (window 0,
  moving with the point), two 128×128 weight matrices and two 1×128 bias rows (windows 1–4, the same block at every point),
  and two 400×128 output blocks (windows 5 and 6, f32 and bf16, moving with the point). At each point the body reads the
  five input buffers whole and writes the two output buffers whole:
    window 5 := x·W₁ + b₁,        window 6 := bf16 (window 5 · W₂ + b₂).
  This module names each window's block at a point, names what the body leaves in each output buffer as a function of the
  input blocks, proves the body's separation-logic triple, packages the per-point contents as proof data over arbitrary
  region-entry contents, and proves the pipeline library's body obligation for that data.
-/
import proofs.«181542_g78589311582291_cont_9to1_m_296_16_alg».proof.Proof.Gen.KernelIdeal.Launch
import proofs.«181542_g78589311582291_cont_9to1_m_296_16_alg».proof.Proof.Gen.KernelIdeal.Skeleton
import proofs.«181542_g78589311582291_cont_9to1_m_296_16_alg».proof.Proof.Gen.KernelIdeal.Points
import proofs.«181542_g78589311582291_cont_9to1_m_296_16_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a store's rectangle tiles a buffer with a long axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- what the core's buffers hold when the region is entered; everything below is stated at an arbitrary such `V`
variable (V : (c : Dev nD) → (b : Ref sig .tc) → Buf (Elt F) ((c : Thread nD τ).loc b))

/-! ## Blocks -/

/-- The block of window `w` at grid point `t`: the part of the window's array, as the region finds it, that the
    window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input's staging buffer holds its block

For proof data whose array for the window is the entry contents and whose body leaves the window's buffer at its block,
the buffer the body finds at a point holds the block of that point. At a point where the window was just fetched this is
what the fetch wrote; at a point where it was not, the window's block index is the previous point's, so the block is the
one already there. None of these windows is cut at the array's edge and none is ever idle. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is a whole buffer -/

abbrev r0_S400x128 : Rect S400x128 := Rect.unit (s := S400x128) ![0, 0] S400x128.size inb_S400x128_S400x128_0_0
abbrev r0_S128x128 : Rect S128x128 := Rect.unit (s := S128x128) ![0, 0] S128x128.size inb_S128x128_S128x128_0_0
abbrev r0_S1x128 : Rect S1x128 := Rect.unit (s := S1x128) ![0, 0] S1x128.size inb_S1x128_S1x128_0_0

/-! ## What the body leaves in the output buffers -/

/-- Output window 5's buffer after the body, from the blocks of windows 0, 1, 2: one store of the whole buffer, of the
    400×128 block of rows times the first 128×128 weight matrix plus the first bias row broadcast down the rows (`k0_pay1`). -/
def out0_5 (x0 : Vec F S400x128 .f32) (x1 : Vec F S128x128 .f32) (x2 : Vec F S1x128 .f32) : Vec F S400x128 .f32 :=
  View.canon [⟨r0_S400x128, k0_pay1 (View.ld x0 r0_S400x128) (View.ld x1 r0_S128x128) (View.ld x2 r0_S1x128)⟩]

/-- The one store covers the whole buffer. -/
theorem cover0_5 (p0 : Vec F S400x128 .f32) (y : S400x128.Idx) :
    ∃ pc ∈ ([⟨r0_S400x128, p0⟩] : List (View.Piece (Elt F) S400x128 .f32)), y ∈ pc.1.set :=
  View.cover_of_tiled [⟨r0_S400x128, p0⟩] S400x128.size (by rfl) y

/-- Output window 6's buffer after the body, from the blocks of windows 0–4: one store of the whole buffer, of window 5's
    value times the second 128×128 weight matrix plus the second bias row, rounded to bf16 (`k0_pay2`). -/
def out0_6 (x0 : Vec F S400x128 .f32) (x1 : Vec F S128x128 .f32) (x2 : Vec F S1x128 .f32) (x3 : Vec F S128x128 .f32) (x4 : Vec F S1x128 .f32) : Vec F S400x128 .bf16 :=
  View.canon [⟨r0_S400x128, k0_pay2 (View.ld x0 r0_S400x128) (View.ld x1 r0_S128x128) (View.ld x2 r0_S1x128) (View.ld x3 r0_S128x128) (View.ld x4 r0_S1x128)⟩]

/-- The one store covers the whole buffer. -/
theorem cover0_6 (p0 : Vec F S400x128 .bf16) (y : S400x128.Idx) :
    ∃ pc ∈ ([⟨r0_S400x128, p0⟩] : List (View.Piece (Elt F) S400x128 .bf16)), y ∈ pc.1.set :=
  View.cover_of_tiled [⟨r0_S400x128, p0⟩] S400x128.size (by rfl) y

/-! ## The body's triple -/

set_option maxHeartbeats 1000000 in
/-- The body on whole staging buffers: with the five inputs' buffers at contents `xW` and the two outputs' at anything, it
    runs to a state with the inputs' buffers unchanged and each output's at `out0_W` of the inputs. The printed body is
    rewritten to its sequence of loads and stores over named values, and that sequence is run symbolically. -/
theorem sound_kernel0 (c : Dev nD) (E : Set ℕ) (i : grid0.Coords) (arg1 : Memref sig .tc .vmem S400x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S400x128 .bf16) (harg7 : arg7.IsWhole)
    (x0 : Vec F S400x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E (cc0__prep_body i arg1 harg1 arg2 harg2 arg3 harg3 arg4 harg4 arg5 harg5 arg6 harg6 arg7 harg7) K := by
  simp only [cc0__prep_body_eq_skeleton]; unfold cc0__prep_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The proof data -/

/-- The proof data of this region's pipeline on core `c`. Every array starts at the entry contents `V`. After the body at
    point `t` an input's buffer still holds its block, and an output's buffer holds `out0_W` of the input blocks at `t`.
    The invariant is the one that carries the untouched rest of the core's state along; nothing is ever owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

/-- Each input's buffer holds its block when the body is called, whether the window was fetched at that point or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is handed at point `t`: the invariant, what is owed, and every window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: its input buffers hold their blocks, so the body's triple applies; the invariant and what is owed
    are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for this region, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Bound0.lean ====
/-
  The buffers' contents at the boundaries of the program's items, from the launch through the first kernel region.
  The program is a stretch of host operations (padding the weights, reshaping the biases) and then four kernel regions.
  A host stretch leaves the fold of its operations; a kernel region leaves its output arrays at what its write-backs
  leave and every other buffer as it found it.
-/
import proofs.«181542_g78589311582291_cont_9to1_m_296_16_alg».proof.Proof.Gen.KernelIdeal.Launch
import proofs.«181542_g78589311582291_cont_9to1_m_296_16_alg».proof.Proof.Gen.KernelIdeal.Skeleton
import proofs.«181542_g78589311582291_cont_9to1_m_296_16_alg».proof.Proof.Gen.KernelIdeal.Points
import proofs.«181542_g78589311582291_cont_9to1_m_296_16_alg».proof.Proof.KI.Half0
import Idealize.ShloMosaic.Lib.Pipeline.Kit
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the host operations before the first region. -/
abbrev W1 : Dev nD → Valuation τ sig (Elt F) := fun c => StableHlo.after hostOps0 (W0 m c)
/-- The same read at the TensorCore's references: what region 0 finds. -/
abbrev V1 : (c : Dev nD) → (b : Ref sig .tc) → Buf (Elt F) ((c : Thread nD τ).loc b) := fun c b => W1 m c b

/-! ## Region 0: what it leaves -/

/-- What region 0's write-backs leave in `main_v14_0` (window 5). -/
def o0_5 (c : Dev nD) : Buf (Elt F) ((c : Thread nD τ).loc main_v14_0) := (dat0 (V1 m) c).arrAt 5 cfg0.N
/-- What region 0's write-backs leave in `main_v14_1` (window 6). -/
def o0_6 (c : Dev nD) : Buf (Elt F) ((c : Thread nD τ).loc main_v14_1) := (dat0 (V1 m) c).arrAt 6 cfg0.N

/-- Core `c`'s buffers when region 0 is left: its outputs at what their write-backs left, everything else as it was entered. -/
def W2 (c : Dev nD) : Valuation τ sig (Elt F) :=
  Function.update (Function.update (W1 m c) main_v14_0 (o0_5 m c)) main_v14_1 (o0_6 m c)
/-- The same read at the TensorCore's references. -/
abbrev V2 : (c : Dev nD) → (b : Ref sig .tc) → Buf (Elt F) ((c : Thread nD τ).loc b) := fun c b => W2 m c b

/-- Region 0 changes none but its outputs. -/
theorem W2_of (c : Dev nD) (r : Ref sig .tc) (h : r ∉ ([main_v14_0, main_v14_1] : List (Ref sig .tc))) : W2 m c r = W1 m c r := by
  unfold W2
  simp only [Function.update_of_ne (StableHlo.devRef_ne_of_ne (List.ne_of_not_mem_cons h) : (Proc.devRef .tc r : DevRef τ sig) ≠ Proc.devRef .tc main_v14_0), Function.update_of_ne (StableHlo.devRef_ne_of_ne (List.ne_of_not_mem_cons (List.not_mem_of_not_mem_cons h)) : (Proc.devRef .tc r : DevRef τ sig) ≠ Proc.devRef .tc main_v14_1)]
/-- After region 0 each of its outputs holds what its write-backs left. -/
theorem W2_main_v14_0 (c : Dev nD) : W2 m c main_v14_0 = o0_5 m c := by
  unfold W2; rw [Function.update_of_ne (StableHlo.devRef_ne_of_ne (by decide : main_v14_0 ≠ main_v14_1)), Function.update_self]
theorem W2_main_v14_1 (c : Dev nD) : W2 m c main_v14_1 = o0_6 m c := by
  unfold W2; rw [Function.update_self]

/-- Window by window: an input's array is never written, an output's is its write-backs. -/
theorem hF0_0 (c : Dev nD) : (dat0 (V1 m) c).arrAt 0 cfg0.N = W2 m c main_arg0 := by
  rw [(dat0 (V1 m) c).arrAt_in 0 rfl, A_eq0, W2_of m c main_arg0 (by decide)]
theorem hF0_1 (c : Dev nD) : (dat0 (V1 m) c).arrAt 1 cfg0.N = W2 m c main_arg2 := by
  rw [(dat0 (V1 m) c).arrAt_in 1 rfl, A_eq0, W2_of m c main_arg2 (by decide)]
theorem hF0_2 (c : Dev nD) : (dat0 (V1 m) c).arrAt 2 cfg0.N = W2 m c main_v10 := by
  rw [(dat0 (V1 m) c).arrAt_in 2 rfl, A_eq0, W2_of m c main_v10 (by decide)]
theorem hF0_3 (c : Dev nD) : (dat0 (V1 m) c).arrAt 3 cfg0.N = W2 m c main_v2 := by
  rw [(dat0 (V1 m) c).arrAt_in 3 rfl, A_eq0, W2_of m c main_v2 (by decide)]
theorem hF0_4 (c : Dev nD) : (dat0 (V1 m) c).arrAt 4 cfg0.N = W2 m c main_v7 := by
  rw [(dat0 (V1 m) c).arrAt_in 4 rfl, A_eq0, W2_of m c main_v7 (by decide)]
theorem hF0_5 (c : Dev nD) : (dat0 (V1 m) c).arrAt 5 cfg0.N = W2 m c main_v14_0 := (W2_main_v14_0 m c).symm
theorem hF0_6 (c : Dev nD) : (dat0 (V1 m) c).arrAt 6 cfg0.N = W2 m c main_v14_1 := (W2_main_v14_1 m c).symm

/-- Every window's array after the last point is what the exit contents say. -/
theorem hF0 (c : Dev nD) (w : Fin cfg0.W) : (dat0 (V1 m) c).arrAt w cfg0.N = V2 m c (Pipeline.arrRef spec0 w) := by
  match w with
  | ⟨0, _⟩ => exact hF0_0 m c
  | ⟨1, _⟩ => exact hF0_1 m c
  | ⟨2, _⟩ => exact hF0_2 m c
  | ⟨3, _⟩ => exact hF0_3 m c
  | ⟨4, _⟩ => exact hF0_4 m c
  | ⟨5, _⟩ => exact hF0_5 m c
  | ⟨6, _⟩ => exact hF0_6 m c

/-- The arrays region 0's windows name. -/
theorem image_arrRef0 : (Finset.univ.image (Pipeline.arrRef spec0) : Finset (Ref sig .tc)) = {main_arg0, main_arg2, main_v10, main_v2, main_v7, main_v14_0, main_v14_1} := by decide
/-- Off its windows' arrays region 0 changes nothing. -/
theorem hrest0 (c : Dev nD) : ∀ b, b ∉ Finset.univ.image (Pipeline.arrRef spec0) → V2 m c b = V1 m c b := fun b hb =>
  W2_of m c b fun h => hb (by
    rw [image_arrRef0]
    simp only [List.mem_cons, List.not_mem_nil, or_false] at h
    rcases h with rfl | rfl <;> decide)

end Cert.KernelIdeal.Hand

end
-- ==== Proof.KI.Half1.lean ====
/-
  Region 1 of the program: the per-point half of its pipeline's correctness.

  The region runs over 25 grid points. Its thirteen windows are: five 80×10000 f32 blocks of rows of one 10000×10000
  matrix (windows 0–4: at a point the five together are 400 consecutive rows), a whole 10000×128 bf16 matrix (window 5,
  the same block at every point), a 400×128 block of rows (window 6, moving with the point), a 128×64 weight matrix and
  a 1×64 bias row (windows 7 and 8, the same block at every point), and four output blocks moving with the point: the
  400×10000 bf16 copy of the five input blocks (window 9), a 400×64 block in f32 and in bf16 (windows 10 and 11) and a
  400×1 column of row scales (window 12). At each point the body reads the nine input buffers whole and writes the four
  output buffers whole: with G := bf16(A)·Z,
    window 9 := bf16 (A),   window 12 := 1 / max (G[:, 64], 10⁻¹²),
    window 10 := max (h·W + G[:, 0:64] ⊙ window 12 + b, 0),   window 11 := bf16 (window 10).
  This module names each window's block at a point, names what the body leaves in each output buffer as a function of the
  input blocks, proves the body's separation-logic triple, packages the per-point contents as proof data over arbitrary
  region-entry contents, and proves the pipeline library's body obligation for that data. The shares at which the windows
  hold their arrays (windows 0–4 share one array) are recorded in the proof data; the body never sees them: it works on
  the staging buffers, each held whole.
-/
import proofs.«181542_g78589311582291_cont_9to1_m_296_16_alg».proof.Proof.Gen.KernelIdeal.Launch
import proofs.«181542_g78589311582291_cont_9to1_m_296_16_alg».proof.Proof.Gen.KernelIdeal.Skeleton
import proofs.«181542_g78589311582291_cont_9to1_m_296_16_alg».proof.Proof.Gen.KernelIdeal.Points
import proofs.«181542_g78589311582291_cont_9to1_m_296_16_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a store's rectangle tiles a buffer with a long axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- what the core's buffers hold when the region is entered; everything below is stated at an arbitrary such `V`
variable (V : (c : Dev nD) → (b : Ref sig .tc) → Buf (Elt F) ((c : Thread nD τ).loc b))

/-! ## Blocks -/

/-- The block of window `w` at grid point `t`: the part of the window's array, as the region finds it, that the
    window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's staging buffer holds its block

For proof data whose array for the window is the entry contents and whose body leaves the window's buffer at its block,
the buffer the body finds at a point holds the block of that point. At a point where the window was just fetched this is
what the fetch wrote; at a point where it was not, the window's block index is the previous point's, so the block is the
one already there. None of these windows is cut at the array's edge and none is ever idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is a whole buffer -/

abbrev r1_S80x10000 : Rect S80x10000 := Rect.unit (s := S80x10000) ![0, 0] S80x10000.size inb_S80x10000_S80x10000_0_0
abbrev r1_S10000x128 : Rect S10000x128 := Rect.unit (s := S10000x128) ![0, 0] S10000x128.size inb_S10000x128_S10000x128_0_0
abbrev r1_S400x128 : Rect S400x128 := Rect.unit (s := S400x128) ![0, 0] S400x128.size inb_S400x128_S400x128_0_0
abbrev r1_S128x64 : Rect S128x64 := Rect.unit (s := S128x64) ![0, 0] S128x64.size inb_S128x64_S128x64_0_0
abbrev r1_S1x64 : Rect S1x64 := Rect.unit (s := S1x64) ![0, 0] S1x64.size inb_S1x64_S1x64_0_0
abbrev r1_S400x10000 : Rect S400x10000 := Rect.unit (s := S400x10000) ![0, 0] S400x10000.size inb_S400x10000_S400x10000_0_0
abbrev r1_S400x64 : Rect S400x64 := Rect.unit (s := S400x64) ![0, 0] S400x64.size inb_S400x64_S400x64_0_0
abbrev r1_S400x1 : Rect S400x1 := Rect.unit (s := S400x1) ![0, 0] S400x1.size inb_S400x1_S400x1_0_0

/-! ## What the body leaves in the output buffers -/

/-- Output window 9's buffer after the body, from the blocks of windows 0–4: one store of the whole buffer, of the five
    80×10000 blocks each rounded to bf16 and stacked into one 400×10000 block (`k1_pay9`). -/
def out1_9 (x0 : Vec F S80x10000 .f32) (x1 : Vec F S80x10000 .f32) (x2 : Vec F S80x10000 .f32) (x3 : Vec F S80x10000 .f32) (x4 : Vec F S80x10000 .f32) : Vec F S400x10000 .bf16 :=
  View.canon [⟨r1_S400x10000, k1_pay9 (View.ld x0 r1_S80x10000) (View.ld x1 r1_S80x10000) (View.ld x2 r1_S80x10000) (View.ld x3 r1_S80x10000) (View.ld x4 r1_S80x10000)⟩]

/-- The one store covers the whole buffer. -/
theorem cover1_9 (p0 : Vec F S400x10000 .bf16) (y : S400x10000.Idx) :
    ∃ pc ∈ ([⟨r1_S400x10000, p0⟩] : List (View.Piece (Elt F) S400x10000 .bf16)), y ∈ pc.1.set :=
  View.cover_of_tiled [⟨r1_S400x10000, p0⟩] S400x10000.size (by rfl) y

/-- Output window 10's buffer after the body, from the blocks of windows 0–8: one store of the whole buffer. With `G` the
    400×128 product of the stacked bf16 blocks with the 10000×128 matrix of window 5 (`k1_pay8`) and `s` the reciprocal
    row scales of window 12 (`k1_pay10`), `k1_pay1` is `max (h·W + G[:, 0:64] ⊙ s + b, 0)` (`h` window 6, `W` window 7,
    `b` the bias row of window 8; the matrix product accumulates from zero). -/
def out1_10 (x0 : Vec F S80x10000 .f32) (x1 : Vec F S80x10000 .f32) (x2 : Vec F S80x10000 .f32) (x3 : Vec F S80x10000 .f32) (x4 : Vec F S80x10000 .f32) (x5 : Vec F S10000x128 .bf16) (x6 : Vec F S400x128 .f32) (x7 : Vec F S128x64 .f32) (x8 : Vec F S1x64 .f32) : Vec F S400x64 .f32 :=
  View.canon [⟨r1_S400x64, k1_pay1 (k1_pay8 (View.ld x0 r1_S80x10000) (View.ld x1 r1_S80x10000) (View.ld x2 r1_S80x10000) (View.ld x3 r1_S80x10000) (View.ld x4 r1_S80x10000) (View.ld x5 r1_S10000x128)) (k1_pay10 (View.ld x0 r1_S80x10000) (View.ld x1 r1_S80x10000) (View.ld x2 r1_S80x10000) (View.ld x3 r1_S80x10000) (View.ld x4 r1_S80x10000) (View.ld x5 r1_S10000x128)) (k1_pay11 (View.ld x6 r1_S400x128)) (View.ld x7 r1_S128x64) (constant S400x64 .f32 0x00000000#32) (View.ld x8 r1_S1x64)⟩]

/-- The one store covers the whole buffer. -/
theorem cover1_10 (p0 : Vec F S400x64 .f32) (y : S400x64.Idx) :
    ∃ pc ∈ ([⟨r1_S400x64, p0⟩] : List (View.Piece (Elt F) S400x64 .f32)), y ∈ pc.1.set :=
  View.cover_of_tiled [⟨r1_S400x64, p0⟩] S400x64.size (by rfl) y

/-- Output window 11's buffer after the body, from the blocks of windows 0–8: one store of the whole buffer, of window 10's
    value rounded to bf16 (`k1_pay2`). -/
def out1_11 (x0 : Vec F S80x10000 .f32) (x1 : Vec F S80x10000 .f32) (x2 : Vec F S80x10000 .f32) (x3 : Vec F S80x10000 .f32) (x4 : Vec F S80x10000 .f32) (x5 : Vec F S10000x128 .bf16) (x6 : Vec F S400x128 .f32) (x7 : Vec F S128x64 .f32) (x8 : Vec F S1x64 .f32) : Vec F S400x64 .bf16 :=
  View.canon [⟨r1_S400x64, k1_pay2 (k1_pay8 (View.ld x0 r1_S80x10000) (View.ld x1 r1_S80x10000) (View.ld x2 r1_S80x10000) (View.ld x3 r1_S80x10000) (View.ld x4 r1_S80x10000) (View.ld x5 r1_S10000x128)) (k1_pay10 (View.ld x0 r1_S80x10000) (View.ld x1 r1_S80x10000) (View.ld x2 r1_S80x10000) (View.ld x3 r1_S80x10000) (View.ld x4 r1_S80x10000) (View.ld x5 r1_S10000x128)) (k1_pay11 (View.ld x6 r1_S400x128)) (View.ld x7 r1_S128x64) (constant S400x64 .f32 0x00000000#32) (View.ld x8 r1_S1x64)⟩]

/-- The one store covers the whole buffer. -/
theorem cover1_11 (p0 : Vec F S400x64 .bf16) (y : S400x64.Idx) :
    ∃ pc ∈ ([⟨r1_S400x64, p0⟩] : List (View.Piece (Elt F) S400x64 .bf16)), y ∈ pc.1.set :=
  View.cover_of_tiled [⟨r1_S400x64, p0⟩] S400x64.size (by rfl) y

/-- Output window 12's buffer after the body, from the blocks of windows 0–5: one store of the whole buffer, of the 400×1
    column `1 / max (G[:, 64], 10⁻¹²)` where `G` is the product of the stacked bf16 blocks with the matrix of window 5
    (`k1_pay10`). -/
def out1_12 (x0 : Vec F S80x10000 .f32) (x1 : Vec F S80x10000 .f32) (x2 : Vec F S80x10000 .f32) (x3 : Vec F S80x10000 .f32) (x4 : Vec F S80x10000 .f32) (x5 : Vec F S10000x128 .bf16) : Vec F S400x1 .f32 :=
  View.canon [⟨r1_S400x1, k1_pay10 (View.ld x0 r1_S80x10000) (View.ld x1 r1_S80x10000) (View.ld x2 r1_S80x10000) (View.ld x3 r1_S80x10000) (View.ld x4 r1_S80x10000) (View.ld x5 r1_S10000x128)⟩]

/-- The one store covers the whole buffer. -/
theorem cover1_12 (p0 : Vec F S400x1 .f32) (y : S400x1.Idx) :
    ∃ pc ∈ ([⟨r1_S400x1, p0⟩] : List (View.Piece (Elt F) S400x1 .f32)), y ∈ pc.1.set :=
  View.cover_of_tiled [⟨r1_S400x1, p0⟩] S400x1.size (by rfl) y

/-! ## The body's triple -/

set_option maxHeartbeats 1000000 in
/-- The body on whole staging buffers: with the nine inputs' buffers at contents `xW` and the four outputs' at anything, it
    runs to a state with the inputs' buffers unchanged and each output's at `out1_W` of the inputs. The printed body and
    the printed first part it calls are rewritten to their sequences of loads and stores over named values, and the whole
    is run symbolically, through the call. -/
theorem sound_kernel1 (c : Dev nD) (E : Set ℕ) (i : grid1.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .bf16) (harg6 : arg6.IsWhole) (arg7 : Memref sig .tc .vmem S400x128 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S400x10000 .bf16) (harg10 : arg10.IsWhole) (arg11 : Memref sig .tc .vmem S400x64 .f32) (harg11 : arg11.IsWhole) (arg12 : Memref sig .tc .vmem S400x64 .bf16) (harg12 : arg12.IsWhole) (arg13 : Memref sig .tc .vmem S400x1 .f32) (harg13 : arg13.IsWhole)
    (x0 : Vec F S80x10000 .f32) (x1 : Vec F S80x10000 .f32) (x2 : Vec F S80x10000 .f32) (x3 : Vec F S80x10000 .f32) (x4 : Vec F S80x10000 .f32) (x5 : Vec F S10000x128 .bf16) (x6 : Vec F S400x128 .f32) (x7 : Vec F S128x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4) ∗ owns (c : Thread nD τ) arg11 fullShare (out1_10 x0 x1 x2 x3 x4 x5 x6 x7 x8) ∗ owns (c : Thread nD τ) arg12 fullShare (out1_11 x0 x1 x2 x3 x4 x5 x6 x7 x8) ∗ owns (c : Thread nD τ) arg13 fullShare (out1_12 x0 x1 x2 x3 x4 x5)) -∗ K ⟨⟩))
      ⊢ wp frame (wpE (defs₀ (F := F)) Variants.none c none) E (cc1__p1_body i arg1 harg1 arg2 harg2 arg3 harg3 arg4 harg4 arg5 harg5 arg6 harg6 arg7 harg7 arg8 harg8 arg9 harg9 arg10 harg10 arg11 harg11 arg12 harg12 arg13 harg13) K := by
  simp only [cc1__p1_body_eq_skeleton]; unfold cc1__p1_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover1_9 _)
  isplitl [H10]
  · iexists _; isplitr
    swap; · iexact H10
    ipureintro
    exact View.read_writes_eq_canon _ _ _ (cover1_10 _)
  isplitl [H11]
  · iexists _; isplitr
    swap; · iexact H11
    ipureintro
    exact View.read_writes_eq_canon _ _ _ (cover1_11 _)
  iexists _; isplitr
  swap; · iexact H12
  ipureintro
  exact View.read_writes_eq_canon _ _ _ (cover1_12 _)

/-! ## The proof data -/

/-- The proof data of this region's pipeline on core `c`. Every array starts at the entry contents `V`. After the body at
    point `t` an input's buffer still holds its block, and an output's buffer holds `out1_W` of the input blocks at `t`.
    The invariant is the one that carries the untouched rest of the core's state along; nothing is ever owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨12, _⟩ => out1_12 (iblk1 V c 0 t) (iblk1 V c 1 t) (iblk1 V c 2 t) (iblk1 V c 3 t) (iblk1 V c 4 t) (iblk1 V c 5 t)
  Φ _ := Pipeline.ΦA spec1 c
  q w := Cert.Hand.Shares.q w
  owed _ := 0

/-- The arrays of the proof data are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) := by dsimp only [dat1]

/-- Each input's buffer holds its block when the body is called, whether the window was fetched at that point or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation -/

/-- What the body is handed at point `t`: the invariant, what is owed, and every window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 1000000 in
/-- The body at any point: its input buffers hold their blocks, so the body's triple applies; the invariant and what is owed
    are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation for this region, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Arr1.lean ====
/-
  Region 1 (the first pass over the adjacency matrix) takes thirteen windows, the first five of them on ONE array: the
  adjacency matrix, read as five row slabs at once. When the region is entered the kernel holds nine distinct buffers
  whole; the region's windows want thirteen holdings, the matrix at its five shares and every other array whole. This
  module proves the two rearrangements: the nine buffers at contents `V` are the thirteen holdings at `V`, and back.
-/
import proofs.«181542_g78589311582291_cont_9to1_m_296_16_alg».proof.Proof.Gen.KernelIdeal.Launch
import proofs.«181542_g78589311582291_cont_9to1_m_296_16_alg».proof.Proof.LibFiveWindows
import Idealize.ShloMosaic.Lib.Pipeline.Kit
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The arrays region 1's windows name: nine distinct buffers (the adjacency matrix five times over). -/
theorem image_arrRef1 : (Finset.univ.image (Pipeline.arrRef spec1) : Finset (Ref sig .tc))
    = {main_arg1, main_v14_1, main_v14_0, main_arg4, main_v11, main_v15_0, main_v15_1, main_v15_2, main_v15_3} := by decide

section
variable (c : Dev nD) (dat : Dat τ (Elt F) Unit ℕ (UR sig nD τ) ℕ cfg1 c) (hq : ∀ w, dat.q w = Cert.Hand.Shares.q w)

include hq in
/-- An input window holds its array at the share the proof data names. -/
theorem share1_in (w : Fin cfg1.W) (hw : w.val < 9) : dat.share w = Cert.Hand.Shares.q w := by
  unfold Dat.share; rw [hq]
  match w, hw with
  | ⟨0, _⟩, _ => rfl | ⟨1, _⟩, _ => rfl | ⟨2, _⟩, _ => rfl | ⟨3, _⟩, _ => rfl | ⟨4, _⟩, _ => rfl
  | ⟨5, _⟩, _ => rfl | ⟨6, _⟩, _ => rfl | ⟨7, _⟩, _ => rfl | ⟨8, _⟩, _ => rfl

/-- An output window holds its array whole. -/
theorem share1_out (w : Fin cfg1.W) (hw : 9 ≤ w.val) : dat.share w = fullShare := by
  unfold Dat.share
  match w, hw with
  | ⟨9, _⟩, _ => rfl | ⟨10, _⟩, _ => rfl | ⟨11, _⟩, _ => rfl | ⟨12, _⟩, _ => rfl

variable (V : (b : Ref sig .tc) → Buf (Elt F) ((c.tc : Thread nD τ).loc b))
  (G : (w : Fin cfg1.W) → Buf (Elt F) ((cfg1.win w).arr.view.loc (c.tc : Thread nD τ)))
  (hG : ∀ w, G w = V (Pipeline.arrRef spec1 w))

include hq hG in
/-- The windows' holdings, each array a whole buffer, written over the buffers' names and window by window. -/
theorem arrays1_eq : (dat.arrays G : sProp 𝕄) = iprop(
      (((c.tc : Thread nD τ).loc main_arg1) ↦{Cert.Hand.Shares.s0} V main_arg1) ∗ (((c.tc : Thread nD τ).loc main_arg1) ↦{Cert.Hand.Shares.s1} V main_arg1)
    ∗ (((c.tc : Thread nD τ).loc main_arg1) ↦{Cert.Hand.Shares.s2} V main_arg1) ∗ (((c.tc : Thread nD τ).loc main_arg1) ↦{Cert.Hand.Shares.s3} V main_arg1)
    ∗ (((c.tc : Thread nD τ).loc main_arg1) ↦{Cert.Hand.Shares.s4} V main_arg1)
    ∗ (((c.tc : Thread nD τ).loc main_v14_1) ↦{fullShare} V main_v14_1) ∗ (((c.tc : Thread nD τ).loc main_v14_0) ↦{fullShare} V main_v14_0)
    ∗ (((c.tc : Thread nD τ).loc main_arg4) ↦{fullShare} V main_arg4) ∗ (((c.tc : Thread nD τ).loc main_v11) ↦{fullShare} V main_v11)
    ∗ (((c.tc : Thread nD τ).loc main_v15_0) ↦{fullShare} V main_v15_0) ∗ (((c.tc : Thread nD τ).loc main_v15_1) ↦{fullShare} V main_v15_1)
    ∗ (((c.tc : Thread nD τ).loc main_v15_2) ↦{fullShare} V main_v15_2) ∗ (((c.tc : Thread nD τ).loc main_v15_3) ↦{fullShare} V main_v15_3)) := by
  have e : (dat.arrays G : sProp 𝕄) = bigSep Finset.univ fun w : Fin cfg1.W =>
      ((((c.tc : Thread nD τ).loc (Pipeline.arrRef spec1 w)) ↦{dat.share w} V (Pipeline.arrRef spec1 w)) : sProp 𝕄) := by
    unfold Dat.arrays
    exact bigSep_congr fun w _ => by rw [(arr_whole1 w).set_eq_univ, hG]
  rw [e, bigSep_W1,
    share1_in c dat hq 0 (by decide), share1_in c dat hq 1 (by decide), share1_in c dat hq 2 (by decide), share1_in c dat hq 3 (by decide),
    share1_in c dat hq 4 (by decide), share1_in c dat hq 5 (by decide), share1_in c dat hq 6 (by decide), share1_in c dat hq 7 (by decide),
    share1_in c dat hq 8 (by decide), share1_out c dat 9 (by decide), share1_out c dat 10 (by decide), share1_out c dat 11 (by decide),
    share1_out c dat 12 (by decide)]
  rfl

/-- The nine buffers behind the windows, one by one. -/
theorem arrBufs1_eq : (Pipeline.arrBufs (Ix := Unit) (Name := ℕ) (U := UR sig nD τ) (Lvl := ℕ) spec1 c V : sProp 𝕄) = iprop(
      (((c.tc : Thread nD τ).loc main_arg1) ↦{fullShare} V main_arg1)
    ∗ (((c.tc : Thread nD τ).loc main_v14_1) ↦{fullShare} V main_v14_1) ∗ (((c.tc : Thread nD τ).loc main_v14_0) ↦{fullShare} V main_v14_0)
    ∗ (((c.tc : Thread nD τ).loc main_arg4) ↦{fullShare} V main_arg4) ∗ (((c.tc : Thread nD τ).loc main_v11) ↦{fullShare} V main_v11)
    ∗ (((c.tc : Thread nD τ).loc main_v15_0) ↦{fullShare} V main_v15_0) ∗ (((c.tc : Thread nD τ).loc main_v15_1) ↦{fullShare} V main_v15_1)
    ∗ (((c.tc : Thread nD τ).loc main_v15_2) ↦{fullShare} V main_v15_2) ∗ (((c.tc : Thread nD τ).loc main_v15_3) ↦{fullShare} V main_v15_3)) := by
  unfold Pipeline.arrBufs
  rw [image_arrRef1, bigSep_insert (by decide), bigSep_insert (by decide), bigSep_insert (by decide), bigSep_insert (by decide),
    bigSep_insert (by decide), bigSep_insert (by decide), bigSep_insert (by decide), bigSep_insert (by decide), bigSep_singleton]
  rfl

include hq hG in
/-- ENTRY: the nine buffers at `V` are the thirteen windows' holdings at `V` — the adjacency matrix split five ways. -/
theorem arrays1_of_arrBufs :
    (Pipeline.arrBufs (Ix := Unit) (Name := ℕ) (U := UR sig nD τ) (Lvl := ℕ) spec1 c V : sProp 𝕄) ⊢ dat.arrays G := by
  rw [arrBufs1_eq c V, arrays1_eq c dat hq V G hG]
  iintro ⟨Hadj, Hrest⟩
  ihave H5 := (Cert.Hand.Shares.five_split (V main_arg1)) $$ Hadj
  icases H5 with ⟨A0, A1, A2, A3, A4⟩
  isplitl [A0]; · iexact A0
  isplitl [A1]; · iexact A1
  isplitl [A2]; · iexact A2
  isplitl [A3]; · iexact A3
  isplitl [A4]; · iexact A4
  iexact Hrest

include hq hG in
/-- EXIT: the thirteen holdings, the five of the adjacency matrix at one contents, are the nine buffers whole again. -/
theorem arrBufs1_of_arrays :
    (dat.arrays G : sProp 𝕄) ⊢ Pipeline.arrBufs (Ix := Unit) (Name := ℕ) (U := UR sig nD τ) (Lvl := ℕ) spec1 c V := by
  rw [arrBufs1_eq c V, arrays1_eq c dat hq V G hG]
  iintro ⟨A0, A1, A2, A3, A4, Hrest⟩
  isplitl [A0 A1 A2 A3 A4]
  · iapply (Cert.Hand.Shares.five_join (V main_arg1))
    isplitl [A0]; · iexact A0
    isplitl [A1]; · iexact A1
    isplitl [A2]; · iexact A2
    isplitl [A3]; · iexact A3
    iexact A4
  iexact Hrest
end

end Cert.KernelIdeal.Hand

end
-- ==== Proof.KI.Bound1.lean ====
/-
  The buffers' contents when kernel region 1 is left: its output arrays at what its write-backs leave, every other buffer
  as the region found it.
-/
import proofs.«181542_g78589311582291_cont_9to1_m_296_16_alg».proof.Proof.KI.Bound0
import proofs.«181542_g78589311582291_cont_9to1_m_296_16_alg».proof.Proof.KI.Half1
import proofs.«181542_g78589311582291_cont_9to1_m_296_16_alg».proof.Proof.KI.Arr1
import Idealize.ShloMosaic.Lib.Pipeline.Kit
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Region 1: what it leaves -/

/-- What region 1's write-backs leave in `main_v15_0` (window 9). -/
def o1_9 (c : Dev nD) : Buf (Elt F) ((c : Thread nD τ).loc main_v15_0) := (dat1 (V2 m) c).arrAt 9 cfg1.N
/-- What region 1's write-backs leave in `main_v15_1` (window 10). -/
def o1_10 (c : Dev nD) : Buf (Elt F) ((c : Thread nD τ).loc main_v15_1) := (dat1 (V2 m) c).arrAt 10 cfg1.N
/-- What region 1's write-backs leave in `main_v15_2` (window 11). -/
def o1_11 (c : Dev nD) : Buf (Elt F) ((c : Thread nD τ).loc main_v15_2) := (dat1 (V2 m) c).arrAt 11 cfg1.N
/-- What region 1's write-backs leave in `main_v15_3` (window 12). -/
def o1_12 (c : Dev nD) : Buf (Elt F) ((c : Thread nD τ).loc main_v15_3) := (dat1 (V2 m) c).arrAt 12 cfg1.N

/-- Core `c`'s buffers when region 1 is left: its outputs at what their write-backs left, everything else as it was entered. -/
def W3 (c : Dev nD) : Valuation τ sig (Elt F) :=
  Function.update (Function.update (Function.update (Function.update (W2 m c) main_v15_0 (o1_9 m c)) main_v15_1 (o1_10 m c)) main_v15_2 (o1_11 m c)) main_v15_3 (o1_12 m c)
/-- The same read at the TensorCore's references. -/
abbrev V3 : (c : Dev nD) → (b : Ref sig .tc) → Buf (Elt F) ((c : Thread nD τ).loc b) := fun c b => W3 m c b

/-- Region 1 changes none but its outputs. -/
theorem W3_of (c : Dev nD) (r : Ref sig .tc) (h : r ∉ ([main_v15_0, main_v15_1, main_v15_2, main_v15_3] : List (Ref sig .tc))) : W3 m c r = W2 m c r := by
  unfold W3
  simp only [Function.update_of_ne (StableHlo.devRef_ne_of_ne (List.ne_of_not_mem_cons h) : (Proc.devRef .tc r : DevRef τ sig) ≠ Proc.devRef .tc main_v15_0), Function.update_of_ne (StableHlo.devRef_ne_of_ne (List.ne_of_not_mem_cons (List.not_mem_of_not_mem_cons h)) : (Proc.devRef .tc r : DevRef τ sig) ≠ Proc.devRef .tc main_v15_1), Function.update_of_ne (StableHlo.devRef_ne_of_ne (List.ne_of_not_mem_cons (List.not_mem_of_not_mem_cons (List.not_mem_of_not_mem_cons h))) : (Proc.devRef .tc r : DevRef τ sig) ≠ Proc.devRef .tc main_v15_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v15_3)]
/-- After region 1 each of its outputs holds what its write-backs left. -/
theorem W3_main_v15_0 (c : Dev nD) : W3 m c main_v15_0 = o1_9 m c := by
  unfold W3; rw [Function.update_of_ne (StableHlo.devRef_ne_of_ne (by decide : main_v15_0 ≠ main_v15_3)), Function.update_of_ne (StableHlo.devRef_ne_of_ne (by decide : main_v15_0 ≠ main_v15_2)), Function.update_of_ne (StableHlo.devRef_ne_of_ne (by decide : main_v15_0 ≠ main_v15_1)), Function.update_self]
theorem W3_main_v15_1 (c : Dev nD) : W3 m c main_v15_1 = o1_10 m c := by
  unfold W3; rw [Function.update_of_ne (StableHlo.devRef_ne_of_ne (by decide : main_v15_1 ≠ main_v15_3)), Function.update_of_ne (StableHlo.devRef_ne_of_ne (by decide : main_v15_1 ≠ main_v15_2)), Function.update_self]
theorem W3_main_v15_2 (c : Dev nD) : W3 m c main_v15_2 = o1_11 m c := by
  unfold W3; rw [Function.update_of_ne (StableHlo.devRef_ne_of_ne (by decide : main_v15_2 ≠ main_v15_3)), Function.update_self]
theorem W3_main_v15_3 (c : Dev nD) : W3 m c main_v15_3 = o1_12 m c := by
  unfold W3; rw [Function.update_self]

/-- Window by window: an input's array is never written, an output's is its write-backs. -/
theorem hF1_0 (c : Dev nD) : (dat1 (V2 m) c).arrAt 0 cfg1.N = W3 m c main_arg1 := by
  rw [(dat1 (V2 m) c).arrAt_in 0 rfl, A_eq1, W3_of m c main_arg1 (by decide)]
theorem hF1_1 (c : Dev nD) : (dat1 (V2 m) c).arrAt 1 cfg1.N = W3 m c main_arg1 := by
  rw [(dat1 (V2 m) c).arrAt_in 1 rfl, A_eq1, W3_of m c main_arg1 (by decide)]
theorem hF1_2 (c : Dev nD) : (dat1 (V2 m) c).arrAt 2 cfg1.N = W3 m c main_arg1 := by
  rw [(dat1 (V2 m) c).arrAt_in 2 rfl, A_eq1, W3_of m c main_arg1 (by decide)]
theorem hF1_3 (c : Dev nD) : (dat1 (V2 m) c).arrAt 3 cfg1.N = W3 m c main_arg1 := by
  rw [(dat1 (V2 m) c).arrAt_in 3 rfl, A_eq1, W3_of m c main_arg1 (by decide)]
theorem hF1_4 (c : Dev nD) : (dat1 (V2 m) c).arrAt 4 cfg1.N = W3 m c main_arg1 := by
  rw [(dat1 (V2 m) c).arrAt_in 4 rfl, A_eq1, W3_of m c main_arg1 (by decide)]
theorem hF1_5 (c : Dev nD) : (dat1 (V2 m) c).arrAt 5 cfg1.N = W3 m c main_v14_1 := by
  rw [(dat1 (V2 m) c).arrAt_in 5 rfl, A_eq1, W3_of m c main_v14_1 (by decide)]
theorem hF1_6 (c : Dev nD) : (dat1 (V2 m) c).arrAt 6 cfg1.N = W3 m c main_v14_0 := by
  rw [(dat1 (V2 m) c).arrAt_in 6 rfl, A_eq1, W3_of m c main_v14_0 (by decide)]
theorem hF1_7 (c : Dev nD) : (dat1 (V2 m) c).arrAt 7 cfg1.N = W3 m c main_arg4 := by
  rw [(dat1 (V2 m) c).arrAt_in 7 rfl, A_eq1, W3_of m c main_arg4 (by decide)]
theorem hF1_8 (c : Dev nD) : (dat1 (V2 m) c).arrAt 8 cfg1.N = W3 m c main_v11 := by
  rw [(dat1 (V2 m) c).arrAt_in 8 rfl, A_eq1, W3_of m c main_v11 (by decide)]
theorem hF1_9 (c : Dev nD) : (dat1 (V2 m) c).arrAt 9 cfg1.N = W3 m c main_v15_0 := (W3_main_v15_0 m c).symm
theorem hF1_10 (c : Dev nD) : (dat1 (V2 m) c).arrAt 10 cfg1.N = W3 m c main_v15_1 := (W3_main_v15_1 m c).symm
theorem hF1_11 (c : Dev nD) : (dat1 (V2 m) c).arrAt 11 cfg1.N = W3 m c main_v15_2 := (W3_main_v15_2 m c).symm
theorem hF1_12 (c : Dev nD) : (dat1 (V2 m) c).arrAt 12 cfg1.N = W3 m c main_v15_3 := (W3_main_v15_3 m c).symm

/-- Every window's array after the last point is what the exit contents say. -/
theorem hF1 (c : Dev nD) (w : Fin cfg1.W) : (dat1 (V2 m) c).arrAt w cfg1.N = V3 m c (Pipeline.arrRef spec1 w) := by
  match w with
  | ⟨0, _⟩ => exact hF1_0 m c
  | ⟨1, _⟩ => exact hF1_1 m c
  | ⟨2, _⟩ => exact hF1_2 m c
  | ⟨3, _⟩ => exact hF1_3 m c
  | ⟨4, _⟩ => exact hF1_4 m c
  | ⟨5, _⟩ => exact hF1_5 m c
  | ⟨6, _⟩ => exact hF1_6 m c
  | ⟨7, _⟩ => exact hF1_7 m c
  | ⟨8, _⟩ => exact hF1_8 m c
  | ⟨9, _⟩ => exact hF1_9 m c
  | ⟨10, _⟩ => exact hF1_10 m c
  | ⟨11, _⟩ => exact hF1_11 m c
  | ⟨12, _⟩ => exact hF1_12 m c

/-- Off its windows' arrays region 1 changes nothing. -/
theorem hrest1 (c : Dev nD) : ∀ b, b ∉ Finset.univ.image (Pipeline.arrRef spec1) → V3 m c b = V2 m c b := fun b hb =>
  W3_of m c b fun h => hb (by
    rw [image_arrRef1]
    simp only [List.mem_cons, List.not_mem_nil, or_false] at h
    rcases h with rfl | rfl | rfl | rfl <;> decide)

end Cert.KernelIdeal.Hand

end
-- ==== Proof.KI.Half2.lean ====
/-
  Region 2 of the program: the per-point half of its pipeline's correctness.

  The region runs over 10 grid points. Its fourteen windows are: five 200×10000 bf16 blocks of rows of one 10000×10000
  matrix (windows 0–4: at a point the five together are 1000 consecutive rows), the whole 10000×64 bf16 feature matrix
  (window 5, the same block at every point), a 1000×64 block and a 1000×1 column of per-row scales (windows 6 and 7,
  moving with the point), two 64×128 weight matrices, a 1×128 bias row and a 128×40 matrix (windows 8–11, the same block at
  every point), and two output blocks, 1000×128 f32 and 1000×40 bf16 (windows 12 and 13, moving with the point). At each
  point the body reads the twelve input buffers whole and writes the two output buffers whole:
    window 12 := max (h·Wₛ + ((A·z) ⊙ s)·Wₙ + b, 0),        window 13 := bf16 (window 12 · P).
  This module names each window's block at a point, names what the body leaves in each output buffer as a function of the
  input blocks, proves the body's separation-logic triple, packages the per-point contents as proof data over arbitrary
  region-entry contents, and proves the pipeline library's body obligation for that data. The shares at which the windows
  hold their arrays (windows 0–4 share one array) are recorded in the proof data; the body never sees them: it works on
  the staging buffers, each held whole.
-/
import proofs.«181542_g78589311582291_cont_9to1_m_296_16_alg».proof.Proof.Gen.KernelIdeal.Launch
import proofs.«181542_g78589311582291_cont_9to1_m_296_16_alg».proof.Proof.Gen.KernelIdeal.Skeleton
import proofs.«181542_g78589311582291_cont_9to1_m_296_16_alg».proof.Proof.Gen.KernelIdeal.Points
import proofs.«181542_g78589311582291_cont_9to1_m_296_16_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a store's rectangle tiles a buffer with a long axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- what the core's buffers hold when the region is entered; everything below is stated at an arbitrary such `V`
variable (V : (c : Dev nD) → (b : Ref sig .tc) → Buf (Elt F) ((c : Thread nD τ).loc b))

/-! ## Blocks -/

/-- The block of window `w` at grid point `t`: the part of the window's array, as the region finds it, that the
    window's index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input's staging buffer holds its block

For proof data whose array for the window is the entry contents and whose body leaves the window's buffer at its block,
the buffer the body finds at a point holds the block of that point. At a point where the window was just fetched this is
what the fetch wrote; at a point where it was not, the window's block index is the previous point's, so the block is the
one already there. None of these windows is cut at the array's edge and none is ever idle. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is a whole buffer -/

abbrev r2_S200x10000 : Rect S200x10000 := Rect.unit (s := S200x10000) ![0, 0] S200x10000.size inb_S200x10000_S200x10000_0_0
abbrev r2_S10000x64 : Rect S10000x64 := Rect.unit (s := S10000x64) ![0, 0] S10000x64.size inb_S10000x64_S10000x64_0_0
abbrev r2_S1000x64 : Rect S1000x64 := Rect.unit (s := S1000x64) ![0, 0] S1000x64.size inb_S1000x64_S1000x64_0_0
abbrev r2_S1000x1 : Rect S1000x1 := Rect.unit (s := S1000x1) ![0, 0] S1000x1.size inb_S1000x1_S1000x1_0_0
abbrev r2_S64x128 : Rect S64x128 := Rect.unit (s := S64x128) ![0, 0] S64x128.size inb_S64x128_S64x128_0_0
abbrev r2_S1x128 : Rect S1x128 := Rect.unit (s := S1x128) ![0, 0] S1x128.size inb_S1x128_S1x128_0_0
abbrev r2_S128x40 : Rect S128x40 := Rect.unit (s := S128x40) ![0, 0] S128x40.size inb_S128x40_S128x40_0_0
abbrev r2_S1000x128 : Rect S1000x128 := Rect.unit (s := S1000x128) ![0, 0] S1000x128.size inb_S1000x128_S1000x128_0_0
abbrev r2_S1000x40 : Rect S1000x40 := Rect.unit (s := S1000x40) ![0, 0] S1000x40.size inb_S1000x40_S1000x40_0_0

/-! ## What the body leaves in the output buffers -/

/-- Output window 12's buffer after the body, from the blocks of windows 0–10: one store of the whole buffer. With `A` the
    five 200×10000 adjacency blocks stacked (each multiplied into the 10000×64 features, the five products concatenated),
    `k2_pay3` is `h·Wₛ + (A·z ⊙ s)·Wₙ` (`h` window 6, `s` the 1000×1 scale column of window 7 broadcast along the rows,
    `Wₛ`, `Wₙ` windows 8 and 9), and `k2_pay1` adds the bias row of window 10 and takes the maximum with zero. -/
def out2_12 (x0 : Vec F S200x10000 .bf16) (x1 : Vec F S200x10000 .bf16) (x2 : Vec F S200x10000 .bf16) (x3 : Vec F S200x10000 .bf16) (x4 : Vec F S200x10000 .bf16) (x5 : Vec F S10000x64 .bf16) (x6 : Vec F S1000x64 .f32) (x7 : Vec F S1000x1 .f32) (x8 : Vec F S64x128 .f32) (x9 : Vec F S64x128 .f32) (x10 : Vec F S1x128 .f32) : Vec F S1000x128 .f32 :=
  View.canon [⟨r2_S1000x128, k2_pay1 (k2_pay3 (View.ld x5 r2_S10000x64) (View.ld x0 r2_S200x10000) (View.ld x1 r2_S200x10000) (View.ld x2 r2_S200x10000) (View.ld x3 r2_S200x10000) (View.ld x4 r2_S200x10000) (View.ld x7 r2_S1000x1) (View.ld x6 r2_S1000x64) (View.ld x8 r2_S64x128) (View.ld x9 r2_S64x128)) (View.ld x10 r2_S1x128)⟩]

/-- The one store covers the whole buffer. -/
theorem cover2_12 (p0 : Vec F S1000x128 .f32) (y : S1000x128.Idx) :
    ∃ pc ∈ ([⟨r2_S1000x128, p0⟩] : List (View.Piece (Elt F) S1000x128 .f32)), y ∈ pc.1.set :=
  View.cover_of_tiled [⟨r2_S1000x128, p0⟩] S1000x128.size (by rfl) y

/-- Output window 13's buffer after the body, from the blocks of windows 0–11: one store of the whole buffer, of window 12's
    value times the 128×40 matrix of window 11, rounded to bf16 (`k2_pay2`). -/
def out2_13 (x0 : Vec F S200x10000 .bf16) (x1 : Vec F S200x10000 .bf16) (x2 : Vec F S200x10000 .bf16) (x3 : Vec F S200x10000 .bf16) (x4 : Vec F S200x10000 .bf16) (x5 : Vec F S10000x64 .bf16) (x6 : Vec F S1000x64 .f32) (x7 : Vec F S1000x1 .f32) (x8 : Vec F S64x128 .f32) (x9 : Vec F S64x128 .f32) (x10 : Vec F S1x128 .f32) (x11 : Vec F S128x40 .f32) : Vec F S1000x40 .bf16 :=
  View.canon [⟨r2_S1000x40, k2_pay2 (k2_pay3 (View.ld x5 r2_S10000x64) (View.ld x0 r2_S200x10000) (View.ld x1 r2_S200x10000) (View.ld x2 r2_S200x10000) (View.ld x3 r2_S200x10000) (View.ld x4 r2_S200x10000) (View.ld x7 r2_S1000x1) (View.ld x6 r2_S1000x64) (View.ld x8 r2_S64x128) (View.ld x9 r2_S64x128)) (View.ld x10 r2_S1x128) (View.ld x11 r2_S128x40)⟩]

/-- The one store covers the whole buffer. -/
theorem cover2_13 (p0 : Vec F S1000x40 .bf16) (y : S1000x40.Idx) :
    ∃ pc ∈ ([⟨r2_S1000x40, p0⟩] : List (View.Piece (Elt F) S1000x40 .bf16)), y ∈ pc.1.set :=
  View.cover_of_tiled [⟨r2_S1000x40, p0⟩] S1000x40.size (by rfl) y

/-! ## The body's triple -/

set_option maxHeartbeats 1000000 in
/-- The body on whole staging buffers: with the twelve inputs' buffers at contents `xW` and the two outputs' at anything, it
    runs to a state with the inputs' buffers unchanged and each output's at `out2_W` of the inputs. The printed body and
    the printed first part it calls are rewritten to their sequences of loads and stores over named values, and the whole
    is run symbolically, through the call. -/
theorem sound_kernel2 (c : Dev nD) (E : Set ℕ) (i : grid2.Coords) (arg1 : Memref sig .tc .vmem S200x10000 .bf16) (harg1 : arg1.IsWhole) (arg2 : Memref sig .tc .vmem S200x10000 .bf16) (harg2 : arg2.IsWhole) (arg3 : Memref sig .tc .vmem S200x10000 .bf16) (harg3 : arg3.IsWhole) (arg4 : Memref sig .tc .vmem S200x10000 .bf16) (harg4 : arg4.IsWhole) (arg5 : Memref sig .tc .vmem S200x10000 .bf16) (harg5 : arg5.IsWhole) (arg6 : Memref sig .tc .vmem S10000x64 .bf16) (harg6 : arg6.IsWhole) (arg7 : Memref sig .tc .vmem S1000x64 .f32) (harg7 : arg7.IsWhole) (arg8 : Memref sig .tc .vmem S1000x1 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S1x128 .f32) (harg11 : arg11.IsWhole) (arg12 : Memref sig .tc .vmem S128x40 .f32) (harg12 : arg12.IsWhole) (arg13 : Memref sig .tc .vmem S1000x128 .f32) (harg13 : arg13.IsWhole) (arg14 : Memref sig .tc .vmem S1000x40 .bf16) (harg14 : arg14.IsWhole)
    (x0 : Vec F S200x10000 .bf16) (x1 : Vec F S200x10000 .bf16) (x2 : Vec F S200x10000 .bf16) (x3 : Vec F S200x10000 .bf16) (x4 : Vec F S200x10000 .bf16) (x5 : Vec F S10000x64 .bf16) (x6 : Vec F S1000x64 .f32) (x7 : Vec F S1000x1 .f32) (x8 : Vec F S64x128 .f32) (x9 : Vec F S64x128 .f32) (x10 : Vec F S1x128 .f32) (x11 : Vec F S128x40 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out2_12 x0 x1 x2 x3 x4 x5 x6 x7 x8 x9 x10) ∗ owns (c : Thread nD τ) arg14 fullShare (out2_13 x0 x1 x2 x3 x4 x5 x6 x7 x8 x9 x10 x11)) -∗ K ⟨⟩))
      ⊢ wp frame (wpE (defs₀ (F := F)) Variants.none c none) E (cc2__p2_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__p2_body_eq_skeleton]; unfold cc2__p2_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover2_12 _)
  iexists _; isplitr
  swap; · iexact H13
  ipureintro
  exact View.read_writes_eq_canon _ _ _ (cover2_13 _)

/-! ## The proof data -/

/-- The proof data of this region's pipeline on core `c`. Every array starts at the entry contents `V`. After the body at
    point `t` an input's buffer still holds its block, and an output's buffer holds `out2_W` of the input blocks at `t`.
    The invariant is the one that carries the untouched rest of the core's state along; nothing is ever owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
    | ⟨13, _⟩ => out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)
  Φ _ := Pipeline.ΦA spec2 c
  q w := Cert.Hand.Shares.q w
  owed _ := 0

/-- The arrays of the proof data are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) := by dsimp only [dat2]
theorem after2_13 (c : Dev nD) (t : Fin cfg2.N) : (dat2 V c).after 13 t = out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) := by dsimp only [dat2]

/-- Each input's buffer holds its block when the body is called, whether the window was fetched at that point or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d

/-! ## The body obligation -/

/-- What the body is handed at point `t`: the invariant, what is owed, and every window's current buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t))

set_option maxHeartbeats 1000000 in
/-- The body at any point: its input buffers hold their blocks, so the body's triple applies; the invariant and what is owed
    are not touched and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel2 c Set.univ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation for this region, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Arr2.lean ====
/-
  Region 2 (the second pass) reads the half-width copy of the adjacency matrix through five windows at once, beside seven more
  inputs, and writes two outputs: ten distinct buffers behind fourteen windows. The buffers whole at contents `V` are the
  windows' holdings at `V` — the matrix copy at its five shares — and back.
-/
import proofs.«181542_g78589311582291_cont_9to1_m_296_16_alg».proof.Proof.Gen.KernelIdeal.Launch
import proofs.«181542_g78589311582291_cont_9to1_m_296_16_alg».proof.Proof.LibFiveWindows
import Idealize.ShloMosaic.Lib.Pipeline.Kit
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The arrays region 2's windows name: 10 distinct buffers (the first one five times over). -/
theorem image_arrRef2 : (Finset.univ.image (Pipeline.arrRef spec2) : Finset (Ref sig .tc))
    = {main_v15_0, main_v15_2, main_v15_1, main_v15_3, main_arg7, main_arg8, main_v12, main_v9, main_v16_0, main_v16_1} := by decide

section
variable (c : Dev nD) (dat : Dat τ (Elt F) Unit ℕ (UR sig nD τ) ℕ cfg2 c) (hq : ∀ w, dat.q w = Cert.Hand.Shares.q w)

include hq in
/-- An input window holds its array at the share the proof data names. -/
theorem share2_in (w : Fin cfg2.W) (hw : w.val < 12) : dat.share w = Cert.Hand.Shares.q w := by
  unfold Dat.share; rw [hq]
  match w, hw with
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl | ⟨7, _⟩, _ => rfl | ⟨8, _⟩, _ => rfl | ⟨9, _⟩, _ => rfl | ⟨10, _⟩, _ => rfl | ⟨11, _⟩, _ => rfl

/-- An output window holds its array whole. -/
theorem share2_out (w : Fin cfg2.W) (hw : 12 ≤ w.val) : dat.share w = fullShare := by
  unfold Dat.share
  match w, hw with
  | ⟨12, _⟩, _ => rfl | ⟨13, _⟩, _ => rfl

variable (V : (b : Ref sig .tc) → Buf (Elt F) ((c.tc : Thread nD τ).loc b))
  (G : (w : Fin cfg2.W) → Buf (Elt F) ((cfg2.win w).arr.view.loc (c.tc : Thread nD τ)))
  (hG : ∀ w, G w = V (Pipeline.arrRef spec2 w))

include hq hG in
/-- The windows' holdings, each array a whole buffer, written over the buffers' names and window by window. -/
theorem arrays2_eq : (dat.arrays G : sProp 𝕄) = iprop(
      (((c.tc : Thread nD τ).loc main_v15_0) ↦{Cert.Hand.Shares.s0} V main_v15_0) ∗ (((c.tc : Thread nD τ).loc main_v15_0) ↦{Cert.Hand.Shares.s1} V main_v15_0) ∗ (((c.tc : Thread nD τ).loc main_v15_0) ↦{Cert.Hand.Shares.s2} V main_v15_0) ∗ (((c.tc : Thread nD τ).loc main_v15_0) ↦{Cert.Hand.Shares.s3} V main_v15_0) ∗ (((c.tc : Thread nD τ).loc main_v15_0) ↦{Cert.Hand.Shares.s4} V main_v15_0)
    ∗ (((c.tc : Thread nD τ).loc main_v15_2) ↦{fullShare} V main_v15_2) ∗ (((c.tc : Thread nD τ).loc main_v15_1) ↦{fullShare} V main_v15_1) ∗ (((c.tc : Thread nD τ).loc main_v15_3) ↦{fullShare} V main_v15_3) ∗ (((c.tc : Thread nD τ).loc main_arg7) ↦{fullShare} V main_arg7) ∗ (((c.tc : Thread nD τ).loc main_arg8) ↦{fullShare} V main_arg8) ∗ (((c.tc : Thread nD τ).loc main_v12) ↦{fullShare} V main_v12) ∗ (((c.tc : Thread nD τ).loc main_v9) ↦{fullShare} V main_v9) ∗ (((c.tc : Thread nD τ).loc main_v16_0) ↦{fullShare} V main_v16_0) ∗ (((c.tc : Thread nD τ).loc main_v16_1) ↦{fullShare} V main_v16_1)) := by
  have e : (dat.arrays G : sProp 𝕄) = bigSep Finset.univ fun w : Fin cfg2.W =>
      ((((c.tc : Thread nD τ).loc (Pipeline.arrRef spec2 w)) ↦{dat.share w} V (Pipeline.arrRef spec2 w)) : sProp 𝕄) := by
    unfold Dat.arrays
    exact bigSep_congr fun w _ => by rw [(arr_whole2 w).set_eq_univ, hG]
  rw [e, bigSep_W2, share2_in c dat hq 0 (by decide), share2_in c dat hq 1 (by decide), share2_in c dat hq 2 (by decide), share2_in c dat hq 3 (by decide), share2_in c dat hq 4 (by decide), share2_in c dat hq 5 (by decide), share2_in c dat hq 6 (by decide), share2_in c dat hq 7 (by decide), share2_in c dat hq 8 (by decide), share2_in c dat hq 9 (by decide), share2_in c dat hq 10 (by decide), share2_in c dat hq 11 (by decide), share2_out c dat 12 (by decide), share2_out c dat 13 (by decide)]
  rfl

/-- The buffers behind the windows, one by one. -/
theorem arrBufs2_eq : (Pipeline.arrBufs (Ix := Unit) (Name := ℕ) (U := UR sig nD τ) (Lvl := ℕ) spec2 c V : sProp 𝕄) = iprop(
      (((c.tc : Thread nD τ).loc main_v15_0) ↦{fullShare} V main_v15_0) ∗ (((c.tc : Thread nD τ).loc main_v15_2) ↦{fullShare} V main_v15_2) ∗ (((c.tc : Thread nD τ).loc main_v15_1) ↦{fullShare} V main_v15_1) ∗ (((c.tc : Thread nD τ).loc main_v15_3) ↦{fullShare} V main_v15_3) ∗ (((c.tc : Thread nD τ).loc main_arg7) ↦{fullShare} V main_arg7) ∗ (((c.tc : Thread nD τ).loc main_arg8) ↦{fullShare} V main_arg8) ∗ (((c.tc : Thread nD τ).loc main_v12) ↦{fullShare} V main_v12) ∗ (((c.tc : Thread nD τ).loc main_v9) ↦{fullShare} V main_v9) ∗ (((c.tc : Thread nD τ).loc main_v16_0) ↦{fullShare} V main_v16_0) ∗ (((c.tc : Thread nD τ).loc main_v16_1) ↦{fullShare} V main_v16_1)) := by
  unfold Pipeline.arrBufs
  rw [image_arrRef2, bigSep_insert (by decide), bigSep_insert (by decide), bigSep_insert (by decide), bigSep_insert (by decide), bigSep_insert (by decide), bigSep_insert (by decide), bigSep_insert (by decide), bigSep_insert (by decide), bigSep_insert (by decide), bigSep_singleton]
  rfl

include hq hG in
/-- ENTRY: the buffers at `V` are the windows' holdings at `V` — the shared array split five ways. -/
theorem arrays2_of_arrBufs :
    (Pipeline.arrBufs (Ix := Unit) (Name := ℕ) (U := UR sig nD τ) (Lvl := ℕ) spec2 c V : sProp 𝕄) ⊢ dat.arrays G := by
  rw [arrBufs2_eq c V, arrays2_eq c dat hq V G hG]
  iintro ⟨Hadj, Hrest⟩
  ihave H5 := (Cert.Hand.Shares.five_split (V main_v15_0)) $$ Hadj
  icases H5 with ⟨A0, A1, A2, A3, A4⟩
  isplitl [A0]; · iexact A0
  isplitl [A1]; · iexact A1
  isplitl [A2]; · iexact A2
  isplitl [A3]; · iexact A3
  isplitl [A4]; · iexact A4
  iexact Hrest

include hq hG in
/-- EXIT: the windows' holdings, the five of the shared array at one contents, are the buffers whole again. -/
theorem arrBufs2_of_arrays :
    (dat.arrays G : sProp 𝕄) ⊢ Pipeline.arrBufs (Ix := Unit) (Name := ℕ) (U := UR sig nD τ) (Lvl := ℕ) spec2 c V := by
  rw [arrBufs2_eq c V, arrays2_eq c dat hq V G hG]
  iintro ⟨A0, A1, A2, A3, A4, Hrest⟩
  isplitl [A0 A1 A2 A3 A4]
  · iapply (Cert.Hand.Shares.five_join (V main_v15_0))
    isplitl [A0]; · iexact A0
    isplitl [A1]; · iexact A1
    isplitl [A2]; · iexact A2
    isplitl [A3]; · iexact A3
    iexact A4
  iexact Hrest
end

end Cert.KernelIdeal.Hand

end
-- ==== Proof.KI.Bound2.lean ====
/-
  The buffers' contents when kernel region 2 is left: its output arrays at what its write-backs leave, every other buffer
  as the region found it.
-/
import proofs.«181542_g78589311582291_cont_9to1_m_296_16_alg».proof.Proof.KI.Bound1
import proofs.«181542_g78589311582291_cont_9to1_m_296_16_alg».proof.Proof.KI.Half2
import proofs.«181542_g78589311582291_cont_9to1_m_296_16_alg».proof.Proof.KI.Arr2
import Idealize.ShloMosaic.Lib.Pipeline.Kit
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Region 2: what it leaves -/

/-- What region 2's write-backs leave in `main_v16_0` (window 12). -/
def o2_12 (c : Dev nD) : Buf (Elt F) ((c : Thread nD τ).loc main_v16_0) := (dat2 (V3 m) c).arrAt 12 cfg2.N
/-- What region 2's write-backs leave in `main_v16_1` (window 13). -/
def o2_13 (c : Dev nD) : Buf (Elt F) ((c : Thread nD τ).loc main_v16_1) := (dat2 (V3 m) c).arrAt 13 cfg2.N

/-- Core `c`'s buffers when region 2 is left: its outputs at what their write-backs left, everything else as it was entered. -/
def W4 (c : Dev nD) : Valuation τ sig (Elt F) :=
  Function.update (Function.update (W3 m c) main_v16_0 (o2_12 m c)) main_v16_1 (o2_13 m c)
/-- The same read at the TensorCore's references. -/
abbrev V4 : (c : Dev nD) → (b : Ref sig .tc) → Buf (Elt F) ((c : Thread nD τ).loc b) := fun c b => W4 m c b

/-- Region 2 changes none but its outputs. -/
theorem W4_of (c : Dev nD) (r : Ref sig .tc) (h : r ∉ ([main_v16_0, main_v16_1] : List (Ref sig .tc))) : W4 m c r = W3 m c r := by
  unfold W4
  simp only [Function.update_of_ne (StableHlo.devRef_ne_of_ne (List.ne_of_not_mem_cons h) : (Proc.devRef .tc r : DevRef τ sig) ≠ Proc.devRef .tc main_v16_0), Function.update_of_ne (StableHlo.devRef_ne_of_ne (List.ne_of_not_mem_cons (List.not_mem_of_not_mem_cons h)) : (Proc.devRef .tc r : DevRef τ sig) ≠ Proc.devRef .tc main_v16_1)]
/-- After region 2 each of its outputs holds what its write-backs left. -/
theorem W4_main_v16_0 (c : Dev nD) : W4 m c main_v16_0 = o2_12 m c := by
  unfold W4; rw [Function.update_of_ne (StableHlo.devRef_ne_of_ne (by decide : main_v16_0 ≠ main_v16_1)), Function.update_self]
theorem W4_main_v16_1 (c : Dev nD) : W4 m c main_v16_1 = o2_13 m c := by
  unfold W4; rw [Function.update_self]

/-- Window by window: an input's array is never written, an output's is its write-backs. -/
theorem hF2_0 (c : Dev nD) : (dat2 (V3 m) c).arrAt 0 cfg2.N = W4 m c main_v15_0 := by
  rw [(dat2 (V3 m) c).arrAt_in 0 rfl, A_eq2, W4_of m c main_v15_0 (by decide)]
theorem hF2_1 (c : Dev nD) : (dat2 (V3 m) c).arrAt 1 cfg2.N = W4 m c main_v15_0 := by
  rw [(dat2 (V3 m) c).arrAt_in 1 rfl, A_eq2, W4_of m c main_v15_0 (by decide)]
theorem hF2_2 (c : Dev nD) : (dat2 (V3 m) c).arrAt 2 cfg2.N = W4 m c main_v15_0 := by
  rw [(dat2 (V3 m) c).arrAt_in 2 rfl, A_eq2, W4_of m c main_v15_0 (by decide)]
theorem hF2_3 (c : Dev nD) : (dat2 (V3 m) c).arrAt 3 cfg2.N = W4 m c main_v15_0 := by
  rw [(dat2 (V3 m) c).arrAt_in 3 rfl, A_eq2, W4_of m c main_v15_0 (by decide)]
theorem hF2_4 (c : Dev nD) : (dat2 (V3 m) c).arrAt 4 cfg2.N = W4 m c main_v15_0 := by
  rw [(dat2 (V3 m) c).arrAt_in 4 rfl, A_eq2, W4_of m c main_v15_0 (by decide)]
theorem hF2_5 (c : Dev nD) : (dat2 (V3 m) c).arrAt 5 cfg2.N = W4 m c main_v15_2 := by
  rw [(dat2 (V3 m) c).arrAt_in 5 rfl, A_eq2, W4_of m c main_v15_2 (by decide)]
theorem hF2_6 (c : Dev nD) : (dat2 (V3 m) c).arrAt 6 cfg2.N = W4 m c main_v15_1 := by
  rw [(dat2 (V3 m) c).arrAt_in 6 rfl, A_eq2, W4_of m c main_v15_1 (by decide)]
theorem hF2_7 (c : Dev nD) : (dat2 (V3 m) c).arrAt 7 cfg2.N = W4 m c main_v15_3 := by
  rw [(dat2 (V3 m) c).arrAt_in 7 rfl, A_eq2, W4_of m c main_v15_3 (by decide)]
theorem hF2_8 (c : Dev nD) : (dat2 (V3 m) c).arrAt 8 cfg2.N = W4 m c main_arg7 := by
  rw [(dat2 (V3 m) c).arrAt_in 8 rfl, A_eq2, W4_of m c main_arg7 (by decide)]
theorem hF2_9 (c : Dev nD) : (dat2 (V3 m) c).arrAt 9 cfg2.N = W4 m c main_arg8 := by
  rw [(dat2 (V3 m) c).arrAt_in 9 rfl, A_eq2, W4_of m c main_arg8 (by decide)]
theorem hF2_10 (c : Dev nD) : (dat2 (V3 m) c).arrAt 10 cfg2.N = W4 m c main_v12 := by
  rw [(dat2 (V3 m) c).arrAt_in 10 rfl, A_eq2, W4_of m c main_v12 (by decide)]
theorem hF2_11 (c : Dev nD) : (dat2 (V3 m) c).arrAt 11 cfg2.N = W4 m c main_v9 := by
  rw [(dat2 (V3 m) c).arrAt_in 11 rfl, A_eq2, W4_of m c main_v9 (by decide)]
theorem hF2_12 (c : Dev nD) : (dat2 (V3 m) c).arrAt 12 cfg2.N = W4 m c main_v16_0 := (W4_main_v16_0 m c).symm
theorem hF2_13 (c : Dev nD) : (dat2 (V3 m) c).arrAt 13 cfg2.N = W4 m c main_v16_1 := (W4_main_v16_1 m c).symm

/-- Every window's array after the last point is what the exit contents say. -/
theorem hF2 (c : Dev nD) (w : Fin cfg2.W) : (dat2 (V3 m) c).arrAt w cfg2.N = V4 m c (Pipeline.arrRef spec2 w) := by
  match w with
  | ⟨0, _⟩ => exact hF2_0 m c
  | ⟨1, _⟩ => exact hF2_1 m c
  | ⟨2, _⟩ => exact hF2_2 m c
  | ⟨3, _⟩ => exact hF2_3 m c
  | ⟨4, _⟩ => exact hF2_4 m c
  | ⟨5, _⟩ => exact hF2_5 m c
  | ⟨6, _⟩ => exact hF2_6 m c
  | ⟨7, _⟩ => exact hF2_7 m c
  | ⟨8, _⟩ => exact hF2_8 m c
  | ⟨9, _⟩ => exact hF2_9 m c
  | ⟨10, _⟩ => exact hF2_10 m c
  | ⟨11, _⟩ => exact hF2_11 m c
  | ⟨12, _⟩ => exact hF2_12 m c
  | ⟨13, _⟩ => exact hF2_13 m c

/-- Off its windows' arrays region 2 changes nothing. -/
theorem hrest2 (c : Dev nD) : ∀ b, b ∉ Finset.univ.image (Pipeline.arrRef spec2) → V4 m c b = V3 m c b := fun b hb =>
  W4_of m c b fun h => hb (by
    rw [image_arrRef2]
    simp only [List.mem_cons, List.not_mem_nil, or_false] at h
    rcases h with rfl | rfl <;> decide)

end Cert.KernelIdeal.Hand

end
-- ==== Proof.KI.Half3.lean ====
/-
  Region 3 of the program: the per-point half of its pipeline's correctness.

  The region runs over 10 grid points. Its eleven windows are: five 200×10000 bf16 blocks of rows of one 10000×10000
  matrix (windows 0–4: at a point the five together are 1000 consecutive rows), a whole 10000×40 bf16 matrix (window 5,
  the same block at every point), a 1000×128 block and a 1000×1 column of per-row scales (windows 6 and 7, moving with the
  point), a 128×40 matrix and a 1×40 bias row (windows 8 and 9, the same block at every point), and one 1000×40 f32 output
  block (window 10, moving with the point). At each point the body reads the ten input buffers whole and writes the output
  buffer whole:
    window 10 := h·P + (A·y) ⊙ s + b.
  This module names each window's block at a point, names what the body leaves in the output buffer as a function of the
  input blocks, proves the body's separation-logic triple, packages the per-point contents as proof data over arbitrary
  region-entry contents, and proves the pipeline library's body obligation for that data. The shares at which the windows
  hold their arrays (windows 0–4 share one array) are recorded in the proof data; the body never sees them: it works on
  the staging buffers, each held whole.
-/
import proofs.«181542_g78589311582291_cont_9to1_m_296_16_alg».proof.Proof.Gen.KernelIdeal.Launch
import proofs.«181542_g78589311582291_cont_9to1_m_296_16_alg».proof.Proof.Gen.KernelIdeal.Skeleton
import proofs.«181542_g78589311582291_cont_9to1_m_296_16_alg».proof.Proof.Gen.KernelIdeal.Points
import proofs.«181542_g78589311582291_cont_9to1_m_296_16_alg».proof.Proof.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a store's rectangle tiles a buffer with a long axis recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- what the core's buffers hold when the region is entered; everything below is stated at an arbitrary such `V`
variable (V : (c : Dev nD) → (b : Ref sig .tc) → Buf (Elt F) ((c : Thread nD τ).loc b))

/-! ## Blocks -/

/-- The block of window `w` at grid point `t`: the part of the window's array, as the region finds it, that the
    window's index map selects at `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## An input's staging buffer holds its block

For proof data whose array for the window is the entry contents and whose body leaves the window's buffer at its block,
the buffer the body finds at a point holds the block of that point. At a point where the window was just fetched this is
what the fetch wrote; at a point where it was not, the window's block index is the previous point's, so the block is the
one already there. None of these windows is cut at the array's edge and none is ever idle. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each is a whole buffer -/

abbrev r3_S200x10000 : Rect S200x10000 := Rect.unit (s := S200x10000) ![0, 0] S200x10000.size inb_S200x10000_S200x10000_0_0
abbrev r3_S10000x40 : Rect S10000x40 := Rect.unit (s := S10000x40) ![0, 0] S10000x40.size inb_S10000x40_S10000x40_0_0
abbrev r3_S1000x128 : Rect S1000x128 := Rect.unit (s := S1000x128) ![0, 0] S1000x128.size inb_S1000x128_S1000x128_0_0
abbrev r3_S1000x1 : Rect S1000x1 := Rect.unit (s := S1000x1) ![0, 0] S1000x1.size inb_S1000x1_S1000x1_0_0
abbrev r3_S128x40 : Rect S128x40 := Rect.unit (s := S128x40) ![0, 0] S128x40.size inb_S128x40_S128x40_0_0
abbrev r3_S1x40 : Rect S1x40 := Rect.unit (s := S1x40) ![0, 0] S1x40.size inb_S1x40_S1x40_0_0
abbrev r3_S1000x40 : Rect S1000x40 := Rect.unit (s := S1000x40) ![0, 0] S1000x40.size inb_S1000x40_S1000x40_0_0

/-! ## What the body leaves in the output buffers -/

/-- Output window 10's buffer after the body, from the blocks of windows 0–9: one store of the whole buffer. With `A` the
    five 200×10000 adjacency blocks stacked (each multiplied into the 10000×40 matrix of window 5, the five products
    concatenated), `k3_pay1` is `h·P + (A·y) ⊙ s + b` (`h` window 6, `P` window 8, `s` the 1000×1 scale column of window 7
    broadcast along the rows, `b` the 1×40 bias row of window 9 broadcast down the rows). -/
def out3_10 (x0 : Vec F S200x10000 .bf16) (x1 : Vec F S200x10000 .bf16) (x2 : Vec F S200x10000 .bf16) (x3 : Vec F S200x10000 .bf16) (x4 : Vec F S200x10000 .bf16) (x5 : Vec F S10000x40 .bf16) (x6 : Vec F S1000x128 .f32) (x7 : Vec F S1000x1 .f32) (x8 : Vec F S128x40 .f32) (x9 : Vec F S1x40 .f32) : Vec F S1000x40 .f32 :=
  View.canon [⟨r3_S1000x40, k3_pay1 (View.ld x5 r3_S10000x40) (View.ld x0 r3_S200x10000) (View.ld x1 r3_S200x10000) (View.ld x2 r3_S200x10000) (View.ld x3 r3_S200x10000) (View.ld x4 r3_S200x10000) (View.ld x6 r3_S1000x128) (View.ld x8 r3_S128x40) (View.ld x7 r3_S1000x1) (View.ld x9 r3_S1x40)⟩]

/-- The one store covers the whole buffer. -/
theorem cover3_10 (p0 : Vec F S1000x40 .f32) (y : S1000x40.Idx) :
    ∃ pc ∈ ([⟨r3_S1000x40, p0⟩] : List (View.Piece (Elt F) S1000x40 .f32)), y ∈ pc.1.set :=
  View.cover_of_tiled [⟨r3_S1000x40, p0⟩] S1000x40.size (by rfl) y

/-! ## The body's triple -/

set_option maxHeartbeats 1000000 in
/-- The body on whole staging buffers: with the ten inputs' buffers at contents `xW` and the output's at anything, it runs to
    a state with the inputs' buffers unchanged and the output's at `out3_10` of the inputs. The printed body and the
    printed first part it calls are rewritten to their sequences of loads and stores over named values, and the whole is
    run symbolically, through the call. -/
theorem sound_kernel3 (c : Dev nD) (E : Set ℕ) (i : grid3.Coords) (arg1 : Memref sig .tc .vmem S200x10000 .bf16) (harg1 : arg1.IsWhole) (arg2 : Memref sig .tc .vmem S200x10000 .bf16) (harg2 : arg2.IsWhole) (arg3 : Memref sig .tc .vmem S200x10000 .bf16) (harg3 : arg3.IsWhole) (arg4 : Memref sig .tc .vmem S200x10000 .bf16) (harg4 : arg4.IsWhole) (arg5 : Memref sig .tc .vmem S200x10000 .bf16) (harg5 : arg5.IsWhole) (arg6 : Memref sig .tc .vmem S10000x40 .bf16) (harg6 : arg6.IsWhole) (arg7 : Memref sig .tc .vmem S1000x128 .f32) (harg7 : arg7.IsWhole) (arg8 : Memref sig .tc .vmem S1000x1 .f32) (harg8 : arg8.IsWhole) (arg9 : Memref sig .tc .vmem S128x40 .f32) (harg9 : arg9.IsWhole) (arg10 : Memref sig .tc .vmem S1x40 .f32) (harg10 : arg10.IsWhole) (arg11 : Memref sig .tc .vmem S1000x40 .f32) (harg11 : arg11.IsWhole)
    (x0 : Vec F S200x10000 .bf16) (x1 : Vec F S200x10000 .bf16) (x2 : Vec F S200x10000 .bf16) (x3 : Vec F S200x10000 .bf16) (x4 : Vec F S200x10000 .bf16) (x5 : Vec F S10000x40 .bf16) (x6 : Vec F S1000x128 .f32) (x7 : Vec F S1000x1 .f32) (x8 : Vec F S128x40 .f32) (x9 : Vec F S1x40 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out3_10 x0 x1 x2 x3 x4 x5 x6 x7 x8 x9)) -∗ K ⟨⟩))
      ⊢ wp frame (wpE (defs₀ (F := F)) Variants.none c none) E (cc3__p3_body i arg1 harg1 arg2 harg2 arg3 harg3 arg4 harg4 arg5 harg5 arg6 harg6 arg7 harg7 arg8 harg8 arg9 harg9 arg10 harg10 arg11 harg11) K := by
  simp only [cc3__p3_body_eq_skeleton]; unfold cc3__p3_body_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover3_10 _)

/-! ## The proof data -/

/-- The proof data of this region's pipeline on core `c`. Every array starts at the entry contents `V`. After the body at
    point `t` an input's buffer still holds its block, and an output's buffer holds `out3_W` of the input blocks at `t`.
    The invariant is the one that carries the untouched rest of the core's state along; nothing is ever owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
  Φ _ := Pipeline.ΦA spec3 c
  q w := Cert.Hand.Shares.q w
  owed _ := 0

/-- The arrays of the proof data are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]

/-- Each input's buffer holds its block when the body is called, whether the window was fetched at that point or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d

/-! ## The body obligation -/

/-- What the body is handed at point `t`: the invariant, what is owed, and every window's current buffer, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

set_option maxHeartbeats 1000000 in
/-- The body at any point: its input buffers hold their blocks, so the body's triple applies; the invariant and what is owed
    are not touched and pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation for this region, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.Arr3.lean ====
/-
  Region 3 (the third pass) reads the half-width copy of the adjacency matrix through five windows at once, beside five more
  inputs, and writes the result: seven distinct buffers behind eleven windows. The buffers whole at contents `V` are the
  windows' holdings at `V` — the matrix copy at its five shares — and back.
-/
import proofs.«181542_g78589311582291_cont_9to1_m_296_16_alg».proof.Proof.Gen.KernelIdeal.Launch
import proofs.«181542_g78589311582291_cont_9to1_m_296_16_alg».proof.Proof.LibFiveWindows
import Idealize.ShloMosaic.Lib.Pipeline.Kit
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The arrays region 3's windows name: 7 distinct buffers (the first one five times over). -/
theorem image_arrRef3 : (Finset.univ.image (Pipeline.arrRef spec3) : Finset (Ref sig .tc))
    = {main_v15_0, main_v16_1, main_v16_0, main_v15_3, main_arg10, main_v13, main_v17} := by decide

section
variable (c : Dev nD) (dat : Dat τ (Elt F) Unit ℕ (UR sig nD τ) ℕ cfg3 c) (hq : ∀ w, dat.q w = Cert.Hand.Shares.q w)

include hq in
/-- An input window holds its array at the share the proof data names. -/
theorem share3_in (w : Fin cfg3.W) (hw : w.val < 10) : dat.share w = Cert.Hand.Shares.q w := by
  unfold Dat.share; rw [hq]
  match w, hw with
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl | ⟨7, _⟩, _ => rfl | ⟨8, _⟩, _ => rfl | ⟨9, _⟩, _ => rfl

/-- An output window holds its array whole. -/
theorem share3_out (w : Fin cfg3.W) (hw : 10 ≤ w.val) : dat.share w = fullShare := by
  unfold Dat.share
  match w, hw with
  | ⟨10, _⟩, _ => rfl

variable (V : (b : Ref sig .tc) → Buf (Elt F) ((c.tc : Thread nD τ).loc b))
  (G : (w : Fin cfg3.W) → Buf (Elt F) ((cfg3.win w).arr.view.loc (c.tc : Thread nD τ)))
  (hG : ∀ w, G w = V (Pipeline.arrRef spec3 w))

include hq hG in
/-- The windows' holdings, each array a whole buffer, written over the buffers' names and window by window. -/
theorem arrays3_eq : (dat.arrays G : sProp 𝕄) = iprop(
      (((c.tc : Thread nD τ).loc main_v15_0) ↦{Cert.Hand.Shares.s0} V main_v15_0) ∗ (((c.tc : Thread nD τ).loc main_v15_0) ↦{Cert.Hand.Shares.s1} V main_v15_0) ∗ (((c.tc : Thread nD τ).loc main_v15_0) ↦{Cert.Hand.Shares.s2} V main_v15_0) ∗ (((c.tc : Thread nD τ).loc main_v15_0) ↦{Cert.Hand.Shares.s3} V main_v15_0) ∗ (((c.tc : Thread nD τ).loc main_v15_0) ↦{Cert.Hand.Shares.s4} V main_v15_0)
    ∗ (((c.tc : Thread nD τ).loc main_v16_1) ↦{fullShare} V main_v16_1) ∗ (((c.tc : Thread nD τ).loc main_v16_0) ↦{fullShare} V main_v16_0) ∗ (((c.tc : Thread nD τ).loc main_v15_3) ↦{fullShare} V main_v15_3) ∗ (((c.tc : Thread nD τ).loc main_arg10) ↦{fullShare} V main_arg10) ∗ (((c.tc : Thread nD τ).loc main_v13) ↦{fullShare} V main_v13) ∗ (((c.tc : Thread nD τ).loc main_v17) ↦{fullShare} V main_v17)) := by
  have e : (dat.arrays G : sProp 𝕄) = bigSep Finset.univ fun w : Fin cfg3.W =>
      ((((c.tc : Thread nD τ).loc (Pipeline.arrRef spec3 w)) ↦{dat.share w} V (Pipeline.arrRef spec3 w)) : sProp 𝕄) := by
    unfold Dat.arrays
    exact bigSep_congr fun w _ => by rw [(arr_whole3 w).set_eq_univ, hG]
  rw [e, bigSep_W3, share3_in c dat hq 0 (by decide), share3_in c dat hq 1 (by decide), share3_in c dat hq 2 (by decide), share3_in c dat hq 3 (by decide), share3_in c dat hq 4 (by decide), share3_in c dat hq 5 (by decide), share3_in c dat hq 6 (by decide), share3_in c dat hq 7 (by decide), share3_in c dat hq 8 (by decide), share3_in c dat hq 9 (by decide), share3_out c dat 10 (by decide)]
  rfl

/-- The buffers behind the windows, one by one. -/
theorem arrBufs3_eq : (Pipeline.arrBufs (Ix := Unit) (Name := ℕ) (U := UR sig nD τ) (Lvl := ℕ) spec3 c V : sProp 𝕄) = iprop(
      (((c.tc : Thread nD τ).loc main_v15_0) ↦{fullShare} V main_v15_0) ∗ (((c.tc : Thread nD τ).loc main_v16_1) ↦{fullShare} V main_v16_1) ∗ (((c.tc : Thread nD τ).loc main_v16_0) ↦{fullShare} V main_v16_0) ∗ (((c.tc : Thread nD τ).loc main_v15_3) ↦{fullShare} V main_v15_3) ∗ (((c.tc : Thread nD τ).loc main_arg10) ↦{fullShare} V main_arg10) ∗ (((c.tc : Thread nD τ).loc main_v13) ↦{fullShare} V main_v13) ∗ (((c.tc : Thread nD τ).loc main_v17) ↦{fullShare} V main_v17)) := by
  unfold Pipeline.arrBufs
  rw [image_arrRef3, bigSep_insert (by decide), bigSep_insert (by decide), bigSep_insert (by decide), bigSep_insert (by decide), bigSep_insert (by decide), bigSep_insert (by decide), bigSep_singleton]
  rfl

include hq hG in
/-- ENTRY: the buffers at `V` are the windows' holdings at `V` — the shared array split five ways. -/
theorem arrays3_of_arrBufs :
    (Pipeline.arrBufs (Ix := Unit) (Name := ℕ) (U := UR sig nD τ) (Lvl := ℕ) spec3 c V : sProp 𝕄) ⊢ dat.arrays G := by
  rw [arrBufs3_eq c V, arrays3_eq c dat hq V G hG]
  iintro ⟨Hadj, Hrest⟩
  ihave H5 := (Cert.Hand.Shares.five_split (V main_v15_0)) $$ Hadj
  icases H5 with ⟨A0, A1, A2, A3, A4⟩
  isplitl [A0]; · iexact A0
  isplitl [A1]; · iexact A1
  isplitl [A2]; · iexact A2
  isplitl [A3]; · iexact A3
  isplitl [A4]; · iexact A4
  iexact Hrest

include hq hG in
/-- EXIT: the windows' holdings, the five of the shared array at one contents, are the buffers whole again. -/
theorem arrBufs3_of_arrays :
    (dat.arrays G : sProp 𝕄) ⊢ Pipeline.arrBufs (Ix := Unit) (Name := ℕ) (U := UR sig nD τ) (Lvl := ℕ) spec3 c V := by
  rw [arrBufs3_eq c V, arrays3_eq c dat hq V G hG]
  iintro ⟨A0, A1, A2, A3, A4, Hrest⟩
  isplitl [A0 A1 A2 A3 A4]
  · iapply (Cert.Hand.Shares.five_join (V main_v15_0))
    isplitl [A0]; · iexact A0
    isplitl [A1]; · iexact A1
    isplitl [A2]; · iexact A2
    isplitl [A3]; · iexact A3
    iexact A4
  iexact Hrest
end

end Cert.KernelIdeal.Hand

end
-- ==== Proof.KI.Bound3.lean ====
/-
  The buffers' contents when kernel region 3 is left: its output arrays at what its write-backs leave, every other buffer
  as the region found it.
-/
import proofs.«181542_g78589311582291_cont_9to1_m_296_16_alg».proof.Proof.KI.Bound2
import proofs.«181542_g78589311582291_cont_9to1_m_296_16_alg».proof.Proof.KI.Half3
import proofs.«181542_g78589311582291_cont_9to1_m_296_16_alg».proof.Proof.KI.Arr3
import Idealize.ShloMosaic.Lib.Pipeline.Kit
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Region 3: what it leaves -/

/-- What region 3's write-backs leave in `main_v17` (window 10). -/
def o3_10 (c : Dev nD) : Buf (Elt F) ((c : Thread nD τ).loc main_v17) := (dat3 (V4 m) c).arrAt 10 cfg3.N

/-- Core `c`'s buffers when region 3 is left: its outputs at what their write-backs left, everything else as it was entered. -/
def W5 (c : Dev nD) : Valuation τ sig (Elt F) :=
  Function.update (W4 m c) main_v17 (o3_10 m c)
/-- The same read at the TensorCore's references. -/
abbrev V5 : (c : Dev nD) → (b : Ref sig .tc) → Buf (Elt F) ((c : Thread nD τ).loc b) := fun c b => W5 m c b

/-- Region 3 changes none but its outputs. -/
theorem W5_of (c : Dev nD) (r : Ref sig .tc) (h : r ∉ ([main_v17] : List (Ref sig .tc))) : W5 m c r = W4 m c r := by
  unfold W5
  simp only [Function.update_of_ne (StableHlo.devRef_ne_of_ne (List.ne_of_not_mem_cons h) : (Proc.devRef .tc r : DevRef τ sig) ≠ Proc.devRef .tc main_v17)]
/-- After region 3 each of its outputs holds what its write-backs left. -/
theorem W5_main_v17 (c : Dev nD) : W5 m c main_v17 = o3_10 m c := by
  unfold W5; rw [Function.update_self]

/-- Window by window: an input's array is never written, an output's is its write-backs. -/
theorem hF3_0 (c : Dev nD) : (dat3 (V4 m) c).arrAt 0 cfg3.N = W5 m c main_v15_0 := by
  rw [(dat3 (V4 m) c).arrAt_in 0 rfl, A_eq3, W5_of m c main_v15_0 (by decide)]
theorem hF3_1 (c : Dev nD) : (dat3 (V4 m) c).arrAt 1 cfg3.N = W5 m c main_v15_0 := by
  rw [(dat3 (V4 m) c).arrAt_in 1 rfl, A_eq3, W5_of m c main_v15_0 (by decide)]
theorem hF3_2 (c : Dev nD) : (dat3 (V4 m) c).arrAt 2 cfg3.N = W5 m c main_v15_0 := by
  rw [(dat3 (V4 m) c).arrAt_in 2 rfl, A_eq3, W5_of m c main_v15_0 (by decide)]
theorem hF3_3 (c : Dev nD) : (dat3 (V4 m) c).arrAt 3 cfg3.N = W5 m c main_v15_0 := by
  rw [(dat3 (V4 m) c).arrAt_in 3 rfl, A_eq3, W5_of m c main_v15_0 (by decide)]
theorem hF3_4 (c : Dev nD) : (dat3 (V4 m) c).arrAt 4 cfg3.N = W5 m c main_v15_0 := by
  rw [(dat3 (V4 m) c).arrAt_in 4 rfl, A_eq3, W5_of m c main_v15_0 (by decide)]
theorem hF3_5 (c : Dev nD) : (dat3 (V4 m) c).arrAt 5 cfg3.N = W5 m c main_v16_1 := by
  rw [(dat3 (V4 m) c).arrAt_in 5 rfl, A_eq3, W5_of m c main_v16_1 (by decide)]
theorem hF3_6 (c : Dev nD) : (dat3 (V4 m) c).arrAt 6 cfg3.N = W5 m c main_v16_0 := by
  rw [(dat3 (V4 m) c).arrAt_in 6 rfl, A_eq3, W5_of m c main_v16_0 (by decide)]
theorem hF3_7 (c : Dev nD) : (dat3 (V4 m) c).arrAt 7 cfg3.N = W5 m c main_v15_3 := by
  rw [(dat3 (V4 m) c).arrAt_in 7 rfl, A_eq3, W5_of m c main_v15_3 (by decide)]
theorem hF3_8 (c : Dev nD) : (dat3 (V4 m) c).arrAt 8 cfg3.N = W5 m c main_arg10 := by
  rw [(dat3 (V4 m) c).arrAt_in 8 rfl, A_eq3, W5_of m c main_arg10 (by decide)]
theorem hF3_9 (c : Dev nD) : (dat3 (V4 m) c).arrAt 9 cfg3.N = W5 m c main_v13 := by
  rw [(dat3 (V4 m) c).arrAt_in 9 rfl, A_eq3, W5_of m c main_v13 (by decide)]
theorem hF3_10 (c : Dev nD) : (dat3 (V4 m) c).arrAt 10 cfg3.N = W5 m c main_v17 := (W5_main_v17 m c).symm

/-- Every window's array after the last point is what the exit contents say. -/
theorem hF3 (c : Dev nD) (w : Fin cfg3.W) : (dat3 (V4 m) c).arrAt w cfg3.N = V5 m c (Pipeline.arrRef spec3 w) := by
  match w with
  | ⟨0, _⟩ => exact hF3_0 m c
  | ⟨1, _⟩ => exact hF3_1 m c
  | ⟨2, _⟩ => exact hF3_2 m c
  | ⟨3, _⟩ => exact hF3_3 m c
  | ⟨4, _⟩ => exact hF3_4 m c
  | ⟨5, _⟩ => exact hF3_5 m c
  | ⟨6, _⟩ => exact hF3_6 m c
  | ⟨7, _⟩ => exact hF3_7 m c
  | ⟨8, _⟩ => exact hF3_8 m c
  | ⟨9, _⟩ => exact hF3_9 m c
  | ⟨10, _⟩ => exact hF3_10 m c

/-- Off its windows' arrays region 3 changes nothing. -/
theorem hrest3 (c : Dev nD) : ∀ b, b ∉ Finset.univ.image (Pipeline.arrRef spec3) → V5 m c b = V4 m c b := fun b hb =>
  W5_of m c b fun h => hb (by
    rw [image_arrRef3]
    simp only [List.mem_cons, List.not_mem_nil, or_false] at h
    rcases h with rfl <;> decide)

end Cert.KernelIdeal.Hand

end
-- ==== Proof.KI.Regs.lean ====
/-
  The program as a list of segments — the host stretch, then the four kernel regions — and its run: every weakly fair execution
  terminates, nothing faulting, with every unscoped buffer at the contents the last region leaves. Each region's record
  says how its windows' arrays are taken out of the buffers the thread holds when the region is entered and put back when
  it is left; for the three regions that read one array through five windows the array is split into five shares and joined again.
-/
import proofs.«181542_g78589311582291_cont_9to1_m_296_16_alg».proof.Proof.KI.Bound3
import Idealize.ShloMosaic.Lib.Pipeline.Kit
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_noFresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- REGION 0 as a segment: its seven windows name seven distinct arrays, each held whole. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 as a segment: entered with every unscoped buffer at the contents the item before left, left with them at this
    region's exit contents. Its windows' arrays are sorted out of the buffers at entry — the array five windows read split
    into their five shares — and put back at exit, the five shares joined; the generator register passes through the
    kernel's invariant; the kernel owes nothing and has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄)
        ⊢ iprop((pdats m 1 c).arrays ((pdats m 1 c).arrAt · 0) ∗ Pipeline.unscopedRest spec1 c (V2 m c)) := by
      rw [Pipeline.unscopedBufs_split₀ cfgs 1 winFacts₀1.arr_unscoped c (V2 m c)]
      exact sep_mono (arrays1_of_arrBufs c (pdats m 1 c) (fun _ => rfl) (V2 m c) _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2 m c))
        ⊢ (unscopedBufs c (V3 m c) : sProp 𝕄) := by
      rw [Pipeline.unscopedBufs_split₀ cfgs 1 winFacts₀1.arr_unscoped c (V3 m c)]
      refine sep_mono (arrBufs1_of_arrays c (pdats m 1 c) (fun _ => rfl) (V3 m c) _ (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 as a segment: entered with every unscoped buffer at the contents the item before left, left with them at this
    region's exit contents. Its windows' arrays are sorted out of the buffers at entry — the array five windows read split
    into their five shares — and put back at exit, the five shares joined; the generator register passes through the
    kernel's invariant; the kernel owes nothing and has no semaphore of its own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit : (unscopedBufs c (V3 m c) : sProp 𝕄)
        ⊢ iprop((pdats m 2 c).arrays ((pdats m 2 c).arrAt · 0) ∗ Pipeline.unscopedRest spec2 c (V3 m c)) := by
      rw [Pipeline.unscopedBufs_split₀ cfgs 2 winFacts₀2.arr_unscoped c (V3 m c)]
      exact sep_mono (arrays2_of_arrBufs c (pdats m 2 c) (fun _ => rfl) (V3 m c) _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (V3 m c))
        ⊢ (unscopedBufs c (V4 m c) : sProp 𝕄) := by
      rw [Pipeline.unscopedBufs_split₀ cfgs 2 winFacts₀2.arr_unscoped c (V4 m c)]
      refine sep_mono (arrBufs2_of_arrays c (pdats m 2 c) (fun _ => rfl) (V4 m c) _ (hF2 m c)) (Entails.of_eq ?_)
      unfold Pipeline.unscopedRest
      exact bigSep_congr fun b hb => by rw [hrest2 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 as a segment: entered with every unscoped buffer at the contents the item before left, left with them at this
    region's exit contents. Its windows' arrays are sorted out of the buffers at entry — the array five windows read split
    into their five shares — and put back at exit, the five shares joined; the generator register passes through the
    kernel's invariant; the kernel owes nothing and has no semaphore of its own. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V4 m) c).loose
  hwaits := Pipeline.hwaits_of_owed_zero _ _ _ _ L lv 3 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit : (unscopedBufs c (V4 m c) : sProp 𝕄)
        ⊢ iprop((pdats m 3 c).arrays ((pdats m 3 c).arrAt · 0) ∗ Pipeline.unscopedRest spec3 c (V4 m c)) := by
      rw [Pipeline.unscopedBufs_split₀ cfgs 3 winFacts₀3.arr_unscoped c (V4 m c)]
      exact sep_mono (arrays3_of_arrBufs c (pdats m 3 c) (fun _ => rfl) (V4 m c) _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N) ∗ Pipeline.unscopedRest spec3 c (V4 m c))
        ⊢ (unscopedBufs c (V5 m c) : sProp 𝕄) := by
      rw [Pipeline.unscopedBufs_split₀ cfgs 3 winFacts₀3.arr_unscoped c (V5 m c)]
      refine sep_mono (arrBufs3_of_arrays c (pdats m 3 c) (fun _ => rfl) (V5 m c) _ (hF3 m c)) (Entails.of_eq ?_)
      unfold Pipeline.unscopedRest
      exact bigSep_congr fun b hb => by rw [hrest3 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- The five segments in order: the host stretch from the launch contents, then the four regions. -/
abbrev segs : List (Pipeline.Seg (pcfgs (F := F)) adm (pdats m) () defs₀ 𝒱₀ L lv) :=
  [ .host (hseg hostOps0 hostOps0_sub hostOps0_noFresh (W0 m)),
    .region (reg0 m), .region (reg1 m), .region (reg2 m), .region (reg3 m) ]
/-- The program is the run of the segments. -/
theorem main_run (c : Dev nD) : main (F := F) c = Pipeline.Seg.run (segs m) := (main_chain c).trans (by chain_rfl)

set_option backward.isDefEq.respectTransparency.types false in
/-- THE RUN, at any instance: from any memory with zero counters every weakly fair execution of the program on the
    TensorCores terminates, nothing faulting, and in every final state each unscoped buffer holds what the last region
    leaves (`W5`): the arguments as launched, the result at the third pass's write-backs. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      change iprop(StableHlo.held (c : Thread nD τ) (Pipeline.ucRefs τ sig) (W5 m c) ∗ (∃ r, prngReg c r)
        ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

end Cert.KernelIdeal.Hand

end
-- ==== Proof.KI.Frame.lean ====
/-
  The program's frame: it runs to the end, nothing faulting, and its thirteen argument arrays end as they were launched.
  No host operation writes an argument and no kernel region has an argument among its outputs, so each argument read
  through the five boundaries is its launch contents; the frame is the run's postcondition weakened to that.
-/
import proofs.«181542_g78589311582291_cont_9to1_m_296_16_alg».proof.Proof.KI.Regs
import proofs.«181542_g78589311582291_cont_9to1_m_296_16_alg».proof.Proof.Gen.KernelIdeal.Regions
import Idealize.ShloMosaic.Lib.Pipeline.Kit
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arguments end as launched -/

theorem W5_main_arg0 (c : Dev nD) : W5 m c main_arg0 = m ((c : Thread nD τ).loc main_arg0) :=
  (W5_of m c main_arg0 (by decide)).trans <| (W4_of m c main_arg0 (by decide)).trans <| (W3_of m c main_arg0 (by decide)).trans <|
    (W2_of m c main_arg0 (by decide)).trans <| (Cert.KernelIdeal.Gen.V1_of m c main_arg0 (by decide)).trans rfl
theorem W5_main_arg1 (c : Dev nD) : W5 m c main_arg1 = m ((c : Thread nD τ).loc main_arg1) :=
  (W5_of m c main_arg1 (by decide)).trans <| (W4_of m c main_arg1 (by decide)).trans <| (W3_of m c main_arg1 (by decide)).trans <|
    (W2_of m c main_arg1 (by decide)).trans <| (Cert.KernelIdeal.Gen.V1_of m c main_arg1 (by decide)).trans rfl
theorem W5_main_arg2 (c : Dev nD) : W5 m c main_arg2 = m ((c : Thread nD τ).loc main_arg2) :=
  (W5_of m c main_arg2 (by decide)).trans <| (W4_of m c main_arg2 (by decide)).trans <| (W3_of m c main_arg2 (by decide)).trans <|
    (W2_of m c main_arg2 (by decide)).trans <| (Cert.KernelIdeal.Gen.V1_of m c main_arg2 (by decide)).trans rfl
theorem W5_main_arg3 (c : Dev nD) : W5 m c main_arg3 = m ((c : Thread nD τ).loc main_arg3) :=
  (W5_of m c main_arg3 (by decide)).trans <| (W4_of m c main_arg3 (by decide)).trans <| (W3_of m c main_arg3 (by decide)).trans <|
    (W2_of m c main_arg3 (by decide)).trans <| (Cert.KernelIdeal.Gen.V1_of m c main_arg3 (by decide)).trans rfl
theorem W5_main_arg4 (c : Dev nD) : W5 m c main_arg4 = m ((c : Thread nD τ).loc main_arg4) :=
  (W5_of m c main_arg4 (by decide)).trans <| (W4_of m c main_arg4 (by decide)).trans <| (W3_of m c main_arg4 (by decide)).trans <|
    (W2_of m c main_arg4 (by decide)).trans <| (Cert.KernelIdeal.Gen.V1_of m c main_arg4 (by decide)).trans rfl
theorem W5_main_arg5 (c : Dev nD) : W5 m c main_arg5 = m ((c : Thread nD τ).loc main_arg5) :=
  (W5_of m c main_arg5 (by decide)).trans <| (W4_of m c main_arg5 (by decide)).trans <| (W3_of m c main_arg5 (by decide)).trans <|
    (W2_of m c main_arg5 (by decide)).trans <| (Cert.KernelIdeal.Gen.V1_of m c main_arg5 (by decide)).trans rfl
theorem W5_main_arg6 (c : Dev nD) : W5 m c main_arg6 = m ((c : Thread nD τ).loc main_arg6) :=
  (W5_of m c main_arg6 (by decide)).trans <| (W4_of m c main_arg6 (by decide)).trans <| (W3_of m c main_arg6 (by decide)).trans <|
    (W2_of m c main_arg6 (by decide)).trans <| (Cert.KernelIdeal.Gen.V1_of m c main_arg6 (by decide)).trans rfl
theorem W5_main_arg7 (c : Dev nD) : W5 m c main_arg7 = m ((c : Thread nD τ).loc main_arg7) :=
  (W5_of m c main_arg7 (by decide)).trans <| (W4_of m c main_arg7 (by decide)).trans <| (W3_of m c main_arg7 (by decide)).trans <|
    (W2_of m c main_arg7 (by decide)).trans <| (Cert.KernelIdeal.Gen.V1_of m c main_arg7 (by decide)).trans rfl
theorem W5_main_arg8 (c : Dev nD) : W5 m c main_arg8 = m ((c : Thread nD τ).loc main_arg8) :=
  (W5_of m c main_arg8 (by decide)).trans <| (W4_of m c main_arg8 (by decide)).trans <| (W3_of m c main_arg8 (by decide)).trans <|
    (W2_of m c main_arg8 (by decide)).trans <| (Cert.KernelIdeal.Gen.V1_of m c main_arg8 (by decide)).trans rfl
theorem W5_main_arg9 (c : Dev nD) : W5 m c main_arg9 = m ((c : Thread nD τ).loc main_arg9) :=
  (W5_of m c main_arg9 (by decide)).trans <| (W4_of m c main_arg9 (by decide)).trans <| (W3_of m c main_arg9 (by decide)).trans <|
    (W2_of m c main_arg9 (by decide)).trans <| (Cert.KernelIdeal.Gen.V1_of m c main_arg9 (by decide)).trans rfl
theorem W5_main_arg10 (c : Dev nD) : W5 m c main_arg10 = m ((c : Thread nD τ).loc main_arg10) :=
  (W5_of m c main_arg10 (by decide)).trans <| (W4_of m c main_arg10 (by decide)).trans <| (W3_of m c main_arg10 (by decide)).trans <|
    (W2_of m c main_arg10 (by decide)).trans <| (Cert.KernelIdeal.Gen.V1_of m c main_arg10 (by decide)).trans rfl
theorem W5_main_arg11 (c : Dev nD) : W5 m c main_arg11 = m ((c : Thread nD τ).loc main_arg11) :=
  (W5_of m c main_arg11 (by decide)).trans <| (W4_of m c main_arg11 (by decide)).trans <| (W3_of m c main_arg11 (by decide)).trans <|
    (W2_of m c main_arg11 (by decide)).trans <| (Cert.KernelIdeal.Gen.V1_of m c main_arg11 (by decide)).trans rfl
theorem W5_main_arg12 (c : Dev nD) : W5 m c main_arg12 = m ((c : Thread nD τ).loc main_arg12) :=
  (W5_of m c main_arg12 (by decide)).trans <| (W4_of m c main_arg12 (by decide)).trans <| (W3_of m c main_arg12 (by decide)).trans <|
    (W2_of m c main_arg12 (by decide)).trans <| (Cert.KernelIdeal.Gen.V1_of m c main_arg12 (by decide)).trans rfl

/-- THE FRAME, at any instance. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c),
      (h c _ (mem_uc main_arg7 (by decide))).trans (W5_main_arg7 m c),
      (h c _ (mem_uc main_arg8 (by decide))).trans (W5_main_arg8 m c),
      (h c _ (mem_uc main_arg9 (by decide))).trans (W5_main_arg9 m c),
      (h c _ (mem_uc main_arg10 (by decide))).trans (W5_main_arg10 m c),
      (h c _ (mem_uc main_arg11 (by decide))).trans (W5_main_arg11 m c),
      (h c _ (mem_uc main_arg12 (by decide))).trans (W5_main_arg12 m c)⟩) (run_main m ρ)

/-- The run with the result named: beside the frame, the result array ends at what the third pass's write-backs leave. -/
theorem run_result (ρ : Dev nD → PrngReg) : θ_run defs (onTc (τ := τ) (main (F := F))) ⟨m, fun _ => 0, ρ⟩ (fun r => ∀ c : Dev nD,
      r.2.mem ((c.tc : Thread nD τ).loc main_v17) = o3_10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v17 (by decide))).trans (W5_main_v17 m c),
      (h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c),
      (h c _ (mem_uc main_arg7 (by decide))).trans (W5_main_arg7 m c),
      (h c _ (mem_uc main_arg8 (by decide))).trans (W5_main_arg8 m c),
      (h c _ (mem_uc main_arg9 (by decide))).trans (W5_main_arg9 m c),
      (h c _ (mem_uc main_arg10 (by decide))).trans (W5_main_arg10 m c),
      (h c _ (mem_uc main_arg11 (by decide))).trans (W5_main_arg11 m c),
      (h c _ (mem_uc main_arg12 (by decide))).trans (W5_main_arg12 m c)⟩) (run_main m ρ)

end Cert.KernelIdeal.Hand

end
-- ==== Proof.LibMeanAggregate.lean ====
/-
  Extended-real algebra for mean aggregation.

  On the extended reals ℝ ∪ {-∞, +∞} the ring laws (distributivity, associativity of sums of
  products, commuting a scaling past a sum) fail at the infinities. They all hold on the image of
  ℝ. This file records that image as a predicate, its closure under the operations a mean
  aggregation uses (sum, product, maximum, quotient by a nonzero real), and the two identities
  that let a row scaling  x ↦ x / d  move across a matrix product when every entry is real.
-/
import Idealize.ShloMosaic.PureOps.Ideal
import Mathlib.Tactic.FieldSimp
import Mathlib.Tactic.Ring

noncomputable section

namespace Cert.Lib.MeanAggregate

open Idealize.ShloMosaic
open scoped BigOperators

/-- An extended real is *real* when it is the image of a real number: neither +∞ nor -∞. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The coercion ℝ → EReal commutes with a finite sum over any finite set of indices. -/
theorem finset_sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The coercion ℝ → EReal commutes with a sum over a finite type. -/
theorem sum_coe {ι : Type} [Fintype ι] (f : ι → ℝ) :
    ∑ i, ((f i : ℝ) : EReal) = ((∑ i, f i : ℝ) : EReal) :=
  finset_sum_coe Finset.univ f

/-- A sum of reals over a finite set of indices is real. -/
theorem IsReal.finset_sum {ι : Type} (s : Finset ι) {f : ι → EReal} (h : ∀ i, IsReal (f i)) :
    IsReal (∑ i ∈ s, f i) := by
  choose g hg using h
  have hf : f = fun i => ((g i : ℝ) : EReal) := funext hg
  rw [hf, finset_sum_coe]
  exact ⟨_, rfl⟩

/-- A sum of reals over a finite type is real. -/
theorem IsReal.sum {ι : Type} [Fintype ι] {f : ι → EReal} (h : ∀ i, IsReal (f i)) :
    IsReal (∑ i, f i) :=
  IsReal.finset_sum Finset.univ h

/-- The maximum of two images of reals is the image of the maximum. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The maximum (in the order of the extended reals) of two reals is real. -/
theorem IsReal.max {x y : EReal} (hx : IsReal x) (hy : IsReal y) : IsReal (max x y) := by
  obtain ⟨a, rfl⟩ := hx
  obtain ⟨b, rfl⟩ := hy
  exact ⟨_, max_coe a b⟩

/-- The exact float maximum of two reals is real: at the extended reals it is the order's max. -/
theorem IsReal.maximumf {φ : FTy} {x y : Ideal φ} (hx : IsReal x) (hy : IsReal y) :
    IsReal (FloatOps.maximumf x y) :=
  IsReal.max hx hy

/-- The quotient of a real by a nonzero real is real: it is the product with the reciprocal. -/
theorem IsReal.div {x d : EReal} (hx : IsReal x) (hd : IsReal d) (h0 : d ≠ 0) :
    IsReal (Ideal.div x d) := by
  obtain ⟨a, rfl⟩ := hx
  obtain ⟨b, rfl⟩ := hd
  have hb : b ≠ 0 := by
    rintro rfl
    exact h0 rfl
  rw [Ideal.div_coe hb, ← EReal.coe_mul]
  exact ⟨_, rfl⟩

/-- The maximum of anything with a positive real is positive. -/
theorem max_coe_pos (s : EReal) {e : ℝ} (he : 0 < e) : 0 < max s (e : EReal) :=
  lt_max_of_lt_right (EReal.coe_pos.mpr he)

/-- A degree clamped from below: for a real s and a positive real e, max s e is real and nonzero
    (it is at least e, which is positive). -/
theorem deg_ne_zero {s : EReal} (hs : IsReal s) {e : ℝ} (he : 0 < e) :
    IsReal (max s (e : EReal)) ∧ max s (e : EReal) ≠ 0 :=
  ⟨hs.max (isReal_coe e), ne_of_gt (max_coe_pos s he)⟩

/-- The same with the arguments of the maximum exchanged: max e s is real and nonzero. -/
theorem deg_ne_zero' {s : EReal} (hs : IsReal s) {e : ℝ} (he : 0 < e) :
    IsReal (max (e : EReal) s) ∧ max (e : EReal) s ≠ 0 := by
  rw [max_comm]
  exact deg_ne_zero hs he

/-- The clamped degree through the exact float maximum: it is the order's max, so for a real s and
    a positive real e, maximumf s e is real and nonzero. -/
theorem deg_ne_zero_maximumf {φ : FTy} {s : Ideal φ} (hs : IsReal s) {e : ℝ} (he : 0 < e) :
    IsReal (FloatOps.maximumf s ((e : EReal) : Ideal φ)) ∧
      FloatOps.maximumf s ((e : EReal) : Ideal φ) ≠ 0 :=
  deg_ne_zero hs he

/-- The same with the arguments of the float maximum exchanged. -/
theorem deg_ne_zero_maximumf' {φ : FTy} {s : Ideal φ} (hs : IsReal s) {e : ℝ} (he : 0 < e) :
    IsReal (FloatOps.maximumf ((e : EReal) : Ideal φ) s) ∧
      FloatOps.maximumf ((e : EReal) : Ideal φ) s ≠ 0 :=
  deg_ne_zero' hs he

/-- Multiplying by the reciprocal of a nonzero real is dividing by it: x * (1 / d) = x / d. -/
theorem mul_one_div_eq_div {x d : EReal} (_hx : IsReal x) (hd : IsReal d) (h0 : d ≠ 0) :
    x * Ideal.div 1 d = Ideal.div x d := by
  obtain ⟨b, rfl⟩ := hd
  have hb : b ≠ 0 := by
    rintro rfl
    exact h0 rfl
  rw [Ideal.div_coe hb, Ideal.div_coe hb, one_mul]

/-- A row scaling commutes with a right multiplication, one output entry at a time. For a row a of
    weights, a matrix h, a matrix W and a scalar d, all real, with d ≠ 0:
      ∑ₖ ((∑ⱼ aⱼ hⱼₖ) / d) Wₖ = (∑ⱼ aⱼ ∑ₖ hⱼₖ Wₖ) · (1 / d),
    that is ((a·h)/d)·W = (a·(h·W))·(1/d). Both sides are the image of the same real number:
    associativity and distributivity in ℝ. -/
theorem assoc_scale {ι κ γ : Type} [Fintype ι] [Fintype κ] [Fintype γ]
    {a : ι → EReal} {h : ι → κ → EReal} {W : κ → γ → EReal} {d : EReal}
    (ha : ∀ j, IsReal (a j)) (hh : ∀ j k, IsReal (h j k)) (hW : ∀ k c, IsReal (W k c))
    (hd : IsReal d) (h0 : d ≠ 0) (c : γ) :
    ∑ k, Ideal.div (∑ j, a j * h j k) d * W k c
      = (∑ j, a j * ∑ k, h j k * W k c) * Ideal.div 1 d := by
  choose a' ha' using ha
  choose h' hh' using hh
  choose W' hW' using hW
  obtain ⟨b, rfl⟩ := hd
  have hb : b ≠ 0 := by
    rintro rfl
    exact h0 rfl
  obtain rfl : a = fun j => ((a' j : ℝ) : EReal) := funext ha'
  obtain rfl : h = fun j k => ((h' j k : ℝ) : EReal) := funext fun j => funext (hh' j)
  obtain rfl : W = fun k c => ((W' k c : ℝ) : EReal) := funext fun k => funext (hW' k)
  simp only [Ideal.div_coe hb, one_mul, ← EReal.coe_mul, sum_coe]
  refine congrArg _ ?_
  simp only [Finset.sum_mul, Finset.mul_sum]
  rw [Finset.sum_comm]
  refine Finset.sum_congr rfl fun j _ => Finset.sum_congr rfl fun k _ => ?_
  ring

/-- The scaling written as a product with the reciprocal, before the right multiplication:
      ∑ₖ ((∑ⱼ aⱼ hⱼₖ) · (1 / d)) Wₖ = ∑ₖ ((∑ⱼ aⱼ hⱼₖ) / d) Wₖ
    for real a, h, d with d ≠ 0 (W is arbitrary). -/
theorem scale_mul_eq_div {ι κ γ : Type} [Fintype ι] [Fintype κ] [Fintype γ]
    {a : ι → EReal} {h : ι → κ → EReal} (W : κ → γ → EReal) {d : EReal}
    (ha : ∀ j, IsReal (a j)) (hh : ∀ j k, IsReal (h j k))
    (hd : IsReal d) (h0 : d ≠ 0) (c : γ) :
    ∑ k, ((∑ j, a j * h j k) * Ideal.div 1 d) * W k c
      = ∑ k, Ideal.div (∑ j, a j * h j k) d * W k c :=
  Finset.sum_congr rfl fun k _ => by
    rw [mul_one_div_eq_div (IsReal.sum fun j => (ha j).mul (hh j k)) hd h0]

/-- Both forms at once: scaling by the reciprocal before the right multiplication equals scaling
    by it after,  ((a·h)·(1/d))·W = (a·(h·W))·(1/d), when every entry is real and d ≠ 0. -/
theorem assoc_scale_mul {ι κ γ : Type} [Fintype ι] [Fintype κ] [Fintype γ]
    {a : ι → EReal} {h : ι → κ → EReal} {W : κ → γ → EReal} {d : EReal}
    (ha : ∀ j, IsReal (a j)) (hh : ∀ j k, IsReal (h j k)) (hW : ∀ k c, IsReal (W k c))
    (hd : IsReal d) (h0 : d ≠ 0) (c : γ) :
    ∑ k, ((∑ j, a j * h j k) * Ideal.div 1 d) * W k c
      = (∑ j, a j * ∑ k, h j k * W k c) * Ideal.div 1 d :=
  (scale_mul_eq_div W ha hh hd h0 c).trans (assoc_scale ha hh hW hd h0 c)

end Cert.Lib.MeanAggregate
-- ==== Proof.RefSpec.lean ====
/-
  The reference computation as one function of its thirteen argument arrays, index by index.

  A three-layer GraphSAGE network with mean aggregation over a dense adjacency matrix A (10000 × 10000):
    h0  = x · W_map + b_map                                     (10000 × 128)
    deg = max(ε, Σ_j A[i,j])   with ε the float word 0x2B8CBCCC  (one value per row)
    sage(h, Wl, Wr, b) = h · Wl + ((A · h) / deg) · Wr + b
    h1  = relu(sage(h0, Wl1, Wr1, b1))                          (10000 × 64)
    h2  = relu(sage(h1, Wl2, Wr2, b2))                          (10000 × 128)
    out = sage(h2, Wl3, Wr3, b3)                                (10000 × 40)
  Every value is an extended real and every operation the exact one; sums are over the literal
  extents, indices are built from coordinates of literal extent.
-/
import Idealize.ShloMosaic.PureOps.Ideal
import Idealize.ShloMosaic.Lib.ValueIdx
import proofs.«181542_g78589311582291_cont_9to1_m_296_16_alg».proof.Proof.LibMeanAggregate

noncomputable section

namespace Cert.RefSpec

open Idealize.ShloMosaic Idealize.ShloMosaic.ValueIdx Cert.Lib.MeanAggregate
open scoped BigOperators

/-- The rectifier: the maximum with zero. -/
def relu (v : EReal) : EReal := max v 0

/-- The input map h0 = x · W_map + b_map at row p, column q. -/
def h0 (x : (⟨2, ![10000, 128]⟩ : Shape).Idx → EReal) (Wm : (⟨2, ![128, 128]⟩ : Shape).Idx → EReal)
    (bm : (⟨1, ![128]⟩ : Shape).Idx → EReal) (p : Fin 10000) (q : Fin 128) : EReal :=
  (∑ k : Fin 128, x (ix2 p k) * Wm (ix2 k q)) + bm (ix1 q)

/-- The sum of row p of the adjacency matrix. -/
def rowSum (adj : (⟨2, ![10000, 10000]⟩ : Shape).Idx → EReal) (p : Fin 10000) : EReal :=
  ∑ k : Fin 10000, adj (ix2 p k)

/-- The clamped degree of row p: the maximum of the float word 0x2B8CBCCC (about 1e-12) and the row sum,
    the literal first. -/
def deg (adj : (⟨2, ![10000, 10000]⟩ : Shape).Idx → EReal) (p : Fin 10000) : EReal :=
  max (Ideal.ofBits .f32 0x2B8CBCCC#32) (rowSum adj p)

/-- The first layer before its rectifier, from a 10000 × 128 input h to width 64:
    h · Wl + ((A · h) / deg) · Wr + b at row p, column q. -/
def sage1 (adj : (⟨2, ![10000, 10000]⟩ : Shape).Idx → EReal) (h : Fin 10000 → Fin 128 → EReal)
    (Wl Wr : (⟨2, ![128, 64]⟩ : Shape).Idx → EReal) (b : (⟨1, ![64]⟩ : Shape).Idx → EReal)
    (p : Fin 10000) (q : Fin 64) : EReal :=
  (∑ k : Fin 128, h p k * Wl (ix2 k q))
    + (∑ k : Fin 128, Ideal.div (∑ j : Fin 10000, adj (ix2 p j) * h j k) (deg adj p) * Wr (ix2 k q))
    + b (ix1 q)

/-- The second layer before its rectifier, from a 10000 × 64 input h to width 128:
    h · Wl + ((A · h) / deg) · Wr + b at row p, column q. -/
def sage2 (adj : (⟨2, ![10000, 10000]⟩ : Shape).Idx → EReal) (h : Fin 10000 → Fin 64 → EReal)
    (Wl Wr : (⟨2, ![64, 128]⟩ : Shape).Idx → EReal) (b : (⟨1, ![128]⟩ : Shape).Idx → EReal)
    (p : Fin 10000) (q : Fin 128) : EReal :=
  (∑ k : Fin 64, h p k * Wl (ix2 k q))
    + (∑ k : Fin 64, Ideal.div (∑ j : Fin 10000, adj (ix2 p j) * h j k) (deg adj p) * Wr (ix2 k q))
    + b (ix1 q)

/-- The third layer, from a 10000 × 128 input h to width 40:
    h · Wl + ((A · h) / deg) · Wr + b at row p, column q. -/
def sage3 (adj : (⟨2, ![10000, 10000]⟩ : Shape).Idx → EReal) (h : Fin 10000 → Fin 128 → EReal)
    (Wl Wr : (⟨2, ![128, 40]⟩ : Shape).Idx → EReal) (b : (⟨1, ![40]⟩ : Shape).Idx → EReal)
    (p : Fin 10000) (q : Fin 40) : EReal :=
  (∑ k : Fin 128, h p k * Wl (ix2 k q))
    + (∑ k : Fin 128, Ideal.div (∑ j : Fin 10000, adj (ix2 p j) * h j k) (deg adj p) * Wr (ix2 k q))
    + b (ix1 q)

/-- The first hidden state h1 = relu (sage1 h0) at row p, column q. -/
def h1 (x : (⟨2, ![10000, 128]⟩ : Shape).Idx → EReal) (adj : (⟨2, ![10000, 10000]⟩ : Shape).Idx → EReal)
    (Wm : (⟨2, ![128, 128]⟩ : Shape).Idx → EReal) (bm : (⟨1, ![128]⟩ : Shape).Idx → EReal)
    (Wl1 Wr1 : (⟨2, ![128, 64]⟩ : Shape).Idx → EReal) (b1 : (⟨1, ![64]⟩ : Shape).Idx → EReal)
    (p : Fin 10000) (q : Fin 64) : EReal :=
  relu (sage1 adj (h0 x Wm bm) Wl1 Wr1 b1 p q)

/-- The second hidden state h2 = relu (sage2 h1) at row p, column q. -/
def h2 (x : (⟨2, ![10000, 128]⟩ : Shape).Idx → EReal) (adj : (⟨2, ![10000, 10000]⟩ : Shape).Idx → EReal)
    (Wm : (⟨2, ![128, 128]⟩ : Shape).Idx → EReal) (bm : (⟨1, ![128]⟩ : Shape).Idx → EReal)
    (Wl1 Wr1 : (⟨2, ![128, 64]⟩ : Shape).Idx → EReal) (b1 : (⟨1, ![64]⟩ : Shape).Idx → EReal)
    (Wl2 Wr2 : (⟨2, ![64, 128]⟩ : Shape).Idx → EReal) (b2 : (⟨1, ![128]⟩ : Shape).Idx → EReal)
    (p : Fin 10000) (q : Fin 128) : EReal :=
  relu (sage2 adj (h1 x adj Wm bm Wl1 Wr1 b1) Wl2 Wr2 b2 p q)

/-- The result at row p, column q: the third layer of h2. -/
def outAt (x : (⟨2, ![10000, 128]⟩ : Shape).Idx → EReal) (adj : (⟨2, ![10000, 10000]⟩ : Shape).Idx → EReal)
    (Wm : (⟨2, ![128, 128]⟩ : Shape).Idx → EReal) (bm : (⟨1, ![128]⟩ : Shape).Idx → EReal)
    (Wl1 Wr1 : (⟨2, ![128, 64]⟩ : Shape).Idx → EReal) (b1 : (⟨1, ![64]⟩ : Shape).Idx → EReal)
    (Wl2 Wr2 : (⟨2, ![64, 128]⟩ : Shape).Idx → EReal) (b2 : (⟨1, ![128]⟩ : Shape).Idx → EReal)
    (Wl3 Wr3 : (⟨2, ![128, 40]⟩ : Shape).Idx → EReal) (b3 : (⟨1, ![40]⟩ : Shape).Idx → EReal)
    (p : Fin 10000) (q : Fin 40) : EReal :=
  sage3 adj (h2 x adj Wm bm Wl1 Wr1 b1 Wl2 Wr2 b2) Wl3 Wr3 b3 p q

/-- The whole result array, 10000 × 40, as one function of the thirteen argument arrays (in the
    order of the reference's parameters). -/
def out (x : (⟨2, ![10000, 128]⟩ : Shape).Idx → EReal) (adj : (⟨2, ![10000, 10000]⟩ : Shape).Idx → EReal)
    (Wm : (⟨2, ![128, 128]⟩ : Shape).Idx → EReal) (bm : (⟨1, ![128]⟩ : Shape).Idx → EReal)
    (Wl1 Wr1 : (⟨2, ![128, 64]⟩ : Shape).Idx → EReal) (b1 : (⟨1, ![64]⟩ : Shape).Idx → EReal)
    (Wl2 Wr2 : (⟨2, ![64, 128]⟩ : Shape).Idx → EReal) (b2 : (⟨1, ![128]⟩ : Shape).Idx → EReal)
    (Wl3 Wr3 : (⟨2, ![128, 40]⟩ : Shape).Idx → EReal) (b3 : (⟨1, ![40]⟩ : Shape).Idx → EReal) :
    (⟨2, ![10000, 40]⟩ : Shape).Idx → EReal :=
  fun i => outAt x adj Wm bm Wl1 Wr1 b1 Wl2 Wr2 b2 Wl3 Wr3 b3 (i 0) (i 1)

/-- The result array at the index with coordinates p, q is the result at row p, column q. -/
theorem out_ix2 (x : (⟨2, ![10000, 128]⟩ : Shape).Idx → EReal) (adj : (⟨2, ![10000, 10000]⟩ : Shape).Idx → EReal)
    (Wm : (⟨2, ![128, 128]⟩ : Shape).Idx → EReal) (bm : (⟨1, ![128]⟩ : Shape).Idx → EReal)
    (Wl1 Wr1 : (⟨2, ![128, 64]⟩ : Shape).Idx → EReal) (b1 : (⟨1, ![64]⟩ : Shape).Idx → EReal)
    (Wl2 Wr2 : (⟨2, ![64, 128]⟩ : Shape).Idx → EReal) (b2 : (⟨1, ![128]⟩ : Shape).Idx → EReal)
    (Wl3 Wr3 : (⟨2, ![128, 40]⟩ : Shape).Idx → EReal) (b3 : (⟨1, ![40]⟩ : Shape).Idx → EReal)
    (p : Fin 10000) (q : Fin 40) :
    out x adj Wm bm Wl1 Wr1 b1 Wl2 Wr2 b2 Wl3 Wr3 b3 (ix2 p q)
      = outAt x adj Wm bm Wl1 Wr1 b1 Wl2 Wr2 b2 Wl3 Wr3 b3 p q := rfl

/-! ### Realness of the stages

When every entry of every argument array is real, so is every entry of every stage; and the clamped
degree is moreover nonzero. These are the hypotheses under which a row scaling moves across a matrix
product. -/

/-- The float word 0x2B8CBCCC denotes the real number 9223372 · 2⁻⁶³ (about 1e-12). -/
theorem eps_eq : Ideal.ofBits .f32 0x2B8CBCCC#32 = ((9223372 * ((2 : ℝ) ^ 63)⁻¹ : ℝ) : EReal) := by
  simp [Ideal.ofBits, Ideal.ieee]

/-- That real number is positive. -/
theorem eps_pos : (0 : ℝ) < 9223372 * ((2 : ℝ) ^ 63)⁻¹ := by positivity

/-- The rectifier of a real is real. -/
theorem isReal_relu {v : EReal} (hv : IsReal v) : IsReal (relu v) := hv.max isReal_zero

/-- Every entry of h0 is real when the entries of x, W_map, b_map are. -/
theorem isReal_h0 {x : (⟨2, ![10000, 128]⟩ : Shape).Idx → EReal} {Wm : (⟨2, ![128, 128]⟩ : Shape).Idx → EReal}
    {bm : (⟨1, ![128]⟩ : Shape).Idx → EReal} (hx : ∀ i, IsReal (x i)) (hW : ∀ i, IsReal (Wm i))
    (hb : ∀ i, IsReal (bm i)) (p : Fin 10000) (q : Fin 128) : IsReal (h0 x Wm bm p q) :=
  (IsReal.sum fun _ => (hx _).mul (hW _)).add (hb _)

/-- The row sums of a real adjacency matrix are real. -/
theorem isReal_rowSum {adj : (⟨2, ![10000, 10000]⟩ : Shape).Idx → EReal} (hA : ∀ i, IsReal (adj i))
    (p : Fin 10000) : IsReal (rowSum adj p) :=
  IsReal.sum fun _ => hA _

/-- The clamped degree of a real adjacency matrix is real. -/
theorem isReal_deg {adj : (⟨2, ![10000, 10000]⟩ : Shape).Idx → EReal} (hA : ∀ i, IsReal (adj i))
    (p : Fin 10000) : IsReal (deg adj p) := by
  unfold deg
  rw [eps_eq]
  exact (deg_ne_zero' (isReal_rowSum hA p) eps_pos).1

/-- The clamped degree of a real adjacency matrix is nonzero: it is at least the positive literal. -/
theorem deg_ne_zero_of_real {adj : (⟨2, ![10000, 10000]⟩ : Shape).Idx → EReal} (hA : ∀ i, IsReal (adj i))
    (p : Fin 10000) : deg adj p ≠ 0 := by
  unfold deg
  rw [eps_eq]
  exact (deg_ne_zero' (isReal_rowSum hA p) eps_pos).2

/-- The first layer of real data is real. -/
theorem isReal_sage1 {adj : (⟨2, ![10000, 10000]⟩ : Shape).Idx → EReal} {h : Fin 10000 → Fin 128 → EReal}
    {Wl Wr : (⟨2, ![128, 64]⟩ : Shape).Idx → EReal} {b : (⟨1, ![64]⟩ : Shape).Idx → EReal}
    (hA : ∀ i, IsReal (adj i)) (hh : ∀ j k, IsReal (h j k)) (hl : ∀ i, IsReal (Wl i)) (hr : ∀ i, IsReal (Wr i))
    (hb : ∀ i, IsReal (b i)) (p : Fin 10000) (q : Fin 64) : IsReal (sage1 adj h Wl Wr b p q) :=
  ((IsReal.sum fun _ => (hh _ _).mul (hl _)).add
    (IsReal.sum fun _ => ((IsReal.sum fun _ => (hA _).mul (hh _ _)).div (isReal_deg hA p)
      (deg_ne_zero_of_real hA p)).mul (hr _))).add (hb _)

/-- The second layer of real data is real. -/
theorem isReal_sage2 {adj : (⟨2, ![10000, 10000]⟩ : Shape).Idx → EReal} {h : Fin 10000 → Fin 64 → EReal}
    {Wl Wr : (⟨2, ![64, 128]⟩ : Shape).Idx → EReal} {b : (⟨1, ![128]⟩ : Shape).Idx → EReal}
    (hA : ∀ i, IsReal (adj i)) (hh : ∀ j k, IsReal (h j k)) (hl : ∀ i, IsReal (Wl i)) (hr : ∀ i, IsReal (Wr i))
    (hb : ∀ i, IsReal (b i)) (p : Fin 10000) (q : Fin 128) : IsReal (sage2 adj h Wl Wr b p q) :=
  ((IsReal.sum fun _ => (hh _ _).mul (hl _)).add
    (IsReal.sum fun _ => ((IsReal.sum fun _ => (hA _).mul (hh _ _)).div (isReal_deg hA p)
      (deg_ne_zero_of_real hA p)).mul (hr _))).add (hb _)

/-- The third layer of real data is real. -/
theorem isReal_sage3 {adj : (⟨2, ![10000, 10000]⟩ : Shape).Idx → EReal} {h : Fin 10000 → Fin 128 → EReal}
    {Wl Wr : (⟨2, ![128, 40]⟩ : Shape).Idx → EReal} {b : (⟨1, ![40]⟩ : Shape).Idx → EReal}
    (hA : ∀ i, IsReal (adj i)) (hh : ∀ j k, IsReal (h j k)) (hl : ∀ i, IsReal (Wl i)) (hr : ∀ i, IsReal (Wr i))
    (hb : ∀ i, IsReal (b i)) (p : Fin 10000) (q : Fin 40) : IsReal (sage3 adj h Wl Wr b p q) :=
  ((IsReal.sum fun _ => (hh _ _).mul (hl _)).add
    (IsReal.sum fun _ => ((IsReal.sum fun _ => (hA _).mul (hh _ _)).div (isReal_deg hA p)
      (deg_ne_zero_of_real hA p)).mul (hr _))).add (hb _)

/-- Every entry of h1 is real when every argument entry is. -/
theorem isReal_h1 {x : (⟨2, ![10000, 128]⟩ : Shape).Idx → EReal} {adj : (⟨2, ![10000, 10000]⟩ : Shape).Idx → EReal}
    {Wm : (⟨2, ![128, 128]⟩ : Shape).Idx → EReal} {bm : (⟨1, ![128]⟩ : Shape).Idx → EReal}
    {Wl1 Wr1 : (⟨2, ![128, 64]⟩ : Shape).Idx → EReal} {b1 : (⟨1, ![64]⟩ : Shape).Idx → EReal}
    (hx : ∀ i, IsReal (x i)) (hA : ∀ i, IsReal (adj i)) (hWm : ∀ i, IsReal (Wm i)) (hbm : ∀ i, IsReal (bm i))
    (hl1 : ∀ i, IsReal (Wl1 i)) (hr1 : ∀ i, IsReal (Wr1 i)) (hb1 : ∀ i, IsReal (b1 i))
    (p : Fin 10000) (q : Fin 64) : IsReal (h1 x adj Wm bm Wl1 Wr1 b1 p q) :=
  isReal_relu (isReal_sage1 hA (isReal_h0 hx hWm hbm) hl1 hr1 hb1 p q)

/-- Every entry of h2 is real when every argument entry is. -/
theorem isReal_h2 {x : (⟨2, ![10000, 128]⟩ : Shape).Idx → EReal} {adj : (⟨2, ![10000, 10000]⟩ : Shape).Idx → EReal}
    {Wm : (⟨2, ![128, 128]⟩ : Shape).Idx → EReal} {bm : (⟨1, ![128]⟩ : Shape).Idx → EReal}
    {Wl1 Wr1 : (⟨2, ![128, 64]⟩ : Shape).Idx → EReal} {b1 : (⟨1, ![64]⟩ : Shape).Idx → EReal}
    {Wl2 Wr2 : (⟨2, ![64, 128]⟩ : Shape).Idx → EReal} {b2 : (⟨1, ![128]⟩ : Shape).Idx → EReal}
    (hx : ∀ i, IsReal (x i)) (hA : ∀ i, IsReal (adj i)) (hWm : ∀ i, IsReal (Wm i)) (hbm : ∀ i, IsReal (bm i))
    (hl1 : ∀ i, IsReal (Wl1 i)) (hr1 : ∀ i, IsReal (Wr1 i)) (hb1 : ∀ i, IsReal (b1 i))
    (hl2 : ∀ i, IsReal (Wl2 i)) (hr2 : ∀ i, IsReal (Wr2 i)) (hb2 : ∀ i, IsReal (b2 i))
    (p : Fin 10000) (q : Fin 128) : IsReal (h2 x adj Wm bm Wl1 Wr1 b1 Wl2 Wr2 b2 p q) :=
  isReal_relu (isReal_sage2 hA (isReal_h1 hx hA hWm hbm hl1 hr1 hb1) hl2 hr2 hb2 p q)

end Cert.RefSpec
-- ==== Proof.RefValue.lean ====
/-
  The reference program's result is the specification: reading the program one operation at a time
  (each matrix product as a sum over the contracted coordinate, each broadcast at its source index,
  the row sum as a sum over the columns, the clamp and the rectifiers as maxima), its result array
  equals Cert.RefSpec.out of the thirteen argument arrays, stage by stage.
-/
import proofs.«181542_g78589311582291_cont_9to1_m_296_16_alg».proof.Proof.Gen.ReferenceIdeal.Read
import proofs.«181542_g78589311582291_cont_9to1_m_296_16_alg».proof.Proof.RefSpec

noncomputable section

namespace Cert.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open Cert.RefSpec
open scoped BigOperators

/-! ### The operations' index maps at an index given by its coordinates -/

/-- The left operand's index of product v3: row p, contracted coordinate k. -/
theorem lidx_v3 (p : Fin 10000) (q : Fin 128) (k : Fin 128) : lidx_main_v3 (ix2 p q) k = ix2 p k :=
  funext fun a => Fin.ext (by match a with | ⟨0, _⟩ => rfl | ⟨1, _⟩ => rfl)
/-- The right operand's index of product v3: contracted coordinate k, column q. -/
theorem ridx_v3 (p : Fin 10000) (q : Fin 128) (k : Fin 128) : ridx_main_v3 (ix2 p q) k = ix2 k q :=
  funext fun a => Fin.ext (by match a with | ⟨0, _⟩ => rfl | ⟨1, _⟩ => rfl)
/-- The left operand's index of product v7: row p, contracted coordinate k. -/
theorem lidx_v7 (p : Fin 10000) (q : Fin 128) (k : Fin 10000) : lidx_main_v7 (ix2 p q) k = ix2 p k :=
  funext fun a => Fin.ext (by match a with | ⟨0, _⟩ => rfl | ⟨1, _⟩ => rfl)
/-- The right operand's index of product v7: contracted coordinate k, column q. -/
theorem ridx_v7 (p : Fin 10000) (q : Fin 128) (k : Fin 10000) : ridx_main_v7 (ix2 p q) k = ix2 k q :=
  funext fun a => Fin.ext (by match a with | ⟨0, _⟩ => rfl | ⟨1, _⟩ => rfl)
/-- The left operand's index of product v10: row p, contracted coordinate k. -/
theorem lidx_v10 (p : Fin 10000) (q : Fin 64) (k : Fin 128) : lidx_main_v10 (ix2 p q) k = ix2 p k :=
  funext fun a => Fin.ext (by match a with | ⟨0, _⟩ => rfl | ⟨1, _⟩ => rfl)
/-- The right operand's index of product v10: contracted coordinate k, column q. -/
theorem ridx_v10 (p : Fin 10000) (q : Fin 64) (k : Fin 128) : ridx_main_v10 (ix2 p q) k = ix2 k q :=
  funext fun a => Fin.ext (by match a with | ⟨0, _⟩ => rfl | ⟨1, _⟩ => rfl)
/-- The left operand's index of product v11: row p, contracted coordinate k. -/
theorem lidx_v11 (p : Fin 10000) (q : Fin 64) (k : Fin 128) : lidx_main_v11 (ix2 p q) k = ix2 p k :=
  funext fun a => Fin.ext (by match a with | ⟨0, _⟩ => rfl | ⟨1, _⟩ => rfl)
/-- The right operand's index of product v11: contracted coordinate k, column q. -/
theorem ridx_v11 (p : Fin 10000) (q : Fin 64) (k : Fin 128) : ridx_main_v11 (ix2 p q) k = ix2 k q :=
  funext fun a => Fin.ext (by match a with | ⟨0, _⟩ => rfl | ⟨1, _⟩ => rfl)
/-- The left operand's index of product v17: row p, contracted coordinate k. -/
theorem lidx_v17 (p : Fin 10000) (q : Fin 64) (k : Fin 10000) : lidx_main_v17 (ix2 p q) k = ix2 p k :=
  funext fun a => Fin.ext (by match a with | ⟨0, _⟩ => rfl | ⟨1, _⟩ => rfl)
/-- The right operand's index of product v17: contracted coordinate k, column q. -/
theorem ridx_v17 (p : Fin 10000) (q : Fin 64) (k : Fin 10000) : ridx_main_v17 (ix2 p q) k = ix2 k q :=
  funext fun a => Fin.ext (by match a with | ⟨0, _⟩ => rfl | ⟨1, _⟩ => rfl)
/-- The left operand's index of product v20: row p, contracted coordinate k. -/
theorem lidx_v20 (p : Fin 10000) (q : Fin 128) (k : Fin 64) : lidx_main_v20 (ix2 p q) k = ix2 p k :=
  funext fun a => Fin.ext (by match a with | ⟨0, _⟩ => rfl | ⟨1, _⟩ => rfl)
/-- The right operand's index of product v20: contracted coordinate k, column q. -/
theorem ridx_v20 (p : Fin 10000) (q : Fin 128) (k : Fin 64) : ridx_main_v20 (ix2 p q) k = ix2 k q :=
  funext fun a => Fin.ext (by match a with | ⟨0, _⟩ => rfl | ⟨1, _⟩ => rfl)
/-- The left operand's index of product v21: row p, contracted coordinate k. -/
theorem lidx_v21 (p : Fin 10000) (q : Fin 128) (k : Fin 64) : lidx_main_v21 (ix2 p q) k = ix2 p k :=
  funext fun a => Fin.ext (by match a with | ⟨0, _⟩ => rfl | ⟨1, _⟩ => rfl)
/-- The right operand's index of product v21: contracted coordinate k, column q. -/
theorem ridx_v21 (p : Fin 10000) (q : Fin 128) (k : Fin 64) : ridx_main_v21 (ix2 p q) k = ix2 k q :=
  funext fun a => Fin.ext (by match a with | ⟨0, _⟩ => rfl | ⟨1, _⟩ => rfl)
/-- The left operand's index of product v27: row p, contracted coordinate k. -/
theorem lidx_v27 (p : Fin 10000) (q : Fin 128) (k : Fin 10000) : lidx_main_v27 (ix2 p q) k = ix2 p k :=
  funext fun a => Fin.ext (by match a with | ⟨0, _⟩ => rfl | ⟨1, _⟩ => rfl)
/-- The right operand's index of product v27: contracted coordinate k, column q. -/
theorem ridx_v27 (p : Fin 10000) (q : Fin 128) (k : Fin 10000) : ridx_main_v27 (ix2 p q) k = ix2 k q :=
  funext fun a => Fin.ext (by match a with | ⟨0, _⟩ => rfl | ⟨1, _⟩ => rfl)
/-- The left operand's index of product v30: row p, contracted coordinate k. -/
theorem lidx_v30 (p : Fin 10000) (q : Fin 40) (k : Fin 128) : lidx_main_v30 (ix2 p q) k = ix2 p k :=
  funext fun a => Fin.ext (by match a with | ⟨0, _⟩ => rfl | ⟨1, _⟩ => rfl)
/-- The right operand's index of product v30: contracted coordinate k, column q. -/
theorem ridx_v30 (p : Fin 10000) (q : Fin 40) (k : Fin 128) : ridx_main_v30 (ix2 p q) k = ix2 k q :=
  funext fun a => Fin.ext (by match a with | ⟨0, _⟩ => rfl | ⟨1, _⟩ => rfl)
/-- The left operand's index of product v31: row p, contracted coordinate k. -/
theorem lidx_v31 (p : Fin 10000) (q : Fin 40) (k : Fin 128) : lidx_main_v31 (ix2 p q) k = ix2 p k :=
  funext fun a => Fin.ext (by match a with | ⟨0, _⟩ => rfl | ⟨1, _⟩ => rfl)
/-- The right operand's index of product v31: contracted coordinate k, column q. -/
theorem ridx_v31 (p : Fin 10000) (q : Fin 40) (k : Fin 128) : ridx_main_v31 (ix2 p q) k = ix2 k q :=
  funext fun a => Fin.ext (by match a with | ⟨0, _⟩ => rfl | ⟨1, _⟩ => rfl)
/-- A bias row broadcast down the rows (v4, v5) is read at its column. -/
theorem idx_v4_v5 (p : Fin 10000) (q : Fin 128) : idx_main_v4 (idx_main_v5 (ix2 p q)) = ix1 q :=
  funext fun a => Fin.ext (by match a with | ⟨0, _⟩ => rfl)
/-- A bias row broadcast down the rows (v13, v14) is read at its column. -/
theorem idx_v13_v14 (p : Fin 10000) (q : Fin 64) : idx_main_v13 (idx_main_v14 (ix2 p q)) = ix1 q :=
  funext fun a => Fin.ext (by match a with | ⟨0, _⟩ => rfl)
/-- A bias row broadcast down the rows (v23, v24) is read at its column. -/
theorem idx_v23_v24 (p : Fin 10000) (q : Fin 128) : idx_main_v23 (idx_main_v24 (ix2 p q)) = ix1 q :=
  funext fun a => Fin.ext (by match a with | ⟨0, _⟩ => rfl)
/-- A bias row broadcast down the rows (v33, v34) is read at its column. -/
theorem idx_v33_v34 (p : Fin 10000) (q : Fin 40) : idx_main_v33 (idx_main_v34 (ix2 p q)) = ix1 q :=
  funext fun a => Fin.ext (by match a with | ⟨0, _⟩ => rfl)
/-- The degree column broadcast along the columns (v8) is read at its row. -/
theorem idx_v8 (p : Fin 10000) (q : Fin 128) : idx_main_v8 (ix2 p q) = ix2 p (⟨0, Nat.one_pos⟩ : Fin 1) :=
  funext fun a => Fin.ext (by match a with | ⟨0, _⟩ => rfl | ⟨1, _⟩ => rfl)
/-- The degree column broadcast along the columns (v18) is read at its row. -/
theorem idx_v18 (p : Fin 10000) (q : Fin 64) : idx_main_v18 (ix2 p q) = ix2 p (⟨0, Nat.one_pos⟩ : Fin 1) :=
  funext fun a => Fin.ext (by match a with | ⟨0, _⟩ => rfl | ⟨1, _⟩ => rfl)
/-- The degree column broadcast along the columns (v28) is read at its row. -/
theorem idx_v28 (p : Fin 10000) (q : Fin 128) : idx_main_v28 (ix2 p q) = ix2 p (⟨0, Nat.one_pos⟩ : Fin 1) :=
  funext fun a => Fin.ext (by match a with | ⟨0, _⟩ => rfl | ⟨1, _⟩ => rfl)
/-- The row-sum column (v1) is read at its row. -/
theorem idx_v1 (p : Fin 10000) (z : Fin 1) : idx_main_v1 (ix2 p z) = ix1 p :=
  funext fun a => Fin.ext (by match a with | ⟨0, _⟩ => rfl)
/-- The row sum (v0) runs over the columns of its row. -/
theorem idx_v0 (p : Fin 10000) (k : Fin 10000) : idx_main_v0 (ix1 p) k = ix2 p k :=
  funext fun a => Fin.ext (by match a with | ⟨0, _⟩ => rfl | ⟨1, _⟩ => rfl)

/-! ### The stages -/

variable (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 x5 : (⟨S128x64, .f32⟩ : BufTy).Contents (Elt Ideal)) (x6 : (⟨S64, .f32⟩ : BufTy).Contents (Elt Ideal)) (x7 x8 : (⟨S64x128, .f32⟩ : BufTy).Contents (Elt Ideal)) (x9 : (⟨S128, .f32⟩ : BufTy).Contents (Elt Ideal)) (x10 x11 : (⟨S128x40, .f32⟩ : BufTy).Contents (Elt Ideal)) (x12 : (⟨S40, .f32⟩ : BufTy).Contents (Elt Ideal))

/-- The input map: the program's x · W_map + b_map is h0. -/
theorem h0_eq (p : Fin 10000) (q : Fin 128) :
    val_main_v6 (F := Ideal) x0 x2 x3 (ix2 p q) = h0 x0 x2 x3 p q := by
  rw [val_main_v6_apply, val_main_v3_apply, val_main_v5_apply, val_main_v4_apply]
  simp only [lidx_v3, ridx_v3, idx_v4_v5, Ideal.addf_def]
  rfl

/-- The clamped degree: the program's maximum of the literal and the row sum is deg. -/
theorem deg_eq (p : Fin 10000) (z : Fin 1) :
    val_main_v2 (F := Ideal) x1 (ix2 p z) = deg x1 p := by
  rw [val_main_v2_apply, val_main_call0_v1_apply, val_main_call0_v0_apply, val_main_cst_0_apply,
    val_main_v1_apply, val_main_v0_apply, val_main_cst_apply]
  simp only [idx_v1, idx_v0, Ideal.maximumf_def, Ideal.ofBits_def, Ideal.ofBits_zero_f32, zero_add]
  rfl

/-- The first aggregation: the program's (A · h0) / deg at row p, column k. -/
theorem agg1_eq (p : Fin 10000) (k : Fin 128) :
    val_main_v9 (F := Ideal) x0 x1 x2 x3 (ix2 p k)
      = Ideal.div (∑ j : Fin 10000, x1 (ix2 p j) * h0 x0 x2 x3 j k) (deg x1 p) := by
  rw [val_main_v9_apply, val_main_v7_apply, val_main_v8_apply]
  simp only [lidx_v7, ridx_v7, idx_v8, h0_eq, deg_eq, Ideal.hostDivf_def]

/-- The first layer before its rectifier is sage1 of h0. -/
theorem sage1_eq (p : Fin 10000) (q : Fin 64) :
    val_main_v15 (F := Ideal) x0 x1 x2 x3 x4 x5 x6 (ix2 p q) = sage1 x1 (h0 x0 x2 x3) x4 x5 x6 p q := by
  rw [val_main_v15_apply, val_main_v12_apply, val_main_v10_apply, val_main_v11_apply, val_main_v14_apply,
    val_main_v13_apply]
  simp only [lidx_v10, ridx_v10, lidx_v11, ridx_v11, idx_v13_v14, h0_eq, agg1_eq, Ideal.addf_def]
  rfl

/-- The first hidden state: the program's rectified first layer is h1. -/
theorem h1_eq (p : Fin 10000) (q : Fin 64) :
    val_main_v16 (F := Ideal) x0 x1 x2 x3 x4 x5 x6 (ix2 p q) = h1 x0 x1 x2 x3 x4 x5 x6 p q := by
  rw [val_main_v16_apply, sage1_eq, val_main_call1_v0_apply, val_main_call1_cst_apply]
  simp only [Ideal.maximumf_def, Ideal.ofBits_def, Ideal.ofBits_zero_f32]
  rfl

/-- The second aggregation: the program's (A · h1) / deg at row p, column k. -/
theorem agg2_eq (p : Fin 10000) (k : Fin 64) :
    val_main_v19 (F := Ideal) x0 x1 x2 x3 x4 x5 x6 (ix2 p k)
      = Ideal.div (∑ j : Fin 10000, x1 (ix2 p j) * h1 x0 x1 x2 x3 x4 x5 x6 j k) (deg x1 p) := by
  rw [val_main_v19_apply, val_main_v17_apply, val_main_v18_apply]
  simp only [lidx_v17, ridx_v17, idx_v18, h1_eq, deg_eq, Ideal.hostDivf_def]

/-- The second layer before its rectifier is sage2 of h1. -/
theorem sage2_eq (p : Fin 10000) (q : Fin 128) :
    val_main_v25 (F := Ideal) x0 x1 x2 x3 x4 x5 x6 x7 x8 x9 (ix2 p q)
      = sage2 x1 (h1 x0 x1 x2 x3 x4 x5 x6) x7 x8 x9 p q := by
  rw [val_main_v25_apply, val_main_v22_apply, val_main_v20_apply, val_main_v21_apply, val_main_v24_apply,
    val_main_v23_apply]
  simp only [lidx_v20, ridx_v20, lidx_v21, ridx_v21, idx_v23_v24, h1_eq, agg2_eq, Ideal.addf_def]
  rfl

/-- The second hidden state: the program's rectified second layer is h2. -/
theorem h2_eq (p : Fin 10000) (q : Fin 128) :
    val_main_v26 (F := Ideal) x0 x1 x2 x3 x4 x5 x6 x7 x8 x9 (ix2 p q)
      = h2 x0 x1 x2 x3 x4 x5 x6 x7 x8 x9 p q := by
  rw [val_main_v26_apply, sage2_eq, val_main_call2_v0_apply, val_main_call2_cst_apply]
  simp only [Ideal.maximumf_def, Ideal.ofBits_def, Ideal.ofBits_zero_f32]
  rfl

/-- The third aggregation: the program's (A · h2) / deg at row p, column k. -/
theorem agg3_eq (p : Fin 10000) (k : Fin 128) :
    val_main_v29 (F := Ideal) x0 x1 x2 x3 x4 x5 x6 x7 x8 x9 (ix2 p k)
      = Ideal.div (∑ j : Fin 10000, x1 (ix2 p j) * h2 x0 x1 x2 x3 x4 x5 x6 x7 x8 x9 j k) (deg x1 p) := by
  rw [val_main_v29_apply, val_main_v27_apply, val_main_v28_apply]
  simp only [lidx_v27, ridx_v27, idx_v28, h2_eq, deg_eq, Ideal.hostDivf_def]

/-- The result at row p, column q: the program's third layer is outAt. -/
theorem outAt_eq (p : Fin 10000) (q : Fin 40) :
    val_main_v35 (F := Ideal) x0 x1 x2 x3 x4 x5 x6 x7 x8 x9 x10 x11 x12 (ix2 p q)
      = outAt x0 x1 x2 x3 x4 x5 x6 x7 x8 x9 x10 x11 x12 p q := by
  rw [val_main_v35_apply, val_main_v32_apply, val_main_v30_apply, val_main_v31_apply, val_main_v34_apply,
    val_main_v33_apply]
  simp only [lidx_v30, ridx_v30, lidx_v31, ridx_v31, idx_v33_v34, h2_eq, agg3_eq, Ideal.addf_def]
  rfl

/-- The reference is the specification: the program's result array, as a function of the thirteen
    argument arrays, is Cert.RefSpec.out of them. -/
theorem ref_eq :
    val_main_v35 (F := Ideal) x0 x1 x2 x3 x4 x5 x6 x7 x8 x9 x10 x11 x12
      = out x0 x1 x2 x3 x4 x5 x6 x7 x8 x9 x10 x11 x12 := by
  funext i
  obtain ⟨p, q, rfl⟩ : ∃ (p : Fin 10000) (q : Fin 40), i = ix2 p q := ⟨i 0, i 1, eq_ix2 i⟩
  exact outAt_eq x0 x1 x2 x3 x4 x5 x6 x7 x8 x9 x10 x11 x12 p q

/-- The run's result buffer: the term the reference's run ends with at its result is the specification
    of the launch contents of the thirteen argument buffers. -/
theorem res_eq (m : (ℓ : Loc nD τ sig) → Buf (Elt Ideal) ℓ) (c : Dev nD) :
    Cert.ReferenceIdeal.Value.res_out0 m c
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (val_main_v35_eq m c).trans (ref_eq _ _ _ _ _ _ _ _ _ _ _ _ _)

end Cert.RefValue
-- ==== Proof.KI.Entry.lean ====
/-
  What each kernel region finds in its input arrays: an earlier region's output at what that region's write-backs left,
  a result of the host operations before the first region, or an argument array as launched.
-/
import proofs.«181542_g78589311582291_cont_9to1_m_296_16_alg».proof.Proof.KI.Bound3
import proofs.«181542_g78589311582291_cont_9to1_m_296_16_alg».proof.Proof.Gen.KernelIdeal.Regions
import Idealize.ShloMosaic.Lib.Pipeline.Kit
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Region 0 finds `main_arg0` at its launch contents. -/
theorem find0_main_arg0 (c : Dev nD) : V1 m c main_arg0 = m ((c : Thread nD τ).loc main_arg0) :=
  (Cert.KernelIdeal.Gen.V1_of m c main_arg0 (by decide)).trans rfl
/-- Region 0 finds `main_arg2` at its launch contents. -/
theorem find0_main_arg2 (c : Dev nD) : V1 m c main_arg2 = m ((c : Thread nD τ).loc main_arg2) :=
  (Cert.KernelIdeal.Gen.V1_of m c main_arg2 (by decide)).trans rfl
/-- Region 1 finds `main_arg1` at its launch contents. -/
theorem find1_main_arg1 (c : Dev nD) : V2 m c main_arg1 = m ((c : Thread nD τ).loc main_arg1) :=
  (W2_of m c main_arg1 (by decide)).trans <| (Cert.KernelIdeal.Gen.V1_of m c main_arg1 (by decide)).trans rfl
/-- Region 1 finds `main_v14_1` at what an earlier region left. -/
theorem find1_main_v14_1 (c : Dev nD) : V2 m c main_v14_1 = o0_6 m c :=
  (W2_main_v14_1 m c)
/-- Region 1 finds `main_v14_0` at what an earlier region left. -/
theorem find1_main_v14_0 (c : Dev nD) : V2 m c main_v14_0 = o0_5 m c :=
  (W2_main_v14_0 m c)
/-- Region 1 finds `main_arg4` at its launch contents. -/
theorem find1_main_arg4 (c : Dev nD) : V2 m c main_arg4 = m ((c : Thread nD τ).loc main_arg4) :=
  (W2_of m c main_arg4 (by decide)).trans <| (Cert.KernelIdeal.Gen.V1_of m c main_arg4 (by decide)).trans rfl
/-- Region 1 finds `main_v11` at the host operations' result. -/
theorem find1_main_v11 (c : Dev nD) : V2 m c main_v11 = W1 m c main_v11 :=
  (W2_of m c main_v11 (by decide))
/-- Region 2 finds `main_v15_0` at what an earlier region left. -/
theorem find2_main_v15_0 (c : Dev nD) : V3 m c main_v15_0 = o1_9 m c :=
  (W3_main_v15_0 m c)
/-- Region 2 finds `main_v15_2` at what an earlier region left. -/
theorem find2_main_v15_2 (c : Dev nD) : V3 m c main_v15_2 = o1_11 m c :=
  (W3_main_v15_2 m c)
/-- Region 2 finds `main_v15_1` at what an earlier region left. -/
theorem find2_main_v15_1 (c : Dev nD) : V3 m c main_v15_1 = o1_10 m c :=
  (W3_main_v15_1 m c)
/-- Region 2 finds `main_v15_3` at what an earlier region left. -/
theorem find2_main_v15_3 (c : Dev nD) : V3 m c main_v15_3 = o1_12 m c :=
  (W3_main_v15_3 m c)
/-- Region 2 finds `main_arg7` at its launch contents. -/
theorem find2_main_arg7 (c : Dev nD) : V3 m c main_arg7 = m ((c : Thread nD τ).loc main_arg7) :=
  (W3_of m c main_arg7 (by decide)).trans <| (W2_of m c main_arg7 (by decide)).trans <| (Cert.KernelIdeal.Gen.V1_of m c main_arg7 (by decide)).trans rfl
/-- Region 2 finds `main_arg8` at its launch contents. -/
theorem find2_main_arg8 (c : Dev nD) : V3 m c main_arg8 = m ((c : Thread nD τ).loc main_arg8) :=
  (W3_of m c main_arg8 (by decide)).trans <| (W2_of m c main_arg8 (by decide)).trans <| (Cert.KernelIdeal.Gen.V1_of m c main_arg8 (by decide)).trans rfl
/-- Region 2 finds `main_v12` at the host operations' result. -/
theorem find2_main_v12 (c : Dev nD) : V3 m c main_v12 = W1 m c main_v12 :=
  (W3_of m c main_v12 (by decide)).trans <| (W2_of m c main_v12 (by decide))
/-- Region 2 finds `main_v9` at the host operations' result. -/
theorem find2_main_v9 (c : Dev nD) : V3 m c main_v9 = W1 m c main_v9 :=
  (W3_of m c main_v9 (by decide)).trans <| (W2_of m c main_v9 (by decide))
/-- Region 3 finds `main_v15_0` at what an earlier region left. -/
theorem find3_main_v15_0 (c : Dev nD) : V4 m c main_v15_0 = o1_9 m c :=
  (W4_of m c main_v15_0 (by decide)).trans <| (W3_main_v15_0 m c)
/-- Region 3 finds `main_v16_1` at what an earlier region left. -/
theorem find3_main_v16_1 (c : Dev nD) : V4 m c main_v16_1 = o2_13 m c :=
  (W4_main_v16_1 m c)
/-- Region 3 finds `main_v16_0` at what an earlier region left. -/
theorem find3_main_v16_0 (c : Dev nD) : V4 m c main_v16_0 = o2_12 m c :=
  (W4_main_v16_0 m c)
/-- Region 3 finds `main_v15_3` at what an earlier region left. -/
theorem find3_main_v15_3 (c : Dev nD) : V4 m c main_v15_3 = o1_12 m c :=
  (W4_of m c main_v15_3 (by decide)).trans <| (W3_main_v15_3 m c)
/-- Region 3 finds `main_arg10` at its launch contents. -/
theorem find3_main_arg10 (c : Dev nD) : V4 m c main_arg10 = m ((c : Thread nD τ).loc main_arg10) :=
  (W4_of m c main_arg10 (by decide)).trans <| (W3_of m c main_arg10 (by decide)).trans <| (W2_of m c main_arg10 (by decide)).trans <| (Cert.KernelIdeal.Gen.V1_of m c main_arg10 (by decide)).trans rfl
/-- Region 3 finds `main_v13` at the host operations' result. -/
theorem find3_main_v13 (c : Dev nD) : V4 m c main_v13 = W1 m c main_v13 :=
  (W4_of m c main_v13 (by decide)).trans <| (W3_of m c main_v13 (by decide)).trans <| (W2_of m c main_v13 (by decide))

end Cert.KernelIdeal.Hand

end
-- ==== Proof.KI.ValLib.lean ====
/-
  Reading the program's block products and broadcasts at an index, in exact arithmetic.

  Over the extended reals a block product into a zero accumulator is, at row `p` and column `q`, the plain sum over the
  contraction coordinate `k` of `X(p,k)·W(k,q)`: one lemma per product shape the four regions use. Also here: a column
  broadcast along the rows read at an index, and the fact that the offset vector of a whole-buffer access is zero.
-/
import proofs.«181542_g78589311582291_cont_9to1_m_296_16_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

/-- The offsets of an access to a whole rank-2 buffer are zero on both axes. -/
theorem hz2 : (![0, 0] : Fin 2 → Nat) = fun _ => 0 := funext fun a => by fin_cases a <;> rfl

/-- A column `[a, 1]` broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The block product `S400x128·S128x128` into a zero accumulator, at row `p` and column `q`: the sum over the contraction
    index of the products (the contraction index, a one-axis index, is renamed to its coordinate). -/
theorem mm_400x128_128x128 {φ₁ φ₂ : FTy} (X : FVec Ideal S400x128 φ₁) (W : FVec Ideal S128x128 φ₂) (p : Fin 400) (q : Fin 128) :
    matmul dot_S400x128_S128x128_S400x128_1_0_0_1_n_n none X W (constant S400x128 .f32 0x00000000#32) (ix2 p q) = ∑ k : Fin 128, X (ix2 p k) * W (ix2 k q) := by
  show FloatOps.matmul dot_S400x128_S128x128_S400x128_1_0_0_1_n_n none X W (constant S400x128 .f32 0x00000000#32) (ix2 p q) = _
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ =>
      show (dot_S400x128_S128x128_S400x128_1_0_0_1_n_n.lhsIdx (ix2 p q) _ 0).val = p.val
      unfold DotDims.lhsIdx
      rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
      rfl
    | ⟨1, _⟩ => exact (dot_S400x128_S128x128_S400x128_1_0_0_1_n_n.lhsIdx_val_of_single rfl (ix2 p q) _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (dot_S400x128_S128x128_S400x128_1_0_0_1_n_n.rhsIdx_val_of_single rfl (ix2 p q) _).trans hk
    | ⟨1, _⟩ =>
      show (dot_S400x128_S128x128_S400x128_1_0_0_1_n_n.rhsIdx (ix2 p q) _ 1).val = q.val
      unfold DotDims.rhsIdx
      rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
      rfl)
  rw [el, er]

/-- The block product `S80x10000·S10000x128` into a zero accumulator, at row `p` and column `q`: the sum over the contraction
    index of the products (the contraction index, a one-axis index, is renamed to its coordinate). -/
theorem mm_80x10000_10000x128 {φ₁ φ₂ : FTy} (X : FVec Ideal S80x10000 φ₁) (W : FVec Ideal S10000x128 φ₂) (p : Fin 80) (q : Fin 128) :
    matmul dot_S80x10000_S10000x128_S80x128_1_0_0_1_n_n none X W (constant S80x128 .f32 0x00000000#32) (ix2 p q) = ∑ k : Fin 10000, X (ix2 p k) * W (ix2 k q) := by
  show FloatOps.matmul dot_S80x10000_S10000x128_S80x128_1_0_0_1_n_n none X W (constant S80x128 .f32 0x00000000#32) (ix2 p q) = _
  rw [Ideal.matmul_constant_zero_apply, ← Equiv.sum_comp (contrEquiv1 dot_S80x10000_S10000x128_S80x128_1_0_0_1_n_n 10000 rfl rfl).symm]
  refine Finset.sum_congr rfl fun k _ => ?_
  have hk := contrEquiv1_symm_val dot_S80x10000_S10000x128_S80x128_1_0_0_1_n_n 10000 rfl rfl k
  have el : dot_S80x10000_S10000x128_S80x128_1_0_0_1_n_n.lhsIdx (ix2 p q) ((contrEquiv1 dot_S80x10000_S10000x128_S80x128_1_0_0_1_n_n 10000 rfl rfl).symm k) = ix2 p k := funext fun a => Fin.ext (by
    match a with
    | ⟨0, _⟩ =>
      show (dot_S80x10000_S10000x128_S80x128_1_0_0_1_n_n.lhsIdx (ix2 p q) _ 0).val = p.val
      unfold DotDims.lhsIdx
      rw [dif_neg (show ¬(0 : Fin S80x10000.rank) ∈ dot_S80x10000_S10000x128_S80x128_1_0_0_1_n_n.lhsBatch by decide), dif_pos (show (0 : Fin S80x10000.rank) ∈ dot_S80x10000_S10000x128_S80x128_1_0_0_1_n_n.lhsNonContracting by decide)]
      rfl
    | ⟨1, _⟩ => exact (dot_S80x10000_S10000x128_S80x128_1_0_0_1_n_n.lhsIdx_val_of_single rfl (ix2 p q) _).trans hk)
  have er : dot_S80x10000_S10000x128_S80x128_1_0_0_1_n_n.rhsIdx (ix2 p q) ((contrEquiv1 dot_S80x10000_S10000x128_S80x128_1_0_0_1_n_n 10000 rfl rfl).symm k) = ix2 k q := funext fun a => Fin.ext (by
    match a with
    | ⟨0, _⟩ => exact (dot_S80x10000_S10000x128_S80x128_1_0_0_1_n_n.rhsIdx_val_of_single rfl (ix2 p q) _).trans hk
    | ⟨1, _⟩ =>
      show (dot_S80x10000_S10000x128_S80x128_1_0_0_1_n_n.rhsIdx (ix2 p q) _ 1).val = q.val
      unfold DotDims.rhsIdx
      rw [dif_neg (show ¬(1 : Fin S10000x128.rank) ∈ dot_S80x10000_S10000x128_S80x128_1_0_0_1_n_n.rhsBatch by decide), dif_pos (show (1 : Fin S10000x128.rank) ∈ dot_S80x10000_S10000x128_S80x128_1_0_0_1_n_n.rhsNonContracting by decide)]
      rfl)
  rw [el, er]

/-- The block product `S400x128·S128x64` into a zero accumulator, at row `p` and column `q`: the sum over the contraction
    index of the products (the contraction index, a one-axis index, is renamed to its coordinate). -/
theorem mm_400x128_128x64 {φ₁ φ₂ : FTy} (X : FVec Ideal S400x128 φ₁) (W : FVec Ideal S128x64 φ₂) (p : Fin 400) (q : Fin 64) :
    matmul dot_S400x128_S128x64_S400x64_1_0_0_1_n_n none X W (constant S400x64 .f32 0x00000000#32) (ix2 p q) = ∑ k : Fin 128, X (ix2 p k) * W (ix2 k q) := by
  show FloatOps.matmul dot_S400x128_S128x64_S400x64_1_0_0_1_n_n none X W (constant S400x64 .f32 0x00000000#32) (ix2 p q) = _
  rw [Ideal.matmul_constant_zero_apply, ← Equiv.sum_comp (contrEquiv1 dot_S400x128_S128x64_S400x64_1_0_0_1_n_n 128 rfl rfl).symm]
  refine Finset.sum_congr rfl fun k _ => ?_
  have hk := contrEquiv1_symm_val dot_S400x128_S128x64_S400x64_1_0_0_1_n_n 128 rfl rfl k
  have el : dot_S400x128_S128x64_S400x64_1_0_0_1_n_n.lhsIdx (ix2 p q) ((contrEquiv1 dot_S400x128_S128x64_S400x64_1_0_0_1_n_n 128 rfl rfl).symm k) = ix2 p k := funext fun a => Fin.ext (by
    match a with
    | ⟨0, _⟩ =>
      show (dot_S400x128_S128x64_S400x64_1_0_0_1_n_n.lhsIdx (ix2 p q) _ 0).val = p.val
      unfold DotDims.lhsIdx
      rw [dif_neg (show ¬(0 : Fin S400x128.rank) ∈ dot_S400x128_S128x64_S400x64_1_0_0_1_n_n.lhsBatch by decide), dif_pos (show (0 : Fin S400x128.rank) ∈ dot_S400x128_S128x64_S400x64_1_0_0_1_n_n.lhsNonContracting by decide)]
      rfl
    | ⟨1, _⟩ => exact (dot_S400x128_S128x64_S400x64_1_0_0_1_n_n.lhsIdx_val_of_single rfl (ix2 p q) _).trans hk)
  have er : dot_S400x128_S128x64_S400x64_1_0_0_1_n_n.rhsIdx (ix2 p q) ((contrEquiv1 dot_S400x128_S128x64_S400x64_1_0_0_1_n_n 128 rfl rfl).symm k) = ix2 k q := funext fun a => Fin.ext (by
    match a with
    | ⟨0, _⟩ => exact (dot_S400x128_S128x64_S400x64_1_0_0_1_n_n.rhsIdx_val_of_single rfl (ix2 p q) _).trans hk
    | ⟨1, _⟩ =>
      show (dot_S400x128_S128x64_S400x64_1_0_0_1_n_n.rhsIdx (ix2 p q) _ 1).val = q.val
      unfold DotDims.rhsIdx
      rw [dif_neg (show ¬(1 : Fin S128x64.rank) ∈ dot_S400x128_S128x64_S400x64_1_0_0_1_n_n.rhsBatch by decide), dif_pos (show (1 : Fin S128x64.rank) ∈ dot_S400x128_S128x64_S400x64_1_0_0_1_n_n.rhsNonContracting by decide)]
      rfl)
  rw [el, er]

/-- The block product `S200x10000·S10000x64` into a zero accumulator, at row `p` and column `q`: the sum over the contraction
    index of the products (the contraction index, a one-axis index, is renamed to its coordinate). -/
theorem mm_200x10000_10000x64 {φ₁ φ₂ : FTy} (X : FVec Ideal S200x10000 φ₁) (W : FVec Ideal S10000x64 φ₂) (p : Fin 200) (q : Fin 64) :
    matmul dot_S200x10000_S10000x64_S200x64_1_0_0_1_n_n none X W (constant S200x64 .f32 0x00000000#32) (ix2 p q) = ∑ k : Fin 10000, X (ix2 p k) * W (ix2 k q) := by
  show FloatOps.matmul dot_S200x10000_S10000x64_S200x64_1_0_0_1_n_n none X W (constant S200x64 .f32 0x00000000#32) (ix2 p q) = _
  rw [Ideal.matmul_constant_zero_apply, ← Equiv.sum_comp (contrEquiv1 dot_S200x10000_S10000x64_S200x64_1_0_0_1_n_n 10000 rfl rfl).symm]
  refine Finset.sum_congr rfl fun k _ => ?_
  have hk := contrEquiv1_symm_val dot_S200x10000_S10000x64_S200x64_1_0_0_1_n_n 10000 rfl rfl k
  have el : dot_S200x10000_S10000x64_S200x64_1_0_0_1_n_n.lhsIdx (ix2 p q) ((contrEquiv1 dot_S200x10000_S10000x64_S200x64_1_0_0_1_n_n 10000 rfl rfl).symm k) = ix2 p k := funext fun a => Fin.ext (by
    match a with
    | ⟨0, _⟩ =>
      show (dot_S200x10000_S10000x64_S200x64_1_0_0_1_n_n.lhsIdx (ix2 p q) _ 0).val = p.val
      unfold DotDims.lhsIdx
      rw [dif_neg (show ¬(0 : Fin S200x10000.rank) ∈ dot_S200x10000_S10000x64_S200x64_1_0_0_1_n_n.lhsBatch by decide), dif_pos (show (0 : Fin S200x10000.rank) ∈ dot_S200x10000_S10000x64_S200x64_1_0_0_1_n_n.lhsNonContracting by decide)]
      rfl
    | ⟨1, _⟩ => exact (dot_S200x10000_S10000x64_S200x64_1_0_0_1_n_n.lhsIdx_val_of_single rfl (ix2 p q) _).trans hk)
  have er : dot_S200x10000_S10000x64_S200x64_1_0_0_1_n_n.rhsIdx (ix2 p q) ((contrEquiv1 dot_S200x10000_S10000x64_S200x64_1_0_0_1_n_n 10000 rfl rfl).symm k) = ix2 k q := funext fun a => Fin.ext (by
    match a with
    | ⟨0, _⟩ => exact (dot_S200x10000_S10000x64_S200x64_1_0_0_1_n_n.rhsIdx_val_of_single rfl (ix2 p q) _).trans hk
    | ⟨1, _⟩ =>
      show (dot_S200x10000_S10000x64_S200x64_1_0_0_1_n_n.rhsIdx (ix2 p q) _ 1).val = q.val
      unfold DotDims.rhsIdx
      rw [dif_neg (show ¬(1 : Fin S10000x64.rank) ∈ dot_S200x10000_S10000x64_S200x64_1_0_0_1_n_n.rhsBatch by decide), dif_pos (show (1 : Fin S10000x64.rank) ∈ dot_S200x10000_S10000x64_S200x64_1_0_0_1_n_n.rhsNonContracting by decide)]
      rfl)
  rw [el, er]

/-- The block product `S1000x64·S64x128` into a zero accumulator, at row `p` and column `q`: the sum over the contraction
    index of the products (the contraction index, a one-axis index, is renamed to its coordinate). -/
theorem mm_1000x64_64x128 {φ₁ φ₂ : FTy} (X : FVec Ideal S1000x64 φ₁) (W : FVec Ideal S64x128 φ₂) (p : Fin 1000) (q : Fin 128) :
    matmul dot_S1000x64_S64x128_S1000x128_1_0_0_1_n_n none X W (constant S1000x128 .f32 0x00000000#32) (ix2 p q) = ∑ k : Fin 64, X (ix2 p k) * W (ix2 k q) := by
  show FloatOps.matmul dot_S1000x64_S64x128_S1000x128_1_0_0_1_n_n none X W (constant S1000x128 .f32 0x00000000#32) (ix2 p q) = _
  rw [Ideal.matmul_constant_zero_apply, ← Equiv.sum_comp (contrEquiv1 dot_S1000x64_S64x128_S1000x128_1_0_0_1_n_n 64 rfl rfl).symm]
  refine Finset.sum_congr rfl fun k _ => ?_
  have hk := contrEquiv1_symm_val dot_S1000x64_S64x128_S1000x128_1_0_0_1_n_n 64 rfl rfl k
  have el : dot_S1000x64_S64x128_S1000x128_1_0_0_1_n_n.lhsIdx (ix2 p q) ((contrEquiv1 dot_S1000x64_S64x128_S1000x128_1_0_0_1_n_n 64 rfl rfl).symm k) = ix2 p k := funext fun a => Fin.ext (by
    match a with
    | ⟨0, _⟩ =>
      show (dot_S1000x64_S64x128_S1000x128_1_0_0_1_n_n.lhsIdx (ix2 p q) _ 0).val = p.val
      unfold DotDims.lhsIdx
      rw [dif_neg (show ¬(0 : Fin S1000x64.rank) ∈ dot_S1000x64_S64x128_S1000x128_1_0_0_1_n_n.lhsBatch by decide), dif_pos (show (0 : Fin S1000x64.rank) ∈ dot_S1000x64_S64x128_S1000x128_1_0_0_1_n_n.lhsNonContracting by decide)]
      rfl
    | ⟨1, _⟩ => exact (dot_S1000x64_S64x128_S1000x128_1_0_0_1_n_n.lhsIdx_val_of_single rfl (ix2 p q) _).trans hk)
  have er : dot_S1000x64_S64x128_S1000x128_1_0_0_1_n_n.rhsIdx (ix2 p q) ((contrEquiv1 dot_S1000x64_S64x128_S1000x128_1_0_0_1_n_n 64 rfl rfl).symm k) = ix2 k q := funext fun a => Fin.ext (by
    match a with
    | ⟨0, _⟩ => exact (dot_S1000x64_S64x128_S1000x128_1_0_0_1_n_n.rhsIdx_val_of_single rfl (ix2 p q) _).trans hk
    | ⟨1, _⟩ =>
      show (dot_S1000x64_S64x128_S1000x128_1_0_0_1_n_n.rhsIdx (ix2 p q) _ 1).val = q.val
      unfold DotDims.rhsIdx
      rw [dif_neg (show ¬(1 : Fin S64x128.rank) ∈ dot_S1000x64_S64x128_S1000x128_1_0_0_1_n_n.rhsBatch by decide), dif_pos (show (1 : Fin S64x128.rank) ∈ dot_S1000x64_S64x128_S1000x128_1_0_0_1_n_n.rhsNonContracting by decide)]
      rfl)
  rw [el, er]

/-- The block product `S1000x128·S128x40` into a zero accumulator, at row `p` and column `q`: the sum over the contraction
    index of the products (the contraction index, a one-axis index, is renamed to its coordinate). -/
theorem mm_1000x128_128x40 {φ₁ φ₂ : FTy} (X : FVec Ideal S1000x128 φ₁) (W : FVec Ideal S128x40 φ₂) (p : Fin 1000) (q : Fin 40) :
    matmul dot_S1000x128_S128x40_S1000x40_1_0_0_1_n_n none X W (constant S1000x40 .f32 0x00000000#32) (ix2 p q) = ∑ k : Fin 128, X (ix2 p k) * W (ix2 k q) := by
  show FloatOps.matmul dot_S1000x128_S128x40_S1000x40_1_0_0_1_n_n none X W (constant S1000x40 .f32 0x00000000#32) (ix2 p q) = _
  rw [Ideal.matmul_constant_zero_apply, ← Equiv.sum_comp (contrEquiv1 dot_S1000x128_S128x40_S1000x40_1_0_0_1_n_n 128 rfl rfl).symm]
  refine Finset.sum_congr rfl fun k _ => ?_
  have hk := contrEquiv1_symm_val dot_S1000x128_S128x40_S1000x40_1_0_0_1_n_n 128 rfl rfl k
  have el : dot_S1000x128_S128x40_S1000x40_1_0_0_1_n_n.lhsIdx (ix2 p q) ((contrEquiv1 dot_S1000x128_S128x40_S1000x40_1_0_0_1_n_n 128 rfl rfl).symm k) = ix2 p k := funext fun a => Fin.ext (by
    match a with
    | ⟨0, _⟩ =>
      show (dot_S1000x128_S128x40_S1000x40_1_0_0_1_n_n.lhsIdx (ix2 p q) _ 0).val = p.val
      unfold DotDims.lhsIdx
      rw [dif_neg (show ¬(0 : Fin S1000x128.rank) ∈ dot_S1000x128_S128x40_S1000x40_1_0_0_1_n_n.lhsBatch by decide), dif_pos (show (0 : Fin S1000x128.rank) ∈ dot_S1000x128_S128x40_S1000x40_1_0_0_1_n_n.lhsNonContracting by decide)]
      rfl
    | ⟨1, _⟩ => exact (dot_S1000x128_S128x40_S1000x40_1_0_0_1_n_n.lhsIdx_val_of_single rfl (ix2 p q) _).trans hk)
  have er : dot_S1000x128_S128x40_S1000x40_1_0_0_1_n_n.rhsIdx (ix2 p q) ((contrEquiv1 dot_S1000x128_S128x40_S1000x40_1_0_0_1_n_n 128 rfl rfl).symm k) = ix2 k q := funext fun a => Fin.ext (by
    match a with
    | ⟨0, _⟩ => exact (dot_S1000x128_S128x40_S1000x40_1_0_0_1_n_n.rhsIdx_val_of_single rfl (ix2 p q) _).trans hk
    | ⟨1, _⟩ =>
      show (dot_S1000x128_S128x40_S1000x40_1_0_0_1_n_n.rhsIdx (ix2 p q) _ 1).val = q.val
      unfold DotDims.rhsIdx
      rw [dif_neg (show ¬(1 : Fin S128x40.rank) ∈ dot_S1000x128_S128x40_S1000x40_1_0_0_1_n_n.rhsBatch by decide), dif_pos (show (1 : Fin S128x40.rank) ∈ dot_S1000x128_S128x40_S1000x40_1_0_0_1_n_n.rhsNonContracting by decide)]
      rfl)
  rw [el, er]

/-- The block product `S200x10000·S10000x40` into a zero accumulator, at row `p` and column `q`: the sum over the contraction
    index of the products (the contraction index, a one-axis index, is renamed to its coordinate). -/
theorem mm_200x10000_10000x40 {φ₁ φ₂ : FTy} (X : FVec Ideal S200x10000 φ₁) (W : FVec Ideal S10000x40 φ₂) (p : Fin 200) (q : Fin 40) :
    matmul dot_S200x10000_S10000x40_S200x40_1_0_0_1_n_n none X W (constant S200x40 .f32 0x00000000#32) (ix2 p q) = ∑ k : Fin 10000, X (ix2 p k) * W (ix2 k q) := by
  show FloatOps.matmul dot_S200x10000_S10000x40_S200x40_1_0_0_1_n_n none X W (constant S200x40 .f32 0x00000000#32) (ix2 p q) = _
  rw [Ideal.matmul_constant_zero_apply, ← Equiv.sum_comp (contrEquiv1 dot_S200x10000_S10000x40_S200x40_1_0_0_1_n_n 10000 rfl rfl).symm]
  refine Finset.sum_congr rfl fun k _ => ?_
  have hk := contrEquiv1_symm_val dot_S200x10000_S10000x40_S200x40_1_0_0_1_n_n 10000 rfl rfl k
  have el : dot_S200x10000_S10000x40_S200x40_1_0_0_1_n_n.lhsIdx (ix2 p q) ((contrEquiv1 dot_S200x10000_S10000x40_S200x40_1_0_0_1_n_n 10000 rfl rfl).symm k) = ix2 p k := funext fun a => Fin.ext (by
    match a with
    | ⟨0, _⟩ =>
      show (dot_S200x10000_S10000x40_S200x40_1_0_0_1_n_n.lhsIdx (ix2 p q) _ 0).val = p.val
      unfold DotDims.lhsIdx
      rw [dif_neg (show ¬(0 : Fin S200x10000.rank) ∈ dot_S200x10000_S10000x40_S200x40_1_0_0_1_n_n.lhsBatch by decide), dif_pos (show (0 : Fin S200x10000.rank) ∈ dot_S200x10000_S10000x40_S200x40_1_0_0_1_n_n.lhsNonContracting by decide)]
      rfl
    | ⟨1, _⟩ => exact (dot_S200x10000_S10000x40_S200x40_1_0_0_1_n_n.lhsIdx_val_of_single rfl (ix2 p q) _).trans hk)
  have er : dot_S200x10000_S10000x40_S200x40_1_0_0_1_n_n.rhsIdx (ix2 p q) ((contrEquiv1 dot_S200x10000_S10000x40_S200x40_1_0_0_1_n_n 10000 rfl rfl).symm k) = ix2 k q := funext fun a => Fin.ext (by
    match a with
    | ⟨0, _⟩ => exact (dot_S200x10000_S10000x40_S200x40_1_0_0_1_n_n.rhsIdx_val_of_single rfl (ix2 p q) _).trans hk
    | ⟨1, _⟩ =>
      show (dot_S200x10000_S10000x40_S200x40_1_0_0_1_n_n.rhsIdx (ix2 p q) _ 1).val = q.val
      unfold DotDims.rhsIdx
      rw [dif_neg (show ¬(1 : Fin S10000x40.rank) ∈ dot_S200x10000_S10000x40_S200x40_1_0_0_1_n_n.rhsBatch by decide), dif_pos (show (1 : Fin S10000x40.rank) ∈ dot_S200x10000_S10000x40_S200x40_1_0_0_1_n_n.rhsNonContracting by decide)]
      rfl)
  rw [el, er]

end Cert.KernelIdeal.Hand

end
-- ==== Proof.KI.Pay0.lean ====
/-
  Region 0's two stored values at an index, in exact arithmetic.

  The body of region 0 stores two 400×128 blocks. Over the extended reals every rounding is the identity and a block
  product into a zero accumulator is a plain sum of products, so at row `p`, column `q` the first stored block is
  `∑ₖ x(p,k)·W(k,q) + b(0,q)`, and the second is the same expression of the first block, the second matrix and the second
  bias row.
-/
import proofs.«181542_g78589311582291_cont_9to1_m_296_16_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«181542_g78589311582291_cont_9to1_m_296_16_alg».proof.Proof.KI.ValLib

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

/-- The first value region 0's body stores (the f32 output), at row `p` and column `q` of the 400×128 block. -/
theorem pay0_1_apply (v0 : Vec Ideal S400x128 .f32) (v1 : Vec Ideal S128x128 .f32) (v3 : Vec Ideal S1x128 .f32)
    (p : Fin 400) (q : Fin 128) :
    k0_pay1 (F := Ideal) v0 v1 v3 (ix2 p q) = (∑ k : Fin 128, v0 (ix2 p k) * v1 (ix2 k q)) + v3 (ix2 (0 : Fin 1) q) := by
  unfold k0_pay1
  simp only [shapeCast_self]
  rw [addf_apply, broadcastTo_1b_ab_apply, mm_400x128_128x128]

/-- The second value region 0's body stores (the bf16 output), at row `p` and column `q`: the first value times the second
    matrix plus the second bias row; the rounding to bf16 is the identity in exact arithmetic. -/
theorem pay0_2_apply (v0 : Vec Ideal S400x128 .f32) (v1 : Vec Ideal S128x128 .f32) (v3 : Vec Ideal S1x128 .f32)
    (v8 : Vec Ideal S128x128 .f32) (v11 : Vec Ideal S1x128 .f32) (p : Fin 400) (q : Fin 128) :
    k0_pay2 (F := Ideal) v0 v1 v3 v8 v11 (ix2 p q)
      = (∑ k : Fin 128, ((∑ k' : Fin 128, v0 (ix2 p k') * v1 (ix2 k' k)) + v3 (ix2 (0 : Fin 1) k)) * v8 (ix2 k q))
        + v11 (ix2 (0 : Fin 1) q) := by
  unfold k0_pay2
  simp only [shapeCast_self]
  rw [truncf_apply, addf_apply, broadcastTo_1b_ab_apply, mm_400x128_128x128]
  simp only [pay0_1_apply]

end Cert.KernelIdeal.Hand

end
-- ==== Proof.KI.Val0.lean ====
/-
  Region 0's two output arrays after the last grid point, in exact arithmetic, as functions of the arrays the region finds.

  The region writes each output (10000×128) in twenty-five blocks of 400 rows; point `t` writes rows `400·t …`. The input block of
  window 0 at point `t` is rows `400·t …` of its array and the other four windows are whole arrays, so each block written at
  point `t` is the block of one whole-array function, and since the blocks cover the arrays, the arrays end at those functions:
    h(p,q) = ∑ₖ x(p,k)·W(k,q) + b(0,q),        g(p,q) = ∑ₖ h(p,k)·W'(k,q) + b'(0,q).
-/
import proofs.«181542_g78589311582291_cont_9to1_m_296_16_alg».proof.Proof.KI.Half0
import proofs.«181542_g78589311582291_cont_9to1_m_296_16_alg».proof.Proof.KI.Pay0
import proofs.«181542_g78589311582291_cont_9to1_m_296_16_alg».proof.Proof.KI.ValLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- what the core's buffers hold when the region is entered, in exact arithmetic; arbitrary
variable (V : (c : Dev nD) → (b : Ref sig .tc) → Buf (Elt Ideal) ((c : Thread nD τ).loc b))

/-- Window 0's index map at point `t`, decided over the grid. -/
theorem idx0_0 : ∀ t : Fin cfg0.N, win0_0.index t (0 : Fin 2) = t.val ∧ win0_0.index t (1 : Fin 2) = 0 :=
  (by decide +kernel : ∀ t : Fin grid0.N, _)

/-- Window 0's block at point `t` is rows `400·t + 0 …` of the array: its entry `x` is the array's entry `k` at the matching row and column. -/
theorem iblk0_0_apply (c : Dev nD) (t : Fin cfg0.N) (x : S400x128.Idx) (k : S10000x128.Idx)
    (hk0 : (k 0).val = 400 * t.val + 0 + (x 0).val) (hk1 : (k 1).val = (x 1).val) :
    (iblk0 V c 0 t : Vec Ideal S400x128 .f32) x = (V c main_arg0 : S10000x128.Idx → Elt Ideal .f32) k := by
  obtain ⟨h0, h1⟩ := idx0_0 t
  unfold iblk0
  rw [View.read_apply]
  show V c main_arg0 _ = V c main_arg0 _
  congr 1
  funext a
  apply Fin.ext
  match a with
  | ⟨0, _⟩ => show win0_0.index t 0 * 400 + 1 * (x 0).val = (k 0).val; rw [h0, hk0]; omega
  | ⟨1, _⟩ => show win0_0.index t 1 * 128 + 1 * (x 1).val = (k 1).val; rw [h1, hk1]; omega

/-- Window 1's index map at point `t`, decided over the grid. -/
theorem idx0_1 : ∀ t : Fin cfg0.N, win0_1.index t (0 : Fin 2) = 0 ∧ win0_1.index t (1 : Fin 2) = 0 :=
  (by decide +kernel : ∀ t : Fin grid0.N, _)

/-- Window 1's block at point `t` is the whole array: its entry `x` is the array's entry `k` at the matching row and column. -/
theorem iblk0_1_apply (c : Dev nD) (t : Fin cfg0.N) (x : S128x128.Idx) (k : S128x128.Idx)
    (hk0 : (k 0).val = (x 0).val) (hk1 : (k 1).val = (x 1).val) :
    (iblk0 V c 1 t : Vec Ideal S128x128 .f32) x = (V c main_arg2 : S128x128.Idx → Elt Ideal .f32) k := by
  obtain ⟨h0, h1⟩ := idx0_1 t
  unfold iblk0
  rw [View.read_apply]
  show V c main_arg2 _ = V c main_arg2 _
  congr 1
  funext a
  apply Fin.ext
  match a with
  | ⟨0, _⟩ => show win0_1.index t 0 * 128 + 1 * (x 0).val = (k 0).val; rw [h0, hk0]; omega
  | ⟨1, _⟩ => show win0_1.index t 1 * 128 + 1 * (x 1).val = (k 1).val; rw [h1, hk1]; omega

/-- Window 2's index map at point `t`, decided over the grid. -/
theorem idx0_2 : ∀ t : Fin cfg0.N, win0_2.index t (0 : Fin 2) = 0 ∧ win0_2.index t (1 : Fin 2) = 0 :=
  (by decide +kernel : ∀ t : Fin grid0.N, _)

/-- Window 2's block at point `t` is the whole array: its entry `x` is the array's entry `k` at the matching row and column. -/
theorem iblk0_2_apply (c : Dev nD) (t : Fin cfg0.N) (x : S1x128.Idx) (k : S1x128.Idx)
    (hk0 : (k 0).val = (x 0).val) (hk1 : (k 1).val = (x 1).val) :
    (iblk0 V c 2 t : Vec Ideal S1x128 .f32) x = (V c main_v10 : S1x128.Idx → Elt Ideal .f32) k := by
  obtain ⟨h0, h1⟩ := idx0_2 t
  unfold iblk0
  rw [View.read_apply]
  show V c main_v10 _ = V c main_v10 _
  congr 1
  funext a
  apply Fin.ext
  match a with
  | ⟨0, _⟩ => show win0_2.index t 0 * 1 + 1 * (x 0).val = (k 0).val; rw [h0, hk0]; omega
  | ⟨1, _⟩ => show win0_2.index t 1 * 128 + 1 * (x 1).val = (k 1).val; rw [h1, hk1]; omega

/-- Window 3's index map at point `t`, decided over the grid. -/
theorem idx0_3 : ∀ t : Fin cfg0.N, win0_3.index t (0 : Fin 2) = 0 ∧ win0_3.index t (1 : Fin 2) = 0 :=
  (by decide +kernel : ∀ t : Fin grid0.N, _)

/-- Window 3's block at point `t` is the whole array: its entry `x` is the array's entry `k` at the matching row and column. -/
theorem iblk0_3_apply (c : Dev nD) (t : Fin cfg0.N) (x : S128x128.Idx) (k : S128x128.Idx)
    (hk0 : (k 0).val = (x 0).val) (hk1 : (k 1).val = (x 1).val) :
    (iblk0 V c 3 t : Vec Ideal S128x128 .f32) x = (V c main_v2 : S128x128.Idx → Elt Ideal .f32) k := by
  obtain ⟨h0, h1⟩ := idx0_3 t
  unfold iblk0
  rw [View.read_apply]
  show V c main_v2 _ = V c main_v2 _
  congr 1
  funext a
  apply Fin.ext
  match a with
  | ⟨0, _⟩ => show win0_3.index t 0 * 128 + 1 * (x 0).val = (k 0).val; rw [h0, hk0]; omega
  | ⟨1, _⟩ => show win0_3.index t 1 * 128 + 1 * (x 1).val = (k 1).val; rw [h1, hk1]; omega

/-- Window 4's index map at point `t`, decided over the grid. -/
theorem idx0_4 : ∀ t : Fin cfg0.N, win0_4.index t (0 : Fin 2) = 0 ∧ win0_4.index t (1 : Fin 2) = 0 :=
  (by decide +kernel : ∀ t : Fin grid0.N, _)

/-- Window 4's block at point `t` is the whole array: its entry `x` is the array's entry `k` at the matching row and column. -/
theorem iblk0_4_apply (c : Dev nD) (t : Fin cfg0.N) (x : S1x128.Idx) (k : S1x128.Idx)
    (hk0 : (k 0).val = (x 0).val) (hk1 : (k 1).val = (x 1).val) :
    (iblk0 V c 4 t : Vec Ideal S1x128 .f32) x = (V c main_v7 : S1x128.Idx → Elt Ideal .f32) k := by
  obtain ⟨h0, h1⟩ := idx0_4 t
  unfold iblk0
  rw [View.read_apply]
  show V c main_v7 _ = V c main_v7 _
  congr 1
  funext a
  apply Fin.ext
  match a with
  | ⟨0, _⟩ => show win0_4.index t 0 * 1 + 1 * (x 0).val = (k 0).val; rw [h0, hk0]; omega
  | ⟨1, _⟩ => show win0_4.index t 1 * 128 + 1 * (x 1).val = (k 1).val; rw [h1, hk1]; omega

/-- The first output at row `p`, column `q`: `x·W + b`. -/
def fn0_5 (x : S10000x128.Idx → EReal) (W : S128x128.Idx → EReal) (b : S1x128.Idx → EReal) (p : Fin 10000) (q : Fin 128) : EReal :=
  (∑ k : Fin 128, x (ix2 p k) * W (ix2 k q)) + b (ix2 (0 : Fin 1) q)

/-- The second output at row `p`, column `q`: the first output times the second matrix plus the second bias row. -/
def fn0_6 (x : S10000x128.Idx → EReal) (W : S128x128.Idx → EReal) (b : S1x128.Idx → EReal) (W' : S128x128.Idx → EReal)
    (b' : S1x128.Idx → EReal) (p : Fin 10000) (q : Fin 128) : EReal :=
  (∑ k : Fin 128, fn0_5 x W b p k * W' (ix2 k q)) + b' (ix2 (0 : Fin 1) q)

/-- Region 0's first output array as a function of the arrays the region finds on core `c`. -/
def G0_5 (c : Dev nD) : S10000x128.Idx → EReal := fun i => fn0_5 (V c main_arg0) (V c main_arg2) (V c main_v10) (i 0) (i 1)

/-- Region 0's second output array as a function of the arrays the region finds on core `c`. -/
def G0_6 (c : Dev nD) : S10000x128.Idx → EReal := fun i => fn0_6 (V c main_arg0) (V c main_arg2) (V c main_v10) (V c main_v2) (V c main_v7) (i 0) (i 1)

/-- The first stored block at point `t`, at row `p` and column `q`, is the first output function at row `r = 400·t + p`. -/
theorem val0_5_block (c : Dev nD) (t : Fin cfg0.N) (p : Fin 400) (q : Fin 128) (r : Fin 10000) (hr : r.val = 400 * t.val + p.val) :
    k0_pay1 (F := Ideal) (iblk0 V c 0 t) (iblk0 V c 1 t) (iblk0 V c 2 t) (ix2 p q) = fn0_5 (V c main_arg0) (V c main_arg2) (V c main_v10) r q := by
  refine (pay0_1_apply (iblk0 V c 0 t) (iblk0 V c 1 t) (iblk0 V c 2 t) p q).trans ?_
  unfold fn0_5
  refine congrArg₂ (· + ·) (Finset.sum_congr rfl fun k _ => congrArg₂ (· * ·) ?_ ?_) ?_
  · exact iblk0_0_apply V c t (ix2 p k) (ix2 r k) (by show r.val = 400 * t.val + 0 + p.val; omega) rfl
  · exact iblk0_1_apply V c t (ix2 k q) (ix2 k q) rfl rfl
  · exact iblk0_2_apply V c t (ix2 0 q) (ix2 0 q) rfl rfl

/-- The second stored block at point `t`, at row `p` and column `q`, is the second output function at row `r = 400·t + p`. -/
theorem val0_6_block (c : Dev nD) (t : Fin cfg0.N) (p : Fin 400) (q : Fin 128) (r : Fin 10000) (hr : r.val = 400 * t.val + p.val) :
    k0_pay2 (F := Ideal) (iblk0 V c 0 t) (iblk0 V c 1 t) (iblk0 V c 2 t) (iblk0 V c 3 t) (iblk0 V c 4 t) (ix2 p q) = fn0_6 (V c main_arg0) (V c main_arg2) (V c main_v10) (V c main_v2) (V c main_v7) r q := by
  refine (pay0_2_apply (iblk0 V c 0 t) (iblk0 V c 1 t) (iblk0 V c 2 t) (iblk0 V c 3 t) (iblk0 V c 4 t) p q).trans ?_
  unfold fn0_6 fn0_5
  refine congrArg₂ (· + ·) (Finset.sum_congr rfl fun k _ => congrArg₂ (· * ·)
    (congrArg₂ (· + ·) (Finset.sum_congr rfl fun k' _ => congrArg₂ (· * ·) ?_ ?_) ?_) ?_) ?_
  · exact iblk0_0_apply V c t (ix2 p k') (ix2 r k') (by show r.val = 400 * t.val + 0 + p.val; omega) rfl
  · exact iblk0_1_apply V c t (ix2 k' k) (ix2 k' k) rfl rfl
  · exact iblk0_2_apply V c t (ix2 0 k) (ix2 0 k) rfl rfl
  · exact iblk0_3_apply V c t (ix2 k q) (ix2 k q) rfl rfl
  · exact iblk0_4_apply V c t (ix2 0 q) (ix2 0 q) rfl rfl

/-- The output window's index map at point `t`, decided over the grid. -/
theorem idx0_5 : ∀ t : Fin cfg0.N, win0_5.index t (0 : Fin 2) = t.val ∧ win0_5.index t (1 : Fin 2) = 0 :=
  (by decide +kernel : ∀ t : Fin grid0.N, _)

/-- What point `t` writes back to output window 5's array is block `t` of `G0_5`. -/
theorem flushed0_5_eq (c : Dev nD) (t : Fin cfg0.N) :
    (dat0 (F := Ideal) V c).flushed 5 t = ((cfg0.win 5).blk t).view.read (Elt Ideal) (G0_5 V c) := by
  show (cfg0.win 5).cut (grid0.coords t) ((dat0 V c).after 5 t) = _
  rw [after0_5]
  unfold out0_5
  rw [View.canon_unit_zero hz2]
  simp only [View.ld_unit_zero (S := S400x128) hz2, View.ld_unit_zero (S := S128x128) hz2, View.ld_unit_zero (S := S1x128) hz2]
  funext y
  obtain ⟨p, q, rfl⟩ : ∃ (p : Fin 400) (q : Fin 128), y = ix2 p q := ⟨y 0, y 1, eq_ix2 y⟩
  obtain ⟨e0, e1⟩ := idx0_5 t
  have ht : t.val < 25 := lt_of_lt_of_eq t.isLt N_0
  refine (val0_5_block V c t p q ⟨400 * t.val + p.val, by have := p.isLt; omega⟩ rfl).trans ?_
  show fn0_5 (V c main_arg0) (V c main_arg2) (V c main_v10) _ _ = fn0_5 (V c main_arg0) (V c main_arg2) (V c main_v10)
    ((((cfg0.win 5).blk t).view.emb (ix2 p q)) 0) ((((cfg0.win 5).blk t).view.emb (ix2 p q)) 1)
  refine congrArg₂ (fun a b => fn0_5 (V c main_arg0) (V c main_arg2) (V c main_v10) a b)
    (Fin.ext ?_) (Fin.ext ?_)
  · show 400 * t.val + p.val = win0_5.index t 0 * 400 + 1 * p.val; rw [e0]; omega
  · show q.val = win0_5.index t 1 * 128 + 1 * q.val; rw [e1]; omega

/-- An index of the array is in point `t`'s block iff each coordinate is in the block's range on its axis. -/
theorem mem_blk0_5 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v14_0).slice (win0_5.rect t)).set ↔ _
  rw [View.set_slice_whole, Rect.mem_set_unit]
  exact Iff.rfl

/-- Every index of the array is in the block of the point its row falls in: row `r` is written at point `r / 400`. -/
theorem covered0_5 (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by rw [hN]; omega⟩, rfl⟩
  obtain ⟨e0, e1⟩ := idx0_5 t
  refine ⟨t, flush0_5 t, ?_⟩
  rw [mem_blk0_5]
  intro a
  match a with
  | ⟨0, _⟩ => show win0_5.index t 0 * 400 ≤ (i 0).val ∧ (i 0).val < win0_5.index t 0 * 400 + 400; rw [e0, ht]; omega
  | ⟨1, _⟩ => show win0_5.index t 1 * 128 ≤ (i 1).val ∧ (i 1).val < win0_5.index t 1 * 128 + 128; rw [e1]; omega

/-- Region 0's first output array after the last point: at row `p`, column `q`, `∑ₖ x(p,k)·W(k,q) + b(0,q)` of the arrays the region finds. -/
theorem val0_5 (c : Dev nD) : (dat0 (F := Ideal) V c).arrAt 5 cfg0.N = G0_5 V c :=
  (dat0 (F := Ideal) V c).arrAt_eq_of_cover 5 (G0_5 V c) (fun t _ => flushed0_5_eq V c t) covered0_5

/-- The same, entry by entry. -/
theorem val0_5_apply (c : Dev nD) (p : Fin 10000) (q : Fin 128) :
    (dat0 (F := Ideal) V c).arrAt 5 cfg0.N (ix2 p q) = fn0_5 (V c main_arg0) (V c main_arg2) (V c main_v10) p q := by
  rw [val0_5]; rfl

/-- The output window's index map at point `t`, decided over the grid. -/
theorem idx0_6 : ∀ t : Fin cfg0.N, win0_6.index t (0 : Fin 2) = t.val ∧ win0_6.index t (1 : Fin 2) = 0 :=
  (by decide +kernel : ∀ t : Fin grid0.N, _)

/-- What point `t` writes back to output window 6's array is block `t` of `G0_6`. -/
theorem flushed0_6_eq (c : Dev nD) (t : Fin cfg0.N) :
    (dat0 (F := Ideal) V c).flushed 6 t = ((cfg0.win 6).blk t).view.read (Elt Ideal) (G0_6 V c) := by
  show (cfg0.win 6).cut (grid0.coords t) ((dat0 V c).after 6 t) = _
  rw [after0_6]
  unfold out0_6
  rw [View.canon_unit_zero hz2]
  simp only [View.ld_unit_zero (S := S400x128) hz2, View.ld_unit_zero (S := S128x128) hz2, View.ld_unit_zero (S := S1x128) hz2]
  funext y
  obtain ⟨p, q, rfl⟩ : ∃ (p : Fin 400) (q : Fin 128), y = ix2 p q := ⟨y 0, y 1, eq_ix2 y⟩
  obtain ⟨e0, e1⟩ := idx0_6 t
  have ht : t.val < 25 := lt_of_lt_of_eq t.isLt N_0
  refine (val0_6_block V c t p q ⟨400 * t.val + p.val, by have := p.isLt; omega⟩ rfl).trans ?_
  show fn0_6 (V c main_arg0) (V c main_arg2) (V c main_v10) (V c main_v2) (V c main_v7) _ _ = fn0_6 (V c main_arg0) (V c main_arg2) (V c main_v10) (V c main_v2) (V c main_v7)
    ((((cfg0.win 6).blk t).view.emb (ix2 p q)) 0) ((((cfg0.win 6).blk t).view.emb (ix2 p q)) 1)
  refine congrArg₂ (fun a b => fn0_6 (V c main_arg0) (V c main_arg2) (V c main_v10) (V c main_v2) (V c main_v7) a b)
    (Fin.ext ?_) (Fin.ext ?_)
  · show 400 * t.val + p.val = win0_6.index t 0 * 400 + 1 * p.val; rw [e0]; omega
  · show q.val = win0_6.index t 1 * 128 + 1 * q.val; rw [e1]; omega

/-- An index of the array is in point `t`'s block iff each coordinate is in the block's range on its axis. -/
theorem mem_blk0_6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v14_1).slice (win0_6.rect t)).set ↔ _
  rw [View.set_slice_whole, Rect.mem_set_unit]
  exact Iff.rfl

/-- Every index of the array is in the block of the point its row falls in: row `r` is written at point `r / 400`. -/
theorem covered0_6 (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by rw [hN]; omega⟩, rfl⟩
  obtain ⟨e0, e1⟩ := idx0_6 t
  refine ⟨t, flush0_6 t, ?_⟩
  rw [mem_blk0_6]
  intro a
  match a with
  | ⟨0, _⟩ => show win0_6.index t 0 * 400 ≤ (i 0).val ∧ (i 0).val < win0_6.index t 0 * 400 + 400; rw [e0, ht]; omega
  | ⟨1, _⟩ => show win0_6.index t 1 * 128 ≤ (i 1).val ∧ (i 1).val < win0_6.index t 1 * 128 + 128; rw [e1]; omega

/-- Region 0's second output array after the last point: at row `p`, column `q`, `∑ₖ h(p,k)·W'(k,q) + b'(0,q)` with `h` the first output. -/
theorem val0_6 (c : Dev nD) : (dat0 (F := Ideal) V c).arrAt 6 cfg0.N = G0_6 V c :=
  (dat0 (F := Ideal) V c).arrAt_eq_of_cover 6 (G0_6 V c) (fun t _ => flushed0_6_eq V c t) covered0_6

/-- The same, entry by entry. -/
theorem val0_6_apply (c : Dev nD) (p : Fin 10000) (q : Fin 128) :
    (dat0 (F := Ideal) V c).arrAt 6 cfg0.N (ix2 p q) = fn0_6 (V c main_arg0) (V c main_arg2) (V c main_v10) (V c main_v2) (V c main_v7) p q := by
  rw [val0_6]; rfl

end Cert.KernelIdeal.Hand

end
-- ==== Proof.KI.Pay1.lean ====
/-
  Region 1's stored values at an index, in exact arithmetic.

  The body of region 1 stores four blocks. Over the extended reals every rounding is the identity and a block product into a
  zero accumulator is a plain sum of products. With `a` the stack of the five 80-row slabs (row `p = 80·σ + i` of the stack is
  row `i` of slab `σ`) and `g = a·y` the stacked product with the 10000×128 matrix: the stored 400×10000 block is `a`
  itself; the stored column is `1 / max (g(·,64), ε)`; the stored 400×64 blocks are `max ((h·W + g(·,q)·column) + b, 0)`.
-/
import proofs.«181542_g78589311582291_cont_9to1_m_296_16_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«181542_g78589311582291_cont_9to1_m_296_16_alg».proof.Proof.KI.ValLib

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

/-- The stacked product of region 1 (the five 80-row slabs, rounded to bf16 — the identity in exact arithmetic —, each times the
    10000×128 matrix, stacked), at row `p = 80·σ + i` and column `q` of the 400×128 block. -/
theorem pay1_8_apply (v0 v2 v4 v6 v8 : Vec Ideal S80x10000 .f32) (v10 : Vec Ideal S10000x128 .bf16)
    (p : Fin 400) (q : Fin 128) (σ : Fin 5) (i : Fin 80) (hp : p.val = 80 * σ.val + i.val) :
    k1_pay8 (F := Ideal) v0 v2 v4 v6 v8 v10 (ix2 p q) = ∑ j : Fin 10000, (![v0, v2, v4, v6, v8] σ) (ix2 i j) * v10 (ix2 j q) := by
  unfold k1_pay8
  let g : Fin 5 → FVec Ideal S80x128 .f32 := fun n =>
    matmul (F := Ideal) (φ₁ := .bf16) (φ₂ := .bf16) dot_S80x10000_S10000x128_S80x128_1_0_0_1_n_n none
      (truncf .bf16 (![v0, v2, v4, v6, v8] n) bitsLt_bf16_f32)
      (shapeCast S10000x128 v10 shapeCasts_S10000x128_S10000x128) (constant S80x128 .f32 0x00000000#32)
  have hc : concatenate S400x128 0 (List.ofFn fun n : Fin 5 => (⟨S80x128, g n⟩ : (s : Shape) × (s.Idx → Ideal .f32)))
      concatenates_S80x128_S80x128_S80x128_S80x128_S80x128_S400x128_d0 (ix2 p q) = g σ (ix2 i q) :=
    concatenate_ofFn_apply (t := S400x128) (s₁ := S80x128) 0 g
      concatenates_S80x128_S80x128_S80x128_S80x128_S80x128_S400x128_d0 rfl 80 rfl (ix2 p q) σ
      (by show p.val / 80 = σ.val; have := i.isLt; omega) (ix2 i q) (by show i.val = p.val % 80; have := i.isLt; omega)
      (fun b hb => by match b with | ⟨0, _⟩ => exact absurd rfl hb | ⟨1, _⟩ => rfl)
  show concatenate S400x128 0 (List.ofFn fun n : Fin 5 => (⟨S80x128, g n⟩ : (s : Shape) × (s.Idx → Ideal .f32)))
      concatenates_S80x128_S80x128_S80x128_S80x128_S80x128_S400x128_d0 (ix2 p q) = _
  rw [hc]
  simp only [g, shapeCast_self]
  rw [mm_80x10000_10000x128]
  rfl

/-- The bf16 copy of the five slabs region 1 stores, at row `p = 80·σ + i` and column `j` of the 400×10000 block: slab `σ`'s entry. -/
theorem pay1_9_apply (v0 v2 v4 v6 v8 : Vec Ideal S80x10000 .f32)
    (p : Fin 400) (j : Fin 10000) (σ : Fin 5) (i : Fin 80) (hp : p.val = 80 * σ.val + i.val) :
    k1_pay9 (F := Ideal) v0 v2 v4 v6 v8 (ix2 p j) = (![v0, v2, v4, v6, v8] σ) (ix2 i j) := by
  unfold k1_pay9
  let g : Fin 5 → FVec Ideal S80x10000 .bf16 := fun n => truncf .bf16 (![v0, v2, v4, v6, v8] n) bitsLt_bf16_f32
  have hc : concatenate S400x10000 0 (List.ofFn fun n : Fin 5 => (⟨S80x10000, g n⟩ : (s : Shape) × (s.Idx → Ideal .bf16)))
      concatenates_S80x10000_S80x10000_S80x10000_S80x10000_S80x10000_S400x10000_d0 (ix2 p j) = g σ (ix2 i j) :=
    concatenate_ofFn_apply (t := S400x10000) (s₁ := S80x10000) 0 g
      concatenates_S80x10000_S80x10000_S80x10000_S80x10000_S80x10000_S400x10000_d0 rfl 80 rfl (ix2 p j) σ
      (by show p.val / 80 = σ.val; have := i.isLt; omega) (ix2 i j) (by show i.val = p.val % 80; have := i.isLt; omega)
      (fun b hb => by match b with | ⟨0, _⟩ => exact absurd rfl hb | ⟨1, _⟩ => rfl)
  show concatenate S400x10000 0 (List.ofFn fun n : Fin 5 => (⟨S80x10000, g n⟩ : (s : Shape) × (s.Idx → Ideal .bf16)))
      concatenates_S80x10000_S80x10000_S80x10000_S80x10000_S80x10000_S400x10000_d0 (ix2 p j) = _
  rw [hc]
  rfl

/-- The column of reciprocal row scales region 1 stores, at row `p = 80·σ + i`: one over the larger of column 64 of the stacked
    product and the body's small constant. -/
theorem pay1_10_apply (v0 v2 v4 v6 v8 : Vec Ideal S80x10000 .f32) (v10 : Vec Ideal S10000x128 .bf16)
    (p : Fin 400) (σ : Fin 5) (i : Fin 80) (hp : p.val = 80 * σ.val + i.val) :
    k1_pay10 (F := Ideal) v0 v2 v4 v6 v8 v10 (ix2 p (0 : Fin 1))
      = Ideal.div (Ideal.ofBits .f32 0x3F800000#32)
          (max (∑ j : Fin 10000, (![v0, v2, v4, v6, v8] σ) (ix2 i j) * v10 (ix2 j (⟨64, by decide⟩ : Fin 128))) (Ideal.ofBits .f32 0x2B8CBCCC#32)) := by
  unfold k1_pay10
  rw [divf_apply, maximumf_apply, broadcast_apply, broadcast_apply,
    slice2_axis1_apply 64 _ _ p (0 : Fin 1) (⟨64, by decide⟩ : Fin 128) rfl, pay1_8_apply v0 v2 v4 v6 v8 v10 p _ σ i hp]
  rfl

/-- The first 400×64 value region 1 stores (f32), at row `p` and column `q`, from the stacked product `G`, the scale column `s`,
    the row block `h`, the weight matrix and the bias row: `max ((h·W + G(p,q)·s(p,0)) + b, 0)`. -/
theorem pay1_1_apply (G : FVec Ideal S400x128 .f32) (s : FVec Ideal S400x1 .f32) (h : Vec Ideal S400x128 .f32)
    (v28 : Vec Ideal S128x64 .f32) (v34 : Vec Ideal S1x64 .f32) (p : Fin 400) (q : Fin 64) :
    k1_pay1 (F := Ideal) G s (k1_pay11 (F := Ideal) h) v28 (constant S400x64 .f32 0x00000000#32) v34 (ix2 p q)
      = max (((∑ k : Fin 128, h (ix2 p k) * v28 (ix2 k q)) + G (ix2 p (⟨q.val, by omega⟩ : Fin 128)) * s (ix2 p (0 : Fin 1)))
          + v34 (ix2 (0 : Fin 1) q)) (Ideal.ofBits .f32 0x00000000#32) := by
  unfold k1_pay1 k1_pay11
  simp only [shapeCast_self]
  rw [maximumf_apply, addf_apply, addf_apply, mulf_apply, broadcast_apply, broadcastTo_1b_ab_apply, broadcastTo_a1_ab_apply,
    mm_400x128_128x64, slice2_axis1_apply 0 _ _ p q (⟨q.val, by omega⟩ : Fin 128) (Nat.zero_add _).symm]
  rfl

/-- The second 400×64 value region 1 stores (bf16) is the first: the rounding is the identity in exact arithmetic. -/
theorem pay1_2_apply (G : FVec Ideal S400x128 .f32) (s : FVec Ideal S400x1 .f32) (h : FVec Ideal S400x128 .f32)
    (v28 : Vec Ideal S128x64 .f32) (v34 : Vec Ideal S1x64 .f32) (p : Fin 400) (q : Fin 64) :
    k1_pay2 (F := Ideal) G s h v28 (constant S400x64 .f32 0x00000000#32) v34 (ix2 p q)
      = k1_pay1 (F := Ideal) G s h v28 (constant S400x64 .f32 0x00000000#32) v34 (ix2 p q) := rfl

end Cert.KernelIdeal.Hand

end
-- ==== Proof.KI.Val1.lean ====
/-
  Region 1's four output arrays after the last grid point, in exact arithmetic, as functions of the arrays the region finds.

  The region writes its outputs (10000×10000, two 10000×64 and 10000×1) in twenty-five blocks of 400 rows; point `t` writes
  rows `400·t …`. Every input block at point `t` is a part of its array: the five 80-row slabs of point `t` are rows
  `400·t + 80·σ …` of the one 10000×10000 matrix (σ = 0 … 4), the 400-row block is rows `400·t …` of its array, and the
  remaining windows are whole arrays. So each block written at point `t` is the block of one whole-array function, and since
  the blocks cover the output arrays, the arrays end at those functions: with `g(p,q) = ∑ⱼ a(p,j)·y(j,q)`,
    copy(p,j) = a(p,j),    scale(p) = 1 / max (g(p,64), ε),    m(p,q) = max ((∑ₖ h(p,k)·W(k,q) + g(p,q)·scale(p)) + b(0,q), 0),
  the third output being the same function as the second.
-/
import proofs.«181542_g78589311582291_cont_9to1_m_296_16_alg».proof.Proof.KI.Half1
import proofs.«181542_g78589311582291_cont_9to1_m_296_16_alg».proof.Proof.KI.Pay1
import proofs.«181542_g78589311582291_cont_9to1_m_296_16_alg».proof.Proof.KI.ValLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- what the core's buffers hold when the region is entered, in exact arithmetic; arbitrary
variable (V : (c : Dev nD) → (b : Ref sig .tc) → Buf (Elt Ideal) ((c : Thread nD τ).loc b))

/-- Window 0's index map at point `t`, decided over the grid. -/
theorem idx1_0 : ∀ t : Fin cfg1.N, win1_0.index t (0 : Fin 2) = 5 * t.val + 0 ∧ win1_0.index t (1 : Fin 2) = 0 :=
  (by decide +kernel : ∀ t : Fin grid1.N, _)

/-- Window 0's block at point `t` is rows `400·t + 0 …` of the array: its entry `x` is the array's entry `k` at the matching row and column. -/
theorem iblk1_0_apply (c : Dev nD) (t : Fin cfg1.N) (x : S80x10000.Idx) (k : S10000x10000.Idx)
    (hk0 : (k 0).val = 400 * t.val + 0 + (x 0).val) (hk1 : (k 1).val = (x 1).val) :
    (iblk1 V c 0 t : Vec Ideal S80x10000 .f32) x = (V c main_arg1 : S10000x10000.Idx → Elt Ideal .f32) k := by
  obtain ⟨h0, h1⟩ := idx1_0 t
  unfold iblk1
  rw [View.read_apply]
  show V c main_arg1 _ = V c main_arg1 _
  congr 1
  funext a
  apply Fin.ext
  match a with
  | ⟨0, _⟩ => show win1_0.index t 0 * 80 + 1 * (x 0).val = (k 0).val; rw [h0, hk0]; omega
  | ⟨1, _⟩ => show win1_0.index t 1 * 10000 + 1 * (x 1).val = (k 1).val; rw [h1, hk1]; omega

/-- Window 1's index map at point `t`, decided over the grid. -/
theorem idx1_1 : ∀ t : Fin cfg1.N, win1_1.index t (0 : Fin 2) = 5 * t.val + 1 ∧ win1_1.index t (1 : Fin 2) = 0 :=
  (by decide +kernel : ∀ t : Fin grid1.N, _)

/-- Window 1's block at point `t` is rows `400·t + 80 …` of the array: its entry `x` is the array's entry `k` at the matching row and column. -/
theorem iblk1_1_apply (c : Dev nD) (t : Fin cfg1.N) (x : S80x10000.Idx) (k : S10000x10000.Idx)
    (hk0 : (k 0).val = 400 * t.val + 80 + (x 0).val) (hk1 : (k 1).val = (x 1).val) :
    (iblk1 V c 1 t : Vec Ideal S80x10000 .f32) x = (V c main_arg1 : S10000x10000.Idx → Elt Ideal .f32) k := by
  obtain ⟨h0, h1⟩ := idx1_1 t
  unfold iblk1
  rw [View.read_apply]
  show V c main_arg1 _ = V c main_arg1 _
  congr 1
  funext a
  apply Fin.ext
  match a with
  | ⟨0, _⟩ => show win1_1.index t 0 * 80 + 1 * (x 0).val = (k 0).val; rw [h0, hk0]; omega
  | ⟨1, _⟩ => show win1_1.index t 1 * 10000 + 1 * (x 1).val = (k 1).val; rw [h1, hk1]; omega

/-- Window 2's index map at point `t`, decided over the grid. -/
theorem idx1_2 : ∀ t : Fin cfg1.N, win1_2.index t (0 : Fin 2) = 5 * t.val + 2 ∧ win1_2.index t (1 : Fin 2) = 0 :=
  (by decide +kernel : ∀ t : Fin grid1.N, _)

/-- Window 2's block at point `t` is rows `400·t + 160 …` of the array: its entry `x` is the array's entry `k` at the matching row and column. -/
theorem iblk1_2_apply (c : Dev nD) (t : Fin cfg1.N) (x : S80x10000.Idx) (k : S10000x10000.Idx)
    (hk0 : (k 0).val = 400 * t.val + 160 + (x 0).val) (hk1 : (k 1).val = (x 1).val) :
    (iblk1 V c 2 t : Vec Ideal S80x10000 .f32) x = (V c main_arg1 : S10000x10000.Idx → Elt Ideal .f32) k := by
  obtain ⟨h0, h1⟩ := idx1_2 t
  unfold iblk1
  rw [View.read_apply]
  show V c main_arg1 _ = V c main_arg1 _
  congr 1
  funext a
  apply Fin.ext
  match a with
  | ⟨0, _⟩ => show win1_2.index t 0 * 80 + 1 * (x 0).val = (k 0).val; rw [h0, hk0]; omega
  | ⟨1, _⟩ => show win1_2.index t 1 * 10000 + 1 * (x 1).val = (k 1).val; rw [h1, hk1]; omega

/-- Window 3's index map at point `t`, decided over the grid. -/
theorem idx1_3 : ∀ t : Fin cfg1.N, win1_3.index t (0 : Fin 2) = 5 * t.val + 3 ∧ win1_3.index t (1 : Fin 2) = 0 :=
  (by decide +kernel : ∀ t : Fin grid1.N, _)

/-- Window 3's block at point `t` is rows `400·t + 240 …` of the array: its entry `x` is the array's entry `k` at the matching row and column. -/
theorem iblk1_3_apply (c : Dev nD) (t : Fin cfg1.N) (x : S80x10000.Idx) (k : S10000x10000.Idx)
    (hk0 : (k 0).val = 400 * t.val + 240 + (x 0).val) (hk1 : (k 1).val = (x 1).val) :
    (iblk1 V c 3 t : Vec Ideal S80x10000 .f32) x = (V c main_arg1 : S10000x10000.Idx → Elt Ideal .f32) k := by
  obtain ⟨h0, h1⟩ := idx1_3 t
  unfold iblk1
  rw [View.read_apply]
  show V c main_arg1 _ = V c main_arg1 _
  congr 1
  funext a
  apply Fin.ext
  match a with
  | ⟨0, _⟩ => show win1_3.index t 0 * 80 + 1 * (x 0).val = (k 0).val; rw [h0, hk0]; omega
  | ⟨1, _⟩ => show win1_3.index t 1 * 10000 + 1 * (x 1).val = (k 1).val; rw [h1, hk1]; omega

/-- Window 4's index map at point `t`, decided over the grid. -/
theorem idx1_4 : ∀ t : Fin cfg1.N, win1_4.index t (0 : Fin 2) = 5 * t.val + 4 ∧ win1_4.index t (1 : Fin 2) = 0 :=
  (by decide +kernel : ∀ t : Fin grid1.N, _)

/-- Window 4's block at point `t` is rows `400·t + 320 …` of the array: its entry `x` is the array's entry `k` at the matching row and column. -/
theorem iblk1_4_apply (c : Dev nD) (t : Fin cfg1.N) (x : S80x10000.Idx) (k : S10000x10000.Idx)
    (hk0 : (k 0).val = 400 * t.val + 320 + (x 0).val) (hk1 : (k 1).val = (x 1).val) :
    (iblk1 V c 4 t : Vec Ideal S80x10000 .f32) x = (V c main_arg1 : S10000x10000.Idx → Elt Ideal .f32) k := by
  obtain ⟨h0, h1⟩ := idx1_4 t
  unfold iblk1
  rw [View.read_apply]
  show V c main_arg1 _ = V c main_arg1 _
  congr 1
  funext a
  apply Fin.ext
  match a with
  | ⟨0, _⟩ => show win1_4.index t 0 * 80 + 1 * (x 0).val = (k 0).val; rw [h0, hk0]; omega
  | ⟨1, _⟩ => show win1_4.index t 1 * 10000 + 1 * (x 1).val = (k 1).val; rw [h1, hk1]; omega

/-- Window 5's index map at point `t`, decided over the grid. -/
theorem idx1_5 : ∀ t : Fin cfg1.N, win1_5.index t (0 : Fin 2) = 0 ∧ win1_5.index t (1 : Fin 2) = 0 :=
  (by decide +kernel : ∀ t : Fin grid1.N, _)

/-- Window 5's block at point `t` is the whole array: its entry `x` is the array's entry `k` at the matching row and column. -/
theorem iblk1_5_apply (c : Dev nD) (t : Fin cfg1.N) (x : S10000x128.Idx) (k : S10000x128.Idx)
    (hk0 : (k 0).val = (x 0).val) (hk1 : (k 1).val = (x 1).val) :
    (iblk1 V c 5 t : Vec Ideal S10000x128 .bf16) x = (V c main_v14_1 : S10000x128.Idx → Elt Ideal .bf16) k := by
  obtain ⟨h0, h1⟩ := idx1_5 t
  unfold iblk1
  rw [View.read_apply]
  show V c main_v14_1 _ = V c main_v14_1 _
  congr 1
  funext a
  apply Fin.ext
  match a with
  | ⟨0, _⟩ => show win1_5.index t 0 * 10000 + 1 * (x 0).val = (k 0).val; rw [h0, hk0]; omega
  | ⟨1, _⟩ => show win1_5.index t 1 * 128 + 1 * (x 1).val = (k 1).val; rw [h1, hk1]; omega

/-- Window 6's index map at point `t`, decided over the grid. -/
theorem idx1_6 : ∀ t : Fin cfg1.N, win1_6.index t (0 : Fin 2) = t.val ∧ win1_6.index t (1 : Fin 2) = 0 :=
  (by decide +kernel : ∀ t : Fin grid1.N, _)

/-- Window 6's block at point `t` is rows `400·t + 0 …` of the array: its entry `x` is the array's entry `k` at the matching row and column. -/
theorem iblk1_6_apply (c : Dev nD) (t : Fin cfg1.N) (x : S400x128.Idx) (k : S10000x128.Idx)
    (hk0 : (k 0).val = 400 * t.val + 0 + (x 0).val) (hk1 : (k 1).val = (x 1).val) :
    (iblk1 V c 6 t : Vec Ideal S400x128 .f32) x = (V c main_v14_0 : S10000x128.Idx → Elt Ideal .f32) k := by
  obtain ⟨h0, h1⟩ := idx1_6 t
  unfold iblk1
  rw [View.read_apply]
  show V c main_v14_0 _ = V c main_v14_0 _
  congr 1
  funext a
  apply Fin.ext
  match a with
  | ⟨0, _⟩ => show win1_6.index t 0 * 400 + 1 * (x 0).val = (k 0).val; rw [h0, hk0]; omega
  | ⟨1, _⟩ => show win1_6.index t 1 * 128 + 1 * (x 1).val = (k 1).val; rw [h1, hk1]; omega

/-- Window 7's index map at point `t`, decided over the grid. -/
theorem idx1_7 : ∀ t : Fin cfg1.N, win1_7.index t (0 : Fin 2) = 0 ∧ win1_7.index t (1 : Fin 2) = 0 :=
  (by decide +kernel : ∀ t : Fin grid1.N, _)

/-- Window 7's block at point `t` is the whole array: its entry `x` is the array's entry `k` at the matching row and column. -/
theorem iblk1_7_apply (c : Dev nD) (t : Fin cfg1.N) (x : S128x64.Idx) (k : S128x64.Idx)
    (hk0 : (k 0).val = (x 0).val) (hk1 : (k 1).val = (x 1).val) :
    (iblk1 V c 7 t : Vec Ideal S128x64 .f32) x = (V c main_arg4 : S128x64.Idx → Elt Ideal .f32) k := by
  obtain ⟨h0, h1⟩ := idx1_7 t
  unfold iblk1
  rw [View.read_apply]
  show V c main_arg4 _ = V c main_arg4 _
  congr 1
  funext a
  apply Fin.ext
  match a with
  | ⟨0, _⟩ => show win1_7.index t 0 * 128 + 1 * (x 0).val = (k 0).val; rw [h0, hk0]; omega
  | ⟨1, _⟩ => show win1_7.index t 1 * 64 + 1 * (x 1).val = (k 1).val; rw [h1, hk1]; omega

/-- Window 8's index map at point `t`, decided over the grid. -/
theorem idx1_8 : ∀ t : Fin cfg1.N, win1_8.index t (0 : Fin 2) = 0 ∧ win1_8.index t (1 : Fin 2) = 0 :=
  (by decide +kernel : ∀ t : Fin grid1.N, _)

/-- Window 8's block at point `t` is the whole array: its entry `x` is the array's entry `k` at the matching row and column. -/
theorem iblk1_8_apply (c : Dev nD) (t : Fin cfg1.N) (x : S1x64.Idx) (k : S1x64.Idx)
    (hk0 : (k 0).val = (x 0).val) (hk1 : (k 1).val = (x 1).val) :
    (iblk1 V c 8 t : Vec Ideal S1x64 .f32) x = (V c main_v11 : S1x64.Idx → Elt Ideal .f32) k := by
  obtain ⟨h0, h1⟩ := idx1_8 t
  unfold iblk1
  rw [View.read_apply]
  show V c main_v11 _ = V c main_v11 _
  congr 1
  funext a
  apply Fin.ext
  match a with
  | ⟨0, _⟩ => show win1_8.index t 0 * 1 + 1 * (x 0).val = (k 0).val; rw [h0, hk0]; omega
  | ⟨1, _⟩ => show win1_8.index t 1 * 64 + 1 * (x 1).val = (k 1).val; rw [h1, hk1]; omega

/-- The five slabs of point `t` are consecutive 80-row pieces of the one matrix: slab `σ` is rows `400·t + 80·σ …`. -/
theorem slab1_apply (c : Dev nD) (t : Fin cfg1.N) (σ : Fin 5) (x : S80x10000.Idx) (k : S10000x10000.Idx)
    (hk0 : (k 0).val = 400 * t.val + 80 * σ.val + (x 0).val) (hk1 : (k 1).val = (x 1).val) :
    (![(iblk1 V c 0 t : Vec Ideal S80x10000 .f32), iblk1 V c 1 t, iblk1 V c 2 t, iblk1 V c 3 t, iblk1 V c 4 t] σ) x
      = (V c main_arg1 : S10000x10000.Idx → Elt Ideal .f32) k := by
  match σ with
  | ⟨0, _⟩ => exact iblk1_0_apply V c t x k (by simpa using hk0) hk1
  | ⟨1, _⟩ => exact iblk1_1_apply V c t x k (by simpa using hk0) hk1
  | ⟨2, _⟩ => exact iblk1_2_apply V c t x k (by simpa using hk0) hk1
  | ⟨3, _⟩ => exact iblk1_3_apply V c t x k (by simpa using hk0) hk1
  | ⟨4, _⟩ => exact iblk1_4_apply V c t x k (by simpa using hk0) hk1

/-- The bf16 copy of the matrix, at row `p` and column `j`: the matrix's entry. -/
def fn1_9 (a : S10000x10000.Idx → EReal) (p : Fin 10000) (j : Fin 10000) : EReal := a (ix2 p j)

/-- The reciprocal row scale at row `p`: one over the larger of `∑ⱼ a(p,j)·y(j,64)` and the body's small constant. -/
def fn1_12 (a : S10000x10000.Idx → EReal) (y : S10000x128.Idx → EReal) (p : Fin 10000) (_z : Fin 1) : EReal :=
  Ideal.div (Ideal.ofBits .f32 0x3F800000#32)
    (max (∑ j : Fin 10000, a (ix2 p j) * y (ix2 j (⟨64, by decide⟩ : Fin 128))) (Ideal.ofBits .f32 0x2B8CBCCC#32))

/-- The 400×64 outputs at row `p`, column `q`: `max ((h·W + (a·y)(p,q)·scale(p)) + b, 0)`, column `q` of `y` read among its 128. -/
def fn1_10 (h : S10000x128.Idx → EReal) (W : S128x64.Idx → EReal) (a : S10000x10000.Idx → EReal) (y : S10000x128.Idx → EReal)
    (b : S1x64.Idx → EReal) (p : Fin 10000) (q : Fin 64) : EReal :=
  max (((∑ k : Fin 128, h (ix2 p k) * W (ix2 k q))
      + (∑ j : Fin 10000, a (ix2 p j) * y (ix2 j (⟨q.val, by omega⟩ : Fin 128))) * fn1_12 a y p 0)
    + b (ix2 (0 : Fin 1) q)) (Ideal.ofBits .f32 0x00000000#32)

/-- Region 1's four output arrays as functions of the arrays the region finds on core `c`. -/
def G1_9 (c : Dev nD) : S10000x10000.Idx → EReal := fun i => fn1_9 (V c main_arg1) (i 0) (i 1)
def G1_10 (c : Dev nD) : S10000x64.Idx → EReal := fun i => fn1_10 (V c main_v14_0) (V c main_arg4) (V c main_arg1) (V c main_v14_1) (V c main_v11) (i 0) (i 1)
def G1_11 (c : Dev nD) : S10000x64.Idx → EReal := fun i => fn1_10 (V c main_v14_0) (V c main_arg4) (V c main_arg1) (V c main_v14_1) (V c main_v11) (i 0) (i 1)
def G1_12 (c : Dev nD) : S10000x1.Idx → EReal := fun i => fn1_12 (V c main_arg1) (V c main_v14_1) (i 0) (i 1)

/-- The stored copy block at point `t`, at row `p` and column `j`, is the matrix at row `r = 400·t + p`. -/
theorem val1_9_block (c : Dev nD) (t : Fin cfg1.N) (p : Fin 400) (j : Fin 10000) (r : Fin 10000) (hr : r.val = 400 * t.val + p.val) :
    k1_pay9 (F := Ideal) (iblk1 V c 0 t) (iblk1 V c 1 t) (iblk1 V c 2 t) (iblk1 V c 3 t) (iblk1 V c 4 t) (ix2 p j) = fn1_9 (V c main_arg1) r j := by
  have hσ : p.val / 80 < 5 := by have := p.isLt; omega
  have hi : p.val % 80 < 80 := Nat.mod_lt _ (by decide)
  have hp : p.val = 80 * (p.val / 80) + p.val % 80 := by omega
  refine (pay1_9_apply (iblk1 V c 0 t) (iblk1 V c 1 t) (iblk1 V c 2 t) (iblk1 V c 3 t) (iblk1 V c 4 t) p j ⟨p.val / 80, hσ⟩ ⟨p.val % 80, hi⟩ hp).trans ?_
  exact slab1_apply V c t ⟨p.val / 80, hσ⟩ (ix2 ⟨p.val % 80, hi⟩ j) (ix2 r j)
    (by show r.val = 400 * t.val + 80 * (p.val / 80) + p.val % 80; omega) rfl

/-- The product of the matrix with the 10000×128 array, at row `r` and column `q`. -/
def stack1 (a : S10000x10000.Idx → EReal) (y : S10000x128.Idx → EReal) (r : Fin 10000) (q : Fin 128) : EReal :=
  ∑ j : Fin 10000, a (ix2 r j) * y (ix2 j q)

/-- The stacked product at point `t`, at row `p` and column `q`, is `∑ⱼ a(r,j)·y(j,q)` at row `r = 400·t + p`. -/
theorem stack1_block (c : Dev nD) (t : Fin cfg1.N) (p : Fin 400) (q : Fin 128) (r : Fin 10000) (hr : r.val = 400 * t.val + p.val) :
    k1_pay8 (F := Ideal) (iblk1 V c 0 t) (iblk1 V c 1 t) (iblk1 V c 2 t) (iblk1 V c 3 t) (iblk1 V c 4 t) (iblk1 V c 5 t) (ix2 p q) = stack1 (V c main_arg1) (V c main_v14_1) r q := by
  have hσ : p.val / 80 < 5 := by have := p.isLt; omega
  have hi : p.val % 80 < 80 := Nat.mod_lt _ (by decide)
  have hp : p.val = 80 * (p.val / 80) + p.val % 80 := by omega
  refine (pay1_8_apply (iblk1 V c 0 t) (iblk1 V c 1 t) (iblk1 V c 2 t) (iblk1 V c 3 t) (iblk1 V c 4 t) (iblk1 V c 5 t) p q ⟨p.val / 80, hσ⟩ ⟨p.val % 80, hi⟩ hp).trans ?_
  unfold stack1
  refine Finset.sum_congr rfl fun j _ => congrArg₂ (· * ·) ?_ ?_
  · exact slab1_apply V c t ⟨p.val / 80, hσ⟩ (ix2 ⟨p.val % 80, hi⟩ j) (ix2 r j)
      (by show r.val = 400 * t.val + 80 * (p.val / 80) + p.val % 80; omega) rfl
  · exact iblk1_5_apply V c t (ix2 j q) (ix2 j q) rfl rfl

/-- The stored scale column at point `t`, at row `p`, is the reciprocal row scale at row `r = 400·t + p`. -/
theorem val1_12_block (c : Dev nD) (t : Fin cfg1.N) (p : Fin 400) (q : Fin 1) (r : Fin 10000) (hr : r.val = 400 * t.val + p.val) :
    k1_pay10 (F := Ideal) (iblk1 V c 0 t) (iblk1 V c 1 t) (iblk1 V c 2 t) (iblk1 V c 3 t) (iblk1 V c 4 t) (iblk1 V c 5 t) (ix2 p q) = fn1_12 (V c main_arg1) (V c main_v14_1) r q := by
  obtain rfl : q = 0 := Subsingleton.elim _ _
  have hσ : p.val / 80 < 5 := by have := p.isLt; omega
  have hi : p.val % 80 < 80 := Nat.mod_lt _ (by decide)
  have hp : p.val = 80 * (p.val / 80) + p.val % 80 := by omega
  refine (pay1_10_apply (iblk1 V c 0 t) (iblk1 V c 1 t) (iblk1 V c 2 t) (iblk1 V c 3 t) (iblk1 V c 4 t) (iblk1 V c 5 t) p ⟨p.val / 80, hσ⟩ ⟨p.val % 80, hi⟩ hp).trans ?_
  unfold fn1_12
  refine congrArg (Ideal.div _ ·) (congrArg₂ max (Finset.sum_congr rfl fun j _ => congrArg₂ (· * ·) ?_ ?_) rfl)
  · exact slab1_apply V c t ⟨p.val / 80, hσ⟩ (ix2 ⟨p.val % 80, hi⟩ j) (ix2 r j)
      (by show r.val = 400 * t.val + 80 * (p.val / 80) + p.val % 80; omega) rfl
  · exact iblk1_5_apply V c t (ix2 j _) (ix2 j _) rfl rfl

/-- The stored f32 block at point `t`, at row `p` and column `q`, is the 400×64 output function at row `r = 400·t + p`. -/
theorem val1_10_block (c : Dev nD) (t : Fin cfg1.N) (p : Fin 400) (q : Fin 64) (r : Fin 10000) (hr : r.val = 400 * t.val + p.val) :
    k1_pay1 (F := Ideal) (k1_pay8 (F := Ideal) (iblk1 V c 0 t) (iblk1 V c 1 t) (iblk1 V c 2 t) (iblk1 V c 3 t) (iblk1 V c 4 t) (iblk1 V c 5 t)) (k1_pay10 (F := Ideal) (iblk1 V c 0 t) (iblk1 V c 1 t) (iblk1 V c 2 t) (iblk1 V c 3 t) (iblk1 V c 4 t) (iblk1 V c 5 t)) (k1_pay11 (F := Ideal) (iblk1 V c 6 t)) (iblk1 V c 7 t) (constant S400x64 .f32 0x00000000#32) (iblk1 V c 8 t) (ix2 p q) = fn1_10 (V c main_v14_0) (V c main_arg4) (V c main_arg1) (V c main_v14_1) (V c main_v11) r q := by
  refine (pay1_1_apply (k1_pay8 (F := Ideal) (iblk1 V c 0 t) (iblk1 V c 1 t) (iblk1 V c 2 t) (iblk1 V c 3 t) (iblk1 V c 4 t) (iblk1 V c 5 t)) (k1_pay10 (F := Ideal) (iblk1 V c 0 t) (iblk1 V c 1 t) (iblk1 V c 2 t) (iblk1 V c 3 t) (iblk1 V c 4 t) (iblk1 V c 5 t)) (iblk1 V c 6 t) (iblk1 V c 7 t) (iblk1 V c 8 t) p q).trans ?_
  unfold fn1_10
  refine congrArg₂ max (congrArg₂ (· + ·) (congrArg₂ (· + ·) (Finset.sum_congr rfl fun k _ => congrArg₂ (· * ·) ?_ ?_)
    (congrArg₂ (· * ·) ?_ ?_)) ?_) rfl
  · exact iblk1_6_apply V c t (ix2 p k) (ix2 r k) (by show r.val = 400 * t.val + 0 + p.val; omega) rfl
  · exact iblk1_7_apply V c t (ix2 k q) (ix2 k q) rfl rfl
  · exact stack1_block V c t p _ r hr
  · exact val1_12_block V c t p 0 r hr
  · exact iblk1_8_apply V c t (ix2 0 q) (ix2 0 q) rfl rfl

/-- The stored bf16 block is the f32 one: the rounding is the identity in exact arithmetic. -/
theorem val1_11_block (c : Dev nD) (t : Fin cfg1.N) (p : Fin 400) (q : Fin 64) (r : Fin 10000) (hr : r.val = 400 * t.val + p.val) :
    k1_pay2 (F := Ideal) (k1_pay8 (F := Ideal) (iblk1 V c 0 t) (iblk1 V c 1 t) (iblk1 V c 2 t) (iblk1 V c 3 t) (iblk1 V c 4 t) (iblk1 V c 5 t)) (k1_pay10 (F := Ideal) (iblk1 V c 0 t) (iblk1 V c 1 t) (iblk1 V c 2 t) (iblk1 V c 3 t) (iblk1 V c 4 t) (iblk1 V c 5 t)) (k1_pay11 (F := Ideal) (iblk1 V c 6 t)) (iblk1 V c 7 t) (constant S400x64 .f32 0x00000000#32) (iblk1 V c 8 t) (ix2 p q) = fn1_10 (V c main_v14_0) (V c main_arg4) (V c main_arg1) (V c main_v14_1) (V c main_v11) r q :=
  (pay1_2_apply (k1_pay8 (F := Ideal) (iblk1 V c 0 t) (iblk1 V c 1 t) (iblk1 V c 2 t) (iblk1 V c 3 t) (iblk1 V c 4 t) (iblk1 V c 5 t)) (k1_pay10 (F := Ideal) (iblk1 V c 0 t) (iblk1 V c 1 t) (iblk1 V c 2 t) (iblk1 V c 3 t) (iblk1 V c 4 t) (iblk1 V c 5 t)) (k1_pay11 (F := Ideal) (iblk1 V c 6 t)) (iblk1 V c 7 t) (iblk1 V c 8 t) p q).trans (val1_10_block V c t p q r hr)

/-- The output window's index map at point `t`, decided over the grid. -/
theorem idx1_9 : ∀ t : Fin cfg1.N, win1_9.index t (0 : Fin 2) = t.val ∧ win1_9.index t (1 : Fin 2) = 0 :=
  (by decide +kernel : ∀ t : Fin grid1.N, _)

/-- What point `t` writes back to output window 9's array is block `t` of `G1_9`. -/
theorem flushed1_9_eq (c : Dev nD) (t : Fin cfg1.N) :
    (dat1 (F := Ideal) V c).flushed 9 t = ((cfg1.win 9).blk t).view.read (Elt Ideal) (G1_9 V c) := by
  show (cfg1.win 9).cut (grid1.coords t) ((dat1 V c).after 9 t) = _
  rw [after1_9]
  unfold out1_9
  rw [View.canon_unit_zero hz2]
  simp only [View.ld_unit_zero (S := S80x10000) hz2, View.ld_unit_zero (S := S10000x128) hz2, View.ld_unit_zero (S := S400x128) hz2, View.ld_unit_zero (S := S128x64) hz2, View.ld_unit_zero (S := S1x64) hz2]
  funext y
  obtain ⟨p, q, rfl⟩ : ∃ (p : Fin 400) (q : Fin 10000), y = ix2 p q := ⟨y 0, y 1, eq_ix2 y⟩
  obtain ⟨e0, e1⟩ := idx1_9 t
  have ht : t.val < 25 := lt_of_lt_of_eq t.isLt N_1
  refine (val1_9_block V c t p q ⟨400 * t.val + p.val, by have := p.isLt; omega⟩ rfl).trans ?_
  show fn1_9 (V c main_arg1) _ _ = fn1_9 (V c main_arg1)
    ((((cfg1.win 9).blk t).view.emb (ix2 p q)) 0) ((((cfg1.win 9).blk t).view.emb (ix2 p q)) 1)
  refine congrArg₂ (fun a b => fn1_9 (V c main_arg1) a b)
    (Fin.ext ?_) (Fin.ext ?_)
  · show 400 * t.val + p.val = win1_9.index t 0 * 400 + 1 * p.val; rw [e0]; omega
  · show q.val = win1_9.index t 1 * 10000 + 1 * q.val; rw [e1]; omega

/-- An index of the array is in point `t`'s block iff each coordinate is in the block's range on its axis. -/
theorem mem_blk1_9 (t : Fin cfg1.N) (i : S10000x10000.Idx) :
    i ∈ ((cfg1.win 9).blk t).view.set ↔ ∀ a : Fin 2, win1_9.index t a * S400x10000.size a ≤ (i a).val ∧ (i a).val < win1_9.index t a * S400x10000.size a + S400x10000.size a := by
  show i ∈ ((View.whole main_v15_0).slice (win1_9.rect t)).set ↔ _
  rw [View.set_slice_whole, Rect.mem_set_unit]
  exact Iff.rfl

/-- Every index of the array is in the block of the point its row falls in: row `r` is written at point `r / 400`. -/
theorem covered1_9 (i : S10000x10000.Idx) :
    ∃ t : Fin cfg1.N, (cfg1.win 9).flush t = true ∧ i ∈ ((cfg1.win 9).blk t).view.set := by
  have hi0 : (i 0).val < 10000 := (i 0).isLt
  have hi1 : (i 1).val < 10000 := (i 1).isLt
  have hN : cfg1.N = 25 := N_1
  obtain ⟨t, ht⟩ : ∃ t : Fin cfg1.N, t.val = (i 0).val / 400 := ⟨⟨(i 0).val / 400, by rw [hN]; omega⟩, rfl⟩
  obtain ⟨e0, e1⟩ := idx1_9 t
  refine ⟨t, flush1_9 t, ?_⟩
  rw [mem_blk1_9]
  intro a
  match a with
  | ⟨0, _⟩ => show win1_9.index t 0 * 400 ≤ (i 0).val ∧ (i 0).val < win1_9.index t 0 * 400 + 400; rw [e0, ht]; omega
  | ⟨1, _⟩ => show win1_9.index t 1 * 10000 ≤ (i 1).val ∧ (i 1).val < win1_9.index t 1 * 10000 + 10000; rw [e1]; omega

/-- Region 1's first output array after the last point: the 10000×10000 matrix itself, entry by entry (rounded to bf16, the identity in exact arithmetic). -/
theorem val1_9 (c : Dev nD) : (dat1 (F := Ideal) V c).arrAt 9 cfg1.N = G1_9 V c :=
  (dat1 (F := Ideal) V c).arrAt_eq_of_cover 9 (G1_9 V c) (fun t _ => flushed1_9_eq V c t) covered1_9

/-- The same, entry by entry. -/
theorem val1_9_apply (c : Dev nD) (p : Fin 10000) (q : Fin 10000) :
    (dat1 (F := Ideal) V c).arrAt 9 cfg1.N (ix2 p q) = fn1_9 (V c main_arg1) p q := by
  rw [val1_9]; rfl

/-- The output window's index map at point `t`, decided over the grid. -/
theorem idx1_10 : ∀ t : Fin cfg1.N, win1_10.index t (0 : Fin 2) = t.val ∧ win1_10.index t (1 : Fin 2) = 0 :=
  (by decide +kernel : ∀ t : Fin grid1.N, _)

/-- What point `t` writes back to output window 10's array is block `t` of `G1_10`. -/
theorem flushed1_10_eq (c : Dev nD) (t : Fin cfg1.N) :
    (dat1 (F := Ideal) V c).flushed 10 t = ((cfg1.win 10).blk t).view.read (Elt Ideal) (G1_10 V c) := by
  show (cfg1.win 10).cut (grid1.coords t) ((dat1 V c).after 10 t) = _
  rw [after1_10]
  unfold out1_10
  rw [View.canon_unit_zero hz2]
  simp only [View.ld_unit_zero (S := S80x10000) hz2, View.ld_unit_zero (S := S10000x128) hz2, View.ld_unit_zero (S := S400x128) hz2, View.ld_unit_zero (S := S128x64) hz2, View.ld_unit_zero (S := S1x64) hz2]
  funext y
  obtain ⟨p, q, rfl⟩ : ∃ (p : Fin 400) (q : Fin 64), y = ix2 p q := ⟨y 0, y 1, eq_ix2 y⟩
  obtain ⟨e0, e1⟩ := idx1_10 t
  have ht : t.val < 25 := lt_of_lt_of_eq t.isLt N_1
  refine (val1_10_block V c t p q ⟨400 * t.val + p.val, by have := p.isLt; omega⟩ rfl).trans ?_
  show fn1_10 (V c main_v14_0) (V c main_arg4) (V c main_arg1) (V c main_v14_1) (V c main_v11) _ _ = fn1_10 (V c main_v14_0) (V c main_arg4) (V c main_arg1) (V c main_v14_1) (V c main_v11)
    ((((cfg1.win 10).blk t).view.emb (ix2 p q)) 0) ((((cfg1.win 10).blk t).view.emb (ix2 p q)) 1)
  refine congrArg₂ (fun a b => fn1_10 (V c main_v14_0) (V c main_arg4) (V c main_arg1) (V c main_v14_1) (V c main_v11) a b)
    (Fin.ext ?_) (Fin.ext ?_)
  · show 400 * t.val + p.val = win1_10.index t 0 * 400 + 1 * p.val; rw [e0]; omega
  · show q.val = win1_10.index t 1 * 64 + 1 * q.val; rw [e1]; omega

/-- An index of the array is in point `t`'s block iff each coordinate is in the block's range on its axis. -/
theorem mem_blk1_10 (t : Fin cfg1.N) (i : S10000x64.Idx) :
    i ∈ ((cfg1.win 10).blk t).view.set ↔ ∀ a : Fin 2, win1_10.index t a * S400x64.size a ≤ (i a).val ∧ (i a).val < win1_10.index t a * S400x64.size a + S400x64.size a := by
  show i ∈ ((View.whole main_v15_1).slice (win1_10.rect t)).set ↔ _
  rw [View.set_slice_whole, Rect.mem_set_unit]
  exact Iff.rfl

/-- Every index of the array is in the block of the point its row falls in: row `r` is written at point `r / 400`. -/
theorem covered1_10 (i : S10000x64.Idx) :
    ∃ t : Fin cfg1.N, (cfg1.win 10).flush t = true ∧ i ∈ ((cfg1.win 10).blk t).view.set := by
  have hi0 : (i 0).val < 10000 := (i 0).isLt
  have hi1 : (i 1).val < 64 := (i 1).isLt
  have hN : cfg1.N = 25 := N_1
  obtain ⟨t, ht⟩ : ∃ t : Fin cfg1.N, t.val = (i 0).val / 400 := ⟨⟨(i 0).val / 400, by rw [hN]; omega⟩, rfl⟩
  obtain ⟨e0, e1⟩ := idx1_10 t
  refine ⟨t, flush1_10 t, ?_⟩
  rw [mem_blk1_10]
  intro a
  match a with
  | ⟨0, _⟩ => show win1_10.index t 0 * 400 ≤ (i 0).val ∧ (i 0).val < win1_10.index t 0 * 400 + 400; rw [e0, ht]; omega
  | ⟨1, _⟩ => show win1_10.index t 1 * 64 ≤ (i 1).val ∧ (i 1).val < win1_10.index t 1 * 64 + 64; rw [e1]; omega

/-- Region 1's second output array after the last point: at row `p`, column `q`, `max ((h·W + (a·y)(p,q)·scale(p)) + b, 0)` of the arrays the region finds. -/
theorem val1_10 (c : Dev nD) : (dat1 (F := Ideal) V c).arrAt 10 cfg1.N = G1_10 V c :=
  (dat1 (F := Ideal) V c).arrAt_eq_of_cover 10 (G1_10 V c) (fun t _ => flushed1_10_eq V c t) covered1_10

/-- The same, entry by entry. -/
theorem val1_10_apply (c : Dev nD) (p : Fin 10000) (q : Fin 64) :
    (dat1 (F := Ideal) V c).arrAt 10 cfg1.N (ix2 p q) = fn1_10 (V c main_v14_0) (V c main_arg4) (V c main_arg1) (V c main_v14_1) (V c main_v11) p q := by
  rw [val1_10]; rfl

/-- The output window's index map at point `t`, decided over the grid. -/
theorem idx1_11 : ∀ t : Fin cfg1.N, win1_11.index t (0 : Fin 2) = t.val ∧ win1_11.index t (1 : Fin 2) = 0 :=
  (by decide +kernel : ∀ t : Fin grid1.N, _)

/-- What point `t` writes back to output window 11's array is block `t` of `G1_11`. -/
theorem flushed1_11_eq (c : Dev nD) (t : Fin cfg1.N) :
    (dat1 (F := Ideal) V c).flushed 11 t = ((cfg1.win 11).blk t).view.read (Elt Ideal) (G1_11 V c) := by
  show (cfg1.win 11).cut (grid1.coords t) ((dat1 V c).after 11 t) = _
  rw [after1_11]
  unfold out1_11
  rw [View.canon_unit_zero hz2]
  simp only [View.ld_unit_zero (S := S80x10000) hz2, View.ld_unit_zero (S := S10000x128) hz2, View.ld_unit_zero (S := S400x128) hz2, View.ld_unit_zero (S := S128x64) hz2, View.ld_unit_zero (S := S1x64) hz2]
  funext y
  obtain ⟨p, q, rfl⟩ : ∃ (p : Fin 400) (q : Fin 64), y = ix2 p q := ⟨y 0, y 1, eq_ix2 y⟩
  obtain ⟨e0, e1⟩ := idx1_11 t
  have ht : t.val < 25 := lt_of_lt_of_eq t.isLt N_1
  refine (val1_11_block V c t p q ⟨400 * t.val + p.val, by have := p.isLt; omega⟩ rfl).trans ?_
  show fn1_10 (V c main_v14_0) (V c main_arg4) (V c main_arg1) (V c main_v14_1) (V c main_v11) _ _ = fn1_10 (V c main_v14_0) (V c main_arg4) (V c main_arg1) (V c main_v14_1) (V c main_v11)
    ((((cfg1.win 11).blk t).view.emb (ix2 p q)) 0) ((((cfg1.win 11).blk t).view.emb (ix2 p q)) 1)
  refine congrArg₂ (fun a b => fn1_10 (V c main_v14_0) (V c main_arg4) (V c main_arg1) (V c main_v14_1) (V c main_v11) a b)
    (Fin.ext ?_) (Fin.ext ?_)
  · show 400 * t.val + p.val = win1_11.index t 0 * 400 + 1 * p.val; rw [e0]; omega
  · show q.val = win1_11.index t 1 * 64 + 1 * q.val; rw [e1]; omega

/-- An index of the array is in point `t`'s block iff each coordinate is in the block's range on its axis. -/
theorem mem_blk1_11 (t : Fin cfg1.N) (i : S10000x64.Idx) :
    i ∈ ((cfg1.win 11).blk t).view.set ↔ ∀ a : Fin 2, win1_11.index t a * S400x64.size a ≤ (i a).val ∧ (i a).val < win1_11.index t a * S400x64.size a + S400x64.size a := by
  show i ∈ ((View.whole main_v15_2).slice (win1_11.rect t)).set ↔ _
  rw [View.set_slice_whole, Rect.mem_set_unit]
  exact Iff.rfl

/-- Every index of the array is in the block of the point its row falls in: row `r` is written at point `r / 400`. -/
theorem covered1_11 (i : S10000x64.Idx) :
    ∃ t : Fin cfg1.N, (cfg1.win 11).flush t = true ∧ i ∈ ((cfg1.win 11).blk t).view.set := by
  have hi0 : (i 0).val < 10000 := (i 0).isLt
  have hi1 : (i 1).val < 64 := (i 1).isLt
  have hN : cfg1.N = 25 := N_1
  obtain ⟨t, ht⟩ : ∃ t : Fin cfg1.N, t.val = (i 0).val / 400 := ⟨⟨(i 0).val / 400, by rw [hN]; omega⟩, rfl⟩
  obtain ⟨e0, e1⟩ := idx1_11 t
  refine ⟨t, flush1_11 t, ?_⟩
  rw [mem_blk1_11]
  intro a
  match a with
  | ⟨0, _⟩ => show win1_11.index t 0 * 400 ≤ (i 0).val ∧ (i 0).val < win1_11.index t 0 * 400 + 400; rw [e0, ht]; omega
  | ⟨1, _⟩ => show win1_11.index t 1 * 64 ≤ (i 1).val ∧ (i 1).val < win1_11.index t 1 * 64 + 64; rw [e1]; omega

/-- Region 1's third output array after the last point: the same function as the second (its bf16 copy). -/
theorem val1_11 (c : Dev nD) : (dat1 (F := Ideal) V c).arrAt 11 cfg1.N = G1_11 V c :=
  (dat1 (F := Ideal) V c).arrAt_eq_of_cover 11 (G1_11 V c) (fun t _ => flushed1_11_eq V c t) covered1_11

/-- The same, entry by entry. -/
theorem val1_11_apply (c : Dev nD) (p : Fin 10000) (q : Fin 64) :
    (dat1 (F := Ideal) V c).arrAt 11 cfg1.N (ix2 p q) = fn1_10 (V c main_v14_0) (V c main_arg4) (V c main_arg1) (V c main_v14_1) (V c main_v11) p q := by
  rw [val1_11]; rfl

/-- The output window's index map at point `t`, decided over the grid. -/
theorem idx1_12 : ∀ t : Fin cfg1.N, win1_12.index t (0 : Fin 2) = t.val ∧ win1_12.index t (1 : Fin 2) = 0 :=
  (by decide +kernel : ∀ t : Fin grid1.N, _)

/-- What point `t` writes back to output window 12's array is block `t` of `G1_12`. -/
theorem flushed1_12_eq (c : Dev nD) (t : Fin cfg1.N) :
    (dat1 (F := Ideal) V c).flushed 12 t = ((cfg1.win 12).blk t).view.read (Elt Ideal) (G1_12 V c) := by
  show (cfg1.win 12).cut (grid1.coords t) ((dat1 V c).after 12 t) = _
  rw [after1_12]
  unfold out1_12
  rw [View.canon_unit_zero hz2]
  simp only [View.ld_unit_zero (S := S80x10000) hz2, View.ld_unit_zero (S := S10000x128) hz2, View.ld_unit_zero (S := S400x128) hz2, View.ld_unit_zero (S := S128x64) hz2, View.ld_unit_zero (S := S1x64) hz2]
  funext y
  obtain ⟨p, q, rfl⟩ : ∃ (p : Fin 400) (q : Fin 1), y = ix2 p q := ⟨y 0, y 1, eq_ix2 y⟩
  obtain ⟨e0, e1⟩ := idx1_12 t
  have ht : t.val < 25 := lt_of_lt_of_eq t.isLt N_1
  refine (val1_12_block V c t p q ⟨400 * t.val + p.val, by have := p.isLt; omega⟩ rfl).trans ?_
  show fn1_12 (V c main_arg1) (V c main_v14_1) _ _ = fn1_12 (V c main_arg1) (V c main_v14_1)
    ((((cfg1.win 12).blk t).view.emb (ix2 p q)) 0) ((((cfg1.win 12).blk t).view.emb (ix2 p q)) 1)
  refine congrArg₂ (fun a b => fn1_12 (V c main_arg1) (V c main_v14_1) a b)
    (Fin.ext ?_) (Fin.ext ?_)
  · show 400 * t.val + p.val = win1_12.index t 0 * 400 + 1 * p.val; rw [e0]; omega
  · show q.val = win1_12.index t 1 * 1 + 1 * q.val; rw [e1]; omega

/-- An index of the array is in point `t`'s block iff each coordinate is in the block's range on its axis. -/
theorem mem_blk1_12 (t : Fin cfg1.N) (i : S10000x1.Idx) :
    i ∈ ((cfg1.win 12).blk t).view.set ↔ ∀ a : Fin 2, win1_12.index t a * S400x1.size a ≤ (i a).val ∧ (i a).val < win1_12.index t a * S400x1.size a + S400x1.size a := by
  show i ∈ ((View.whole main_v15_3).slice (win1_12.rect t)).set ↔ _
  rw [View.set_slice_whole, Rect.mem_set_unit]
  exact Iff.rfl

/-- Every index of the array is in the block of the point its row falls in: row `r` is written at point `r / 400`. -/
theorem covered1_12 (i : S10000x1.Idx) :
    ∃ t : Fin cfg1.N, (cfg1.win 12).flush t = true ∧ i ∈ ((cfg1.win 12).blk t).view.set := by
  have hi0 : (i 0).val < 10000 := (i 0).isLt
  have hi1 : (i 1).val < 1 := (i 1).isLt
  have hN : cfg1.N = 25 := N_1
  obtain ⟨t, ht⟩ : ∃ t : Fin cfg1.N, t.val = (i 0).val / 400 := ⟨⟨(i 0).val / 400, by rw [hN]; omega⟩, rfl⟩
  obtain ⟨e0, e1⟩ := idx1_12 t
  refine ⟨t, flush1_12 t, ?_⟩
  rw [mem_blk1_12]
  intro a
  match a with
  | ⟨0, _⟩ => show win1_12.index t 0 * 400 ≤ (i 0).val ∧ (i 0).val < win1_12.index t 0 * 400 + 400; rw [e0, ht]; omega
  | ⟨1, _⟩ => show win1_12.index t 1 * 1 ≤ (i 1).val ∧ (i 1).val < win1_12.index t 1 * 1 + 1; rw [e1]; omega

/-- Region 1's fourth output array after the last point: at row `p`, one over the larger of `∑ⱼ a(p,j)·y(j,64)` and the body's small constant. -/
theorem val1_12 (c : Dev nD) : (dat1 (F := Ideal) V c).arrAt 12 cfg1.N = G1_12 V c :=
  (dat1 (F := Ideal) V c).arrAt_eq_of_cover 12 (G1_12 V c) (fun t _ => flushed1_12_eq V c t) covered1_12

/-- The same, entry by entry. -/
theorem val1_12_apply (c : Dev nD) (p : Fin 10000) (q : Fin 1) :
    (dat1 (F := Ideal) V c).arrAt 12 cfg1.N (ix2 p q) = fn1_12 (V c main_arg1) (V c main_v14_1) p q := by
  rw [val1_12]; rfl

end Cert.KernelIdeal.Hand

end
-- ==== Proof.KI.Pay2.lean ====
/-
  Region 2's stored values at an index, in exact arithmetic.

  The body of region 2 stores a 1000×128 block and a 1000×40 block. Over the extended reals every rounding is the identity
  and a block product into a zero accumulator is a plain sum of products. With `a` the stack of the five 200-row slabs
  (row `p = 200·σ + i` of the stack is row `i` of slab `σ`), the first part of the body carries out
  `w = h·Wₛ + ((a·z) ⊙ s)·Wₙ`; the first stored block is `max (w + b, 0)` and the second is the first times the 128×40 matrix.
-/
import proofs.«181542_g78589311582291_cont_9to1_m_296_16_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«181542_g78589311582291_cont_9to1_m_296_16_alg».proof.Proof.KI.ValLib

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

/-- The value region 2's body carries out of its first part, at row `p = 200·σ + i` and column `q` of the 1000×128 block:
    `h·Wₛ + ((a·z) ⊙ s)·Wₙ`, with `a` the stack of the five 200-row slabs. -/
theorem pay2_3_apply (v0 : Vec Ideal S10000x64 .bf16) (v2 v5 v8 v11 v14 : Vec Ideal S200x10000 .bf16) (v18 : Vec Ideal S1000x1 .f32)
    (v22 : Vec Ideal S1000x64 .f32) (v24 v26 : Vec Ideal S64x128 .f32)
    (p : Fin 1000) (q : Fin 128) (σ : Fin 5) (i : Fin 200) (hp : p.val = 200 * σ.val + i.val) :
    k2_pay3 (F := Ideal) v0 v2 v5 v8 v11 v14 v18 v22 v24 v26 (ix2 p q)
      = (∑ k : Fin 64, v22 (ix2 p k) * v24 (ix2 k q))
        + (∑ k : Fin 64, ((∑ j : Fin 10000, (![v2, v5, v8, v11, v14] σ) (ix2 i j) * v0 (ix2 j k)) * v18 (ix2 p (0 : Fin 1))) * v26 (ix2 k q)) := by
  unfold k2_pay3
  simp only [shapeCast_self]
  rw [addf_apply, mm_1000x64_64x128, mm_1000x64_64x128]
  refine congrArg (_ + ·) (Finset.sum_congr rfl fun k _ => congrArg (· * _) ?_)
  rw [mulf_apply, broadcastTo_a1_ab_apply]
  -- the five slab products as a family indexed by the slab, so that the stack is read at the slab the row falls in
  let g : Fin 5 → FVec Ideal S200x64 .f32 := fun n =>
    matmul (F := Ideal) (φ₁ := .bf16) (φ₂ := .bf16) dot_S200x10000_S10000x64_S200x64_1_0_0_1_n_n none
      (shapeCast S200x10000 (![v2, v5, v8, v11, v14] n) shapeCasts_S200x10000_S200x10000)
      (shapeCast S10000x64 v0 shapeCasts_S10000x64_S10000x64) (constant S200x64 .f32 0x00000000#32)
  have hc : concatenate S1000x64 0 (List.ofFn fun n : Fin 5 => (⟨S200x64, g n⟩ : (s : Shape) × (s.Idx → Ideal .f32)))
      concatenates_S200x64_S200x64_S200x64_S200x64_S200x64_S1000x64_d0 (ix2 p k) = g σ (ix2 i k) :=
    concatenate_ofFn_apply (t := S1000x64) (s₁ := S200x64) 0 g
      concatenates_S200x64_S200x64_S200x64_S200x64_S200x64_S1000x64_d0 rfl 200 rfl (ix2 p k) σ
      (by show p.val / 200 = σ.val; have := i.isLt; omega) (ix2 i k) (by show i.val = p.val % 200; have := i.isLt; omega)
      (fun b hb => by match b with | ⟨0, _⟩ => exact absurd rfl hb | ⟨1, _⟩ => rfl)
  show concatenate S1000x64 0 (List.ofFn fun n : Fin 5 => (⟨S200x64, g n⟩ : (s : Shape) × (s.Idx → Ideal .f32)))
      concatenates_S200x64_S200x64_S200x64_S200x64_S200x64_S1000x64_d0 (ix2 p k) * _ = _
  rw [hc]
  simp only [g, shapeCast_self]
  rw [mm_200x10000_10000x64]

/-- The first value region 2's body stores (the f32 output), at row `p` and column `q`, from what the first part carries out
    (`w`) and the bias row: `max (w + b, 0)`. -/
theorem pay2_1_apply (w : FVec Ideal S1000x128 .f32) (v29 : Vec Ideal S1x128 .f32) (p : Fin 1000) (q : Fin 128) :
    k2_pay1 (F := Ideal) w v29 (ix2 p q) = max (w (ix2 p q) + v29 (ix2 (0 : Fin 1) q)) (Ideal.ofBits .f32 0x00000000#32) := by
  unfold k2_pay1
  simp only [shapeCast_self]
  rw [maximumf_apply, addf_apply, broadcastTo_1b_ab_apply, broadcast_apply]
  rfl

/-- The second value region 2's body stores (the bf16 output), at row `p` and column `q`: the first value times the 128×40
    matrix; the rounding to bf16 is the identity in exact arithmetic. -/
theorem pay2_2_apply (w : FVec Ideal S1000x128 .f32) (v29 : Vec Ideal S1x128 .f32) (v36 : Vec Ideal S128x40 .f32) (p : Fin 1000) (q : Fin 40) :
    k2_pay2 (F := Ideal) w v29 v36 (ix2 p q)
      = ∑ k : Fin 128, max (w (ix2 p k) + v29 (ix2 (0 : Fin 1) k)) (Ideal.ofBits .f32 0x00000000#32) * v36 (ix2 k q) := by
  unfold k2_pay2
  simp only [shapeCast_self]
  rw [truncf_apply, mm_1000x128_128x40]
  simp only [pay2_1_apply]

end Cert.KernelIdeal.Hand

end
-- ==== Proof.KI.Val2.lean ====
/-
  Region 2's two output arrays after the last grid point, in exact arithmetic, as functions of the arrays the region finds.

  The region writes its outputs (10000×128 and 10000×40) in ten blocks of 1000 rows; point `t` writes rows `1000·t …`. Every
  input block at point `t` is a part of its array: the five 200-row slabs of point `t` are rows `1000·t + 200·σ …` of the one
  10000×10000 matrix (σ = 0 … 4), the 1000-row blocks are rows `1000·t …` of theirs, and the remaining windows are whole
  arrays. So each block written at point `t` is the block of one whole-array function, and since the ten blocks cover the
  output arrays, the arrays end at those functions:
    m(p,q) = max ((∑ₖ h(p,k)·Wₛ(k,q) + ∑ₖ ((∑ⱼ a(p,j)·z(j,k))·s(p,0))·Wₙ(k,q)) + b(0,q), 0),      g(p,q) = ∑ₖ m(p,k)·P(k,q).
-/
import proofs.«181542_g78589311582291_cont_9to1_m_296_16_alg».proof.Proof.KI.Half2
import proofs.«181542_g78589311582291_cont_9to1_m_296_16_alg».proof.Proof.KI.Pay2
import proofs.«181542_g78589311582291_cont_9to1_m_296_16_alg».proof.Proof.KI.ValLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- what the core's buffers hold when the region is entered, in exact arithmetic; arbitrary
variable (V : (c : Dev nD) → (b : Ref sig .tc) → Buf (Elt Ideal) ((c : Thread nD τ).loc b))

/-- Window 0's index map at point `t`, decided over the grid. -/
theorem idx2_0 : ∀ t : Fin cfg2.N, win2_0.index t (0 : Fin 2) = 5 * t.val + 0 ∧ win2_0.index t (1 : Fin 2) = 0 :=
  (by decide +kernel : ∀ t : Fin grid2.N, _)

/-- Window 0's block at point `t` is rows `1000·t + 0 …` of the array: its entry `x` is the array's entry `k` at the matching row and column. -/
theorem iblk2_0_apply (c : Dev nD) (t : Fin cfg2.N) (x : S200x10000.Idx) (k : S10000x10000.Idx)
    (hk0 : (k 0).val = 1000 * t.val + 0 + (x 0).val) (hk1 : (k 1).val = (x 1).val) :
    (iblk2 V c 0 t : Vec Ideal S200x10000 .bf16) x = (V c main_v15_0 : S10000x10000.Idx → Elt Ideal .bf16) k := by
  obtain ⟨h0, h1⟩ := idx2_0 t
  unfold iblk2
  rw [View.read_apply]
  show V c main_v15_0 _ = V c main_v15_0 _
  congr 1
  funext a
  apply Fin.ext
  match a with
  | ⟨0, _⟩ => show win2_0.index t 0 * 200 + 1 * (x 0).val = (k 0).val; rw [h0, hk0]; omega
  | ⟨1, _⟩ => show win2_0.index t 1 * 10000 + 1 * (x 1).val = (k 1).val; rw [h1, hk1]; omega

/-- Window 1's index map at point `t`, decided over the grid. -/
theorem idx2_1 : ∀ t : Fin cfg2.N, win2_1.index t (0 : Fin 2) = 5 * t.val + 1 ∧ win2_1.index t (1 : Fin 2) = 0 :=
  (by decide +kernel : ∀ t : Fin grid2.N, _)

/-- Window 1's block at point `t` is rows `1000·t + 200 …` of the array: its entry `x` is the array's entry `k` at the matching row and column. -/
theorem iblk2_1_apply (c : Dev nD) (t : Fin cfg2.N) (x : S200x10000.Idx) (k : S10000x10000.Idx)
    (hk0 : (k 0).val = 1000 * t.val + 200 + (x 0).val) (hk1 : (k 1).val = (x 1).val) :
    (iblk2 V c 1 t : Vec Ideal S200x10000 .bf16) x = (V c main_v15_0 : S10000x10000.Idx → Elt Ideal .bf16) k := by
  obtain ⟨h0, h1⟩ := idx2_1 t
  unfold iblk2
  rw [View.read_apply]
  show V c main_v15_0 _ = V c main_v15_0 _
  congr 1
  funext a
  apply Fin.ext
  match a with
  | ⟨0, _⟩ => show win2_1.index t 0 * 200 + 1 * (x 0).val = (k 0).val; rw [h0, hk0]; omega
  | ⟨1, _⟩ => show win2_1.index t 1 * 10000 + 1 * (x 1).val = (k 1).val; rw [h1, hk1]; omega

/-- Window 2's index map at point `t`, decided over the grid. -/
theorem idx2_2 : ∀ t : Fin cfg2.N, win2_2.index t (0 : Fin 2) = 5 * t.val + 2 ∧ win2_2.index t (1 : Fin 2) = 0 :=
  (by decide +kernel : ∀ t : Fin grid2.N, _)

/-- Window 2's block at point `t` is rows `1000·t + 400 …` of the array: its entry `x` is the array's entry `k` at the matching row and column. -/
theorem iblk2_2_apply (c : Dev nD) (t : Fin cfg2.N) (x : S200x10000.Idx) (k : S10000x10000.Idx)
    (hk0 : (k 0).val = 1000 * t.val + 400 + (x 0).val) (hk1 : (k 1).val = (x 1).val) :
    (iblk2 V c 2 t : Vec Ideal S200x10000 .bf16) x = (V c main_v15_0 : S10000x10000.Idx → Elt Ideal .bf16) k := by
  obtain ⟨h0, h1⟩ := idx2_2 t
  unfold iblk2
  rw [View.read_apply]
  show V c main_v15_0 _ = V c main_v15_0 _
  congr 1
  funext a
  apply Fin.ext
  match a with
  | ⟨0, _⟩ => show win2_2.index t 0 * 200 + 1 * (x 0).val = (k 0).val; rw [h0, hk0]; omega
  | ⟨1, _⟩ => show win2_2.index t 1 * 10000 + 1 * (x 1).val = (k 1).val; rw [h1, hk1]; omega

/-- Window 3's index map at point `t`, decided over the grid. -/
theorem idx2_3 : ∀ t : Fin cfg2.N, win2_3.index t (0 : Fin 2) = 5 * t.val + 3 ∧ win2_3.index t (1 : Fin 2) = 0 :=
  (by decide +kernel : ∀ t : Fin grid2.N, _)

/-- Window 3's block at point `t` is rows `1000·t + 600 …` of the array: its entry `x` is the array's entry `k` at the matching row and column. -/
theorem iblk2_3_apply (c : Dev nD) (t : Fin cfg2.N) (x : S200x10000.Idx) (k : S10000x10000.Idx)
    (hk0 : (k 0).val = 1000 * t.val + 600 + (x 0).val) (hk1 : (k 1).val = (x 1).val) :
    (iblk2 V c 3 t : Vec Ideal S200x10000 .bf16) x = (V c main_v15_0 : S10000x10000.Idx → Elt Ideal .bf16) k := by
  obtain ⟨h0, h1⟩ := idx2_3 t
  unfold iblk2
  rw [View.read_apply]
  show V c main_v15_0 _ = V c main_v15_0 _
  congr 1
  funext a
  apply Fin.ext
  match a with
  | ⟨0, _⟩ => show win2_3.index t 0 * 200 + 1 * (x 0).val = (k 0).val; rw [h0, hk0]; omega
  | ⟨1, _⟩ => show win2_3.index t 1 * 10000 + 1 * (x 1).val = (k 1).val; rw [h1, hk1]; omega

/-- Window 4's index map at point `t`, decided over the grid. -/
theorem idx2_4 : ∀ t : Fin cfg2.N, win2_4.index t (0 : Fin 2) = 5 * t.val + 4 ∧ win2_4.index t (1 : Fin 2) = 0 :=
  (by decide +kernel : ∀ t : Fin grid2.N, _)

/-- Window 4's block at point `t` is rows `1000·t + 800 …` of the array: its entry `x` is the array's entry `k` at the matching row and column. -/
theorem iblk2_4_apply (c : Dev nD) (t : Fin cfg2.N) (x : S200x10000.Idx) (k : S10000x10000.Idx)
    (hk0 : (k 0).val = 1000 * t.val + 800 + (x 0).val) (hk1 : (k 1).val = (x 1).val) :
    (iblk2 V c 4 t : Vec Ideal S200x10000 .bf16) x = (V c main_v15_0 : S10000x10000.Idx → Elt Ideal .bf16) k := by
  obtain ⟨h0, h1⟩ := idx2_4 t
  unfold iblk2
  rw [View.read_apply]
  show V c main_v15_0 _ = V c main_v15_0 _
  congr 1
  funext a
  apply Fin.ext
  match a with
  | ⟨0, _⟩ => show win2_4.index t 0 * 200 + 1 * (x 0).val = (k 0).val; rw [h0, hk0]; omega
  | ⟨1, _⟩ => show win2_4.index t 1 * 10000 + 1 * (x 1).val = (k 1).val; rw [h1, hk1]; omega

/-- Window 5's index map at point `t`, decided over the grid. -/
theorem idx2_5 : ∀ t : Fin cfg2.N, win2_5.index t (0 : Fin 2) = 0 ∧ win2_5.index t (1 : Fin 2) = 0 :=
  (by decide +kernel : ∀ t : Fin grid2.N, _)

/-- Window 5's block at point `t` is the whole array: its entry `x` is the array's entry `k` at the matching row and column. -/
theorem iblk2_5_apply (c : Dev nD) (t : Fin cfg2.N) (x : S10000x64.Idx) (k : S10000x64.Idx)
    (hk0 : (k 0).val = (x 0).val) (hk1 : (k 1).val = (x 1).val) :
    (iblk2 V c 5 t : Vec Ideal S10000x64 .bf16) x = (V c main_v15_2 : S10000x64.Idx → Elt Ideal .bf16) k := by
  obtain ⟨h0, h1⟩ := idx2_5 t
  unfold iblk2
  rw [View.read_apply]
  show V c main_v15_2 _ = V c main_v15_2 _
  congr 1
  funext a
  apply Fin.ext
  match a with
  | ⟨0, _⟩ => show win2_5.index t 0 * 10000 + 1 * (x 0).val = (k 0).val; rw [h0, hk0]; omega
  | ⟨1, _⟩ => show win2_5.index t 1 * 64 + 1 * (x 1).val = (k 1).val; rw [h1, hk1]; omega

/-- Window 6's index map at point `t`, decided over the grid. -/
theorem idx2_6 : ∀ t : Fin cfg2.N, win2_6.index t (0 : Fin 2) = t.val ∧ win2_6.index t (1 : Fin 2) = 0 :=
  (by decide +kernel : ∀ t : Fin grid2.N, _)

/-- Window 6's block at point `t` is rows `1000·t + 0 …` of the array: its entry `x` is the array's entry `k` at the matching row and column. -/
theorem iblk2_6_apply (c : Dev nD) (t : Fin cfg2.N) (x : S1000x64.Idx) (k : S10000x64.Idx)
    (hk0 : (k 0).val = 1000 * t.val + 0 + (x 0).val) (hk1 : (k 1).val = (x 1).val) :
    (iblk2 V c 6 t : Vec Ideal S1000x64 .f32) x = (V c main_v15_1 : S10000x64.Idx → Elt Ideal .f32) k := by
  obtain ⟨h0, h1⟩ := idx2_6 t
  unfold iblk2
  rw [View.read_apply]
  show V c main_v15_1 _ = V c main_v15_1 _
  congr 1
  funext a
  apply Fin.ext
  match a with
  | ⟨0, _⟩ => show win2_6.index t 0 * 1000 + 1 * (x 0).val = (k 0).val; rw [h0, hk0]; omega
  | ⟨1, _⟩ => show win2_6.index t 1 * 64 + 1 * (x 1).val = (k 1).val; rw [h1, hk1]; omega

/-- Window 7's index map at point `t`, decided over the grid. -/
theorem idx2_7 : ∀ t : Fin cfg2.N, win2_7.index t (0 : Fin 2) = t.val ∧ win2_7.index t (1 : Fin 2) = 0 :=
  (by decide +kernel : ∀ t : Fin grid2.N, _)

/-- Window 7's block at point `t` is rows `1000·t + 0 …` of the array: its entry `x` is the array's entry `k` at the matching row and column. -/
theorem iblk2_7_apply (c : Dev nD) (t : Fin cfg2.N) (x : S1000x1.Idx) (k : S10000x1.Idx)
    (hk0 : (k 0).val = 1000 * t.val + 0 + (x 0).val) (hk1 : (k 1).val = (x 1).val) :
    (iblk2 V c 7 t : Vec Ideal S1000x1 .f32) x = (V c main_v15_3 : S10000x1.Idx → Elt Ideal .f32) k := by
  obtain ⟨h0, h1⟩ := idx2_7 t
  unfold iblk2
  rw [View.read_apply]
  show V c main_v15_3 _ = V c main_v15_3 _
  congr 1
  funext a
  apply Fin.ext
  match a with
  | ⟨0, _⟩ => show win2_7.index t 0 * 1000 + 1 * (x 0).val = (k 0).val; rw [h0, hk0]; omega
  | ⟨1, _⟩ => show win2_7.index t 1 * 1 + 1 * (x 1).val = (k 1).val; rw [h1, hk1]; omega

/-- Window 8's index map at point `t`, decided over the grid. -/
theorem idx2_8 : ∀ t : Fin cfg2.N, win2_8.index t (0 : Fin 2) = 0 ∧ win2_8.index t (1 : Fin 2) = 0 :=
  (by decide +kernel : ∀ t : Fin grid2.N, _)

/-- Window 8's block at point `t` is the whole array: its entry `x` is the array's entry `k` at the matching row and column. -/
theorem iblk2_8_apply (c : Dev nD) (t : Fin cfg2.N) (x : S64x128.Idx) (k : S64x128.Idx)
    (hk0 : (k 0).val = (x 0).val) (hk1 : (k 1).val = (x 1).val) :
    (iblk2 V c 8 t : Vec Ideal S64x128 .f32) x = (V c main_arg7 : S64x128.Idx → Elt Ideal .f32) k := by
  obtain ⟨h0, h1⟩ := idx2_8 t
  unfold iblk2
  rw [View.read_apply]
  show V c main_arg7 _ = V c main_arg7 _
  congr 1
  funext a
  apply Fin.ext
  match a with
  | ⟨0, _⟩ => show win2_8.index t 0 * 64 + 1 * (x 0).val = (k 0).val; rw [h0, hk0]; omega
  | ⟨1, _⟩ => show win2_8.index t 1 * 128 + 1 * (x 1).val = (k 1).val; rw [h1, hk1]; omega

/-- Window 9's index map at point `t`, decided over the grid. -/
theorem idx2_9 : ∀ t : Fin cfg2.N, win2_9.index t (0 : Fin 2) = 0 ∧ win2_9.index t (1 : Fin 2) = 0 :=
  (by decide +kernel : ∀ t : Fin grid2.N, _)

/-- Window 9's block at point `t` is the whole array: its entry `x` is the array's entry `k` at the matching row and column. -/
theorem iblk2_9_apply (c : Dev nD) (t : Fin cfg2.N) (x : S64x128.Idx) (k : S64x128.Idx)
    (hk0 : (k 0).val = (x 0).val) (hk1 : (k 1).val = (x 1).val) :
    (iblk2 V c 9 t : Vec Ideal S64x128 .f32) x = (V c main_arg8 : S64x128.Idx → Elt Ideal .f32) k := by
  obtain ⟨h0, h1⟩ := idx2_9 t
  unfold iblk2
  rw [View.read_apply]
  show V c main_arg8 _ = V c main_arg8 _
  congr 1
  funext a
  apply Fin.ext
  match a with
  | ⟨0, _⟩ => show win2_9.index t 0 * 64 + 1 * (x 0).val = (k 0).val; rw [h0, hk0]; omega
  | ⟨1, _⟩ => show win2_9.index t 1 * 128 + 1 * (x 1).val = (k 1).val; rw [h1, hk1]; omega

/-- Window 10's index map at point `t`, decided over the grid. -/
theorem idx2_10 : ∀ t : Fin cfg2.N, win2_10.index t (0 : Fin 2) = 0 ∧ win2_10.index t (1 : Fin 2) = 0 :=
  (by decide +kernel : ∀ t : Fin grid2.N, _)

/-- Window 10's block at point `t` is the whole array: its entry `x` is the array's entry `k` at the matching row and column. -/
theorem iblk2_10_apply (c : Dev nD) (t : Fin cfg2.N) (x : S1x128.Idx) (k : S1x128.Idx)
    (hk0 : (k 0).val = (x 0).val) (hk1 : (k 1).val = (x 1).val) :
    (iblk2 V c 10 t : Vec Ideal S1x128 .f32) x = (V c main_v12 : S1x128.Idx → Elt Ideal .f32) k := by
  obtain ⟨h0, h1⟩ := idx2_10 t
  unfold iblk2
  rw [View.read_apply]
  show V c main_v12 _ = V c main_v12 _
  congr 1
  funext a
  apply Fin.ext
  match a with
  | ⟨0, _⟩ => show win2_10.index t 0 * 1 + 1 * (x 0).val = (k 0).val; rw [h0, hk0]; omega
  | ⟨1, _⟩ => show win2_10.index t 1 * 128 + 1 * (x 1).val = (k 1).val; rw [h1, hk1]; omega

/-- Window 11's index map at point `t`, decided over the grid. -/
theorem idx2_11 : ∀ t : Fin cfg2.N, win2_11.index t (0 : Fin 2) = 0 ∧ win2_11.index t (1 : Fin 2) = 0 :=
  (by decide +kernel : ∀ t : Fin grid2.N, _)

/-- Window 11's block at point `t` is the whole array: its entry `x` is the array's entry `k` at the matching row and column. -/
theorem iblk2_11_apply (c : Dev nD) (t : Fin cfg2.N) (x : S128x40.Idx) (k : S128x40.Idx)
    (hk0 : (k 0).val = (x 0).val) (hk1 : (k 1).val = (x 1).val) :
    (iblk2 V c 11 t : Vec Ideal S128x40 .f32) x = (V c main_v9 : S128x40.Idx → Elt Ideal .f32) k := by
  obtain ⟨h0, h1⟩ := idx2_11 t
  unfold iblk2
  rw [View.read_apply]
  show V c main_v9 _ = V c main_v9 _
  congr 1
  funext a
  apply Fin.ext
  match a with
  | ⟨0, _⟩ => show win2_11.index t 0 * 128 + 1 * (x 0).val = (k 0).val; rw [h0, hk0]; omega
  | ⟨1, _⟩ => show win2_11.index t 1 * 40 + 1 * (x 1).val = (k 1).val; rw [h1, hk1]; omega

/-- The five slabs of point `t` are consecutive 200-row pieces of the one matrix: slab `σ` is rows `1000·t + 200·σ …`. -/
theorem slab2_apply (c : Dev nD) (t : Fin cfg2.N) (σ : Fin 5) (x : S200x10000.Idx) (k : S10000x10000.Idx)
    (hk0 : (k 0).val = 1000 * t.val + 200 * σ.val + (x 0).val) (hk1 : (k 1).val = (x 1).val) :
    (![(iblk2 V c 0 t : Vec Ideal S200x10000 .bf16), iblk2 V c 1 t, iblk2 V c 2 t, iblk2 V c 3 t, iblk2 V c 4 t] σ) x
      = (V c main_v15_0 : S10000x10000.Idx → Elt Ideal .bf16) k := by
  match σ with
  | ⟨0, _⟩ => exact iblk2_0_apply V c t x k (by simpa using hk0) hk1
  | ⟨1, _⟩ => exact iblk2_1_apply V c t x k (by simpa using hk0) hk1
  | ⟨2, _⟩ => exact iblk2_2_apply V c t x k (by simpa using hk0) hk1
  | ⟨3, _⟩ => exact iblk2_3_apply V c t x k (by simpa using hk0) hk1
  | ⟨4, _⟩ => exact iblk2_4_apply V c t x k (by simpa using hk0) hk1

/-- The first output at row `p`, column `q`: `max ((h·Wₛ + ((a·z) ⊙ s)·Wₙ) + b, 0)`. -/
def fn2_12 (h : S10000x64.Idx → EReal) (Ws : S64x128.Idx → EReal) (a : S10000x10000.Idx → EReal) (z : S10000x64.Idx → EReal)
    (s : S10000x1.Idx → EReal) (Wn : S64x128.Idx → EReal) (b : S1x128.Idx → EReal) (p : Fin 10000) (q : Fin 128) : EReal :=
  max (((∑ k : Fin 64, h (ix2 p k) * Ws (ix2 k q))
      + (∑ k : Fin 64, ((∑ j : Fin 10000, a (ix2 p j) * z (ix2 j k)) * s (ix2 p (0 : Fin 1))) * Wn (ix2 k q)))
    + b (ix2 (0 : Fin 1) q)) (Ideal.ofBits .f32 0x00000000#32)

/-- The second output at row `p`, column `q`: the first output times the 128×40 matrix. -/
def fn2_13 (h : S10000x64.Idx → EReal) (Ws : S64x128.Idx → EReal) (a : S10000x10000.Idx → EReal) (z : S10000x64.Idx → EReal)
    (s : S10000x1.Idx → EReal) (Wn : S64x128.Idx → EReal) (b : S1x128.Idx → EReal) (P : S128x40.Idx → EReal)
    (p : Fin 10000) (q : Fin 40) : EReal :=
  ∑ k : Fin 128, fn2_12 h Ws a z s Wn b p k * P (ix2 k q)

/-- Region 2's first output array as a function of the arrays the region finds on core `c`. -/
def G2_12 (c : Dev nD) : S10000x128.Idx → EReal := fun i => fn2_12 (V c main_v15_1) (V c main_arg7) (V c main_v15_0) (V c main_v15_2) (V c main_v15_3) (V c main_arg8) (V c main_v12) (i 0) (i 1)

/-- Region 2's second output array as a function of the arrays the region finds on core `c`. -/
def G2_13 (c : Dev nD) : S10000x40.Idx → EReal := fun i => fn2_13 (V c main_v15_1) (V c main_arg7) (V c main_v15_0) (V c main_v15_2) (V c main_v15_3) (V c main_arg8) (V c main_v12) (V c main_v9) (i 0) (i 1)

/-- The first stored block at point `t`, at row `p` and column `q`, is the first output function at row `r = 1000·t + p`. -/
theorem val2_12_block (c : Dev nD) (t : Fin cfg2.N) (p : Fin 1000) (q : Fin 128) (r : Fin 10000) (hr : r.val = 1000 * t.val + p.val) :
    k2_pay1 (F := Ideal) (k2_pay3 (F := Ideal) (iblk2 V c 5 t) (iblk2 V c 0 t) (iblk2 V c 1 t) (iblk2 V c 2 t) (iblk2 V c 3 t) (iblk2 V c 4 t) (iblk2 V c 7 t) (iblk2 V c 6 t) (iblk2 V c 8 t) (iblk2 V c 9 t)) (iblk2 V c 10 t) (ix2 p q) = fn2_12 (V c main_v15_1) (V c main_arg7) (V c main_v15_0) (V c main_v15_2) (V c main_v15_3) (V c main_arg8) (V c main_v12) r q := by
  have hσ : p.val / 200 < 5 := by have := p.isLt; omega
  have hi : p.val % 200 < 200 := Nat.mod_lt _ (by decide)
  refine (pay2_1_apply (k2_pay3 (F := Ideal) (iblk2 V c 5 t) (iblk2 V c 0 t) (iblk2 V c 1 t) (iblk2 V c 2 t) (iblk2 V c 3 t) (iblk2 V c 4 t) (iblk2 V c 7 t) (iblk2 V c 6 t) (iblk2 V c 8 t) (iblk2 V c 9 t)) (iblk2 V c 10 t) p q).trans ?_
  unfold fn2_12
  refine congrArg₂ max (congrArg₂ (· + ·) ?_ ?_) rfl
  · refine (pay2_3_apply (iblk2 V c 5 t) (iblk2 V c 0 t) (iblk2 V c 1 t) (iblk2 V c 2 t) (iblk2 V c 3 t) (iblk2 V c 4 t) (iblk2 V c 7 t) (iblk2 V c 6 t) (iblk2 V c 8 t) (iblk2 V c 9 t)
      p q ⟨p.val / 200, hσ⟩ ⟨p.val % 200, hi⟩ (by show p.val = 200 * (p.val / 200) + p.val % 200; omega)).trans ?_
    refine congrArg₂ (· + ·) (Finset.sum_congr rfl fun k _ => congrArg₂ (· * ·) ?_ ?_)
      (Finset.sum_congr rfl fun k _ => congrArg₂ (· * ·) (congrArg₂ (· * ·) (Finset.sum_congr rfl fun j _ => congrArg₂ (· * ·) ?_ ?_) ?_) ?_)
    · exact iblk2_6_apply V c t (ix2 p k) (ix2 r k) (by show r.val = 1000 * t.val + 0 + p.val; omega) rfl
    · exact iblk2_8_apply V c t (ix2 k q) (ix2 k q) rfl rfl
    · exact slab2_apply V c t ⟨p.val / 200, hσ⟩ (ix2 ⟨p.val % 200, hi⟩ j) (ix2 r j)
        (by show r.val = 1000 * t.val + 200 * (p.val / 200) + p.val % 200; omega) rfl
    · exact iblk2_5_apply V c t (ix2 j k) (ix2 j k) rfl rfl
    · exact iblk2_7_apply V c t (ix2 p 0) (ix2 r 0) (by show r.val = 1000 * t.val + 0 + p.val; omega) rfl
    · exact iblk2_9_apply V c t (ix2 k q) (ix2 k q) rfl rfl
  · exact iblk2_10_apply V c t (ix2 0 q) (ix2 0 q) rfl rfl

/-- The second stored block at point `t`, at row `p` and column `q`, is the second output function at row `r = 1000·t + p`. -/
theorem val2_13_block (c : Dev nD) (t : Fin cfg2.N) (p : Fin 1000) (q : Fin 40) (r : Fin 10000) (hr : r.val = 1000 * t.val + p.val) :
    k2_pay2 (F := Ideal) (k2_pay3 (F := Ideal) (iblk2 V c 5 t) (iblk2 V c 0 t) (iblk2 V c 1 t) (iblk2 V c 2 t) (iblk2 V c 3 t) (iblk2 V c 4 t) (iblk2 V c 7 t) (iblk2 V c 6 t) (iblk2 V c 8 t) (iblk2 V c 9 t)) (iblk2 V c 10 t) (iblk2 V c 11 t) (ix2 p q) = fn2_13 (V c main_v15_1) (V c main_arg7) (V c main_v15_0) (V c main_v15_2) (V c main_v15_3) (V c main_arg8) (V c main_v12) (V c main_v9) r q := by
  refine (pay2_2_apply (k2_pay3 (F := Ideal) (iblk2 V c 5 t) (iblk2 V c 0 t) (iblk2 V c 1 t) (iblk2 V c 2 t) (iblk2 V c 3 t) (iblk2 V c 4 t) (iblk2 V c 7 t) (iblk2 V c 6 t) (iblk2 V c 8 t) (iblk2 V c 9 t)) (iblk2 V c 10 t) (iblk2 V c 11 t) p q).trans ?_
  unfold fn2_13
  refine Finset.sum_congr rfl fun k _ => congrArg₂ (· * ·) ?_ ?_
  · exact (pay2_1_apply (k2_pay3 (F := Ideal) (iblk2 V c 5 t) (iblk2 V c 0 t) (iblk2 V c 1 t) (iblk2 V c 2 t) (iblk2 V c 3 t) (iblk2 V c 4 t) (iblk2 V c 7 t) (iblk2 V c 6 t) (iblk2 V c 8 t) (iblk2 V c 9 t)) (iblk2 V c 10 t) p k).symm.trans (val2_12_block V c t p k r hr)
  · exact iblk2_11_apply V c t (ix2 k q) (ix2 k q) rfl rfl

/-- The output window's index map at point `t`, decided over the grid. -/
theorem idx2_12 : ∀ t : Fin cfg2.N, win2_12.index t (0 : Fin 2) = t.val ∧ win2_12.index t (1 : Fin 2) = 0 :=
  (by decide +kernel : ∀ t : Fin grid2.N, _)

/-- What point `t` writes back to output window 12's array is block `t` of `G2_12`. -/
theorem flushed2_12_eq (c : Dev nD) (t : Fin cfg2.N) :
    (dat2 (F := Ideal) V c).flushed 12 t = ((cfg2.win 12).blk t).view.read (Elt Ideal) (G2_12 V c) := by
  show (cfg2.win 12).cut (grid2.coords t) ((dat2 V c).after 12 t) = _
  rw [after2_12]
  unfold out2_12
  rw [View.canon_unit_zero hz2]
  simp only [View.ld_unit_zero (S := S200x10000) hz2, View.ld_unit_zero (S := S10000x64) hz2, View.ld_unit_zero (S := S1000x64) hz2, View.ld_unit_zero (S := S1000x1) hz2, View.ld_unit_zero (S := S64x128) hz2, View.ld_unit_zero (S := S1x128) hz2, View.ld_unit_zero (S := S128x40) hz2]
  funext y
  obtain ⟨p, q, rfl⟩ : ∃ (p : Fin 1000) (q : Fin 128), y = ix2 p q := ⟨y 0, y 1, eq_ix2 y⟩
  obtain ⟨e0, e1⟩ := idx2_12 t
  have ht : t.val < 10 := lt_of_lt_of_eq t.isLt N_2
  refine (val2_12_block V c t p q ⟨1000 * t.val + p.val, by have := p.isLt; omega⟩ rfl).trans ?_
  show fn2_12 (V c main_v15_1) (V c main_arg7) (V c main_v15_0) (V c main_v15_2) (V c main_v15_3) (V c main_arg8) (V c main_v12) _ _ = fn2_12 (V c main_v15_1) (V c main_arg7) (V c main_v15_0) (V c main_v15_2) (V c main_v15_3) (V c main_arg8) (V c main_v12)
    ((((cfg2.win 12).blk t).view.emb (ix2 p q)) 0) ((((cfg2.win 12).blk t).view.emb (ix2 p q)) 1)
  refine congrArg₂ (fun a b => fn2_12 (V c main_v15_1) (V c main_arg7) (V c main_v15_0) (V c main_v15_2) (V c main_v15_3) (V c main_arg8) (V c main_v12) a b)
    (Fin.ext ?_) (Fin.ext ?_)
  · show 1000 * t.val + p.val = win2_12.index t 0 * 1000 + 1 * p.val; rw [e0]; omega
  · show q.val = win2_12.index t 1 * 128 + 1 * q.val; rw [e1]; omega

/-- An index of the array is in point `t`'s block iff each coordinate is in the block's range on its axis. -/
theorem mem_blk2_12 (t : Fin cfg2.N) (i : S10000x128.Idx) :
    i ∈ ((cfg2.win 12).blk t).view.set ↔ ∀ a : Fin 2, win2_12.index t a * S1000x128.size a ≤ (i a).val ∧ (i a).val < win2_12.index t a * S1000x128.size a + S1000x128.size a := by
  show i ∈ ((View.whole main_v16_0).slice (win2_12.rect t)).set ↔ _
  rw [View.set_slice_whole, Rect.mem_set_unit]
  exact Iff.rfl

/-- Every index of the array is in the block of the point its row falls in: row `r` is written at point `r / 1000`. -/
theorem covered2_12 (i : S10000x128.Idx) :
    ∃ t : Fin cfg2.N, (cfg2.win 12).flush t = true ∧ i ∈ ((cfg2.win 12).blk t).view.set := by
  have hi0 : (i 0).val < 10000 := (i 0).isLt
  have hi1 : (i 1).val < 128 := (i 1).isLt
  have hN : cfg2.N = 10 := N_2
  obtain ⟨t, ht⟩ : ∃ t : Fin cfg2.N, t.val = (i 0).val / 1000 := ⟨⟨(i 0).val / 1000, by rw [hN]; omega⟩, rfl⟩
  obtain ⟨e0, e1⟩ := idx2_12 t
  refine ⟨t, flush2_12 t, ?_⟩
  rw [mem_blk2_12]
  intro a
  match a with
  | ⟨0, _⟩ => show win2_12.index t 0 * 1000 ≤ (i 0).val ∧ (i 0).val < win2_12.index t 0 * 1000 + 1000; rw [e0, ht]; omega
  | ⟨1, _⟩ => show win2_12.index t 1 * 128 ≤ (i 1).val ∧ (i 1).val < win2_12.index t 1 * 128 + 128; rw [e1]; omega

/-- Region 2's first output array after the last point: at row `p`, column `q`, `max ((h·Wₛ + ((a·z) ⊙ s)·Wₙ) + b, 0)` of the arrays the region finds. -/
theorem val2_12 (c : Dev nD) : (dat2 (F := Ideal) V c).arrAt 12 cfg2.N = G2_12 V c :=
  (dat2 (F := Ideal) V c).arrAt_eq_of_cover 12 (G2_12 V c) (fun t _ => flushed2_12_eq V c t) covered2_12

/-- The same, entry by entry. -/
theorem val2_12_apply (c : Dev nD) (p : Fin 10000) (q : Fin 128) :
    (dat2 (F := Ideal) V c).arrAt 12 cfg2.N (ix2 p q) = fn2_12 (V c main_v15_1) (V c main_arg7) (V c main_v15_0) (V c main_v15_2) (V c main_v15_3) (V c main_arg8) (V c main_v12) p q := by
  rw [val2_12]; rfl

/-- The output window's index map at point `t`, decided over the grid. -/
theorem idx2_13 : ∀ t : Fin cfg2.N, win2_13.index t (0 : Fin 2) = t.val ∧ win2_13.index t (1 : Fin 2) = 0 :=
  (by decide +kernel : ∀ t : Fin grid2.N, _)

/-- What point `t` writes back to output window 13's array is block `t` of `G2_13`. -/
theorem flushed2_13_eq (c : Dev nD) (t : Fin cfg2.N) :
    (dat2 (F := Ideal) V c).flushed 13 t = ((cfg2.win 13).blk t).view.read (Elt Ideal) (G2_13 V c) := by
  show (cfg2.win 13).cut (grid2.coords t) ((dat2 V c).after 13 t) = _
  rw [after2_13]
  unfold out2_13
  rw [View.canon_unit_zero hz2]
  simp only [View.ld_unit_zero (S := S200x10000) hz2, View.ld_unit_zero (S := S10000x64) hz2, View.ld_unit_zero (S := S1000x64) hz2, View.ld_unit_zero (S := S1000x1) hz2, View.ld_unit_zero (S := S64x128) hz2, View.ld_unit_zero (S := S1x128) hz2, View.ld_unit_zero (S := S128x40) hz2]
  funext y
  obtain ⟨p, q, rfl⟩ : ∃ (p : Fin 1000) (q : Fin 40), y = ix2 p q := ⟨y 0, y 1, eq_ix2 y⟩
  obtain ⟨e0, e1⟩ := idx2_13 t
  have ht : t.val < 10 := lt_of_lt_of_eq t.isLt N_2
  refine (val2_13_block V c t p q ⟨1000 * t.val + p.val, by have := p.isLt; omega⟩ rfl).trans ?_
  show fn2_13 (V c main_v15_1) (V c main_arg7) (V c main_v15_0) (V c main_v15_2) (V c main_v15_3) (V c main_arg8) (V c main_v12) (V c main_v9) _ _ = fn2_13 (V c main_v15_1) (V c main_arg7) (V c main_v15_0) (V c main_v15_2) (V c main_v15_3) (V c main_arg8) (V c main_v12) (V c main_v9)
    ((((cfg2.win 13).blk t).view.emb (ix2 p q)) 0) ((((cfg2.win 13).blk t).view.emb (ix2 p q)) 1)
  refine congrArg₂ (fun a b => fn2_13 (V c main_v15_1) (V c main_arg7) (V c main_v15_0) (V c main_v15_2) (V c main_v15_3) (V c main_arg8) (V c main_v12) (V c main_v9) a b)
    (Fin.ext ?_) (Fin.ext ?_)
  · show 1000 * t.val + p.val = win2_13.index t 0 * 1000 + 1 * p.val; rw [e0]; omega
  · show q.val = win2_13.index t 1 * 40 + 1 * q.val; rw [e1]; omega

/-- An index of the array is in point `t`'s block iff each coordinate is in the block's range on its axis. -/
theorem mem_blk2_13 (t : Fin cfg2.N) (i : S10000x40.Idx) :
    i ∈ ((cfg2.win 13).blk t).view.set ↔ ∀ a : Fin 2, win2_13.index t a * S1000x40.size a ≤ (i a).val ∧ (i a).val < win2_13.index t a * S1000x40.size a + S1000x40.size a := by
  show i ∈ ((View.whole main_v16_1).slice (win2_13.rect t)).set ↔ _
  rw [View.set_slice_whole, Rect.mem_set_unit]
  exact Iff.rfl

/-- Every index of the array is in the block of the point its row falls in: row `r` is written at point `r / 1000`. -/
theorem covered2_13 (i : S10000x40.Idx) :
    ∃ t : Fin cfg2.N, (cfg2.win 13).flush t = true ∧ i ∈ ((cfg2.win 13).blk t).view.set := by
  have hi0 : (i 0).val < 10000 := (i 0).isLt
  have hi1 : (i 1).val < 40 := (i 1).isLt
  have hN : cfg2.N = 10 := N_2
  obtain ⟨t, ht⟩ : ∃ t : Fin cfg2.N, t.val = (i 0).val / 1000 := ⟨⟨(i 0).val / 1000, by rw [hN]; omega⟩, rfl⟩
  obtain ⟨e0, e1⟩ := idx2_13 t
  refine ⟨t, flush2_13 t, ?_⟩
  rw [mem_blk2_13]
  intro a
  match a with
  | ⟨0, _⟩ => show win2_13.index t 0 * 1000 ≤ (i 0).val ∧ (i 0).val < win2_13.index t 0 * 1000 + 1000; rw [e0, ht]; omega
  | ⟨1, _⟩ => show win2_13.index t 1 * 40 ≤ (i 1).val ∧ (i 1).val < win2_13.index t 1 * 40 + 40; rw [e1]; omega

/-- Region 2's second output array after the last point: at row `p`, column `q`, `∑ₖ m(p,k)·P(k,q)` with `m` the first output. -/
theorem val2_13 (c : Dev nD) : (dat2 (F := Ideal) V c).arrAt 13 cfg2.N = G2_13 V c :=
  (dat2 (F := Ideal) V c).arrAt_eq_of_cover 13 (G2_13 V c) (fun t _ => flushed2_13_eq V c t) covered2_13

/-- The same, entry by entry. -/
theorem val2_13_apply (c : Dev nD) (p : Fin 10000) (q : Fin 40) :
    (dat2 (F := Ideal) V c).arrAt 13 cfg2.N (ix2 p q) = fn2_13 (V c main_v15_1) (V c main_arg7) (V c main_v15_0) (V c main_v15_2) (V c main_v15_3) (V c main_arg8) (V c main_v12) (V c main_v9) p q := by
  rw [val2_13]; rfl

end Cert.KernelIdeal.Hand

end
-- ==== Proof.KI.Pay3.lean ====
/-
  Region 3's stored value at an index, in exact arithmetic.

  The body of region 3 stores one 1000×40 block. Over the extended reals every rounding is the identity and a block
  product into a zero accumulator is a plain sum of products, so the stored block at row `p`, column `q` is
    (∑ₖ h(p,k)·P(k,q) + (∑ⱼ a(p,j)·y(j,q))·s(p,0)) + b(0,q),
  where `a` is the stack of the five 200-row slabs: row `p = 200·σ + i` of the stack is row `i` of slab `σ`.
-/
import proofs.«181542_g78589311582291_cont_9to1_m_296_16_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«181542_g78589311582291_cont_9to1_m_296_16_alg».proof.Proof.KI.ValLib

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

/-- The value region 3's body stores, at row `p = 200·σ + i` and column `q` of the 1000×40 block. -/
theorem pay3_apply (v0 : Vec Ideal S10000x40 .bf16) (v2 v5 v8 v11 v14 : Vec Ideal S200x10000 .bf16) (v18 : Vec Ideal S1000x128 .f32)
    (v20 : Vec Ideal S128x40 .f32) (v22 : Vec Ideal S1000x1 .f32) (v27 : Vec Ideal S1x40 .f32)
    (p : Fin 1000) (q : Fin 40) (σ : Fin 5) (i : Fin 200) (hp : p.val = 200 * σ.val + i.val) :
    k3_pay1 (F := Ideal) v0 v2 v5 v8 v11 v14 v18 v20 v22 v27 (ix2 p q)
      = ((∑ k : Fin 128, v18 (ix2 p k) * v20 (ix2 k q))
          + (∑ j : Fin 10000, (![v2, v5, v8, v11, v14] σ) (ix2 i j) * v0 (ix2 j q)) * v22 (ix2 p (0 : Fin 1)))
        + v27 (ix2 (0 : Fin 1) q) := by
  unfold k3_pay1
  simp only [shapeCast_self]
  rw [addf_apply, addf_apply, mulf_apply, broadcastTo_1b_ab_apply, broadcastTo_a1_ab_apply, mm_1000x128_128x40]
  -- the five slab products as a family indexed by the slab, so that the stack is read at the slab the row falls in
  let g : Fin 5 → FVec Ideal S200x40 .f32 := fun n =>
    matmul (F := Ideal) (φ₁ := .bf16) (φ₂ := .bf16) dot_S200x10000_S10000x40_S200x40_1_0_0_1_n_n none
      (shapeCast S200x10000 (![v2, v5, v8, v11, v14] n) shapeCasts_S200x10000_S200x10000)
      (shapeCast S10000x40 v0 shapeCasts_S10000x40_S10000x40) (constant S200x40 .f32 0x00000000#32)
  have hc : concatenate S1000x40 0 (List.ofFn fun n : Fin 5 => (⟨S200x40, g n⟩ : (s : Shape) × (s.Idx → Ideal .f32)))
      concatenates_S200x40_S200x40_S200x40_S200x40_S200x40_S1000x40_d0 (ix2 p q) = g σ (ix2 i q) :=
    concatenate_ofFn_apply (t := S1000x40) (s₁ := S200x40) 0 g
      concatenates_S200x40_S200x40_S200x40_S200x40_S200x40_S1000x40_d0 rfl 200 rfl (ix2 p q) σ
      (by show p.val / 200 = σ.val; have := i.isLt; omega) (ix2 i q) (by show i.val = p.val % 200; have := i.isLt; omega)
      (fun b hb => by match b with | ⟨0, _⟩ => exact absurd rfl hb | ⟨1, _⟩ => rfl)
  show _ + concatenate S1000x40 0 (List.ofFn fun n : Fin 5 => (⟨S200x40, g n⟩ : (s : Shape) × (s.Idx → Ideal .f32)))
      concatenates_S200x40_S200x40_S200x40_S200x40_S200x40_S1000x40_d0 (ix2 p q) * _ + _ = _
  rw [hc]
  simp only [g, shapeCast_self]
  rw [mm_200x10000_10000x40]

end Cert.KernelIdeal.Hand

end
-- ==== Proof.KI.Val3.lean ====
/-
  Region 3's output array after the last grid point, in exact arithmetic, as one function of the arrays the region finds.

  The region writes its one output (10000×40) in ten blocks of 1000 rows; point `t` writes rows `1000·t …`. Every input
  block at point `t` is a part of its array: the five 200-row slabs of point `t` are rows `1000·t + 200·σ …` of the one
  10000×10000 matrix (σ = 0 … 4), the 1000-row blocks are rows `1000·t …` of theirs, and the remaining windows are whole
  arrays. So the block written at point `t` is the block of one whole-array function, and since the ten blocks cover the
  output array, the array ends at that function:
    out(p,q) = (∑ₖ h(p,k)·P(k,q) + (∑ⱼ a(p,j)·y(j,q))·s(p,0)) + b(0,q).
-/
import proofs.«181542_g78589311582291_cont_9to1_m_296_16_alg».proof.Proof.KI.Half3
import proofs.«181542_g78589311582291_cont_9to1_m_296_16_alg».proof.Proof.KI.Pay3
import proofs.«181542_g78589311582291_cont_9to1_m_296_16_alg».proof.Proof.KI.ValLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- what the core's buffers hold when the region is entered, in exact arithmetic; arbitrary
variable (V : (c : Dev nD) → (b : Ref sig .tc) → Buf (Elt Ideal) ((c : Thread nD τ).loc b))

/-- Window 0's index map at point `t`, decided over the grid. -/
theorem idx3_0 : ∀ t : Fin cfg3.N, win3_0.index t (0 : Fin 2) = 5 * t.val + 0 ∧ win3_0.index t (1 : Fin 2) = 0 :=
  (by decide +kernel : ∀ t : Fin grid3.N, _)

/-- Window 0's block at point `t` is rows `1000·t + 0 …` of the array: its entry `x` is the array's entry `k` at the matching row and column. -/
theorem iblk3_0_apply (c : Dev nD) (t : Fin cfg3.N) (x : S200x10000.Idx) (k : S10000x10000.Idx)
    (hk0 : (k 0).val = 1000 * t.val + 0 + (x 0).val) (hk1 : (k 1).val = (x 1).val) :
    (iblk3 V c 0 t : Vec Ideal S200x10000 .bf16) x = (V c main_v15_0 : S10000x10000.Idx → Elt Ideal .bf16) k := by
  obtain ⟨h0, h1⟩ := idx3_0 t
  unfold iblk3
  rw [View.read_apply]
  show V c main_v15_0 _ = V c main_v15_0 _
  congr 1
  funext a
  apply Fin.ext
  match a with
  | ⟨0, _⟩ => show win3_0.index t 0 * 200 + 1 * (x 0).val = (k 0).val; rw [h0, hk0]; omega
  | ⟨1, _⟩ => show win3_0.index t 1 * 10000 + 1 * (x 1).val = (k 1).val; rw [h1, hk1]; omega

/-- Window 1's index map at point `t`, decided over the grid. -/
theorem idx3_1 : ∀ t : Fin cfg3.N, win3_1.index t (0 : Fin 2) = 5 * t.val + 1 ∧ win3_1.index t (1 : Fin 2) = 0 :=
  (by decide +kernel : ∀ t : Fin grid3.N, _)

/-- Window 1's block at point `t` is rows `1000·t + 200 …` of the array: its entry `x` is the array's entry `k` at the matching row and column. -/
theorem iblk3_1_apply (c : Dev nD) (t : Fin cfg3.N) (x : S200x10000.Idx) (k : S10000x10000.Idx)
    (hk0 : (k 0).val = 1000 * t.val + 200 + (x 0).val) (hk1 : (k 1).val = (x 1).val) :
    (iblk3 V c 1 t : Vec Ideal S200x10000 .bf16) x = (V c main_v15_0 : S10000x10000.Idx → Elt Ideal .bf16) k := by
  obtain ⟨h0, h1⟩ := idx3_1 t
  unfold iblk3
  rw [View.read_apply]
  show V c main_v15_0 _ = V c main_v15_0 _
  congr 1
  funext a
  apply Fin.ext
  match a with
  | ⟨0, _⟩ => show win3_1.index t 0 * 200 + 1 * (x 0).val = (k 0).val; rw [h0, hk0]; omega
  | ⟨1, _⟩ => show win3_1.index t 1 * 10000 + 1 * (x 1).val = (k 1).val; rw [h1, hk1]; omega

/-- Window 2's index map at point `t`, decided over the grid. -/
theorem idx3_2 : ∀ t : Fin cfg3.N, win3_2.index t (0 : Fin 2) = 5 * t.val + 2 ∧ win3_2.index t (1 : Fin 2) = 0 :=
  (by decide +kernel : ∀ t : Fin grid3.N, _)

/-- Window 2's block at point `t` is rows `1000·t + 400 …` of the array: its entry `x` is the array's entry `k` at the matching row and column. -/
theorem iblk3_2_apply (c : Dev nD) (t : Fin cfg3.N) (x : S200x10000.Idx) (k : S10000x10000.Idx)
    (hk0 : (k 0).val = 1000 * t.val + 400 + (x 0).val) (hk1 : (k 1).val = (x 1).val) :
    (iblk3 V c 2 t : Vec Ideal S200x10000 .bf16) x = (V c main_v15_0 : S10000x10000.Idx → Elt Ideal .bf16) k := by
  obtain ⟨h0, h1⟩ := idx3_2 t
  unfold iblk3
  rw [View.read_apply]
  show V c main_v15_0 _ = V c main_v15_0 _
  congr 1
  funext a
  apply Fin.ext
  match a with
  | ⟨0, _⟩ => show win3_2.index t 0 * 200 + 1 * (x 0).val = (k 0).val; rw [h0, hk0]; omega
  | ⟨1, _⟩ => show win3_2.index t 1 * 10000 + 1 * (x 1).val = (k 1).val; rw [h1, hk1]; omega

/-- Window 3's index map at point `t`, decided over the grid. -/
theorem idx3_3 : ∀ t : Fin cfg3.N, win3_3.index t (0 : Fin 2) = 5 * t.val + 3 ∧ win3_3.index t (1 : Fin 2) = 0 :=
  (by decide +kernel : ∀ t : Fin grid3.N, _)

/-- Window 3's block at point `t` is rows `1000·t + 600 …` of the array: its entry `x` is the array's entry `k` at the matching row and column. -/
theorem iblk3_3_apply (c : Dev nD) (t : Fin cfg3.N) (x : S200x10000.Idx) (k : S10000x10000.Idx)
    (hk0 : (k 0).val = 1000 * t.val + 600 + (x 0).val) (hk1 : (k 1).val = (x 1).val) :
    (iblk3 V c 3 t : Vec Ideal S200x10000 .bf16) x = (V c main_v15_0 : S10000x10000.Idx → Elt Ideal .bf16) k := by
  obtain ⟨h0, h1⟩ := idx3_3 t
  unfold iblk3
  rw [View.read_apply]
  show V c main_v15_0 _ = V c main_v15_0 _
  congr 1
  funext a
  apply Fin.ext
  match a with
  | ⟨0, _⟩ => show win3_3.index t 0 * 200 + 1 * (x 0).val = (k 0).val; rw [h0, hk0]; omega
  | ⟨1, _⟩ => show win3_3.index t 1 * 10000 + 1 * (x 1).val = (k 1).val; rw [h1, hk1]; omega

/-- Window 4's index map at point `t`, decided over the grid. -/
theorem idx3_4 : ∀ t : Fin cfg3.N, win3_4.index t (0 : Fin 2) = 5 * t.val + 4 ∧ win3_4.index t (1 : Fin 2) = 0 :=
  (by decide +kernel : ∀ t : Fin grid3.N, _)

/-- Window 4's block at point `t` is rows `1000·t + 800 …` of the array: its entry `x` is the array's entry `k` at the matching row and column. -/
theorem iblk3_4_apply (c : Dev nD) (t : Fin cfg3.N) (x : S200x10000.Idx) (k : S10000x10000.Idx)
    (hk0 : (k 0).val = 1000 * t.val + 800 + (x 0).val) (hk1 : (k 1).val = (x 1).val) :
    (iblk3 V c 4 t : Vec Ideal S200x10000 .bf16) x = (V c main_v15_0 : S10000x10000.Idx → Elt Ideal .bf16) k := by
  obtain ⟨h0, h1⟩ := idx3_4 t
  unfold iblk3
  rw [View.read_apply]
  show V c main_v15_0 _ = V c main_v15_0 _
  congr 1
  funext a
  apply Fin.ext
  match a with
  | ⟨0, _⟩ => show win3_4.index t 0 * 200 + 1 * (x 0).val = (k 0).val; rw [h0, hk0]; omega
  | ⟨1, _⟩ => show win3_4.index t 1 * 10000 + 1 * (x 1).val = (k 1).val; rw [h1, hk1]; omega

/-- Window 5's index map at point `t`, decided over the grid. -/
theorem idx3_5 : ∀ t : Fin cfg3.N, win3_5.index t (0 : Fin 2) = 0 ∧ win3_5.index t (1 : Fin 2) = 0 :=
  (by decide +kernel : ∀ t : Fin grid3.N, _)

/-- Window 5's block at point `t` is the whole array: its entry `x` is the array's entry `k` at the matching row and column. -/
theorem iblk3_5_apply (c : Dev nD) (t : Fin cfg3.N) (x : S10000x40.Idx) (k : S10000x40.Idx)
    (hk0 : (k 0).val = (x 0).val) (hk1 : (k 1).val = (x 1).val) :
    (iblk3 V c 5 t : Vec Ideal S10000x40 .bf16) x = (V c main_v16_1 : S10000x40.Idx → Elt Ideal .bf16) k := by
  obtain ⟨h0, h1⟩ := idx3_5 t
  unfold iblk3
  rw [View.read_apply]
  show V c main_v16_1 _ = V c main_v16_1 _
  congr 1
  funext a
  apply Fin.ext
  match a with
  | ⟨0, _⟩ => show win3_5.index t 0 * 10000 + 1 * (x 0).val = (k 0).val; rw [h0, hk0]; omega
  | ⟨1, _⟩ => show win3_5.index t 1 * 40 + 1 * (x 1).val = (k 1).val; rw [h1, hk1]; omega

/-- Window 6's index map at point `t`, decided over the grid. -/
theorem idx3_6 : ∀ t : Fin cfg3.N, win3_6.index t (0 : Fin 2) = t.val ∧ win3_6.index t (1 : Fin 2) = 0 :=
  (by decide +kernel : ∀ t : Fin grid3.N, _)

/-- Window 6's block at point `t` is rows `1000·t + 0 …` of the array: its entry `x` is the array's entry `k` at the matching row and column. -/
theorem iblk3_6_apply (c : Dev nD) (t : Fin cfg3.N) (x : S1000x128.Idx) (k : S10000x128.Idx)
    (hk0 : (k 0).val = 1000 * t.val + 0 + (x 0).val) (hk1 : (k 1).val = (x 1).val) :
    (iblk3 V c 6 t : Vec Ideal S1000x128 .f32) x = (V c main_v16_0 : S10000x128.Idx → Elt Ideal .f32) k := by
  obtain ⟨h0, h1⟩ := idx3_6 t
  unfold iblk3
  rw [View.read_apply]
  show V c main_v16_0 _ = V c main_v16_0 _
  congr 1
  funext a
  apply Fin.ext
  match a with
  | ⟨0, _⟩ => show win3_6.index t 0 * 1000 + 1 * (x 0).val = (k 0).val; rw [h0, hk0]; omega
  | ⟨1, _⟩ => show win3_6.index t 1 * 128 + 1 * (x 1).val = (k 1).val; rw [h1, hk1]; omega

/-- Window 7's index map at point `t`, decided over the grid. -/
theorem idx3_7 : ∀ t : Fin cfg3.N, win3_7.index t (0 : Fin 2) = t.val ∧ win3_7.index t (1 : Fin 2) = 0 :=
  (by decide +kernel : ∀ t : Fin grid3.N, _)

/-- Window 7's block at point `t` is rows `1000·t + 0 …` of the array: its entry `x` is the array's entry `k` at the matching row and column. -/
theorem iblk3_7_apply (c : Dev nD) (t : Fin cfg3.N) (x : S1000x1.Idx) (k : S10000x1.Idx)
    (hk0 : (k 0).val = 1000 * t.val + 0 + (x 0).val) (hk1 : (k 1).val = (x 1).val) :
    (iblk3 V c 7 t : Vec Ideal S1000x1 .f32) x = (V c main_v15_3 : S10000x1.Idx → Elt Ideal .f32) k := by
  obtain ⟨h0, h1⟩ := idx3_7 t
  unfold iblk3
  rw [View.read_apply]
  show V c main_v15_3 _ = V c main_v15_3 _
  congr 1
  funext a
  apply Fin.ext
  match a with
  | ⟨0, _⟩ => show win3_7.index t 0 * 1000 + 1 * (x 0).val = (k 0).val; rw [h0, hk0]; omega
  | ⟨1, _⟩ => show win3_7.index t 1 * 1 + 1 * (x 1).val = (k 1).val; rw [h1, hk1]; omega

/-- Window 8's index map at point `t`, decided over the grid. -/
theorem idx3_8 : ∀ t : Fin cfg3.N, win3_8.index t (0 : Fin 2) = 0 ∧ win3_8.index t (1 : Fin 2) = 0 :=
  (by decide +kernel : ∀ t : Fin grid3.N, _)

/-- Window 8's block at point `t` is the whole array: its entry `x` is the array's entry `k` at the matching row and column. -/
theorem iblk3_8_apply (c : Dev nD) (t : Fin cfg3.N) (x : S128x40.Idx) (k : S128x40.Idx)
    (hk0 : (k 0).val = (x 0).val) (hk1 : (k 1).val = (x 1).val) :
    (iblk3 V c 8 t : Vec Ideal S128x40 .f32) x = (V c main_arg10 : S128x40.Idx → Elt Ideal .f32) k := by
  obtain ⟨h0, h1⟩ := idx3_8 t
  unfold iblk3
  rw [View.read_apply]
  show V c main_arg10 _ = V c main_arg10 _
  congr 1
  funext a
  apply Fin.ext
  match a with
  | ⟨0, _⟩ => show win3_8.index t 0 * 128 + 1 * (x 0).val = (k 0).val; rw [h0, hk0]; omega
  | ⟨1, _⟩ => show win3_8.index t 1 * 40 + 1 * (x 1).val = (k 1).val; rw [h1, hk1]; omega

/-- Window 9's index map at point `t`, decided over the grid. -/
theorem idx3_9 : ∀ t : Fin cfg3.N, win3_9.index t (0 : Fin 2) = 0 ∧ win3_9.index t (1 : Fin 2) = 0 :=
  (by decide +kernel : ∀ t : Fin grid3.N, _)

/-- Window 9's block at point `t` is the whole array: its entry `x` is the array's entry `k` at the matching row and column. -/
theorem iblk3_9_apply (c : Dev nD) (t : Fin cfg3.N) (x : S1x40.Idx) (k : S1x40.Idx)
    (hk0 : (k 0).val = (x 0).val) (hk1 : (k 1).val = (x 1).val) :
    (iblk3 V c 9 t : Vec Ideal S1x40 .f32) x = (V c main_v13 : S1x40.Idx → Elt Ideal .f32) k := by
  obtain ⟨h0, h1⟩ := idx3_9 t
  unfold iblk3
  rw [View.read_apply]
  show V c main_v13 _ = V c main_v13 _
  congr 1
  funext a
  apply Fin.ext
  match a with
  | ⟨0, _⟩ => show win3_9.index t 0 * 1 + 1 * (x 0).val = (k 0).val; rw [h0, hk0]; omega
  | ⟨1, _⟩ => show win3_9.index t 1 * 40 + 1 * (x 1).val = (k 1).val; rw [h1, hk1]; omega

/-- The five slabs of point `t` are consecutive 200-row pieces of the one matrix: slab `σ` is rows `1000·t + 200·σ …`. -/
theorem slab3_apply (c : Dev nD) (t : Fin cfg3.N) (σ : Fin 5) (x : S200x10000.Idx) (k : S10000x10000.Idx)
    (hk0 : (k 0).val = 1000 * t.val + 200 * σ.val + (x 0).val) (hk1 : (k 1).val = (x 1).val) :
    (![(iblk3 V c 0 t : Vec Ideal S200x10000 .bf16), iblk3 V c 1 t, iblk3 V c 2 t, iblk3 V c 3 t, iblk3 V c 4 t] σ) x
      = (V c main_v15_0 : S10000x10000.Idx → Elt Ideal .bf16) k := by
  match σ with
  | ⟨0, _⟩ => exact iblk3_0_apply V c t x k (by simpa using hk0) hk1
  | ⟨1, _⟩ => exact iblk3_1_apply V c t x k (by simpa using hk0) hk1
  | ⟨2, _⟩ => exact iblk3_2_apply V c t x k (by simpa using hk0) hk1
  | ⟨3, _⟩ => exact iblk3_3_apply V c t x k (by simpa using hk0) hk1
  | ⟨4, _⟩ => exact iblk3_4_apply V c t x k (by simpa using hk0) hk1

/-- The output at row `p`, column `q`, from the arrays' entries. -/
def val3 (h : S10000x128.Idx → EReal) (P : S128x40.Idx → EReal) (a : S10000x10000.Idx → EReal) (y : S10000x40.Idx → EReal)
    (s : S10000x1.Idx → EReal) (b : S1x40.Idx → EReal) (p : Fin 10000) (q : Fin 40) : EReal :=
  ((∑ k : Fin 128, h (ix2 p k) * P (ix2 k q)) + (∑ j : Fin 10000, a (ix2 p j) * y (ix2 j q)) * s (ix2 p (0 : Fin 1)))
    + b (ix2 (0 : Fin 1) q)

/-- Region 3's output array as a function of the arrays the region finds on core `c`. -/
def G3_10 (c : Dev nD) : S10000x40.Idx → EReal := fun i =>
  val3 (V c main_v16_0) (V c main_arg10) (V c main_v15_0) (V c main_v16_1) (V c main_v15_3) (V c main_v13) (i 0) (i 1)

/-- The output window's index map at point `t`, decided over the grid. -/
theorem idx3_10 : ∀ t : Fin cfg3.N, win3_10.index t (0 : Fin 2) = t.val ∧ win3_10.index t (1 : Fin 2) = 0 :=
  (by decide +kernel : ∀ t : Fin grid3.N, _)

/-- The block the body stores at point `t`, at row `p` and column `q`, is the output function at row `r = 1000·t + p`. -/
theorem val3_block (c : Dev nD) (t : Fin cfg3.N) (p : Fin 1000) (q : Fin 40) (r : Fin 10000) (hr : r.val = 1000 * t.val + p.val) :
    k3_pay1 (F := Ideal) (iblk3 V c 5 t) (iblk3 V c 0 t) (iblk3 V c 1 t) (iblk3 V c 2 t) (iblk3 V c 3 t) (iblk3 V c 4 t)
        (iblk3 V c 6 t) (iblk3 V c 8 t) (iblk3 V c 7 t) (iblk3 V c 9 t) (ix2 p q)
      = val3 (V c main_v16_0) (V c main_arg10) (V c main_v15_0) (V c main_v16_1) (V c main_v15_3) (V c main_v13) r q := by
  have hσ : p.val / 200 < 5 := by have := p.isLt; omega
  have hi : p.val % 200 < 200 := Nat.mod_lt _ (by decide)
  refine (pay3_apply (iblk3 V c 5 t) (iblk3 V c 0 t) (iblk3 V c 1 t) (iblk3 V c 2 t) (iblk3 V c 3 t) (iblk3 V c 4 t)
    (iblk3 V c 6 t) (iblk3 V c 8 t) (iblk3 V c 7 t) (iblk3 V c 9 t) p q ⟨p.val / 200, hσ⟩ ⟨p.val % 200, hi⟩
    (by show p.val = 200 * (p.val / 200) + p.val % 200; omega)).trans ?_
  unfold val3
  refine congrArg₂ (· + ·) (congrArg₂ (· + ·) (Finset.sum_congr rfl fun k _ => congrArg₂ (· * ·) ?_ ?_)
    (congrArg₂ (· * ·) (Finset.sum_congr rfl fun j _ => congrArg₂ (· * ·) ?_ ?_) ?_)) ?_
  · exact iblk3_6_apply V c t (ix2 p k) (ix2 r k) (by show r.val = 1000 * t.val + 0 + p.val; omega) rfl
  · exact iblk3_8_apply V c t (ix2 k q) (ix2 k q) rfl rfl
  · exact slab3_apply V c t ⟨p.val / 200, hσ⟩ (ix2 ⟨p.val % 200, hi⟩ j) (ix2 r j)
      (by show r.val = 1000 * t.val + 200 * (p.val / 200) + p.val % 200; omega) rfl
  · exact iblk3_5_apply V c t (ix2 j q) (ix2 j q) rfl rfl
  · exact iblk3_7_apply V c t (ix2 p 0) (ix2 r 0) (by show r.val = 1000 * t.val + 0 + p.val; omega) rfl
  · exact iblk3_9_apply V c t (ix2 0 q) (ix2 0 q) rfl rfl

/-- What point `t` writes back is block `t` of `G3_10`. -/
theorem flushed3_10_eq (c : Dev nD) (t : Fin cfg3.N) :
    (dat3 (F := Ideal) V c).flushed 10 t = ((cfg3.win 10).blk t).view.read (Elt Ideal) (G3_10 V c) := by
  show (cfg3.win 10).cut (grid3.coords t) ((dat3 V c).after 10 t) = _
  rw [after3_10]
  unfold out3_10
  rw [View.canon_unit_zero hz2]
  simp only [View.ld_unit_zero (S := S200x10000) hz2, View.ld_unit_zero (S := S10000x40) hz2, View.ld_unit_zero (S := S1000x128) hz2,
    View.ld_unit_zero (S := S1000x1) hz2, View.ld_unit_zero (S := S128x40) hz2, View.ld_unit_zero (S := S1x40) hz2]
  funext y
  obtain ⟨p, q, rfl⟩ : ∃ (p : Fin 1000) (q : Fin 40), y = ix2 p q := ⟨y 0, y 1, eq_ix2 y⟩
  obtain ⟨e0, e1⟩ := idx3_10 t
  have ht : t.val < 10 := lt_of_lt_of_eq t.isLt N_3
  refine (val3_block V c t p q ⟨1000 * t.val + p.val, by have := p.isLt; omega⟩ rfl).trans ?_
  show val3 _ _ _ _ _ _ _ _ = val3 (V c main_v16_0) (V c main_arg10) (V c main_v15_0) (V c main_v16_1) (V c main_v15_3) (V c main_v13)
    ((((cfg3.win 10).blk t).view.emb (ix2 p q)) 0) ((((cfg3.win 10).blk t).view.emb (ix2 p q)) 1)
  refine congrArg₂ (fun a b => val3 (V c main_v16_0) (V c main_arg10) (V c main_v15_0) (V c main_v16_1) (V c main_v15_3) (V c main_v13) a b)
    (Fin.ext ?_) (Fin.ext ?_)
  · show 1000 * t.val + p.val = win3_10.index t 0 * 1000 + 1 * p.val; rw [e0]; omega
  · show q.val = win3_10.index t 1 * 40 + 1 * q.val; rw [e1]; omega

/-- An index of the output array is in point `t`'s block iff each coordinate is in the block's range on its axis. -/
theorem mem_blk3_10 (t : Fin cfg3.N) (i : S10000x40.Idx) :
    i ∈ ((cfg3.win 10).blk t).view.set ↔ ∀ a : Fin 2, win3_10.index t a * S1000x40.size a ≤ (i a).val ∧ (i a).val < win3_10.index t a * S1000x40.size a + S1000x40.size a := by
  show i ∈ ((View.whole main_v17).slice (win3_10.rect t)).set ↔ _
  rw [View.set_slice_whole, Rect.mem_set_unit]
  exact Iff.rfl

/-- Every index of the output array is in the block of the point its row falls in: row `r` is written at point `r / 1000`. -/
theorem covered3_10 (i : S10000x40.Idx) :
    ∃ t : Fin cfg3.N, (cfg3.win 10).flush t = true ∧ i ∈ ((cfg3.win 10).blk t).view.set := by
  have hi0 : (i 0).val < 10000 := (i 0).isLt
  have hi1 : (i 1).val < 40 := (i 1).isLt
  have hN : cfg3.N = 10 := N_3
  obtain ⟨t, ht⟩ : ∃ t : Fin cfg3.N, t.val = (i 0).val / 1000 := ⟨⟨(i 0).val / 1000, by rw [hN]; omega⟩, rfl⟩
  obtain ⟨e0, e1⟩ := idx3_10 t
  refine ⟨t, flush3_10 t, ?_⟩
  rw [mem_blk3_10]
  intro a
  match a with
  | ⟨0, _⟩ => show win3_10.index t 0 * 1000 ≤ (i 0).val ∧ (i 0).val < win3_10.index t 0 * 1000 + 1000; rw [e0, ht]; omega
  | ⟨1, _⟩ => show win3_10.index t 1 * 40 ≤ (i 1).val ∧ (i 1).val < win3_10.index t 1 * 40 + 40; rw [e1]; omega

/-- Region 3's output array after the last point: at row `p`, column `q`,
    `(∑ₖ h(p,k)·P(k,q) + (∑ⱼ a(p,j)·y(j,q))·s(p,0)) + b(0,q)` of the arrays the region finds. -/
theorem val3_10 (c : Dev nD) : (dat3 (F := Ideal) V c).arrAt 10 cfg3.N = G3_10 V c :=
  (dat3 (F := Ideal) V c).arrAt_eq_of_cover 10 (G3_10 V c) (fun t _ => flushed3_10_eq V c t) (covered3_10)

/-- The same, entry by entry. -/
theorem val3_10_apply (c : Dev nD) (p : Fin 10000) (q : Fin 40) :
    (dat3 (F := Ideal) V c).arrAt 10 cfg3.N (ix2 p q)
      = val3 (V c main_v16_0) (V c main_arg10) (V c main_v15_0) (V c main_v16_1) (V c main_v15_3) (V c main_v13) p q := by
  rw [val3_10]; rfl

end Cert.KernelIdeal.Hand

end
-- ==== Proof.LibScatterSet.lean ====
/-
  A scatter whose body keeps the update ("set"), read at an index.

  The scatter is a left fold over the update indices: each update replaces the element at its result
  index. When every update lands inside the operand, at the index g j, and g is injective, the fold
  has a closed form: the result at g j is the update at j, and the result at an index no update
  lands on is the operand's element. The lemmas keep the dimension numbers, the scatter indices and
  the shapes as variables, so the fold is never evaluated.
-/
import Idealize.ShloMosaic.PureOps.ShapeOps

namespace Cert.Lib.ScatterSet

open Idealize.ShloMosaic

/-- A left fold of "set the entry at key n to val n": an entry whose key no step of the list names
    keeps its initial value. -/
theorem foldl_set_miss {ι β α : Type} [DecidableEq β] (key : ι → β) (val : ι → α) (l : List ι)
    (r0 : β → α) (b : β) (h : ∀ n ∈ l, key n ≠ b) :
    (l.foldl (fun r n => fun b' => if b' = key n then val n else r b') r0) b = r0 b := by
  induction l generalizing r0 with
  | nil => rfl
  | cons a l ih =>
    rw [List.foldl_cons, ih _ (fun n hn => h n (List.mem_cons_of_mem a hn))]
    exact if_neg (fun hb => h a (List.mem_cons_self) hb.symm)

/-- A left fold of "set the entry at key n to val n" over a list without repeats whose keys are
    pairwise distinct: the entry at the key of a member n0 ends as val n0. -/
theorem foldl_set_hit {ι β α : Type} [DecidableEq β] (key : ι → β) (val : ι → α) (l : List ι)
    (r0 : β → α) (hnd : l.Nodup) (hinj : ∀ n ∈ l, ∀ n' ∈ l, key n = key n' → n = n')
    (n0 : ι) (h0 : n0 ∈ l) :
    (l.foldl (fun r n => fun b' => if b' = key n then val n else r b') r0) (key n0) = val n0 := by
  induction l generalizing r0 with
  | nil => exact absurd h0 (List.not_mem_nil)
  | cons a l ih =>
    rw [List.foldl_cons]
    have hnd' := (List.nodup_cons.1 hnd)
    rcases List.mem_cons.1 h0 with rfl | hl
    · rw [foldl_set_miss key val l _ (key n0) (fun n hn hk => hnd'.1
        ((hinj n (List.mem_cons_of_mem _ hn) n0 List.mem_cons_self hk) ▸ hn))]
      exact if_pos rfl
    · exact ih _ hnd'.2 (fun n hn n' hn' => hinj n (List.mem_cons_of_mem _ hn) n' (List.mem_cons_of_mem _ hn')) hl

variable {s si u : Shape} {w : Nat} {α : Type}

/-- When every update index j lands inside the operand at g j, a scatter whose body returns the
    update is the fold of "set the entry at g j to the update at j" over the update indices in
    row-major order. -/
theorem scatter_set_eq_foldl (d : ScatterDims s si u) (x : s.Idx → α) (idx : IVec si w) (upd : u.Idx → α)
    (g : u.Idx → s.Idx) (hres : ∀ j, d.resultIdx? j idx = some (g j)) :
    Host.scatter d (fun _ b => b) x idx upd
      = (List.finRange u.numel).foldl (fun r n => fun i' =>
          if i' = g (u.rowMajor.symm n) then upd (u.rowMajor.symm n) else r i') x := by
  unfold Host.scatter
  simp only [hres]

/-- A set-scatter read where an update lands: when every update index j lands at g j and g is
    injective, the result at g j is the update at j. -/
theorem scatter_set_hit (d : ScatterDims s si u) (x : s.Idx → α) (idx : IVec si w) (upd : u.Idx → α)
    (g : u.Idx → s.Idx) (hres : ∀ j, d.resultIdx? j idx = some (g j)) (hg : Function.Injective g) (j : u.Idx) :
    Host.scatter d (fun _ b => b) x idx upd (g j) = upd j := by
  rw [scatter_set_eq_foldl d x idx upd g hres]
  have h := foldl_set_hit (fun n : Fin u.numel => g (u.rowMajor.symm n)) (fun n => upd (u.rowMajor.symm n))
    (List.finRange u.numel) x (List.nodup_finRange _)
    (fun n _ n' _ hk => u.rowMajor.symm.injective (hg hk)) (u.rowMajor j) (List.mem_finRange _)
  simp only [Equiv.symm_apply_apply] at h
  exact h

/-- A set-scatter read where no update lands: the operand's element. -/
theorem scatter_set_miss (d : ScatterDims s si u) (x : s.Idx → α) (idx : IVec si w) (upd : u.Idx → α)
    (g : u.Idx → s.Idx) (hres : ∀ j, d.resultIdx? j idx = some (g j)) (i' : s.Idx) (hi : ∀ j, g j ≠ i') :
    Host.scatter d (fun _ b => b) x idx upd i' = x i' := by
  rw [scatter_set_eq_foldl d x idx upd g hres]
  exact foldl_set_miss (fun n : Fin u.numel => g (u.rowMajor.symm n)) (fun n => upd (u.rowMajor.symm n))
    (List.finRange u.numel) x i' (fun n _ => hi _)

/-- Where an update lands: if on every operand axis the start plus the window coordinate of update
    index j is the coordinate of g, then the update's result index is g (in particular it is inside
    the operand). -/
theorem resultIdx?_eq_some (d : ScatterDims s si u) (j : u.Idx) (idx : IVec si w) (g : s.Idx)
    (h : ∀ a, d.start j idx a + (d.window j a : Int) = ((g a).val : Int)) :
    d.resultIdx? j idx = some g := by
  unfold ScatterDims.resultIdx?
  rw [dif_pos (fun a => ⟨by rw [h a]; exact Int.natCast_nonneg _, by rw [h a]; exact_mod_cast (g a).isLt⟩)]
  refine congrArg some (funext fun a => Fin.ext ?_)
  show (d.start j idx a + (d.window j a : Int)).toNat = (g a).val
  rw [h a, Int.toNat_natCast]

end Cert.Lib.ScatterSet
-- ==== Proof.KI.HostVals.lean ====
/-
  The host operations the kernel's program runs before its first kernel region, read at an index.
  They build the padded weights the regions take: the second first-layer weight Wr1 written into the
  left 64 columns of a 128 × 128 array of zeros, a 1 × 128 row of zeros with a one at column 64, the
  second third-layer weight written over a 128 × 40 array of zeros (every element), and the four
  biases reshaped to rows. Every argument array is left as it was.
-/
import proofs.«181542_g78589311582291_cont_9to1_m_296_16_alg».proof.Proof.Gen.KernelIdeal.Launch
import proofs.«181542_g78589311582291_cont_9to1_m_296_16_alg».proof.Proof.Gen.KernelIdeal.Regions
import proofs.«181542_g78589311582291_cont_9to1_m_296_16_alg».proof.Proof.LibScatterSet
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.Lib.ScatterSet

variable (W : Valuation τ sig (Elt Ideal))

/-- No host operation writes argument 0. -/
theorem harg0 : StableHlo.after (hostOps0 (F := Ideal)) W main_arg0 = W main_arg0 :=
  StableHlo.after_of_writes_sub hostOps0 W hostOps0_writes (by decide)
/-- No host operation writes argument 1. -/
theorem harg1 : StableHlo.after (hostOps0 (F := Ideal)) W main_arg1 = W main_arg1 :=
  StableHlo.after_of_writes_sub hostOps0 W hostOps0_writes (by decide)
/-- No host operation writes argument 2. -/
theorem harg2 : StableHlo.after (hostOps0 (F := Ideal)) W main_arg2 = W main_arg2 :=
  StableHlo.after_of_writes_sub hostOps0 W hostOps0_writes (by decide)
/-- No host operation writes argument 3. -/
theorem harg3 : StableHlo.after (hostOps0 (F := Ideal)) W main_arg3 = W main_arg3 :=
  StableHlo.after_of_writes_sub hostOps0 W hostOps0_writes (by decide)
/-- No host operation writes argument 4. -/
theorem harg4 : StableHlo.after (hostOps0 (F := Ideal)) W main_arg4 = W main_arg4 :=
  StableHlo.after_of_writes_sub hostOps0 W hostOps0_writes (by decide)
/-- No host operation writes argument 5. -/
theorem harg5 : StableHlo.after (hostOps0 (F := Ideal)) W main_arg5 = W main_arg5 :=
  StableHlo.after_of_writes_sub hostOps0 W hostOps0_writes (by decide)
/-- No host operation writes argument 6. -/
theorem harg6 : StableHlo.after (hostOps0 (F := Ideal)) W main_arg6 = W main_arg6 :=
  StableHlo.after_of_writes_sub hostOps0 W hostOps0_writes (by decide)
/-- No host operation writes argument 7. -/
theorem harg7 : StableHlo.after (hostOps0 (F := Ideal)) W main_arg7 = W main_arg7 :=
  StableHlo.after_of_writes_sub hostOps0 W hostOps0_writes (by decide)
/-- No host operation writes argument 8. -/
theorem harg8 : StableHlo.after (hostOps0 (F := Ideal)) W main_arg8 = W main_arg8 :=
  StableHlo.after_of_writes_sub hostOps0 W hostOps0_writes (by decide)
/-- No host operation writes argument 9. -/
theorem harg9 : StableHlo.after (hostOps0 (F := Ideal)) W main_arg9 = W main_arg9 :=
  StableHlo.after_of_writes_sub hostOps0 W hostOps0_writes (by decide)
/-- No host operation writes argument 10. -/
theorem harg10 : StableHlo.after (hostOps0 (F := Ideal)) W main_arg10 = W main_arg10 :=
  StableHlo.after_of_writes_sub hostOps0 W hostOps0_writes (by decide)
/-- No host operation writes argument 11. -/
theorem harg11 : StableHlo.after (hostOps0 (F := Ideal)) W main_arg11 = W main_arg11 :=
  StableHlo.after_of_writes_sub hostOps0 W hostOps0_writes (by decide)
/-- No host operation writes argument 12. -/
theorem harg12 : StableHlo.after (hostOps0 (F := Ideal)) W main_arg12 = W main_arg12 :=
  StableHlo.after_of_writes_sub hostOps0 W hostOps0_writes (by decide)

/-- The first bias as a row: the reshape of argument 3 to 1 × 128 reads it at its column. -/
theorem hv10 (q : Fin 128) :
    (StableHlo.after (hostOps0 (F := Ideal)) W main_v10 : S1x128.Idx → EReal) (ix2 (0 : Fin 1) q) = W main_arg3 (ix1 q) := by
  have e : (StableHlo.after (hostOps0 (F := Ideal)) W main_v10 : S1x128.Idx → EReal)
      = shapeCast S1x128 (W main_arg3 : S128.Idx → EReal) shapeCasts_S128_S1x128 := by
    show StableHlo.after hostOps0 W (Proc.devRef .tc main_v10) = _
    after_results
    rfl
  rw [e]
  exact shapeCast_a_1a_apply _ _ _ _

/-- The second bias as a row: the reshape of argument 6 to 1 × 64 reads it at its column. -/
theorem hv11 (q : Fin 64) :
    (StableHlo.after (hostOps0 (F := Ideal)) W main_v11 : S1x64.Idx → EReal) (ix2 (0 : Fin 1) q) = W main_arg6 (ix1 q) := by
  have e : (StableHlo.after (hostOps0 (F := Ideal)) W main_v11 : S1x64.Idx → EReal)
      = shapeCast S1x64 (W main_arg6 : S64.Idx → EReal) shapeCasts_S64_S1x64 := by
    show StableHlo.after hostOps0 W (Proc.devRef .tc main_v11) = _
    after_results
    rfl
  rw [e]
  exact shapeCast_a_1a_apply _ _ _ _

/-- The third bias as a row: the reshape of argument 9 to 1 × 128 reads it at its column. -/
theorem hv12 (q : Fin 128) :
    (StableHlo.after (hostOps0 (F := Ideal)) W main_v12 : S1x128.Idx → EReal) (ix2 (0 : Fin 1) q) = W main_arg9 (ix1 q) := by
  have e : (StableHlo.after (hostOps0 (F := Ideal)) W main_v12 : S1x128.Idx → EReal)
      = shapeCast S1x128 (W main_arg9 : S128.Idx → EReal) shapeCasts_S128_S1x128 := by
    show StableHlo.after hostOps0 W (Proc.devRef .tc main_v12) = _
    after_results
    rfl
  rw [e]
  exact shapeCast_a_1a_apply _ _ _ _

/-- The fourth bias as a row: the reshape of argument 12 to 1 × 40 reads it at its column. -/
theorem hv13 (q : Fin 40) :
    (StableHlo.after (hostOps0 (F := Ideal)) W main_v13 : S1x40.Idx → EReal) (ix2 (0 : Fin 1) q) = W main_arg12 (ix1 q) := by
  have e : (StableHlo.after (hostOps0 (F := Ideal)) W main_v13 : S1x40.Idx → EReal)
      = shapeCast S1x40 (W main_arg12 : S40.Idx → EReal) shapeCasts_S40_S1x40 := by
    show StableHlo.after hostOps0 W (Proc.devRef .tc main_v13) = _
    after_results
    rfl
  rw [e]
  exact shapeCast_a_1a_apply _ _ _ _

/-! ### The third-layer weight written over zeros: every element is written -/

/-- With no scatter index, update index j lands at j: the start is zero on both axes and the window
    coordinates are j's. -/
theorem res_v9 (idx : IVec S0 32) (j : S128x40.Idx) :
    scatter_S128x40_S0_S128x40_01_n_n_0.resultIdx? j idx = some j :=
  resultIdx?_eq_some _ j idx j (Fin.forall_fin_two.2 ⟨by
    have hs : scatter_S128x40_S0_S128x40_01_n_n_0.start j idx (0 : Fin 2) = 0 := dif_neg (by decide)
    have hw : scatter_S128x40_S0_S128x40_01_n_n_0.window j (0 : Fin 2) = (j 0).val := by
      unfold ScatterDims.window; rw [dif_pos (by decide)]; rfl
    rw [hs, hw, Int.zero_add], by
    have hs : scatter_S128x40_S0_S128x40_01_n_n_0.start j idx (1 : Fin 2) = 0 := dif_neg (by decide)
    have hw : scatter_S128x40_S0_S128x40_01_n_n_0.window j (1 : Fin 2) = (j 1).val := by
      unfold ScatterDims.window; rw [dif_pos (by decide)]; rfl
    rw [hs, hw, Int.zero_add]⟩)

/-- The padded third-layer weight is the weight itself: argument 11 at every index. -/
theorem hv9 (k : Fin 128) (q : Fin 40) :
    (StableHlo.after (hostOps0 (F := Ideal)) W main_v9 : S128x40.Idx → EReal) (ix2 k q) = W main_arg11 (ix2 k q) := by
  have e : (StableHlo.after (hostOps0 (F := Ideal)) W main_v9 : S128x40.Idx → EReal)
      = Host.scatter scatter_S128x40_S0_S128x40_01_n_n_0 (fun _ b => b)
          (broadcastInDim S128x40 ![] bcast_S_S128x40 (constant (F := Ideal) S_ .f32 0x00000000#32))
          (emptyVec S0 hz_S0 : IVec S0 32) (W main_arg11 : S128x40.Idx → EReal) := by
    show StableHlo.after hostOps0 W (Proc.devRef .tc main_v9) = _
    after_results
  rw [e]
  exact scatter_set_hit _ _ _ _ id (fun j => res_v9 _ j) Function.injective_id (ix2 k q)

/-! ### The first-layer weight written into the left 64 columns of zeros -/

/-- Where update index j of the 128 × 64 weight lands in the 128 × 128 array: the same row and column. -/
def gA (j : S128x64.Idx) : S128x128.Idx :=
  ix2 (j 0) (⟨(j 1).val, Nat.lt_of_lt_of_le (idx2_lt1 j) (by decide)⟩ : Fin 128)

/-- With the scatter index zero, update index j lands at the same row and column. -/
theorem res_v2 (idx : IVec S1 32) (hidx : ∀ i, idx i = 0#32) (j : S128x64.Idx) :
    scatter_S128x128_S1_S128x64_01_n_1_0.resultIdx? j idx = some (gA j) :=
  resultIdx?_eq_some _ j idx (gA j) (Fin.forall_fin_two.2 ⟨by
    have hs : scatter_S128x128_S1_S128x64_01_n_1_0.start j idx (0 : Fin 2) = 0 := dif_neg (by decide)
    have hw : scatter_S128x128_S1_S128x64_01_n_1_0.window j (0 : Fin 2) = (j 0).val := by
      unfold ScatterDims.window; rw [dif_pos (by decide)]; rfl
    rw [hs, hw, Int.zero_add]; rfl, by
    have hs : scatter_S128x128_S1_S128x64_01_n_1_0.start j idx (1 : Fin 2) = 0 := by
      unfold ScatterDims.start; rw [dif_pos (by decide), hidx]; rfl
    have hw : scatter_S128x128_S1_S128x64_01_n_1_0.window j (1 : Fin 2) = (j 1).val := by
      unfold ScatterDims.window; rw [dif_pos (by decide)]; rfl
    rw [hs, hw, Int.zero_add]; rfl⟩)

/-- Distinct update indices land at distinct places. -/
theorem gA_injective : Function.Injective gA := fun j j' h => funext fun a => by
  match a with
  | ⟨0, _⟩ => exact congrFun h 0
  | ⟨1, _⟩ =>
    have h1 : (gA j 1).val = (gA j' 1).val := congrArg Fin.val (congrFun h 1)
    exact Fin.ext h1

/-- The padded first-layer weight: argument 5 in the left 64 columns, zero in the right 64. -/
theorem hv2 (k : Fin 128) (q : Fin 128) :
    (StableHlo.after (hostOps0 (F := Ideal)) W main_v2 : S128x128.Idx → EReal) (ix2 k q)
      = if h : q.val < 64 then (W main_arg5 : S128x64.Idx → EReal) (ix2 k (⟨q.val, h⟩ : Fin 64)) else (0 : EReal) := by
  have e : (StableHlo.after (hostOps0 (F := Ideal)) W main_v2 : S128x128.Idx → EReal)
      = Host.scatter scatter_S128x128_S1_S128x64_01_n_1_0 (fun _ b => b)
          (broadcastInDim S128x128 ![] bcast_S_S128x128 (constant (F := Ideal) S_ .f32 0x00000000#32))
          (broadcastInDim S1 ![] bcast_S_S1 (constantI S_ 32 0#32)) (W main_arg5 : S128x64.Idx → EReal) := by
    show StableHlo.after hostOps0 W (Proc.devRef .tc main_v2) = _
    after_results
  have hidx : ∀ i, broadcastInDim S1 ![] bcast_S_S1 (constantI S_ 32 0#32) i = 0#32 := fun i =>
    broadcastInDim_apply _ bcast_S_S1 _ i (fun a => a.elim0) (fun a => a.elim0)
  rw [e]
  by_cases h : q.val < 64
  · rw [dif_pos h]
    have hg : gA (ix2 k (⟨q.val, h⟩ : Fin 64)) = ix2 k q := funext fun a => by
      match a with
      | ⟨0, _⟩ => rfl
      | ⟨1, _⟩ => rfl
    rw [← hg]
    exact scatter_set_hit _ _ _ _ gA (res_v2 _ hidx) gA_injective _
  · rw [dif_neg h]
    rw [scatter_set_miss _ _ _ _ gA (res_v2 _ hidx) (ix2 k q) (fun j hj => h (by
      have h1 : (gA j 1).val = q.val := congrArg Fin.val (congrFun hj 1)
      have h1 : (j 1).val = q.val := h1
      rw [← h1]; exact idx2_lt1 j))]
    rw [broadcastInDim_apply _ bcast_S_S128x128 _ (ix2 k q) (fun a => a.elim0) (fun a => a.elim0)]
    exact Ideal.ofBits_zero_f32

/-! ### The row of zeros with a one at column 64 -/

/-- The float word 0x3F800000 denotes one. -/
theorem one_eq : Ideal.ofBits .f32 0x3F800000#32 = 1 := by
  have h : Ideal.ofBits .f32 0x3F800000#32 = ((8388608 * ((2 : ℝ) ^ 23)⁻¹ : ℝ) : EReal) := by
    simp [Ideal.ofBits, Ideal.ieee]
  rw [h, show (8388608 * ((2 : ℝ) ^ 23)⁻¹ : ℝ) = 1 by norm_num]
  rfl

/-- Where the one update lands: row 0, column 64. -/
def gB (_ : S_.Idx) : S1x128.Idx := ix2 (0 : Fin 1) (⟨64, by decide⟩ : Fin 128)

/-- With the scatter indices (0, 64), the one update lands at row 0, column 64. -/
theorem res_v7 (idx : IVec S2 32) (h0 : idx (ix1 (0 : Fin 2)) = 0#32) (h1 : idx (ix1 (1 : Fin 2)) = 64#32)
    (j : S_.Idx) : scatter_S1x128_S2_S__n_01_01_0.resultIdx? j idx = some (gB j) :=
  resultIdx?_eq_some _ j idx (gB j) (Fin.forall_fin_two.2 ⟨by
    have hi : scatter_S1x128_S2_S__n_01_01_0.siIdx j ⟨0, by decide⟩ = ix1 (0 : Fin 2) := funext fun b => by
      match b with
      | ⟨0, _⟩ => rfl
    have hs : scatter_S1x128_S2_S__n_01_01_0.start j idx (0 : Fin 2) = 0 := by
      unfold ScatterDims.start; rw [dif_pos (by decide)]
      show (idx (scatter_S1x128_S2_S__n_01_01_0.siIdx j ⟨0, by decide⟩)).toInt = 0
      rw [hi, h0]; rfl
    have hw : scatter_S1x128_S2_S__n_01_01_0.window j (0 : Fin 2) = 0 := dif_neg (by decide)
    rw [hs, hw]; rfl, by
    have hi : scatter_S1x128_S2_S__n_01_01_0.siIdx j ⟨1, by decide⟩ = ix1 (1 : Fin 2) := funext fun b => by
      match b with
      | ⟨0, _⟩ => rfl
    have hs : scatter_S1x128_S2_S__n_01_01_0.start j idx (1 : Fin 2) = 64 := by
      unfold ScatterDims.start; rw [dif_pos (by decide)]
      show (idx (scatter_S1x128_S2_S__n_01_01_0.siIdx j ⟨1, by decide⟩)).toInt = 64
      rw [hi, h1]; rfl
    have hw : scatter_S1x128_S2_S__n_01_01_0.window j (1 : Fin 2) = 0 := dif_neg (by decide)
    rw [hs, hw]; rfl⟩)

/-- The probe row: one at column 64, zero elsewhere. -/
theorem hv7 (q : Fin 128) :
    (StableHlo.after (hostOps0 (F := Ideal)) W main_v7 : S1x128.Idx → EReal) (ix2 (0 : Fin 1) q)
      = if q.val = 64 then Ideal.ofBits .f32 0x3F800000#32 else (0 : EReal) := by
  have e : (StableHlo.after (hostOps0 (F := Ideal)) W main_v7 : S1x128.Idx → EReal)
      = Host.scatter scatter_S1x128_S2_S__n_01_01_0 (fun _ b => b)
          (broadcastInDim S1x128 ![] bcast_S_S1x128 (constant (F := Ideal) S_ .f32 0x00000000#32))
          (concatenate S2 0 [⟨S1, broadcastInDim S1 ![] bcast_S_S1 (constantI S_ 32 0#32)⟩,
            ⟨S1, broadcastInDim S1 ![] bcast_S_S1 (constantI S_ 32 64#32)⟩] concatenates_S1_S1_S2_d0)
          (constant (F := Ideal) S_ .f32 0x3F800000#32) := by
    show StableHlo.after hostOps0 W (Proc.devRef .tc main_v7) = _
    after_results
  have h0 : (concatenate S2 0 [⟨S1, broadcastInDim S1 ![] bcast_S_S1 (constantI S_ 32 0#32)⟩,
      ⟨S1, broadcastInDim S1 ![] bcast_S_S1 (constantI S_ 32 64#32)⟩] concatenates_S1_S1_S2_d0 : IVec S2 32)
      (ix1 (0 : Fin 2)) = 0#32 := rfl
  have h1 : (concatenate S2 0 [⟨S1, broadcastInDim S1 ![] bcast_S_S1 (constantI S_ 32 0#32)⟩,
      ⟨S1, broadcastInDim S1 ![] bcast_S_S1 (constantI S_ 32 64#32)⟩] concatenates_S1_S1_S2_d0 : IVec S2 32)
      (ix1 (1 : Fin 2)) = 64#32 := rfl
  have hinj : Function.Injective gB := fun a b _ => funext fun d => d.elim0
  rw [e]
  by_cases h : q.val = 64
  · rw [if_pos h]
    have hg : gB ix0 = ix2 (0 : Fin 1) q := funext fun a => by
      match a with
      | ⟨0, _⟩ => rfl
      | ⟨1, _⟩ => exact Fin.ext h.symm
    rw [← hg]
    exact scatter_set_hit _ _ _ _ gB (res_v7 _ h0 h1) hinj ix0
  · rw [if_neg h]
    rw [scatter_set_miss _ _ _ _ gB (res_v7 _ h0 h1) (ix2 (0 : Fin 1) q) (fun j hj => h (by
      have h2 : (gB j 1).val = q.val := congrArg Fin.val (congrFun hj 1)
      exact h2.symm))]
    rw [broadcastInDim_apply _ bcast_S_S1x128 _ (ix2 (0 : Fin 1) q) (fun a => a.elim0) (fun a => a.elim0)]
    exact Ideal.ofBits_zero_f32

end Cert.KernelIdeal.Hand
-- ==== Proof.KernelForms.lean ====
/-
  The layers in the two other arrangements of the row scaling. The specification divides the
  aggregate A · h by the clamped degree and then multiplies by Wr. When every entry is real the
  division may instead be a product with the reciprocal 1 / deg, taken either after the right
  multiplication, (A · (h · Wr)) · (1 / deg), or before it, ((A · h) · (1 / deg)) · Wr.
-/
import proofs.«181542_g78589311582291_cont_9to1_m_296_16_alg».proof.Proof.RefSpec

noncomputable section

namespace Cert.RefSpec

open Idealize.ShloMosaic Idealize.ShloMosaic.ValueIdx Cert.Lib.MeanAggregate
open scoped BigOperators

/-- Layer 1 with the scaling after the right multiplication: for real data,
    h · Wl + ((A · h) / deg) · Wr + b = h · Wl + (A · (h · Wr)) · (1 / deg) + b at row p, column q. -/
theorem sage1_scale_after {adj : (⟨2, ![10000, 10000]⟩ : Shape).Idx → EReal} {h : Fin 10000 → Fin 128 → EReal}
    {Wl Wr : (⟨2, ![128, 64]⟩ : Shape).Idx → EReal} {b : (⟨1, ![64]⟩ : Shape).Idx → EReal}
    (hA : ∀ i, IsReal (adj i)) (hh : ∀ j k, IsReal (h j k)) (hr : ∀ i, IsReal (Wr i))
    (p : Fin 10000) (q : Fin 64) :
    sage1 adj h Wl Wr b p q
      = (∑ k : Fin 128, h p k * Wl (ix2 k q))
        + (∑ j : Fin 10000, adj (ix2 p j) * ∑ k : Fin 128, h j k * Wr (ix2 k q)) * Ideal.div 1 (deg adj p)
        + b (ix1 q) := by
  unfold sage1
  rw [assoc_scale (a := fun j => adj (ix2 p j)) (h := h) (W := fun k c => Wr (ix2 k c))
    (fun j => hA _) hh (fun k c => hr _) (isReal_deg hA p) (deg_ne_zero_of_real hA p) q]

/-- Layer 1 with the scaling written as a product with the reciprocal, before the right
    multiplication: for real data,
    h · Wl + ((A · h) / deg) · Wr + b = h · Wl + ((A · h) · (1 / deg)) · Wr + b at row p, column q. -/
theorem sage1_scale_before {adj : (⟨2, ![10000, 10000]⟩ : Shape).Idx → EReal} {h : Fin 10000 → Fin 128 → EReal}
    {Wl Wr : (⟨2, ![128, 64]⟩ : Shape).Idx → EReal} {b : (⟨1, ![64]⟩ : Shape).Idx → EReal}
    (hA : ∀ i, IsReal (adj i)) (hh : ∀ j k, IsReal (h j k))
    (p : Fin 10000) (q : Fin 64) :
    sage1 adj h Wl Wr b p q
      = (∑ k : Fin 128, h p k * Wl (ix2 k q))
        + (∑ k : Fin 128, ((∑ j : Fin 10000, adj (ix2 p j) * h j k) * Ideal.div 1 (deg adj p)) * Wr (ix2 k q))
        + b (ix1 q) := by
  unfold sage1
  rw [scale_mul_eq_div (a := fun j => adj (ix2 p j)) (h := h) (fun k c => Wr (ix2 k c))
    (fun j => hA _) hh (isReal_deg hA p) (deg_ne_zero_of_real hA p) q]

/-- Layer 2 with the scaling after the right multiplication: for real data,
    h · Wl + ((A · h) / deg) · Wr + b = h · Wl + (A · (h · Wr)) · (1 / deg) + b at row p, column q. -/
theorem sage2_scale_after {adj : (⟨2, ![10000, 10000]⟩ : Shape).Idx → EReal} {h : Fin 10000 → Fin 64 → EReal}
    {Wl Wr : (⟨2, ![64, 128]⟩ : Shape).Idx → EReal} {b : (⟨1, ![128]⟩ : Shape).Idx → EReal}
    (hA : ∀ i, IsReal (adj i)) (hh : ∀ j k, IsReal (h j k)) (hr : ∀ i, IsReal (Wr i))
    (p : Fin 10000) (q : Fin 128) :
    sage2 adj h Wl Wr b p q
      = (∑ k : Fin 64, h p k * Wl (ix2 k q))
        + (∑ j : Fin 10000, adj (ix2 p j) * ∑ k : Fin 64, h j k * Wr (ix2 k q)) * Ideal.div 1 (deg adj p)
        + b (ix1 q) := by
  unfold sage2
  rw [assoc_scale (a := fun j => adj (ix2 p j)) (h := h) (W := fun k c => Wr (ix2 k c))
    (fun j => hA _) hh (fun k c => hr _) (isReal_deg hA p) (deg_ne_zero_of_real hA p) q]

/-- Layer 2 with the scaling written as a product with the reciprocal, before the right
    multiplication: for real data,
    h · Wl + ((A · h) / deg) · Wr + b = h · Wl + ((A · h) · (1 / deg)) · Wr + b at row p, column q. -/
theorem sage2_scale_before {adj : (⟨2, ![10000, 10000]⟩ : Shape).Idx → EReal} {h : Fin 10000 → Fin 64 → EReal}
    {Wl Wr : (⟨2, ![64, 128]⟩ : Shape).Idx → EReal} {b : (⟨1, ![128]⟩ : Shape).Idx → EReal}
    (hA : ∀ i, IsReal (adj i)) (hh : ∀ j k, IsReal (h j k))
    (p : Fin 10000) (q : Fin 128) :
    sage2 adj h Wl Wr b p q
      = (∑ k : Fin 64, h p k * Wl (ix2 k q))
        + (∑ k : Fin 64, ((∑ j : Fin 10000, adj (ix2 p j) * h j k) * Ideal.div 1 (deg adj p)) * Wr (ix2 k q))
        + b (ix1 q) := by
  unfold sage2
  rw [scale_mul_eq_div (a := fun j => adj (ix2 p j)) (h := h) (fun k c => Wr (ix2 k c))
    (fun j => hA _) hh (isReal_deg hA p) (deg_ne_zero_of_real hA p) q]

/-- Layer 3 with the scaling after the right multiplication: for real data,
    h · Wl + ((A · h) / deg) · Wr + b = h · Wl + (A · (h · Wr)) · (1 / deg) + b at row p, column q. -/
theorem sage3_scale_after {adj : (⟨2, ![10000, 10000]⟩ : Shape).Idx → EReal} {h : Fin 10000 → Fin 128 → EReal}
    {Wl Wr : (⟨2, ![128, 40]⟩ : Shape).Idx → EReal} {b : (⟨1, ![40]⟩ : Shape).Idx → EReal}
    (hA : ∀ i, IsReal (adj i)) (hh : ∀ j k, IsReal (h j k)) (hr : ∀ i, IsReal (Wr i))
    (p : Fin 10000) (q : Fin 40) :
    sage3 adj h Wl Wr b p q
      = (∑ k : Fin 128, h p k * Wl (ix2 k q))
        + (∑ j : Fin 10000, adj (ix2 p j) * ∑ k : Fin 128, h j k * Wr (ix2 k q)) * Ideal.div 1 (deg adj p)
        + b (ix1 q) := by
  unfold sage3
  rw [assoc_scale (a := fun j => adj (ix2 p j)) (h := h) (W := fun k c => Wr (ix2 k c))
    (fun j => hA _) hh (fun k c => hr _) (isReal_deg hA p) (deg_ne_zero_of_real hA p) q]

/-- Layer 3 with the scaling written as a product with the reciprocal, before the right
    multiplication: for real data,
    h · Wl + ((A · h) / deg) · Wr + b = h · Wl + ((A · h) · (1 / deg)) · Wr + b at row p, column q. -/
theorem sage3_scale_before {adj : (⟨2, ![10000, 10000]⟩ : Shape).Idx → EReal} {h : Fin 10000 → Fin 128 → EReal}
    {Wl Wr : (⟨2, ![128, 40]⟩ : Shape).Idx → EReal} {b : (⟨1, ![40]⟩ : Shape).Idx → EReal}
    (hA : ∀ i, IsReal (adj i)) (hh : ∀ j k, IsReal (h j k))
    (p : Fin 10000) (q : Fin 40) :
    sage3 adj h Wl Wr b p q
      = (∑ k : Fin 128, h p k * Wl (ix2 k q))
        + (∑ k : Fin 128, ((∑ j : Fin 10000, adj (ix2 p j) * h j k) * Ideal.div 1 (deg adj p)) * Wr (ix2 k q))
        + b (ix1 q) := by
  unfold sage3
  rw [scale_mul_eq_div (a := fun j => adj (ix2 p j)) (h := h) (fun k c => Wr (ix2 k c))
    (fun j => hA _) hh (isReal_deg hA p) (deg_ne_zero_of_real hA p) q]

/-! ### The degree in the other argument order, and the degree probe -/

/-- The clamped degree with the row sum first: the maximum of the row sum and the float word 0x2B8CBCCC. -/
def deg' (adj : (⟨2, ![10000, 10000]⟩ : Shape).Idx → EReal) (p : Fin 10000) : EReal :=
  max (rowSum adj p) (Ideal.ofBits .f32 0x2B8CBCCC#32)

/-- The maximum does not depend on the order of its arguments. -/
theorem deg'_eq (adj : (⟨2, ![10000, 10000]⟩ : Shape).Idx → EReal) (p : Fin 10000) : deg' adj p = deg adj p :=
  max_comm _ _

/-- The degree probe: a column whose weights Z are all zero and whose bias u is one turns the
    aggregation A · (h · Z + u) into the row sum of A, since h · 0 = 0 on the extended reals too
    (0 · ±∞ = 0) and a · 1 = a. -/
theorem rowSum_probe {adj : (⟨2, ![10000, 10000]⟩ : Shape).Idx → EReal} {h : Fin 10000 → Fin 128 → EReal}
    {Z : Fin 128 → EReal} {u : EReal} (hZ : ∀ k, Z k = 0) (hu : u = 1) (p : Fin 10000) :
    ∑ j : Fin 10000, adj (ix2 p j) * ((∑ k : Fin 128, h j k * Z k) + u) = rowSum adj p := by
  unfold rowSum
  refine Finset.sum_congr rfl fun j _ => ?_
  rw [Finset.sum_eq_zero (fun k _ => by rw [hZ k, mul_zero]), zero_add, hu, mul_one]

/-! ### The padded weight: 128 columns of which the left 64 hold the weight -/

/-- A product with the padded weight at a column left of 64 is the product with the weight. -/
theorem padded_sum_lt {Wr : (⟨2, ![128, 64]⟩ : Shape).Idx → EReal} (h : Fin 128 → EReal) (q : Fin 128)
    (hq : q.val < 64) :
    ∑ k : Fin 128, h k * (if hq' : q.val < 64 then Wr (ix2 k (⟨q.val, hq'⟩ : Fin 64)) else 0)
      = ∑ k : Fin 128, h k * Wr (ix2 k (⟨q.val, hq⟩ : Fin 64)) := by
  simp only [dif_pos hq]

/-- A product with the padded weight at a column from 64 on is zero. -/
theorem padded_sum_ge {Wr : (⟨2, ![128, 64]⟩ : Shape).Idx → EReal} (h : Fin 128 → EReal) (q : Fin 128)
    (hq : ¬ q.val < 64) :
    ∑ k : Fin 128, h k * (if hq' : q.val < 64 then Wr (ix2 k (⟨q.val, hq'⟩ : Fin 64)) else 0) = 0 := by
  simp only [dif_neg hq, mul_zero, Finset.sum_const_zero]

/-- The probe row adds nothing at a column other than 64. -/
theorem probe_ne (v : EReal) (q : Fin 128) (hq : q.val ≠ 64) :
    v + (if q.val = 64 then (1 : EReal) else 0) = v := by
  rw [if_neg hq, add_zero]

/-- The probe row adds one at column 64. -/
theorem probe_eq (v : EReal) (q : Fin 128) (hq : q.val = 64) :
    v + (if q.val = 64 then (1 : EReal) else 0) = v + 1 := by
  rw [if_pos hq]

end Cert.RefSpec
-- ==== Proof.Finite.lean ====
/-
  From the precondition to realness. The precondition states, for each of the thirteen argument
  arrays, that every entry x satisfies |x| < +∞ (an all-reduction by "and" of the comparisons,
  equal to 1). On the extended reals |x| = max x (-x), and max x (-x) < +∞ excludes both
  infinities: every entry of every argument array is the image of a real number.
-/
import proofs.«181542_g78589311582291_cont_9to1_m_296_16_alg».proof.Defs
import proofs.«181542_g78589311582291_cont_9to1_m_296_16_alg».proof.Proof.Gen.Pre_finite_inputs
import proofs.«181542_g78589311582291_cont_9to1_m_296_16_alg».proof.Proof.LibMeanAggregate
import Idealize.ShloMosaic.Lib.ReduceAll
import Idealize.ShloMosaic.Lib.Pipeline.Value
import Idealize.ShloMosaic.Lib.ValueIdx
import Idealize.ShloMosaic.PureOps.Ideal.Laws

noncomputable section

namespace Cert.Finite

open Idealize.ShloMosaic Idealize.SL.Sem Cert.Lib.MeanAggregate

/-- The shape with no axes has exactly one index. -/
instance subsingleton_idx0 : Subsingleton (⟨0, ![]⟩ : Shape).Idx := ⟨fun _ _ => funext fun d => d.elim0⟩

/-- The float word 0x7F800000 denotes +∞. -/
theorem inf_eq : Ideal.ofBits .f32 0x7F800000#32 = ⊤ := by
  simp [Ideal.ofBits, Ideal.ieee]

/-- An extended real whose absolute value max v (-v) is below +∞ is real: at -∞ the negation is +∞,
    at +∞ the value itself is. -/
theorem isReal_of_abs_lt_top {v : EReal} (h : max v (-v) < ⊤) : IsReal v := by
  induction v using EReal.rec with
  | bot => simp at h
  | coe r => exact ⟨r, rfl⟩
  | top => simp at h

/-- One element of the precondition: the exact comparison |v| < y equal to 1, with y the word of +∞,
    says v is real. -/
theorem isReal_of_cmpf {v y : Ideal .f32} (hy : y = Ideal.ofBits .f32 0x7F800000#32)
    (h : FloatOps.cmpf .olt (FloatOps.hostAbsf v) y = 1#1) : IsReal v := by
  subst hy
  have h' : Ideal.cmp .olt (max v (-v)) ⊤ = 1#1 := by rw [← inf_eq]; exact h
  apply isReal_of_abs_lt_top
  by_contra hn
  simp [Ideal.cmp, hn] at h'

/-- One conjunct of the precondition: an all-reduction by "and" of the comparisons |x i| < +∞ (the
    word of +∞ broadcast to the array's shape) that equals 1 says every entry of x is real. -/
theorem isReal_of_all {s : Shape} {axes : List (Fin s.rank)} (x : FVec Ideal s .f32)
    (bc : (⟨0, ![]⟩ : Shape).BroadcastsInDim s (![] : Fin 0 → Fin s.rank))
    (init : (⟨0, ![]⟩ : Shape).Idx → BitVec 1) (h : s.ReducesTo axes ⟨0, ![]⟩)
    (hu : 0 < (⟨0, ![]⟩ : Shape).numel) (j : (⟨0, ![]⟩ : Shape).Idx)
    (e : Host.reduce IntOp.andi (cmpf .olt (Host.absf x)
          (broadcastInDim s ![] bc (constant (F := Ideal) ⟨0, ![]⟩ .f32 0x7F800000#32))) init h hu j = 1#1)
    (i : s.Idx) : IsReal (x i) := by
  have e1 := Host.reduce_andi_all _ init h hu j e i
  refine isReal_of_cmpf (y := broadcastInDim s ![] bc (constant (F := Ideal) ⟨0, ![]⟩ .f32 0x7F800000#32) i) ?_ e1
  exact broadcastInDim_apply _ bc _ i (fun a => a.elim0) (fun a => a.elim0)

open Cert.Pre_finite_inputs in
/-- The whole precondition, over abstract argument arrays: if the printed predicate is all ones then
    every entry of each of the thirteen arrays is real. -/
theorem fn_real [hF : Cert.Pre_finite_inputs.Facts]
    (a0 : FVec Ideal S10000x128 .f32) (a1 : FVec Ideal S10000x10000 .f32) (a2 : FVec Ideal S128x128 .f32)
    (a3 : FVec Ideal S128 .f32) (a4 a5 : FVec Ideal S128x64 .f32) (a6 : FVec Ideal S64 .f32)
    (a7 a8 : FVec Ideal S64x128 .f32) (a9 : FVec Ideal S128 .f32) (a10 a11 : FVec Ideal S128x40 .f32)
    (a12 : FVec Ideal S40 .f32)
    (h : Cert.Pre_finite_inputs.fn (F := Ideal) a0 a1 a2 a3 a4 a5 a6 a7 a8 a9 a10 a11 a12 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) ∧ (∀ i, IsReal (a7 i))
      ∧ (∀ i, IsReal (a8 i)) ∧ (∀ i, IsReal (a9 i)) ∧ (∀ i, IsReal (a10 i)) ∧ (∀ i, IsReal (a11 i))
      ∧ (∀ i, IsReal (a12 i)) := by
  have h0 := congrFun h ValueIdx.ix0
  dsimp only [Cert.Pre_finite_inputs.fn, Cert.Pre_finite_inputs.fn_part1, Cert.Pre_finite_inputs.fn_part2,
    Cert.Pre_finite_inputs.fn_part3, Idealize.ShloMosaic.andi] at h0
  simp only [IntOp.andi_eq_one] at h0
  obtain ⟨⟨⟨⟨⟨⟨⟨⟨⟨⟨⟨⟨c0, c1⟩, c2⟩, c3⟩, c4⟩, c5⟩, c6⟩, c7⟩, c8⟩, c9⟩, c10⟩, c11⟩, c12⟩ := h0
  exact ⟨isReal_of_all a0 _ _ _ _ _ c0, isReal_of_all a1 _ _ _ _ _ c1, isReal_of_all a2 _ _ _ _ _ c2,
    isReal_of_all a3 _ _ _ _ _ c3, isReal_of_all a4 _ _ _ _ _ c4, isReal_of_all a5 _ _ _ _ _ c5,
    isReal_of_all a6 _ _ _ _ _ c6, isReal_of_all a7 _ _ _ _ _ c7, isReal_of_all a8 _ _ _ _ _ c8,
    isReal_of_all a9 _ _ _ _ _ c9, isReal_of_all a10 _ _ _ _ _ c10, isReal_of_all a11 _ _ _ _ _ c11,
    isReal_of_all a12 _ _ _ _ _ c12⟩

/-- Under the precondition of the claim, on every device, every entry of each of the thirteen
    argument arrays of the kernel program is real. -/
theorem args_real (m : (ℓ : Loc Cert.KernelIdeal.nD Cert.KernelIdeal.τ Cert.KernelIdeal.sig) → Buf (Elt Ideal) ℓ)
    (hm : Cert.Pre_KernelIdeal (hPre_finite_inputs := Cert.Pre_finite_inputs.Gen.facts) m)
    (c : Dev Cert.KernelIdeal.nD) :
    (∀ i, IsReal ((m ((c.tc : Thread Cert.KernelIdeal.nD Cert.KernelIdeal.τ).loc Cert.KernelIdeal.main_arg0)) i))
      ∧ (∀ i, IsReal ((m ((c.tc : Thread Cert.KernelIdeal.nD Cert.KernelIdeal.τ).loc Cert.KernelIdeal.main_arg1)) i))
      ∧ (∀ i, IsReal ((m ((c.tc : Thread Cert.KernelIdeal.nD Cert.KernelIdeal.τ).loc Cert.KernelIdeal.main_arg2)) i))
      ∧ (∀ i, IsReal ((m ((c.tc : Thread Cert.KernelIdeal.nD Cert.KernelIdeal.τ).loc Cert.KernelIdeal.main_arg3)) i))
      ∧ (∀ i, IsReal ((m ((c.tc : Thread Cert.KernelIdeal.nD Cert.KernelIdeal.τ).loc Cert.KernelIdeal.main_arg4)) i))
      ∧ (∀ i, IsReal ((m ((c.tc : Thread Cert.KernelIdeal.nD Cert.KernelIdeal.τ).loc Cert.KernelIdeal.main_arg5)) i))
      ∧ (∀ i, IsReal ((m ((c.tc : Thread Cert.KernelIdeal.nD Cert.KernelIdeal.τ).loc Cert.KernelIdeal.main_arg6)) i))
      ∧ (∀ i, IsReal ((m ((c.tc : Thread Cert.KernelIdeal.nD Cert.KernelIdeal.τ).loc Cert.KernelIdeal.main_arg7)) i))
      ∧ (∀ i, IsReal ((m ((c.tc : Thread Cert.KernelIdeal.nD Cert.KernelIdeal.τ).loc Cert.KernelIdeal.main_arg8)) i))
      ∧ (∀ i, IsReal ((m ((c.tc : Thread Cert.KernelIdeal.nD Cert.KernelIdeal.τ).loc Cert.KernelIdeal.main_arg9)) i))
      ∧ (∀ i, IsReal ((m ((c.tc : Thread Cert.KernelIdeal.nD Cert.KernelIdeal.τ).loc Cert.KernelIdeal.main_arg10)) i))
      ∧ (∀ i, IsReal ((m ((c.tc : Thread Cert.KernelIdeal.nD Cert.KernelIdeal.τ).loc Cert.KernelIdeal.main_arg11)) i))
      ∧ (∀ i, IsReal ((m ((c.tc : Thread Cert.KernelIdeal.nD Cert.KernelIdeal.τ).loc Cert.KernelIdeal.main_arg12)) i)) :=
  fn_real (hF := Cert.Pre_finite_inputs.Gen.facts) _ _ _ _ _ _ _ _ _ _ _ _ _ (hm c)

/-- Under the precondition every entry of argument 0 is real. -/
theorem arg0_real (m : (ℓ : Loc Cert.KernelIdeal.nD Cert.KernelIdeal.τ Cert.KernelIdeal.sig) → Buf (Elt Ideal) ℓ)
    (hm : Cert.Pre_KernelIdeal (hPre_finite_inputs := Cert.Pre_finite_inputs.Gen.facts) m)
    (c : Dev Cert.KernelIdeal.nD) : ∀ i, IsReal ((m ((c.tc : Thread Cert.KernelIdeal.nD Cert.KernelIdeal.τ).loc Cert.KernelIdeal.main_arg0)) i) :=
  (args_real m hm c).1

/-- Under the precondition every entry of argument 1 is real. -/
theorem arg1_real (m : (ℓ : Loc Cert.KernelIdeal.nD Cert.KernelIdeal.τ Cert.KernelIdeal.sig) → Buf (Elt Ideal) ℓ)
    (hm : Cert.Pre_KernelIdeal (hPre_finite_inputs := Cert.Pre_finite_inputs.Gen.facts) m)
    (c : Dev Cert.KernelIdeal.nD) : ∀ i, IsReal ((m ((c.tc : Thread Cert.KernelIdeal.nD Cert.KernelIdeal.τ).loc Cert.KernelIdeal.main_arg1)) i) :=
  (args_real m hm c).2.1

/-- Under the precondition every entry of argument 2 is real. -/
theorem arg2_real (m : (ℓ : Loc Cert.KernelIdeal.nD Cert.KernelIdeal.τ Cert.KernelIdeal.sig) → Buf (Elt Ideal) ℓ)
    (hm : Cert.Pre_KernelIdeal (hPre_finite_inputs := Cert.Pre_finite_inputs.Gen.facts) m)
    (c : Dev Cert.KernelIdeal.nD) : ∀ i, IsReal ((m ((c.tc : Thread Cert.KernelIdeal.nD Cert.KernelIdeal.τ).loc Cert.KernelIdeal.main_arg2)) i) :=
  (args_real m hm c).2.2.1

/-- Under the precondition every entry of argument 3 is real. -/
theorem arg3_real (m : (ℓ : Loc Cert.KernelIdeal.nD Cert.KernelIdeal.τ Cert.KernelIdeal.sig) → Buf (Elt Ideal) ℓ)
    (hm : Cert.Pre_KernelIdeal (hPre_finite_inputs := Cert.Pre_finite_inputs.Gen.facts) m)
    (c : Dev Cert.KernelIdeal.nD) : ∀ i, IsReal ((m ((c.tc : Thread Cert.KernelIdeal.nD Cert.KernelIdeal.τ).loc Cert.KernelIdeal.main_arg3)) i) :=
  (args_real m hm c).2.2.2.1

/-- Under the precondition every entry of argument 4 is real. -/
theorem arg4_real (m : (ℓ : Loc Cert.KernelIdeal.nD Cert.KernelIdeal.τ Cert.KernelIdeal.sig) → Buf (Elt Ideal) ℓ)
    (hm : Cert.Pre_KernelIdeal (hPre_finite_inputs := Cert.Pre_finite_inputs.Gen.facts) m)
    (c : Dev Cert.KernelIdeal.nD) : ∀ i, IsReal ((m ((c.tc : Thread Cert.KernelIdeal.nD Cert.KernelIdeal.τ).loc Cert.KernelIdeal.main_arg4)) i) :=
  (args_real m hm c).2.2.2.2.1

/-- Under the precondition every entry of argument 5 is real. -/
theorem arg5_real (m : (ℓ : Loc Cert.KernelIdeal.nD Cert.KernelIdeal.τ Cert.KernelIdeal.sig) → Buf (Elt Ideal) ℓ)
    (hm : Cert.Pre_KernelIdeal (hPre_finite_inputs := Cert.Pre_finite_inputs.Gen.facts) m)
    (c : Dev Cert.KernelIdeal.nD) : ∀ i, IsReal ((m ((c.tc : Thread Cert.KernelIdeal.nD Cert.KernelIdeal.τ).loc Cert.KernelIdeal.main_arg5)) i) :=
  (args_real m hm c).2.2.2.2.2.1

/-- Under the precondition every entry of argument 6 is real. -/
theorem arg6_real (m : (ℓ : Loc Cert.KernelIdeal.nD Cert.KernelIdeal.τ Cert.KernelIdeal.sig) → Buf (Elt Ideal) ℓ)
    (hm : Cert.Pre_KernelIdeal (hPre_finite_inputs := Cert.Pre_finite_inputs.Gen.facts) m)
    (c : Dev Cert.KernelIdeal.nD) : ∀ i, IsReal ((m ((c.tc : Thread Cert.KernelIdeal.nD Cert.KernelIdeal.τ).loc Cert.KernelIdeal.main_arg6)) i) :=
  (args_real m hm c).2.2.2.2.2.2.1

/-- Under the precondition every entry of argument 7 is real. -/
theorem arg7_real (m : (ℓ : Loc Cert.KernelIdeal.nD Cert.KernelIdeal.τ Cert.KernelIdeal.sig) → Buf (Elt Ideal) ℓ)
    (hm : Cert.Pre_KernelIdeal (hPre_finite_inputs := Cert.Pre_finite_inputs.Gen.facts) m)
    (c : Dev Cert.KernelIdeal.nD) : ∀ i, IsReal ((m ((c.tc : Thread Cert.KernelIdeal.nD Cert.KernelIdeal.τ).loc Cert.KernelIdeal.main_arg7)) i) :=
  (args_real m hm c).2.2.2.2.2.2.2.1

/-- Under the precondition every entry of argument 8 is real. -/
theorem arg8_real (m : (ℓ : Loc Cert.KernelIdeal.nD Cert.KernelIdeal.τ Cert.KernelIdeal.sig) → Buf (Elt Ideal) ℓ)
    (hm : Cert.Pre_KernelIdeal (hPre_finite_inputs := Cert.Pre_finite_inputs.Gen.facts) m)
    (c : Dev Cert.KernelIdeal.nD) : ∀ i, IsReal ((m ((c.tc : Thread Cert.KernelIdeal.nD Cert.KernelIdeal.τ).loc Cert.KernelIdeal.main_arg8)) i) :=
  (args_real m hm c).2.2.2.2.2.2.2.2.1

/-- Under the precondition every entry of argument 9 is real. -/
theorem arg9_real (m : (ℓ : Loc Cert.KernelIdeal.nD Cert.KernelIdeal.τ Cert.KernelIdeal.sig) → Buf (Elt Ideal) ℓ)
    (hm : Cert.Pre_KernelIdeal (hPre_finite_inputs := Cert.Pre_finite_inputs.Gen.facts) m)
    (c : Dev Cert.KernelIdeal.nD) : ∀ i, IsReal ((m ((c.tc : Thread Cert.KernelIdeal.nD Cert.KernelIdeal.τ).loc Cert.KernelIdeal.main_arg9)) i) :=
  (args_real m hm c).2.2.2.2.2.2.2.2.2.1

/-- Under the precondition every entry of argument 10 is real. -/
theorem arg10_real (m : (ℓ : Loc Cert.KernelIdeal.nD Cert.KernelIdeal.τ Cert.KernelIdeal.sig) → Buf (Elt Ideal) ℓ)
    (hm : Cert.Pre_KernelIdeal (hPre_finite_inputs := Cert.Pre_finite_inputs.Gen.facts) m)
    (c : Dev Cert.KernelIdeal.nD) : ∀ i, IsReal ((m ((c.tc : Thread Cert.KernelIdeal.nD Cert.KernelIdeal.τ).loc Cert.KernelIdeal.main_arg10)) i) :=
  (args_real m hm c).2.2.2.2.2.2.2.2.2.2.1

/-- Under the precondition every entry of argument 11 is real. -/
theorem arg11_real (m : (ℓ : Loc Cert.KernelIdeal.nD Cert.KernelIdeal.τ Cert.KernelIdeal.sig) → Buf (Elt Ideal) ℓ)
    (hm : Cert.Pre_KernelIdeal (hPre_finite_inputs := Cert.Pre_finite_inputs.Gen.facts) m)
    (c : Dev Cert.KernelIdeal.nD) : ∀ i, IsReal ((m ((c.tc : Thread Cert.KernelIdeal.nD Cert.KernelIdeal.τ).loc Cert.KernelIdeal.main_arg11)) i) :=
  (args_real m hm c).2.2.2.2.2.2.2.2.2.2.2.1

/-- Under the precondition every entry of argument 12 is real. -/
theorem arg12_real (m : (ℓ : Loc Cert.KernelIdeal.nD Cert.KernelIdeal.τ Cert.KernelIdeal.sig) → Buf (Elt Ideal) ℓ)
    (hm : Cert.Pre_KernelIdeal (hPre_finite_inputs := Cert.Pre_finite_inputs.Gen.facts) m)
    (c : Dev Cert.KernelIdeal.nD) : ∀ i, IsReal ((m ((c.tc : Thread Cert.KernelIdeal.nD Cert.KernelIdeal.τ).loc Cert.KernelIdeal.main_arg12)) i) :=
  (args_real m hm c).2.2.2.2.2.2.2.2.2.2.2.2

end Cert.Finite
-- ==== Proof.KI.Value.lean ====
/-
  The kernel program's result is the specification. Each kernel region's output arrays are read
  entry by entry as closed forms of what the region finds; what it finds is an argument array, a host
  result (the padded weights and the bias rows) or an earlier region's output. Substituting bottom
  up, and moving the row scaling 1 / deg across the matrix products where the kernel places it
  differently (every entry being real under the precondition), the last region's output is
  Cert.RefSpec.out of the thirteen argument arrays.
-/
import proofs.«181542_g78589311582291_cont_9to1_m_296_16_alg».proof.Proof.KI.Entry
import proofs.«181542_g78589311582291_cont_9to1_m_296_16_alg».proof.Proof.KI.Val0
import proofs.«181542_g78589311582291_cont_9to1_m_296_16_alg».proof.Proof.KI.Val1
import proofs.«181542_g78589311582291_cont_9to1_m_296_16_alg».proof.Proof.KI.Val2
import proofs.«181542_g78589311582291_cont_9to1_m_296_16_alg».proof.Proof.KI.Val3
import proofs.«181542_g78589311582291_cont_9to1_m_296_16_alg».proof.Proof.KI.HostVals
import proofs.«181542_g78589311582291_cont_9to1_m_296_16_alg».proof.Proof.RefSpec
import proofs.«181542_g78589311582291_cont_9to1_m_296_16_alg».proof.Proof.KernelForms
import proofs.«181542_g78589311582291_cont_9to1_m_296_16_alg».proof.Proof.Finite

noncomputable section

namespace Cert.KernelIdeal.Hand

open Cert.KernelIdeal Cert.KernelIdeal.Gen
open Idealize.ShloMosaic Idealize.ShloMosaic.TcCoe Idealize.ShloMosaic.ValueIdx Idealize.SL.Sem
open Cert.Lib.MeanAggregate
open scoped BigOperators

variable (m : (ℓ : Loc nD τ sig) → Buf (Elt Ideal) ℓ)

/-! ### Region 0: the input map and the packed second product -/

/-- The closed form of region 0's first output at what the region finds is h0. -/
theorem fn0_5_eq (c : Dev nD) (p : Fin 10000) (q : Fin 128) :
    fn0_5 (V1 m c main_arg0) (V1 m c main_arg2) (V1 m c main_v10) p q = Cert.RefSpec.h0 (m ((c.tc : Thread nD τ).loc main_arg0)) (m ((c.tc : Thread nD τ).loc main_arg2)) (m ((c.tc : Thread nD τ).loc main_arg3)) p q := by
  unfold fn0_5
  have e10 : (V1 m c main_v10 : S1x128.Idx → EReal) (ix2 (0 : Fin 1) q) = (m ((c.tc : Thread nD τ).loc main_arg3)) (ix1 q) :=
    hv10 (W0 m c) q
  rw [e10, find0_main_arg0, find0_main_arg2]
  rfl

/-- Region 0's first output is the input map h0 = x · W_map + b_map. -/
theorem st0_5 (c : Dev nD) (p : Fin 10000) (q : Fin 128) :
    (o0_5 m c : S10000x128.Idx → EReal) (ix2 p q) = Cert.RefSpec.h0 (m ((c.tc : Thread nD τ).loc main_arg0)) (m ((c.tc : Thread nD τ).loc main_arg2)) (m ((c.tc : Thread nD τ).loc main_arg3)) p q := by
  unfold o0_5
  rw [val0_5_apply (V1 m) c p q]
  exact fn0_5_eq m c p q

/-- Region 0's second output packs two things into 128 columns: h0 times the second first-layer weight
    in the left 64 columns, and in column 64 the constant one (h0 times zero plus the probe row). -/
theorem st0_6 (c : Dev nD) (p : Fin 10000) (q : Fin 128) :
    (o0_6 m c : S10000x128.Idx → EReal) (ix2 p q)
      = (∑ k : Fin 128, Cert.RefSpec.h0 (m ((c.tc : Thread nD τ).loc main_arg0)) (m ((c.tc : Thread nD τ).loc main_arg2)) (m ((c.tc : Thread nD τ).loc main_arg3)) p k
            * (if hq : q.val < 64 then ((m ((c.tc : Thread nD τ).loc main_arg5)) : S128x64.Idx → EReal) (ix2 k (⟨q.val, hq⟩ : Fin 64)) else (0 : EReal)))
        + (if q.val = 64 then (1 : EReal) else 0) := by
  unfold o0_6
  rw [val0_6_apply (V1 m) c p q]
  unfold fn0_6
  have e2 : ∀ k : Fin 128, (V1 m c main_v2 : S128x128.Idx → EReal) (ix2 k q)
      = if hq : q.val < 64 then ((m ((c.tc : Thread nD τ).loc main_arg5)) : S128x64.Idx → EReal) (ix2 k (⟨q.val, hq⟩ : Fin 64)) else (0 : EReal) :=
    fun k => hv2 (W0 m c) k q
  have e7 : (V1 m c main_v7 : S1x128.Idx → EReal) (ix2 (0 : Fin 1) q) = if q.val = 64 then (1 : EReal) else 0 := by
    rw [← one_eq]; exact hv7 (W0 m c) q
  rw [e7]
  refine congrArg (fun v => v + (if q.val = 64 then (1 : EReal) else 0)) (Finset.sum_congr rfl fun k _ => ?_)
  rw [fn0_5_eq m c p k, e2 k]

/-! ### Region 1: the adjacency passed on, the reciprocal degree, the first hidden state -/

/-- Column 64 of the packed array is the constant one: h0 times the zero column plus the probe's one. -/
theorem gp_64 (c : Dev nD) (j : Fin 10000) :
    (o0_6 m c : S10000x128.Idx → EReal) (ix2 j (⟨64, by decide⟩ : Fin 128)) = (1 : EReal) := by
  rw [st0_6, Cert.RefSpec.padded_sum_ge _ _ (by decide), Cert.RefSpec.probe_eq _ _ rfl, zero_add]

/-- A column left of 64 of the packed array is h0 times the second first-layer weight. -/
theorem gp_lt (c : Dev nD) (j : Fin 10000) (q : Fin 64) :
    (o0_6 m c : S10000x128.Idx → EReal) (ix2 j (⟨q.val, by omega⟩ : Fin 128))
      = (∑ k : Fin 128, Cert.RefSpec.h0 (m ((c.tc : Thread nD τ).loc main_arg0)) (m ((c.tc : Thread nD τ).loc main_arg2)) (m ((c.tc : Thread nD τ).loc main_arg3)) j k * (m ((c.tc : Thread nD τ).loc main_arg5)) (ix2 k q) : EReal) := by
  rw [st0_6, Cert.RefSpec.padded_sum_lt _ _ (show (⟨q.val, by omega⟩ : Fin 128).val < 64 from q.isLt),
    Cert.RefSpec.probe_ne _ _ (show (⟨q.val, by omega⟩ : Fin 128).val ≠ 64 from Nat.ne_of_lt q.isLt)]

/-- Region 1 passes the adjacency on unchanged. -/
theorem st1_9 (c : Dev nD) (p j : Fin 10000) :
    (o1_9 m c : S10000x10000.Idx → EReal) (ix2 p j) = (m ((c.tc : Thread nD τ).loc main_arg1)) (ix2 p j) := by
  unfold o1_9
  rw [val1_9_apply (V2 m) c p j]
  unfold fn1_9
  rw [find1_main_arg1]

/-- The closed form of the reciprocal row scale at what region 1 finds: one over the clamped degree.
    The row sum arrives through the probe column of the packed array. -/
theorem fn1_12_eq (c : Dev nD) (p : Fin 10000) (z : Fin 1) :
    fn1_12 (V2 m c main_arg1) (V2 m c main_v14_1) p z = Ideal.div 1 (Cert.RefSpec.deg (m ((c.tc : Thread nD τ).loc main_arg1)) p) := by
  unfold fn1_12
  rw [find1_main_arg1, find1_main_v14_1, one_eq]
  simp only [gp_64, mul_one]
  exact congrArg (Ideal.div 1) (Cert.RefSpec.deg'_eq (m ((c.tc : Thread nD τ).loc main_arg1)) p)

/-- Region 1's scale output is one over the clamped degree. -/
theorem st1_12 (c : Dev nD) (p : Fin 10000) (z : Fin 1) :
    (o1_12 m c : S10000x1.Idx → EReal) (ix2 p z) = Ideal.div 1 (Cert.RefSpec.deg (m ((c.tc : Thread nD τ).loc main_arg1)) p) := by
  unfold o1_12
  rw [val1_12_apply (V2 m) c p z]
  exact fn1_12_eq m c p z

/-- The closed form of the first hidden state at what region 1 finds is h1: the kernel multiplies by
    the second weight before aggregating and scales after; every entry is real, so the scaling moves. -/
theorem fn1_10_eq (hm : Cert.Pre_KernelIdeal (hPre_finite_inputs := Cert.Pre_finite_inputs.Gen.facts) m) (c : Dev nD) (p : Fin 10000) (q : Fin 64) :
    fn1_10 (V2 m c main_v14_0) (V2 m c main_arg4) (V2 m c main_arg1) (V2 m c main_v14_1) (V2 m c main_v11) p q
      = Cert.RefSpec.h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) p q := by
  unfold fn1_10
  rw [fn1_12_eq m c p 0]
  have e11 : (V2 m c main_v11 : S1x64.Idx → EReal) (ix2 (0 : Fin 1) q) = (m ((c.tc : Thread nD τ).loc main_arg6)) (ix1 q) := by
    rw [find1_main_v11]; exact hv11 (W0 m c) q
  rw [e11, find1_main_v14_0, find1_main_arg4, find1_main_arg1, find1_main_v14_1, Ideal.ofBits_zero_f32]
  simp only [st0_5, gp_lt]
  unfold Cert.RefSpec.h1 Cert.RefSpec.relu
  rw [Cert.RefSpec.sage1_scale_after (Cert.Finite.arg1_real m hm c) (Cert.RefSpec.isReal_h0 (Cert.Finite.arg0_real m hm c) (Cert.Finite.arg2_real m hm c) (Cert.Finite.arg3_real m hm c)) (Cert.Finite.arg5_real m hm c) p q]

/-- Region 1's first hidden-state output is h1. -/
theorem st1_10 (hm : Cert.Pre_KernelIdeal (hPre_finite_inputs := Cert.Pre_finite_inputs.Gen.facts) m) (c : Dev nD) (p : Fin 10000) (q : Fin 64) :
    (o1_10 m c : S10000x64.Idx → EReal) (ix2 p q) = Cert.RefSpec.h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) p q := by
  unfold o1_10
  rw [val1_10_apply (V2 m) c p q]
  exact fn1_10_eq m hm c p q

/-- Region 1's second hidden-state output is h1 too. -/
theorem st1_11 (hm : Cert.Pre_KernelIdeal (hPre_finite_inputs := Cert.Pre_finite_inputs.Gen.facts) m) (c : Dev nD) (p : Fin 10000) (q : Fin 64) :
    (o1_11 m c : S10000x64.Idx → EReal) (ix2 p q) = Cert.RefSpec.h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) p q := by
  unfold o1_11
  rw [val1_11_apply (V2 m) c p q]
  exact fn1_10_eq m hm c p q

/-! ### Region 2: the second hidden state and its product with the third-layer weight -/

/-- The closed form of the second hidden state at what region 2 finds is h2: the kernel scales the
    aggregate by the reciprocal degree before the right multiplication. -/
theorem fn2_12_eq (hm : Cert.Pre_KernelIdeal (hPre_finite_inputs := Cert.Pre_finite_inputs.Gen.facts) m) (c : Dev nD) (p : Fin 10000) (q : Fin 128) :
    fn2_12 (V3 m c main_v15_1) (V3 m c main_arg7) (V3 m c main_v15_0) (V3 m c main_v15_2) (V3 m c main_v15_3)
        (V3 m c main_arg8) (V3 m c main_v12) p q
      = Cert.RefSpec.h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) p q := by
  unfold fn2_12
  have e12 : (V3 m c main_v12 : S1x128.Idx → EReal) (ix2 (0 : Fin 1) q) = (m ((c.tc : Thread nD τ).loc main_arg9)) (ix1 q) := by
    rw [find2_main_v12]; exact hv12 (W0 m c) q
  rw [e12, find2_main_v15_1, find2_main_arg7, find2_main_v15_0, find2_main_v15_2, find2_main_v15_3, find2_main_arg8,
    Ideal.ofBits_zero_f32]
  simp only [st1_9, st1_10 m hm, st1_11 m hm, st1_12]
  unfold Cert.RefSpec.h2 Cert.RefSpec.relu
  rw [Cert.RefSpec.sage2_scale_before (Cert.Finite.arg1_real m hm c) (Cert.RefSpec.isReal_h1 (Cert.Finite.arg0_real m hm c) (Cert.Finite.arg1_real m hm c) (Cert.Finite.arg2_real m hm c) (Cert.Finite.arg3_real m hm c) (Cert.Finite.arg4_real m hm c) (Cert.Finite.arg5_real m hm c) (Cert.Finite.arg6_real m hm c)) p q]

/-- Region 2's first output is h2. -/
theorem st2_12 (hm : Cert.Pre_KernelIdeal (hPre_finite_inputs := Cert.Pre_finite_inputs.Gen.facts) m) (c : Dev nD) (p : Fin 10000) (q : Fin 128) :
    (o2_12 m c : S10000x128.Idx → EReal) (ix2 p q) = Cert.RefSpec.h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) p q := by
  unfold o2_12
  rw [val2_12_apply (V3 m) c p q]
  exact fn2_12_eq m hm c p q

/-- Region 2's second output is h2 times the second third-layer weight. -/
theorem st2_13 (hm : Cert.Pre_KernelIdeal (hPre_finite_inputs := Cert.Pre_finite_inputs.Gen.facts) m) (c : Dev nD) (p : Fin 10000) (q : Fin 40) :
    @Eq EReal ((o2_13 m c : S10000x40.Idx → EReal) (ix2 p q)) (∑ k : Fin 128, Cert.RefSpec.h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) p k * (m ((c.tc : Thread nD τ).loc main_arg11)) (ix2 k q)) := by
  unfold o2_13
  rw [val2_13_apply (V3 m) c p q]
  unfold fn2_13
  refine Finset.sum_congr rfl fun k _ => ?_
  have e9 : (V3 m c main_v9 : S128x40.Idx → EReal) (ix2 k q) = (m ((c.tc : Thread nD τ).loc main_arg11)) (ix2 k q) := by
    rw [find2_main_v9]; exact hv9 (W0 m c) k q
  rw [fn2_12_eq m hm c p k, e9]

/-! ### Region 3: the third layer -/

/-- Region 3's output is the third layer of h2, given what the earlier regions left: the adjacency,
    the reciprocal clamped degree, h2, and h2 times the second third-layer weight. The kernel scales
    after the right multiplication; every entry is real, so the scaling moves. -/
theorem st3_10_of (hm : Cert.Pre_KernelIdeal (hPre_finite_inputs := Cert.Pre_finite_inputs.Gen.facts) m) (c : Dev nD)
    (H9 : ∀ (p j : Fin 10000), (o1_9 m c : S10000x10000.Idx → EReal) (ix2 p j) = (m ((c.tc : Thread nD τ).loc main_arg1)) (ix2 p j))
    (H12 : ∀ (p : Fin 10000) (z : Fin 1), (o1_12 m c : S10000x1.Idx → EReal) (ix2 p z)
      = Ideal.div 1 (Cert.RefSpec.deg (m ((c.tc : Thread nD τ).loc main_arg1)) p))
    (H212 : ∀ (p : Fin 10000) (q : Fin 128), (o2_12 m c : S10000x128.Idx → EReal) (ix2 p q) = Cert.RefSpec.h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) p q)
    (H213 : ∀ (p : Fin 10000) (q : Fin 40), (o2_13 m c : S10000x40.Idx → EReal) (ix2 p q)
      = ∑ k : Fin 128, Cert.RefSpec.h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) p k * (m ((c.tc : Thread nD τ).loc main_arg11)) (ix2 k q))
    (p : Fin 10000) (q : Fin 40) :
    (o3_10 m c : S10000x40.Idx → EReal) (ix2 p q) = Cert.RefSpec.outAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) p q := by
  unfold o3_10
  rw [val3_10_apply (V4 m) c p q]
  unfold val3
  have e13 : (V4 m c main_v13 : S1x40.Idx → EReal) (ix2 (0 : Fin 1) q) = (m ((c.tc : Thread nD τ).loc main_arg12)) (ix1 q) := by
    rw [find3_main_v13]; exact hv13 (W0 m c) q
  rw [e13, find3_main_v16_0, find3_main_arg10, find3_main_v15_0, find3_main_v16_1, find3_main_v15_3]
  simp only [H9, H12, H212, H213]
  unfold Cert.RefSpec.outAt
  rw [Cert.RefSpec.sage3_scale_after (Cert.Finite.arg1_real m hm c)
    (Cert.RefSpec.isReal_h2 (Cert.Finite.arg0_real m hm c) (Cert.Finite.arg1_real m hm c) (Cert.Finite.arg2_real m hm c)
      (Cert.Finite.arg3_real m hm c) (Cert.Finite.arg4_real m hm c) (Cert.Finite.arg5_real m hm c)
      (Cert.Finite.arg6_real m hm c) (Cert.Finite.arg7_real m hm c) (Cert.Finite.arg8_real m hm c)
      (Cert.Finite.arg9_real m hm c))
    (Cert.Finite.arg11_real m hm c) p q]

/-! ### The result -/

/-- Region 3's output at row p, column q is the specification's result there. -/
theorem st3_10 (hm : Cert.Pre_KernelIdeal (hPre_finite_inputs := Cert.Pre_finite_inputs.Gen.facts) m) (c : Dev nD) (p : Fin 10000) (q : Fin 40) :
    (o3_10 m c : S10000x40.Idx → EReal) (ix2 p q) = Cert.RefSpec.outAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) p q :=
  st3_10_of m hm c (st1_9 m c) (st1_12 m c) (st2_12 m hm c) (st2_13 m hm c) p q

/-- The kernel program's result array is the specification of the thirteen argument arrays. -/
theorem kernel_value (hm : Cert.Pre_KernelIdeal (hPre_finite_inputs := Cert.Pre_finite_inputs.Gen.facts) m) (c : Dev nD) :
    o3_10 m c = Cert.RefSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  funext i
  obtain ⟨p, q, rfl⟩ : ∃ (p : Fin 10000) (q : Fin 40), i = ix2 p q := ⟨i 0, i 1, eq_ix2 i⟩
  exact st3_10 m hm c p q

end Cert.KernelIdeal.Hand
-- ==== Proof.Algebraic.lean ====
/-
  The two idealized programs, run from memories that agree on the thirteen arguments, end with the same result, element by
  element over the extended reals. The kernel's result array ends at what its third pass's write-backs leave; for finite
  inputs that array is the reference's function of the arguments (the value of the kernel, layer by layer). The reference's
  result is the same function of its own arguments, and the arguments agree.
-/
import proofs.«181542_g78589311582291_cont_9to1_m_296_16_alg».proof.Defs
import proofs.«181542_g78589311582291_cont_9to1_m_296_16_alg».proof.Proof.Gen.KernelIdeal
import proofs.«181542_g78589311582291_cont_9to1_m_296_16_alg».proof.Proof.Gen.ReferenceIdeal
import proofs.«181542_g78589311582291_cont_9to1_m_296_16_alg».proof.Proof.Gen.Pre_finite_inputs
import proofs.«181542_g78589311582291_cont_9to1_m_296_16_alg».proof.Proof.Gen.ReferenceIdeal.Run
import proofs.«181542_g78589311582291_cont_9to1_m_296_16_alg».proof.Proof.RefValue
import proofs.«181542_g78589311582291_cont_9to1_m_296_16_alg».proof.Proof.KI.Frame
import proofs.«181542_g78589311582291_cont_9to1_m_296_16_alg».proof.Proof.KI.Value

noncomputable section

namespace Cert.Proof.Algebraic

open Idealize.ShloMosaic Idealize.ShloMosaic.TcCoe Idealize.SL.Sem

/-- Both runs end, the results equal: the common value is the kernel's own result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.o3_10 m c, Cert.KernelIdeal.Hand.run_result (F := Ideal) m ρ, ?_⟩
  refine (θ_run Cert.ReferenceIdeal.defs _ _).mono (fun r h c => ⟨(h c).1.trans ?_, (h c).2⟩)
    (Cert.ReferenceIdeal.Value.run (F := Ideal) m' ρ')
  refine (Cert.RefValue.res_eq m' c).trans ?_
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  exact (Cert.KernelIdeal.Hand.kernel_value m hpre c).symm

end Cert.Proof.Algebraic

end
-- ==== Proof.lean ====
/-
  The certificate of a three-layer GraphSAGE with mean aggregation over a dense adjacency matrix, computed by four kernel
  regions (a pre-pass and three passes over the matrix), against the plain reference.

  The frames. Each program runs to the end, nothing faulting, with its thirteen arguments unchanged. The reference is a
  straight line of host operations. The kernel's program is a stretch of host operations followed by the four regions;
  each region reads its inputs through windows and writes its outputs block by block, and three of the regions read one
  array — the adjacency matrix, or its half-width copy — through five windows at once, holding it at five shares that are
  split off when the region is entered and joined when it is left. The same proof serves the word-level program and its
  reading over the extended reals: the two are one text.

  The idealization rewrote nothing, so there is nothing to preserve.

  The values. Over the extended reals, for finite inputs, both programs compute, layer by layer,
  h·Wl + ((A·h)/deg)·Wr + b with deg the row sums of A clamped below; the kernel multiplies by Wr before aggregating,
  scales by 1/deg after, and takes the row sums as one more column of the first aggregation. The two arrangements agree by
  associativity of the matrix product and because scaling rows commutes with multiplying on the right; both laws need every
  entry to be a real number, which the precondition gives.
-/
import proofs.«181542_g78589311582291_cont_9to1_m_296_16_alg».proof.Defs
import proofs.«181542_g78589311582291_cont_9to1_m_296_16_alg».proof.Proof.Gen.Kernel
import proofs.«181542_g78589311582291_cont_9to1_m_296_16_alg».proof.Proof.Gen.KernelIdeal
import proofs.«181542_g78589311582291_cont_9to1_m_296_16_alg».proof.Proof.Gen.ReferenceIdeal
import proofs.«181542_g78589311582291_cont_9to1_m_296_16_alg».proof.Proof.Gen.Pre_finite_inputs
import proofs.«181542_g78589311582291_cont_9to1_m_296_16_alg».proof.Proof.RefFrame
import proofs.«181542_g78589311582291_cont_9to1_m_296_16_alg».proof.Proof.K.Frame
import proofs.«181542_g78589311582291_cont_9to1_m_296_16_alg».proof.Proof.KI.Frame
import proofs.«181542_g78589311582291_cont_9to1_m_296_16_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  Cert.Proof.RefFrame.frame_ri,
  trivial,
  Cert.Proof.Algebraic.algebraic⟩

end Cert.Proof

end
